-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S32x512 : Shape := ⟨2, ![32, 512]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S32x512 : S_.BroadcastsInDim S32x512 (![] : Fin 0 → Fin S32x512.rank)
  reducesTo_S32x512_S_d0_1 : S32x512.ReducesTo [0, 1] S_

variable [Facts]

def fn_part1 {F : FTy → Type} [FloatOps F] (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  main_v18

def fn {F : FTy → Type} [FloatOps F] (main_arg0 : FVec F S2000000x3 .f32) (main_arg1 : FVec F S32x512 .f32) (main_arg2 : FVec F S32x512 .f32) (main_arg3 : FVec F S32x512 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32x512 .f32 := Host.absf main_arg2
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  let main_v14 : FVec F S32x512 .f32 := Host.absf main_arg3
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_v13 main_v16
-- ==== Kernel.lean ====
abbrev S2000000x3 : Shape := ⟨2, ![2000000, 3]⟩
abbrev S32x512 : Shape := ⟨2, ![32, 512]⟩
abbrev S512x32 : Shape := ⟨2, ![512, 32]⟩
abbrev S2000000x32 : Shape := ⟨2, ![2000000, 32]⟩
abbrev S4000x3 : Shape := ⟨2, ![4000, 3]⟩
abbrev S4000x32 : Shape := ⟨2, ![4000, 32]⟩
abbrev S4000x512 : Shape := ⟨2, ![4000, 512]⟩
abbrev S4000x1 : Shape := ⟨2, ![4000, 1]⟩

abbrev nBuf : Space → Nat
  | .hbm => 8
  | .vmem => 7
  | .smem => 0
  | _ => 0

abbrev bufTy : (tb : Table) → Fin (tcTables nBuf tb) → BufTy
  | .hbm, ⟨0, _⟩ => ⟨S2000000x3, .f32⟩
  | .hbm, ⟨1, _⟩ => ⟨S32x512, .f32⟩
  | .hbm, ⟨2, _⟩ => ⟨S32x512, .f32⟩
  | .hbm, ⟨3, _⟩ => ⟨S32x512, .f32⟩
  | .hbm, ⟨4, _⟩ => ⟨S512x32, .f32⟩
  | .hbm, ⟨5, _⟩ => ⟨S512x32, .f32⟩
  | .hbm, ⟨6, _⟩ => ⟨S512x32, .f32⟩
  | .hbm, ⟨7, _⟩ => ⟨S2000000x32, .f32⟩
  | .local _ .vmem, ⟨0, _⟩ => ⟨S4000x3, .f32⟩
  | .local _ .vmem, ⟨1, _⟩ => ⟨S4000x3, .f32⟩
  | .local _ .vmem, ⟨2, _⟩ => ⟨S512x32, .f32⟩
  | .local _ .vmem, ⟨3, _⟩ => ⟨S512x32, .f32⟩
  | .local _ .vmem, ⟨4, _⟩ => ⟨S512x32, .f32⟩
  | .local _ .vmem, ⟨5, _⟩ => ⟨S4000x32, .f32⟩
  | .local _ .vmem, ⟨6, _⟩ => ⟨S4000x32, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S32x512_S512x32_1_0 : S32x512.Transposes [1, 0] S512x32
  inb_S4000x3_S4000x3_0_0 : ∀ a, (![0, 0] : Fin 2 → Nat) a + S4000x3.size a ≤ S4000x3.size a
  h_S4000x3 : 0 < S4000x3.numel
  iota_S4000x512_d1_w32 : S4000x512.Iotas .tc 32 [1]
  slices_S4000x3_o0_0_S4000x1 : S4000x3.Slices ![0, 0] S4000x1
  broadcasts_S4000x1_S4000x512 : S4000x1.Broadcasts S4000x512
  shapeCasts_S4000x1_S4000x1 : S4000x1.ShapeCasts S4000x1
  inb_S512x32_S512x32_0_0 : ∀ a, (![0, 0] : Fin 2 → Nat) a + S512x32.size a ≤ S512x32.size a
  h_S512x32 : 0 < S512x32.numel
  shapeCasts_S512x32_S512x32 : S512x32.ShapeCasts S512x32
  slices_S4000x3_o0_1_S4000x1 : S4000x3.Slices ![0, 1] S4000x1
  slices_S4000x3_o0_2_S4000x1 : S4000x3.Slices ![0, 2] S4000x1
  inb_S4000x32_S4000x32_0_0 : ∀ a, (![0, 0] : Fin 2 → Nat) a + S4000x32.size a ≤ S4000x32.size a
  h_S4000x32 : 0 < S4000x32.numel
  dot_S4000x512_S512x32_S4000x32_1_0_0_1_n_n_wf : DotDims.WF S4000x512 S512x32 S4000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S2000000x3.size a
  hwx0_0 : ∀ i : grid0.Coords, EltTy.bits .f32 = 32 ∨ (Rect.block (s := S2000000x3) S4000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .f32 = 32 ∨ (Rect.block (s := S512x32) S512x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S512x32.size a
  hwx0_3 : ∀ i : grid0.Coords, EltTy.bits .f32 = 32 ∨ (Rect.block (s := S512x32) S512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x32.size a ≤ S2000000x32.size a
  hwx0_4 : ∀ i : grid0.Coords, EltTy.bits .f32 = 32 ∨ (Rect.block (s := S2000000x32) S4000x32.size (cc0_transform_4 i) (hinb0_4 i)).WholeWords (EltTy.packing .f32)

variable [Facts₀]

def dot_S4000x512_S512x32_S4000x32_1_0_0_1_n_n : DotDims S4000x512 S512x32 S4000x32 where
  lhsContracting := [1]
  rhsContracting := [0]
  lhsNonContracting := [0]
  rhsNonContracting := [1]
  lhsBatch := []
  rhsBatch := []
  wf := dot_S4000x512_S512x32_S4000x32_1_0_0_1_n_n_wf

abbrev win0_0 : Pipeline.Window sig grid0 :=
  Pipeline.Window.ofSpec (Memref.whole main_arg0) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S32x512 : Shape := ⟨2, ![32, 512]⟩
abbrev S2000000x1 : Shape := ⟨2, ![2000000, 1]⟩
abbrev S2000000 : Shape := ⟨1, ![2000000]⟩
abbrev S_ : Shape := ⟨0, ![]⟩
abbrev S1 : Shape := ⟨1, ![1]⟩
abbrev S1x1 : Shape := ⟨2, ![1, 1]⟩
abbrev S32x2000000 : Shape := ⟨2, ![32, 2000000]⟩
abbrev S1x2000000 : Shape := ⟨2, ![1, 2000000]⟩
abbrev S2000000x32 : Shape := ⟨2, ![2000000, 32]⟩

abbrev nBuf : Space → Nat
  | .hbm => 352
  | .vmem => 0
  | .smem => 0
  | _ => 0

abbrev hbmTy0_0 (i : Nat) : BufTy := match i % 128 with
  | 0 => ⟨S2000000x3, .f32⟩
  | 1 => ⟨S32x512, .f32⟩
  | 2 => ⟨S32x512, .f32⟩
  | 3 => ⟨S32x512, .f32⟩
  | 4 => ⟨S2000000x1, .f32⟩
  | 5 => ⟨S2000000, .f32⟩
  | 6 => ⟨S_, .f32⟩
  | 7 => ⟨S2000000, .f32⟩
  | 8 => ⟨S2000000, .f32⟩
  | 9 => ⟨S_, .f32⟩
  | 10 => ⟨S2000000, .f32⟩
  | 11 => ⟨S2000000, .f32⟩
  | 12 => ⟨S_, .f32⟩
  | 13 => ⟨S2000000, .f32⟩
  | 14 => ⟨S2000000, .f32⟩
  | 15 => ⟨S2000000, .f32⟩
  | 16 => ⟨S2000000, .f32⟩
  | 17 => ⟨S2000000, .i32⟩
  | 18 => ⟨S_, .i32⟩
  | 19 => ⟨S2000000, .i32⟩
  | 20 => ⟨S2000000, .i32⟩
  | 21 => ⟨S_, .i32⟩
  | 22 => ⟨S2000000, .i32⟩
  | 23 => ⟨S2000000, .i1⟩
  | 24 => ⟨S_, .i32⟩
  | 25 => ⟨S2000000, .i32⟩
  | 26 => ⟨S2000000, .i1⟩
  | 27 => ⟨S2000000, .i1⟩
  | 28 => ⟨S_, .i32⟩
  | 29 => ⟨S_, .i32⟩
  | 30 => ⟨S_, .i32⟩
  | 31 => ⟨S2000000, .i32⟩
  | 32 => ⟨S2000000, .i32⟩
  | 33 => ⟨S_, .i32⟩
  | 34 => ⟨S2000000, .i32⟩
  | 35 => ⟨S2000000, .i32⟩
  | 36 => ⟨S_, .i32⟩
  | 37 => ⟨S2000000, .i32⟩
  | 38 => ⟨S2000000, .i1⟩
  | 39 => ⟨S_, .i32⟩
  | 40 => ⟨S2000000, .i32⟩
  | 41 => ⟨S2000000, .i32⟩
  | 42 => ⟨S2000000, .i32⟩
  | 43 => ⟨S2000000x1, .i32⟩
  | 44 => ⟨S1, .i32⟩
  | 45 => ⟨S_, .i32⟩
  | 46 => ⟨S2000000x1, .i32⟩
  | 47 => ⟨S2000000x1, .i1⟩
  | 48 => ⟨S1x1, .i32⟩
  | 49 => ⟨S2000000x1, .i32⟩
  | 50 => ⟨S2000000x1, .i1⟩
  | 51 => ⟨S2000000x1, .i1⟩
  | 52 => ⟨S_, .i1⟩
  | 53 => ⟨S2000000, .i1⟩
  | 54 => ⟨S32x2000000, .f32⟩
  | 55 => ⟨S32x2000000, .i1⟩
  | 56 => ⟨S_, .f32⟩
  | 57 => ⟨S32x2000000, .f32⟩
  | 58 => ⟨S32x2000000, .f32⟩
  | 59 => ⟨S1x2000000, .i1⟩
  | 60 => ⟨S_, .f32⟩
  | 61 => ⟨S_, .f32⟩
  | 62 => ⟨S32x2000000, .i1⟩
  | 63 => ⟨S32x2000000, .f32⟩
  | 64 => ⟨S32x2000000, .f32⟩
  | 65 => ⟨S_, .f32⟩
  | 66 => ⟨S2000000, .f32⟩
  | 67 => ⟨S2000000, .f32⟩
  | 68 => ⟨S1x2000000, .f32⟩
  | 69 => ⟨S32x2000000, .f32⟩
  | 70 => ⟨S32x2000000, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i1⟩
  | 77 => ⟨S2000000, .i1⟩
  | 78 => ⟨S_, .i32⟩
  | 79 => ⟨S_, .i32⟩
  | 80 => ⟨S_, .i32⟩
  | 81 => ⟨S2000000, .i32⟩
  | 82 => ⟨S2000000, .i32⟩
  | 83 => ⟨S_, .i32⟩
  | 84 => ⟨S2000000, .i32⟩
  | 85 => ⟨S2000000, .i32⟩
  | 86 => ⟨S_, .i32⟩
  | 87 => ⟨S2000000, .i32⟩
  | 88 => ⟨S2000000, .i1⟩
  | 89 => ⟨S_, .i32⟩
  | 90 => ⟨S2000000, .i32⟩
  | 91 => ⟨S2000000, .i32⟩
  | 92 => ⟨S2000000, .i32⟩
  | 93 => ⟨S2000000x1, .i32⟩
  | 94 => ⟨S1, .i32⟩
  | 95 => ⟨S_, .i32⟩
  | 96 => ⟨S2000000x1, .i32⟩
  | 97 => ⟨S2000000x1, .i1⟩
  | 98 => ⟨S1x1, .i32⟩
  | 99 => ⟨S2000000x1, .i32⟩
  | 100 => ⟨S2000000x1, .i1⟩
  | 101 => ⟨S2000000x1, .i1⟩
  | 102 => ⟨S_, .i1⟩
  | 103 => ⟨S2000000, .i1⟩
  | 104 => ⟨S32x2000000, .f32⟩
  | 105 => ⟨S32x2000000, .i1⟩
  | 106 => ⟨S_, .f32⟩
  | 107 => ⟨S32x2000000, .f32⟩
  | 108 => ⟨S32x2000000, .f32⟩
  | 109 => ⟨S1x2000000, .i1⟩
  | 110 => ⟨S_, .f32⟩
  | 111 => ⟨S_, .f32⟩
  | 112 => ⟨S32x2000000, .i1⟩
  | 113 => ⟨S32x2000000, .f32⟩
  | 114 => ⟨S32x2000000, .f32⟩
  | 115 => ⟨S1x2000000, .f32⟩
  | 116 => ⟨S32x2000000, .f32⟩
  | 117 => ⟨S32x2000000, .f32⟩
  | 118 => ⟨S32x2000000, .f32⟩
  | 119 => ⟨S2000000x1, .f32⟩
  | 120 => ⟨S2000000, .f32⟩
  | 121 => ⟨S_, .f32⟩
  | 122 => ⟨S2000000, .f32⟩
  | 123 => ⟨S2000000, .f32⟩
  | 124 => ⟨S_, .f32⟩
  | 125 => ⟨S2000000, .f32⟩
  | 126 => ⟨S2000000, .f32⟩
  | 127 => ⟨S_, .f32⟩
  | _ => ⟨S2000000x3, .f32⟩

abbrev hbmTy0_1 (i : Nat) : BufTy := match i % 128 with
  | 0 => ⟨S2000000, .f32⟩
  | 1 => ⟨S2000000, .f32⟩
  | 2 => ⟨S2000000, .f32⟩
  | 3 => ⟨S2000000, .f32⟩
  | 4 => ⟨S2000000, .i32⟩
  | 5 => ⟨S_, .i32⟩
  | 6 => ⟨S2000000, .i32⟩
  | 7 => ⟨S2000000, .i32⟩
  | 8 => ⟨S_, .i32⟩
  | 9 => ⟨S2000000, .i32⟩
  | 10 => ⟨S2000000, .i1⟩
  | 11 => ⟨S_, .i32⟩
  | 12 => ⟨S2000000, .i32⟩
  | 13 => ⟨S2000000, .i1⟩
  | 14 => ⟨S2000000, .i1⟩
  | 15 => ⟨S_, .i32⟩
  | 16 => ⟨S_, .i32⟩
  | 17 => ⟨S_, .i32⟩
  | 18 => ⟨S2000000, .i32⟩
  | 19 => ⟨S2000000, .i32⟩
  | 20 => ⟨S_, .i32⟩
  | 21 => ⟨S2000000, .i32⟩
  | 22 => ⟨S2000000, .i32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S1, .i32⟩
  | 32 => ⟨S_, .i32⟩
  | 33 => ⟨S2000000x1, .i32⟩
  | 34 => ⟨S2000000x1, .i1⟩
  | 35 => ⟨S1x1, .i32⟩
  | 36 => ⟨S2000000x1, .i32⟩
  | 37 => ⟨S2000000x1, .i1⟩
  | 38 => ⟨S2000000x1, .i1⟩
  | 39 => ⟨S_, .i1⟩
  | 40 => ⟨S2000000, .i1⟩
  | 41 => ⟨S32x2000000, .f32⟩
  | 42 => ⟨S32x2000000, .i1⟩
  | 43 => ⟨S_, .f32⟩
  | 44 => ⟨S32x2000000, .f32⟩
  | 45 => ⟨S32x2000000, .f32⟩
  | 46 => ⟨S1x2000000, .i1⟩
  | 47 => ⟨S_, .f32⟩
  | 48 => ⟨S_, .f32⟩
  | 49 => ⟨S32x2000000, .i1⟩
  | 50 => ⟨S32x2000000, .f32⟩
  | 51 => ⟨S32x2000000, .f32⟩
  | 52 => ⟨S_, .f32⟩
  | 53 => ⟨S2000000, .f32⟩
  | 54 => ⟨S2000000, .f32⟩
  | 55 => ⟨S1x2000000, .f32⟩
  | 56 => ⟨S32x2000000, .f32⟩
  | 57 => ⟨S32x2000000, .f32⟩
  | 58 => ⟨S_, .i32⟩
  | 59 => ⟨S2000000, .i32⟩
  | 60 => ⟨S2000000, .i1⟩
  | 61 => ⟨S_, .i32⟩
  | 62 => ⟨S2000000, .i32⟩
  | 63 => ⟨S2000000, .i1⟩
  | 64 => ⟨S2000000, .i1⟩
  | 65 => ⟨S_, .i32⟩
  | 66 => ⟨S_, .i32⟩
  | 67 => ⟨S_, .i32⟩
  | 68 => ⟨S2000000, .i32⟩
  | 69 => ⟨S2000000, .i32⟩
  | 70 => ⟨S_, .i32⟩
  | 71 => ⟨S2000000, .i32⟩
  | 72 => ⟨S2000000, .i32⟩
  | 73 => ⟨S_, .i32⟩
  | 74 => ⟨S2000000, .i32⟩
  | 75 => ⟨S2000000, .i1⟩
  | 76 => ⟨S_, .i32⟩
  | 77 => ⟨S2000000, .i32⟩
  | 78 => ⟨S2000000, .i32⟩
  | 79 => ⟨S2000000, .i32⟩
  | 80 => ⟨S2000000x1, .i32⟩
  | 81 => ⟨S1, .i32⟩
  | 82 => ⟨S_, .i32⟩
  | 83 => ⟨S2000000x1, .i32⟩
  | 84 => ⟨S2000000x1, .i1⟩
  | 85 => ⟨S1x1, .i32⟩
  | 86 => ⟨S2000000x1, .i32⟩
  | 87 => ⟨S2000000x1, .i1⟩
  | 88 => ⟨S2000000x1, .i1⟩
  | 89 => ⟨S_, .i1⟩
  | 90 => ⟨S2000000, .i1⟩
  | 91 => ⟨S32x2000000, .f32⟩
  | 92 => ⟨S32x2000000, .i1⟩
  | 93 => ⟨S_, .f32⟩
  | 94 => ⟨S32x2000000, .f32⟩
  | 95 => ⟨S32x2000000, .f32⟩
  | 96 => ⟨S1x2000000, .i1⟩
  | 97 => ⟨S_, .f32⟩
  | 98 => ⟨S_, .f32⟩
  | 99 => ⟨S32x2000000, .i1⟩
  | 100 => ⟨S32x2000000, .f32⟩
  | 101 => ⟨S32x2000000, .f32⟩
  | 102 => ⟨S1x2000000, .f32⟩
  | 103 => ⟨S32x2000000, .f32⟩
  | 104 => ⟨S32x2000000, .f32⟩
  | 105 => ⟨S32x2000000, .f32⟩
  | 106 => ⟨S2000000x1, .f32⟩
  | 107 => ⟨S2000000, .f32⟩
  | 108 => ⟨S_, .f32⟩
  | 109 => ⟨S2000000, .f32⟩
  | 110 => ⟨S2000000, .f32⟩
  | 111 => ⟨S_, .f32⟩
  | 112 => ⟨S2000000, .f32⟩
  | 113 => ⟨S2000000, .f32⟩
  | 114 => ⟨S_, .f32⟩
  | 115 => ⟨S2000000, .f32⟩
  | 116 => ⟨S2000000, .f32⟩
  | 117 => ⟨S2000000, .f32⟩
  | 118 => ⟨S2000000, .f32⟩
  | 119 => ⟨S2000000, .i32⟩
  | 120 => ⟨S_, .i32⟩
  | 121 => ⟨S2000000, .i32⟩
  | 122 => ⟨S2000000, .i32⟩
  | 123 => ⟨S_, .i32⟩
  | 124 => ⟨S2000000, .i32⟩
  | 125 => ⟨S2000000, .i1⟩
  | 126 => ⟨S_, .i32⟩
  | 127 => ⟨S2000000, .i32⟩
  | _ => ⟨S2000000x3, .f32⟩

abbrev hbmTy0_2 (i : Nat) : BufTy := match i % 128 with
  | 0 => ⟨S2000000, .i1⟩
  | 1 => ⟨S2000000, .i1⟩
  | 2 => ⟨S_, .i32⟩
  | 3 => ⟨S_, .i32⟩
  | 4 => ⟨S_, .i32⟩
  | 5 => ⟨S2000000, .i32⟩
  | 6 => ⟨S2000000, .i32⟩
  | 7 => ⟨S_, .i32⟩
  | 8 => ⟨S2000000, .i32⟩
  | 9 => ⟨S2000000, .i32⟩
  | 10 => ⟨S_, .i32⟩
  | 11 => ⟨S2000000, .i32⟩
  | 12 => ⟨S2000000, .i1⟩
  | 13 => ⟨S_, .i32⟩
  | 14 => ⟨S2000000, .i32⟩
  | 15 => ⟨S2000000, .i32⟩
  | 16 => ⟨S2000000, .i32⟩
  | 17 => ⟨S2000000x1, .i32⟩
  | 18 => ⟨S1, .i32⟩
  | 19 => ⟨S_, .i32⟩
  | 20 => ⟨S2000000x1, .i32⟩
  | 21 => ⟨S2000000x1, .i1⟩
  | 22 => ⟨S1x1, .i32⟩
  | 23 => ⟨S2000000x1, .i32⟩
  | 24 => ⟨S2000000x1, .i1⟩
  | 25 => ⟨S2000000x1, .i1⟩
  | 26 => ⟨S_, .i1⟩
  | 27 => ⟨S2000000, .i1⟩
  | 28 => ⟨S32x2000000, .f32⟩
  | 29 => ⟨S32x2000000, .i1⟩
  | 30 => ⟨S_, .f32⟩
  | 31 => ⟨S32x2000000, .f32⟩
  | 32 => ⟨S32x2000000, .f32⟩
  | 33 => ⟨S1x2000000, .i1⟩
  | 34 => ⟨S_, .f32⟩
  | 35 => ⟨S_, .f32⟩
  | 36 => ⟨S32x2000000, .i1⟩
  | 37 => ⟨S32x2000000, .f32⟩
  | 38 => ⟨S32x2000000, .f32⟩
  | 39 => ⟨S_, .f32⟩
  | 40 => ⟨S2000000, .f32⟩
  | 41 => ⟨S2000000, .f32⟩
  | 42 => ⟨S1x2000000, .f32⟩
  | 43 => ⟨S32x2000000, .f32⟩
  | 44 => ⟨S32x2000000, .f32⟩
  | 45 => ⟨S_, .i32⟩
  | 46 => ⟨S2000000, .i32⟩
  | 47 => ⟨S2000000, .i1⟩
  | 48 => ⟨S_, .i32⟩
  | 49 => ⟨S2000000, .i32⟩
  | 50 => ⟨S2000000, .i1⟩
  | 51 => ⟨S2000000, .i1⟩
  | 52 => ⟨S_, .i32⟩
  | 53 => ⟨S_, .i32⟩
  | 54 => ⟨S_, .i32⟩
  | 55 => ⟨S2000000, .i32⟩
  | 56 => ⟨S2000000, .i32⟩
  | 57 => ⟨S_, .i32⟩
  | 58 => ⟨S2000000, .i32⟩
  | 59 => ⟨S2000000, .i32⟩
  | 60 => ⟨S_, .i32⟩
  | 61 => ⟨S2000000, .i32⟩
  | 62 => ⟨S2000000, .i1⟩
  | 63 => ⟨S_, .i32⟩
  | 64 => ⟨S2000000, .i32⟩
  | 65 => ⟨S2000000, .i32⟩
  | 66 => ⟨S2000000, .i32⟩
  | 67 => ⟨S2000000x1, .i32⟩
  | 68 => ⟨S1, .i32⟩
  | 69 => ⟨S_, .i32⟩
  | 70 => ⟨S2000000x1, .i32⟩
  | 71 => ⟨S2000000x1, .i1⟩
  | 72 => ⟨S1x1, .i32⟩
  | 73 => ⟨S2000000x1, .i32⟩
  | 74 => ⟨S2000000x1, .i1⟩
  | 75 => ⟨S2000000x1, .i1⟩
  | 76 => ⟨S_, .i1⟩
  | 77 => ⟨S2000000, .i1⟩
  | 78 => ⟨S32x2000000, .f32⟩
  | 79 => ⟨S32x2000000, .i1⟩
  | 80 => ⟨S_, .f32⟩
  | 81 => ⟨S32x2000000, .f32⟩
  | 82 => ⟨S32x2000000, .f32⟩
  | 83 => ⟨S1x2000000, .i1⟩
  | 84 => ⟨S_, .f32⟩
  | 85 => ⟨S_, .f32⟩
  | 86 => ⟨S32x2000000, .i1⟩
  | 87 => ⟨S32x2000000, .f32⟩
  | 88 => ⟨S32x2000000, .f32⟩
  | 89 => ⟨S1x2000000, .f32⟩
  | 90 => ⟨S32x2000000, .f32⟩
  | 91 => ⟨S32x2000000, .f32⟩
  | 92 => ⟨S32x2000000, .f32⟩
  | 93 => ⟨S32x2000000, .f32⟩
  | 94 => ⟨S32x2000000, .f32⟩
  | 95 => ⟨S2000000x32, .f32⟩
  | _ => ⟨S2000000x3, .f32⟩

abbrev hbmTy (i : Nat) : BufTy := match i / 128 with
  | 0 => hbmTy0_0 i
  | 1 => hbmTy0_1 i
  | 2 => hbmTy0_2 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_c_5 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v18 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v19 : Ref sig .tc := ⟨.hbm, 58, rfl⟩
abbrev main_v20 : Ref sig .tc := ⟨.hbm, 59, rfl⟩
abbrev main_cst_6 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v21 : Ref sig .tc := ⟨.hbm, 64, rfl⟩
abbrev main_cst_7 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_c_8 : Ref sig .tc := ⟨.hbm, 71, rfl⟩
abbrev main_v27 : Ref sig .tc := ⟨.hbm, 72, rfl⟩
abbrev main_v28 : Ref sig .tc := ⟨.hbm, 73, rfl⟩
abbrev main_c_9 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_c_10 : Ref sig .tc := ⟨.hbm, 78, rfl⟩
abbrev main_c_11 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v32 : Ref sig .tc := ⟨.hbm, 85, rfl⟩
abbrev main_call4_c : Ref sig .tc := ⟨.hbm, 86, rfl⟩
abbrev main_call4_v0 : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_c_1 : Ref sig .tc := ⟨.hbm, 94, rfl⟩
abbrev main_call4_c_2 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_3 : Ref sig .tc := ⟨.hbm, 102, rfl⟩
abbrev main_call4_v12 : Ref sig .tc := ⟨.hbm, 103, rfl⟩
abbrev main_call4_v13 : Ref sig .tc := ⟨.hbm, 104, rfl⟩
abbrev main_call4_v14 : Ref sig .tc := ⟨.hbm, 105, rfl⟩
abbrev main_call4_cst : Ref sig .tc := ⟨.hbm, 106, rfl⟩
abbrev main_call4_v15 : Ref sig .tc := ⟨.hbm, 107, rfl⟩
abbrev main_v33 : Ref sig .tc := ⟨.hbm, 108, rfl⟩
abbrev main_v34 : Ref sig .tc := ⟨.hbm, 109, rfl⟩
abbrev main_cst_12 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_cst_13 : Ref sig .tc := ⟨.hbm, 121, rfl⟩
abbrev main_v42 : Ref sig .tc := ⟨.hbm, 122, rfl⟩
abbrev main_v43 : Ref sig .tc := ⟨.hbm, 123, rfl⟩
abbrev main_cst_14 : Ref sig .tc := ⟨.hbm, 124, rfl⟩
abbrev main_v44 : Ref sig .tc := ⟨.hbm, 125, rfl⟩
abbrev main_v45 : Ref sig .tc := ⟨.hbm, 126, rfl⟩
abbrev main_cst_15 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_c_16 : Ref sig .tc := ⟨.hbm, 133, rfl⟩
abbrev main_v51 : Ref sig .tc := ⟨.hbm, 134, rfl⟩
abbrev main_v52 : Ref sig .tc := ⟨.hbm, 135, rfl⟩
abbrev main_c_17 : Ref sig .tc := ⟨.hbm, 136, rfl⟩
abbrev main_v53 : Ref sig .tc := ⟨.hbm, 137, rfl⟩
abbrev main_v54 : Ref sig .tc := ⟨.hbm, 138, rfl⟩
abbrev main_c_18 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_c_19 : Ref sig .tc := ⟨.hbm, 143, rfl⟩
abbrev main_c_20 : Ref sig .tc := ⟨.hbm, 144, rfl⟩
abbrev main_call6_v0 : Ref sig .tc := ⟨.hbm, 145, rfl⟩
abbrev main_call6_v1 : Ref sig .tc := ⟨.hbm, 146, rfl⟩
abbrev main_call6_v2 : Ref sig .tc := ⟨.hbm, 147, rfl⟩
abbrev main_call6_v3 : Ref sig .tc := ⟨.hbm, 148, rfl⟩
abbrev main_call6_v4 : Ref sig .tc := ⟨.hbm, 149, rfl⟩
abbrev main_v58 : Ref sig .tc := ⟨.hbm, 150, rfl⟩
abbrev main_call7_c : Ref sig .tc := ⟨.hbm, 151, rfl⟩
abbrev main_call7_v0 : Ref sig .tc := ⟨.hbm, 152, rfl⟩
abbrev main_call7_v1 : Ref sig .tc := ⟨.hbm, 153, rfl⟩
abbrev main_call7_c_0 : Ref sig .tc := ⟨.hbm, 154, rfl⟩
abbrev main_call7_v2 : Ref sig .tc := ⟨.hbm, 155, rfl⟩
abbrev main_call7_v3 : Ref sig .tc := ⟨.hbm, 156, rfl⟩
abbrev main_call7_v4 : Ref sig .tc := ⟨.hbm, 157, rfl⟩
abbrev main_call7_v5 : Ref sig .tc := ⟨.hbm, 158, rfl⟩
abbrev main_call7_c_1 : Ref sig .tc := ⟨.hbm, 159, rfl⟩
abbrev main_call7_c_2 : Ref sig .tc := ⟨.hbm, 160, rfl⟩
abbrev main_call7_v6 : Ref sig .tc := ⟨.hbm, 161, rfl⟩
abbrev main_call7_v7 : Ref sig .tc := ⟨.hbm, 162, rfl⟩
abbrev main_call7_v8 : Ref sig .tc := ⟨.hbm, 163, rfl⟩
abbrev main_call7_v9 : Ref sig .tc := ⟨.hbm, 164, rfl⟩
abbrev main_call7_v10 : Ref sig .tc := ⟨.hbm, 165, rfl⟩
abbrev main_call7_v11 : Ref sig .tc := ⟨.hbm, 166, rfl⟩
abbrev main_call7_c_3 : Ref sig .tc := ⟨.hbm, 167, rfl⟩
abbrev main_call7_v12 : Ref sig .tc := ⟨.hbm, 168, rfl⟩
abbrev main_call7_v13 : Ref sig .tc := ⟨.hbm, 169, rfl⟩
abbrev main_call7_v14 : Ref sig .tc := ⟨.hbm, 170, rfl⟩
abbrev main_call7_cst : Ref sig .tc := ⟨.hbm, 171, rfl⟩
abbrev main_call7_v15 : Ref sig .tc := ⟨.hbm, 172, rfl⟩
abbrev main_v59 : Ref sig .tc := ⟨.hbm, 173, rfl⟩
abbrev main_v60 : Ref sig .tc := ⟨.hbm, 174, rfl⟩
abbrev main_cst_21 : Ref sig .tc := ⟨.hbm, 175, rfl⟩
abbrev main_call8_v0 : Ref sig .tc := ⟨.hbm, 176, rfl⟩
abbrev main_call8_v1 : Ref sig .tc := ⟨.hbm, 177, rfl⟩
abbrev main_call8_v2 : Ref sig .tc := ⟨.hbm, 178, rfl⟩
abbrev main_v61 : Ref sig .tc := ⟨.hbm, 179, rfl⟩
abbrev main_cst_22 : Ref sig .tc := ⟨.hbm, 180, rfl⟩
abbrev main_v62 : Ref sig .tc := ⟨.hbm, 181, rfl⟩
abbrev main_v63 : Ref sig .tc := ⟨.hbm, 182, rfl⟩
abbrev main_v64 : Ref sig .tc := ⟨.hbm, 183, rfl⟩
abbrev main_v65 : Ref sig .tc := ⟨.hbm, 184, rfl⟩
abbrev main_v66 : Ref sig .tc := ⟨.hbm, 185, rfl⟩
abbrev main_c_23 : Ref sig .tc := ⟨.hbm, 186, rfl⟩
abbrev main_v67 : Ref sig .tc := ⟨.hbm, 187, rfl⟩
abbrev main_v68 : Ref sig .tc := ⟨.hbm, 188, rfl⟩
abbrev main_c_24 : Ref sig .tc := ⟨.hbm, 189, rfl⟩
abbrev main_v69 : Ref sig .tc := ⟨.hbm, 190, rfl⟩
abbrev main_v70 : Ref sig .tc := ⟨.hbm, 191, rfl⟩
abbrev main_v71 : Ref sig .tc := ⟨.hbm, 192, rfl⟩
abbrev main_c_25 : Ref sig .tc := ⟨.hbm, 193, rfl⟩
abbrev main_c_26 : Ref sig .tc := ⟨.hbm, 194, rfl⟩
abbrev main_call9_v0 : Ref sig .tc := ⟨.hbm, 195, rfl⟩
abbrev main_call9_v1 : Ref sig .tc := ⟨.hbm, 196, rfl⟩
abbrev main_call9_v2 : Ref sig .tc := ⟨.hbm, 197, rfl⟩
abbrev main_call9_v3 : Ref sig .tc := ⟨.hbm, 198, rfl⟩
abbrev main_call9_v4 : Ref sig .tc := ⟨.hbm, 199, rfl⟩
abbrev main_v72 : Ref sig .tc := ⟨.hbm, 200, rfl⟩
abbrev main_call10_c : Ref sig .tc := ⟨.hbm, 201, rfl⟩
abbrev main_call10_v0 : Ref sig .tc := ⟨.hbm, 202, rfl⟩
abbrev main_call10_v1 : Ref sig .tc := ⟨.hbm, 203, rfl⟩
abbrev main_call10_c_0 : Ref sig .tc := ⟨.hbm, 204, rfl⟩
abbrev main_call10_v2 : Ref sig .tc := ⟨.hbm, 205, rfl⟩
abbrev main_call10_v3 : Ref sig .tc := ⟨.hbm, 206, rfl⟩
abbrev main_call10_v4 : Ref sig .tc := ⟨.hbm, 207, rfl⟩
abbrev main_call10_v5 : Ref sig .tc := ⟨.hbm, 208, rfl⟩
abbrev main_call10_c_1 : Ref sig .tc := ⟨.hbm, 209, rfl⟩
abbrev main_call10_c_2 : Ref sig .tc := ⟨.hbm, 210, rfl⟩
abbrev main_call10_v6 : Ref sig .tc := ⟨.hbm, 211, rfl⟩
abbrev main_call10_v7 : Ref sig .tc := ⟨.hbm, 212, rfl⟩
abbrev main_call10_v8 : Ref sig .tc := ⟨.hbm, 213, rfl⟩
abbrev main_call10_v9 : Ref sig .tc := ⟨.hbm, 214, rfl⟩
abbrev main_call10_v10 : Ref sig .tc := ⟨.hbm, 215, rfl⟩
abbrev main_call10_v11 : Ref sig .tc := ⟨.hbm, 216, rfl⟩
abbrev main_call10_c_3 : Ref sig .tc := ⟨.hbm, 217, rfl⟩
abbrev main_call10_v12 : Ref sig .tc := ⟨.hbm, 218, rfl⟩
abbrev main_call10_v13 : Ref sig .tc := ⟨.hbm, 219, rfl⟩
abbrev main_call10_v14 : Ref sig .tc := ⟨.hbm, 220, rfl⟩
abbrev main_call10_cst : Ref sig .tc := ⟨.hbm, 221, rfl⟩
abbrev main_call10_v15 : Ref sig .tc := ⟨.hbm, 222, rfl⟩
abbrev main_v73 : Ref sig .tc := ⟨.hbm, 223, rfl⟩
abbrev main_v74 : Ref sig .tc := ⟨.hbm, 224, rfl⟩
abbrev main_cst_27 : Ref sig .tc := ⟨.hbm, 225, rfl⟩
abbrev main_call11_v0 : Ref sig .tc := ⟨.hbm, 226, rfl⟩
abbrev main_call11_v1 : Ref sig .tc := ⟨.hbm, 227, rfl⟩
abbrev main_call11_v2 : Ref sig .tc := ⟨.hbm, 228, rfl⟩
abbrev main_v75 : Ref sig .tc := ⟨.hbm, 229, rfl⟩
abbrev main_v76 : Ref sig .tc := ⟨.hbm, 230, rfl⟩
abbrev main_v77 : Ref sig .tc := ⟨.hbm, 231, rfl⟩
abbrev main_v78 : Ref sig .tc := ⟨.hbm, 232, rfl⟩
abbrev main_v79 : Ref sig .tc := ⟨.hbm, 233, rfl⟩
abbrev main_v80 : Ref sig .tc := ⟨.hbm, 234, rfl⟩
abbrev main_v81 : Ref sig .tc := ⟨.hbm, 235, rfl⟩
abbrev main_cst_28 : Ref sig .tc := ⟨.hbm, 236, rfl⟩
abbrev main_v82 : Ref sig .tc := ⟨.hbm, 237, rfl⟩
abbrev main_v83 : Ref sig .tc := ⟨.hbm, 238, rfl⟩
abbrev main_cst_29 : Ref sig .tc := ⟨.hbm, 239, rfl⟩
abbrev main_v84 : Ref sig .tc := ⟨.hbm, 240, rfl⟩
abbrev main_v85 : Ref sig .tc := ⟨.hbm, 241, rfl⟩
abbrev main_cst_30 : Ref sig .tc := ⟨.hbm, 242, rfl⟩
abbrev main_v86 : Ref sig .tc := ⟨.hbm, 243, rfl⟩
abbrev main_v87 : Ref sig .tc := ⟨.hbm, 244, rfl⟩
abbrev main_v88 : Ref sig .tc := ⟨.hbm, 245, rfl⟩
abbrev main_v89 : Ref sig .tc := ⟨.hbm, 246, rfl⟩
abbrev main_v90 : Ref sig .tc := ⟨.hbm, 247, rfl⟩
abbrev main_c_31 : Ref sig .tc := ⟨.hbm, 248, rfl⟩
abbrev main_v91 : Ref sig .tc := ⟨.hbm, 249, rfl⟩
abbrev main_v92 : Ref sig .tc := ⟨.hbm, 250, rfl⟩
abbrev main_c_32 : Ref sig .tc := ⟨.hbm, 251, rfl⟩
abbrev main_v93 : Ref sig .tc := ⟨.hbm, 252, rfl⟩
abbrev main_v94 : Ref sig .tc := ⟨.hbm, 253, rfl⟩
abbrev main_c_33 : Ref sig .tc := ⟨.hbm, 254, rfl⟩
abbrev main_v95 : Ref sig .tc := ⟨.hbm, 255, rfl⟩
abbrev main_v96 : Ref sig .tc := ⟨.hbm, 256, rfl⟩
abbrev main_v97 : Ref sig .tc := ⟨.hbm, 257, rfl⟩
abbrev main_c_34 : Ref sig .tc := ⟨.hbm, 258, rfl⟩
abbrev main_c_35 : Ref sig .tc := ⟨.hbm, 259, rfl⟩
abbrev main_call12_v0 : Ref sig .tc := ⟨.hbm, 260, rfl⟩
abbrev main_call12_v1 : Ref sig .tc := ⟨.hbm, 261, rfl⟩
abbrev main_call12_v2 : Ref sig .tc := ⟨.hbm, 262, rfl⟩
abbrev main_call12_v3 : Ref sig .tc := ⟨.hbm, 263, rfl⟩
abbrev main_call12_v4 : Ref sig .tc := ⟨.hbm, 264, rfl⟩
abbrev main_v98 : Ref sig .tc := ⟨.hbm, 265, rfl⟩
abbrev main_call13_c : Ref sig .tc := ⟨.hbm, 266, rfl⟩
abbrev main_call13_v0 : Ref sig .tc := ⟨.hbm, 267, rfl⟩
abbrev main_call13_v1 : Ref sig .tc := ⟨.hbm, 268, rfl⟩
abbrev main_call13_c_0 : Ref sig .tc := ⟨.hbm, 269, rfl⟩
abbrev main_call13_v2 : Ref sig .tc := ⟨.hbm, 270, rfl⟩
abbrev main_call13_v3 : Ref sig .tc := ⟨.hbm, 271, rfl⟩
abbrev main_call13_v4 : Ref sig .tc := ⟨.hbm, 272, rfl⟩
abbrev main_call13_v5 : Ref sig .tc := ⟨.hbm, 273, rfl⟩
abbrev main_call13_c_1 : Ref sig .tc := ⟨.hbm, 274, rfl⟩
abbrev main_call13_c_2 : Ref sig .tc := ⟨.hbm, 275, rfl⟩
abbrev main_call13_v6 : Ref sig .tc := ⟨.hbm, 276, rfl⟩
abbrev main_call13_v7 : Ref sig .tc := ⟨.hbm, 277, rfl⟩
abbrev main_call13_v8 : Ref sig .tc := ⟨.hbm, 278, rfl⟩
abbrev main_call13_v9 : Ref sig .tc := ⟨.hbm, 279, rfl⟩
abbrev main_call13_v10 : Ref sig .tc := ⟨.hbm, 280, rfl⟩
abbrev main_call13_v11 : Ref sig .tc := ⟨.hbm, 281, rfl⟩
abbrev main_call13_c_3 : Ref sig .tc := ⟨.hbm, 282, rfl⟩
abbrev main_call13_v12 : Ref sig .tc := ⟨.hbm, 283, rfl⟩
abbrev main_call13_v13 : Ref sig .tc := ⟨.hbm, 284, rfl⟩
abbrev main_call13_v14 : Ref sig .tc := ⟨.hbm, 285, rfl⟩
abbrev main_call13_cst : Ref sig .tc := ⟨.hbm, 286, rfl⟩
abbrev main_call13_v15 : Ref sig .tc := ⟨.hbm, 287, rfl⟩
abbrev main_v99 : Ref sig .tc := ⟨.hbm, 288, rfl⟩
abbrev main_v100 : Ref sig .tc := ⟨.hbm, 289, rfl⟩
abbrev main_cst_36 : Ref sig .tc := ⟨.hbm, 290, rfl⟩
abbrev main_call14_v0 : Ref sig .tc := ⟨.hbm, 291, rfl⟩
abbrev main_call14_v1 : Ref sig .tc := ⟨.hbm, 292, rfl⟩
abbrev main_call14_v2 : Ref sig .tc := ⟨.hbm, 293, rfl⟩
abbrev main_v101 : Ref sig .tc := ⟨.hbm, 294, rfl⟩
abbrev main_cst_37 : Ref sig .tc := ⟨.hbm, 295, rfl⟩
abbrev main_v102 : Ref sig .tc := ⟨.hbm, 296, rfl⟩
abbrev main_v103 : Ref sig .tc := ⟨.hbm, 297, rfl⟩
abbrev main_v104 : Ref sig .tc := ⟨.hbm, 298, rfl⟩
abbrev main_v105 : Ref sig .tc := ⟨.hbm, 299, rfl⟩
abbrev main_v106 : Ref sig .tc := ⟨.hbm, 300, rfl⟩
abbrev main_c_38 : Ref sig .tc := ⟨.hbm, 301, rfl⟩
abbrev main_v107 : Ref sig .tc := ⟨.hbm, 302, rfl⟩
abbrev main_v108 : Ref sig .tc := ⟨.hbm, 303, rfl⟩
abbrev main_c_39 : Ref sig .tc := ⟨.hbm, 304, rfl⟩
abbrev main_v109 : Ref sig .tc := ⟨.hbm, 305, rfl⟩
abbrev main_v110 : Ref sig .tc := ⟨.hbm, 306, rfl⟩
abbrev main_v111 : Ref sig .tc := ⟨.hbm, 307, rfl⟩
abbrev main_c_40 : Ref sig .tc := ⟨.hbm, 308, rfl⟩
abbrev main_c_41 : Ref sig .tc := ⟨.hbm, 309, rfl⟩
abbrev main_call15_v0 : Ref sig .tc := ⟨.hbm, 310, rfl⟩
abbrev main_call15_v1 : Ref sig .tc := ⟨.hbm, 311, rfl⟩
abbrev main_call15_v2 : Ref sig .tc := ⟨.hbm, 312, rfl⟩
abbrev main_call15_v3 : Ref sig .tc := ⟨.hbm, 313, rfl⟩
abbrev main_call15_v4 : Ref sig .tc := ⟨.hbm, 314, rfl⟩
abbrev main_v112 : Ref sig .tc := ⟨.hbm, 315, rfl⟩
abbrev main_call16_c : Ref sig .tc := ⟨.hbm, 316, rfl⟩
abbrev main_call16_v0 : Ref sig .tc := ⟨.hbm, 317, rfl⟩
abbrev main_call16_v1 : Ref sig .tc := ⟨.hbm, 318, rfl⟩
abbrev main_call16_c_0 : Ref sig .tc := ⟨.hbm, 319, rfl⟩
abbrev main_call16_v2 : Ref sig .tc := ⟨.hbm, 320, rfl⟩
abbrev main_call16_v3 : Ref sig .tc := ⟨.hbm, 321, rfl⟩
abbrev main_call16_v4 : Ref sig .tc := ⟨.hbm, 322, rfl⟩
abbrev main_call16_v5 : Ref sig .tc := ⟨.hbm, 323, rfl⟩
abbrev main_call16_c_1 : Ref sig .tc := ⟨.hbm, 324, rfl⟩
abbrev main_call16_c_2 : Ref sig .tc := ⟨.hbm, 325, rfl⟩
abbrev main_call16_v6 : Ref sig .tc := ⟨.hbm, 326, rfl⟩
abbrev main_call16_v7 : Ref sig .tc := ⟨.hbm, 327, rfl⟩
abbrev main_call16_v8 : Ref sig .tc := ⟨.hbm, 328, rfl⟩
abbrev main_call16_v9 : Ref sig .tc := ⟨.hbm, 329, rfl⟩
abbrev main_call16_v10 : Ref sig .tc := ⟨.hbm, 330, rfl⟩
abbrev main_call16_v11 : Ref sig .tc := ⟨.hbm, 331, rfl⟩
abbrev main_call16_c_3 : Ref sig .tc := ⟨.hbm, 332, rfl⟩
abbrev main_call16_v12 : Ref sig .tc := ⟨.hbm, 333, rfl⟩
abbrev main_call16_v13 : Ref sig .tc := ⟨.hbm, 334, rfl⟩
abbrev main_call16_v14 : Ref sig .tc := ⟨.hbm, 335, rfl⟩
abbrev main_call16_cst : Ref sig .tc := ⟨.hbm, 336, rfl⟩
abbrev main_call16_v15 : Ref sig .tc := ⟨.hbm, 337, rfl⟩
abbrev main_v113 : Ref sig .tc := ⟨.hbm, 338, rfl⟩
abbrev main_v114 : Ref sig .tc := ⟨.hbm, 339, rfl⟩
abbrev main_cst_42 : Ref sig .tc := ⟨.hbm, 340, rfl⟩
abbrev main_call17_v0 : Ref sig .tc := ⟨.hbm, 341, rfl⟩
abbrev main_call17_v1 : Ref sig .tc := ⟨.hbm, 342, rfl⟩
abbrev main_call17_v2 : Ref sig .tc := ⟨.hbm, 343, rfl⟩
abbrev main_v115 : Ref sig .tc := ⟨.hbm, 344, rfl⟩
abbrev main_v116 : Ref sig .tc := ⟨.hbm, 345, rfl⟩
abbrev main_v117 : Ref sig .tc := ⟨.hbm, 346, rfl⟩
abbrev main_v118 : Ref sig .tc := ⟨.hbm, 347, rfl⟩
abbrev main_v119 : Ref sig .tc := ⟨.hbm, 348, rfl⟩
abbrev main_v120 : Ref sig .tc := ⟨.hbm, 349, rfl⟩
abbrev main_v121 : Ref sig .tc := ⟨.hbm, 350, rfl⟩
abbrev main_v122 : Ref sig .tc := ⟨.hbm, 351, rfl⟩

abbrev nD : Nat := 1
abbrev τ : Topo := Topo.v7x

variable {F : FTy → Type} [FloatOps F]

class Facts₀ : Prop where
  slices_S2000000x3_S2000000x1_0_0 : S2000000x3.Slices ![0, 0] S2000000x1
  shapeCasts_S2000000x1_S2000000 : S2000000x1.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S32x2000000_1 : S2000000.BroadcastsInDim S32x2000000 (![1] : Fin 1 → Fin S32x2000000.rank)
  bcast_S_S32x2000000 : S_.BroadcastsInDim S32x2000000 (![] : Fin 0 → Fin S32x2000000.rank)
  bcast_S2000000_S1x2000000_1 : S2000000.BroadcastsInDim S1x2000000 (![1] : Fin 1 → Fin S1x2000000.rank)
  bcast_S1x2000000_S32x2000000_0_1 : S1x2000000.BroadcastsInDim S32x2000000 (![0, 1] : Fin 2 → Fin S32x2000000.rank)
  slices_S2000000x3_S2000000x1_0_1 : S2000000x3.Slices ![0, 1] S2000000x1
  slices_S2000000x3_S2000000x1_0_2 : S2000000x3.Slices ![0, 2] S2000000x1
  transposes_S32x2000000_S2000000x32_1_0 : S32x2000000.Transposes [1, 0] S2000000x32
  gather_S32x512_S2000000x1_S32x2000000_0_1_n_n_1_1_321_wf : GatherDims.WF S32x512 S2000000x1 S32x2000000 [0] [1] [] [1] [] 1 ![32, 1]

variable [Facts₀]

def gather_S32x512_S2000000x1_S32x2000000_0_1_n_n_1_1_321 : GatherDims S32x512 S2000000x1 S32x2000000 where
  offsetDims := [0]
  collapsedSliceDims := [1]
  operandBatchingDims := []
  startIndicesBatchingDims := []
  startIndexMap := [1]
  indexVectorDim := 1
  sliceSizes := ![32, 1]
  wf := gather_S32x512_S2000000x1_S32x2000000_0_1_n_n_1_1_321_wf

class Facts : Prop extends Facts₀ where

variable [Facts]
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Interp.lean ====
/-
  The specification. One coordinate x of a point is mapped to the grid position g = (x + 1) · ½ · 511; its cell is
  ⌊g⌋, its fractional part f = g − ⌊g⌋, and the two neighbouring table columns are lo = ⌊g⌋ (as a signed 32-bit
  word) and hi = lo + 1. The sample of a table row v : Fin 512 → EReal at x is the linear interpolation
  v[lo] · (1 − f) + v[hi] · f, where a column outside [0, 512) contributes 0 (zero padding). The result at
  (point n, component c) is the product over the three axes of the samples of row c of that axis' table.

  Two arrangements of one sample are stated: as a sum over all 512 columns against a row of weights with at
  most two non-zero entries ("hat" weights), and as the two looked-up columns; they are equal because lo ≠ hi,
  so each column carries at most one of the two weights and no distributive law is needed on the extended reals.
-/
import Idealize.ShloMosaic.PureOps.Ideal
import Idealize.ShloMosaic.Lib.ValueIdx

noncomputable section

open scoped BigOperators

namespace Cert.Interp

open Idealize.ShloMosaic Idealize.ShloMosaic.ValueIdx

/-- The float literals of both programs, as their exact binary values. -/
abbrev one : EReal := Ideal.ofBits .f32 0x3F800000#32
abbrev half : EReal := Ideal.ofBits .f32 0x3F000000#32
abbrev rmax : EReal := Ideal.ofBits .f32 0x43FF8000#32

/-- The grid position of a coordinate: (x + 1) · ½ · 511. -/
def gridPos (x : EReal) : EReal := (x + one) * half * rmax
/-- The cell: the floor of the grid position. -/
def cell (x : EReal) : EReal := Ideal.liftRound Int.floor (gridPos x)
/-- The fractional part of the grid position: the weight of the right neighbour. -/
def frac (x : EReal) : EReal := gridPos x - cell x
/-- The left neighbour's column, as a signed 32-bit word. -/
def lo (x : EReal) : BitVec 32 := Ideal.fptosi 32 (cell x)
/-- The right neighbour's column. -/
def hi (x : EReal) : BitVec 32 := lo x + 1#32

/-- A table row at a column word: the entry when the column is in [0, 512), else 0 (zero padding). -/
def tableAt (v : Fin 512 → EReal) (i : BitVec 32) : EReal := if h : i.toNat < 512 then v ⟨i.toNat, h⟩ else 0

/-- The sample as two looked-up columns. -/
def sample (x : EReal) (v : Fin 512 → EReal) : EReal :=
  tableAt v (lo x) * (one - frac x) + tableAt v (hi x) * frac x

/-- The weight of column r: 1 − f at the left neighbour plus f at the right neighbour. -/
def hat (x : EReal) (r : Fin 512) : EReal :=
  (if BitVec.ofNat 32 r.val = lo x then one - frac x else 0) + (if BitVec.ofNat 32 r.val = hi x then frac x else 0)

/-- The sample as a sum over all columns against the hat weights. -/
def sampleSum (x : EReal) (v : Fin 512 → EReal) : EReal := ∑ r : Fin 512, hat x r * v r

/-- Row c of a [32, 512] table. -/
def row (t : (⟨2, ![32, 512]⟩ : Shape).Idx → EReal) (c : Fin 32) : Fin 512 → EReal := fun r => t (ix2 c r)

/-- The result at point n, component c: the product of the three axes' samples. -/
def at3 (p : (⟨2, ![2000000, 3]⟩ : Shape).Idx → EReal) (tx ty tz : (⟨2, ![32, 512]⟩ : Shape).Idx → EReal)
    (n : Fin 2000000) (c : Fin 32) : EReal :=
  sample (p (ix2 n (0 : Fin 3))) (row tx c) * sample (p (ix2 n (1 : Fin 3))) (row ty c) * sample (p (ix2 n (2 : Fin 3))) (row tz c)

/-- The whole result array as one function of the argument arrays. -/
def G (p : (⟨2, ![2000000, 3]⟩ : Shape).Idx → EReal) (tx ty tz : (⟨2, ![32, 512]⟩ : Shape).Idx → EReal) :
    (⟨2, ![2000000, 32]⟩ : Shape).Idx → EReal :=
  fun j => at3 p tx ty tz (j 0) (j 1)

theorem G_ix2 (p : (⟨2, ![2000000, 3]⟩ : Shape).Idx → EReal) (tx ty tz : (⟨2, ![32, 512]⟩ : Shape).Idx → EReal)
    (n : Fin 2000000) (c : Fin 32) : G p tx ty tz (ix2 n c) = at3 p tx ty tz n c := rfl

end Cert.Interp

end
-- ==== Proof.KerPay.lean ====
/-
  The kernel body's stored value at one entry. Each axis' [4000, 512] weight matrix has, in row q, 1 − f at the
  left neighbour's column and f at the right neighbour's column of the point's coordinate, 0 elsewhere; its
  product with the [512, 32] table into a zero accumulator is, at (q, c), the sum over the 512 columns of the
  weight times the table entry: the sample of table column c at that coordinate, written as a sum. The stored
  value is the product of the three axes' samples.
-/
import proofs.«133057_j46351287058969_2_alg».proof.Proof.Gen.KernelIdeal.Skeleton
import proofs.«133057_j46351287058969_2_alg».proof.Proof.LibDense
import proofs.«133057_j46351287058969_2_alg».proof.Proof.LibKeepdims
import proofs.«133057_j46351287058969_2_alg».proof.Proof.Interp
import Idealize.ShloMosaic.Lib.Pipeline.Value
import Idealize.ShloMosaic.Lib.ValueIdx

noncomputable section

open scoped BigOperators

namespace Cert.KernelIdeal.KerPay

open Cert.KernelIdeal Cert.KernelIdeal.Gen Idealize.ShloMosaic Idealize.ShloMosaic.ValueIdx

/-- The product's dimension numbers: the weights' columns contracted with the table's rows. -/
abbrev D : DotDims S4000x512 S512x32 S4000x32 := dot_S4000x512_S512x32_S4000x32_1_0_0_1_n_n

theorem D_rank : D.contr.rank = 1 := rfl
theorem D_size : D.contr.size ⟨0, by rw [D_rank]; exact Nat.one_pos⟩ = 512 := rfl
theorem D_l0 (i : S4000x32.Idx) (k : D.contr.Idx) : (D.lhsIdx i k 0).val = (i 0).val := by
  simp [DotDims.lhsIdx, D, dot_S4000x512_S512x32_S4000x32_1_0_0_1_n_n]; rfl
theorem D_l1 (i : S4000x32.Idx) (k : D.contr.Idx) : (D.lhsIdx i k 1).val = (k ⟨0, by rw [D_rank]; exact Nat.one_pos⟩).val := by
  simp [DotDims.lhsIdx, D, dot_S4000x512_S512x32_S4000x32_1_0_0_1_n_n]; rfl
theorem D_r0 (i : S4000x32.Idx) (k : D.contr.Idx) : (D.rhsIdx i k 0).val = (k ⟨0, by rw [D_rank]; exact Nat.one_pos⟩).val := by
  simp [DotDims.rhsIdx, D, dot_S4000x512_S512x32_S4000x32_1_0_0_1_n_n]; rfl
theorem D_r1 (i : S4000x32.Idx) (k : D.contr.Idx) : (D.rhsIdx i k 1).val = (i 1).val := by
  simp [DotDims.rhsIdx, D, dot_S4000x512_S512x32_S4000x32_1_0_0_1_n_n]; rfl

/-- The product into the zero accumulator at (q, c): the sum over the columns. -/
theorem dot_at (a : FVec Ideal S4000x512 .f32) (w : FVec Ideal S512x32 .f32) (q : Fin 4000) (c : Fin 32) :
    matmul D (some .fp32) a w (constant S4000x32 .f32 0x00000000#32) (ix2 q c) = ∑ k : Fin 512, a (ix2 q k) * w (ix2 k c) :=
  matmul_zero_plain_apply D (some .fp32) D_rank D_size D_l0 D_l1 D_r0 D_r1 a w q c

/-- A select on the bit "a = b" is the `if`. -/
theorem select_eq_bit {α : Type} (a b : BitVec 32) (x y : α) :
    Scalar.select (IntOp.cmpi .eq a b) x y = if a = b then x else y := by
  unfold Scalar.select IntOp.cmpi
  by_cases h : a = b
  · subst h
    simp
  · have : (a == b) = false := by simpa using h
    simp [this, h]

/-- The weight matrix at (q, k): the first weight if column k is the point's left neighbour, plus the second if
    it is the right neighbour (the left one plus 1 in 32-bit arithmetic). -/
theorem hatRow_at (fl w0 w1 : FVec Ideal S4000x1 .f32) (q : Fin 4000) (k : Fin 512) :
    addf (select (cmpi .eq (iota .tc S4000x512 32 [1] iota_S4000x512_d1_w32)
              (broadcastTo S4000x512 (fptosi 32 fl) broadcasts_S4000x1_S4000x512))
            (broadcastTo S4000x512 (shapeCast S4000x1 w0 shapeCasts_S4000x1_S4000x1) broadcasts_S4000x1_S4000x512)
            (broadcast S4000x512 (Scalar.ofBits (F := Ideal) .f32 0x00000000#32)))
         (select (cmpi .eq (iota .tc S4000x512 32 [1] iota_S4000x512_d1_w32)
              (broadcastTo S4000x512 (addi (fptosi 32 fl) (broadcast S4000x1 1#32)) broadcasts_S4000x1_S4000x512))
            (broadcastTo S4000x512 (shapeCast S4000x1 w1 shapeCasts_S4000x1_S4000x1) broadcasts_S4000x1_S4000x512)
            (broadcast S4000x512 (Scalar.ofBits (F := Ideal) .f32 0x00000000#32))) (ix2 q k)
      = (if BitVec.ofNat 32 k.val = Ideal.fptosi 32 (fl (ix2 q (0 : Fin 1))) then w0 (ix2 q (0 : Fin 1)) else 0)
        + (if BitVec.ofNat 32 k.val = Ideal.fptosi 32 (fl (ix2 q (0 : Fin 1))) + 1#32 then w1 (ix2 q (0 : Fin 1)) else 0) := by
  rw [addf_apply, select_apply, select_apply]
  show Scalar.select (IntOp.cmpi .eq _ _) _ _ + Scalar.select (IntOp.cmpi .eq _ _) _ _ = _
  rw [iota_single_apply, broadcastTo_a1_ab_apply, broadcastTo_a1_ab_apply, broadcastTo_a1_ab_apply, broadcastTo_a1_ab_apply,
    shapeCast_self, shapeCast_self, broadcast_apply, select_eq_bit, select_eq_bit]
  rw [Ideal.ofBits_def, Ideal.ofBits_zero_f32]
  rfl

/-- The grid position chain of column a of the positions block, at row q: (x + 1) · ½ · 511 of that entry. -/
theorem gridPos_at (v0 : Vec Ideal S4000x3 .f32) (a : Fin 3) (off : Fin S4000x3.rank → Nat) (hoff : off = ![0, a.val])
    (h : S4000x3.Slices off S4000x1) (q : Fin 4000) :
    mulf (mulf (addf (extractStridedSlice S4000x1 off v0 h) (broadcast S4000x1 (Scalar.ofBits (F := Ideal) .f32 0x3F800000#32)))
        (broadcast S4000x1 (Scalar.ofBits (F := Ideal) .f32 0x3F000000#32)))
      (broadcast S4000x1 (Scalar.ofBits (F := Ideal) .f32 0x43FF8000#32)) (ix2 q (0 : Fin 1))
      = Cert.Interp.gridPos (v0 (ix2 q a)) := by
  subst hoff
  rw [mulf_apply, mulf_apply, addf_apply, broadcast_apply, broadcast_apply, broadcast_apply,
    extractStridedSlice_apply _ v0 h (ix2 q (0 : Fin 1)) (ix2 q a) (fun b => by
      match b with
      | ⟨0, _⟩ => simp
      | ⟨1, _⟩ => simp)]
  rfl

/-- The weight matrix built from a grid-position column gp, at (q, k), is the specification's hat weight of the
    coordinate whose grid position gp holds in row q. -/
theorem hatRow_chain_at (gp : FVec Ideal S4000x1 .f32) (x : EReal) (q : Fin 4000)
    (hg : gp (ix2 q (0 : Fin 1)) = Cert.Interp.gridPos x) (k : Fin 512) :
    addf (select (cmpi .eq (iota .tc S4000x512 32 [1] iota_S4000x512_d1_w32)
              (broadcastTo S4000x512 (fptosi 32 (floor gp)) broadcasts_S4000x1_S4000x512))
            (broadcastTo S4000x512 (shapeCast S4000x1
              (subf (broadcast S4000x1 (Scalar.ofBits (F := Ideal) .f32 0x3F800000#32)) (subf gp (floor gp)))
              shapeCasts_S4000x1_S4000x1) broadcasts_S4000x1_S4000x512)
            (broadcast S4000x512 (Scalar.ofBits (F := Ideal) .f32 0x00000000#32)))
         (select (cmpi .eq (iota .tc S4000x512 32 [1] iota_S4000x512_d1_w32)
              (broadcastTo S4000x512 (addi (fptosi 32 (floor gp)) (broadcast S4000x1 1#32)) broadcasts_S4000x1_S4000x512))
            (broadcastTo S4000x512 (shapeCast S4000x1 (subf gp (floor gp)) shapeCasts_S4000x1_S4000x1) broadcasts_S4000x1_S4000x512)
            (broadcast S4000x512 (Scalar.ofBits (F := Ideal) .f32 0x00000000#32))) (ix2 q k)
      = Cert.Interp.hat x k := by
  refine (hatRow_at _ _ _ q k).trans ?_
  show (if _ = Ideal.fptosi 32 (Ideal.liftRound Int.floor (gp (ix2 q (0 : Fin 1))))
        then Ideal.ofBits .f32 0x3F800000#32 - (gp (ix2 q (0 : Fin 1)) - Ideal.liftRound Int.floor (gp (ix2 q (0 : Fin 1)))) else 0)
      + (if _ = Ideal.fptosi 32 (Ideal.liftRound Int.floor (gp (ix2 q (0 : Fin 1)))) + 1#32
        then gp (ix2 q (0 : Fin 1)) - Ideal.liftRound Int.floor (gp (ix2 q (0 : Fin 1))) else 0) = _
  rw [hg]
  rfl

/-- The first axis' product at (q, c): the sample of table column c at the point's first coordinate, as a sum. -/
theorem pay2_at (v0 : Vec Ideal S4000x3 .f32) (w : Vec Ideal S512x32 .f32) (q : Fin 4000) (c : Fin 32) :
    k0_pay2 (F := Ideal) v0 w (ix2 q c) = Cert.Interp.sampleSum (v0 (ix2 q (0 : Fin 3))) (fun r => w (ix2 r c)) := by
  unfold k0_pay2
  refine (dot_at _ _ q c).trans ?_
  unfold Cert.Interp.sampleSum
  refine Finset.sum_congr rfl fun k _ => ?_
  exact congrArg₂ (· * ·)
    (hatRow_chain_at _ _ q (gridPos_at v0 0 _ rfl slices_S4000x3_o0_0_S4000x1 q) k)
    (congrFun (shapeCast_self w shapeCasts_S512x32_S512x32) (ix2 k c))

/-- The second axis' product at (q, c). -/
theorem pay7_at (v0 : Vec Ideal S4000x3 .f32) (w : Vec Ideal S512x32 .f32) (q : Fin 4000) (c : Fin 32) :
    k0_pay7 (F := Ideal) (iota .tc S4000x512 32 [1] iota_S4000x512_d1_w32) (k0_pay4 v0) (k0_pay5 v0) (k0_pay6 v0) w (ix2 q c)
      = Cert.Interp.sampleSum (v0 (ix2 q (1 : Fin 3))) (fun r => w (ix2 r c)) := by
  unfold k0_pay7 k0_pay6 k0_pay5 k0_pay4 k0_pay3
  refine (dot_at _ _ q c).trans ?_
  unfold Cert.Interp.sampleSum
  refine Finset.sum_congr rfl fun k _ => ?_
  exact congrArg₂ (· * ·)
    (hatRow_chain_at _ _ q (gridPos_at v0 1 _ rfl slices_S4000x3_o0_1_S4000x1 q) k)
    (congrFun (shapeCast_self w shapeCasts_S512x32_S512x32) (ix2 k c))

/-- The stored value at (q, c): the product of the three axes' samples, each as a sum over the columns. -/
theorem pay1_at (v0 : Vec Ideal S4000x3 .f32) (x1 x2 x3 : Vec Ideal S512x32 .f32) (q : Fin 4000) (c : Fin 32) :
    k0_pay1 (F := Ideal) (k0_pay2 v0 x1)
        (k0_pay7 (iota .tc S4000x512 32 [1] iota_S4000x512_d1_w32) (k0_pay4 v0) (k0_pay5 v0) (k0_pay6 v0) x2)
        (k0_pay8 v0 (iota .tc S4000x512 32 [1] iota_S4000x512_d1_w32)) x3 (ix2 q c)
      = Cert.Interp.sampleSum (v0 (ix2 q (0 : Fin 3))) (fun r => x1 (ix2 r c))
        * Cert.Interp.sampleSum (v0 (ix2 q (1 : Fin 3))) (fun r => x2 (ix2 r c))
        * Cert.Interp.sampleSum (v0 (ix2 q (2 : Fin 3))) (fun r => x3 (ix2 r c)) := by
  unfold k0_pay1
  show (k0_pay2 (F := Ideal) v0 x1 (ix2 q c) * k0_pay7 (F := Ideal) _ _ _ _ x2 (ix2 q c)) * matmul D (some .fp32) _ _ _ (ix2 q c) = _
  refine congrArg₂ (· * ·) (congrArg₂ (· * ·) (pay2_at v0 x1 q c) (pay7_at v0 x2 q c)) ?_
  unfold k0_pay8
  refine (dot_at _ _ q c).trans ?_
  unfold Cert.Interp.sampleSum
  refine Finset.sum_congr rfl fun k _ => ?_
  exact congrArg₂ (· * ·)
    (hatRow_chain_at _ _ q (gridPos_at v0 2 _ rfl slices_S4000x3_o0_2_S4000x1 q) k)
    (congrFun (shapeCast_self x3 shapeCasts_S512x32_S512x32) (ix2 k c))

end Cert.KernelIdeal.KerPay

end
-- ==== Proof.InterpSum.lean ====
/-
  The two arrangements of one sample agree. A row of 512 weights that is 1 − f at the left neighbour's column,
  f at the right neighbour's column and 0 elsewhere, summed against a table row, is the left entry times 1 − f
  plus the right entry times f, an out-of-range neighbour contributing 0. The two neighbours are different
  words (hi = lo + 1 in 32-bit arithmetic), so every column carries at most one of the two weights: the sum
  splits column by column without a distributive law, which the extended reals do not have in general.
-/
import proofs.«133057_j46351287058969_2_alg».proof.Proof.Interp

noncomputable section

open scoped BigOperators

namespace Cert.Interp

/-- A column number below 512, written as a 32-bit word, is that word only if the word's value is the number. -/
theorem ofNat_eq_iff (r : Fin 512) (i : BitVec 32) : BitVec.ofNat 32 r.val = i ↔ i.toNat = r.val := by
  constructor
  · intro h
    rw [← h, BitVec.toNat_ofNat]
    have := r.isLt
    omega
  · intro h
    apply BitVec.eq_of_toNat_eq
    rw [BitVec.toNat_ofNat, h]
    have := r.isLt
    omega

/-- A sum over the columns of a function supported at one column word: the function there if the word is a
    column, else 0. -/
theorem sum_at_word (i : BitVec 32) (f : Fin 512 → EReal) :
    (∑ r : Fin 512, if BitVec.ofNat 32 r.val = i then f r else 0) = if h : i.toNat < 512 then f ⟨i.toNat, h⟩ else 0 := by
  by_cases h : i.toNat < 512
  · rw [dif_pos h, Finset.sum_eq_single (⟨i.toNat, h⟩ : Fin 512)]
    · rw [if_pos ((ofNat_eq_iff _ i).mpr rfl)]
    · intro r _ hr
      rw [if_neg]
      intro he
      exact hr (Fin.ext ((ofNat_eq_iff r i).mp he).symm)
    · intro hn
      exact absurd (Finset.mem_univ _) hn
  · rw [dif_neg h]
    refine Finset.sum_eq_zero fun r _ => ?_
    rw [if_neg]
    intro he
    have := (ofNat_eq_iff r i).mp he
    have := r.isLt
    omega

/-- The right neighbour is never the left neighbour. -/
theorem lo_ne_hi (x : EReal) : lo x ≠ hi x := by
  intro h
  have := congrArg BitVec.toNat h
  unfold hi at this
  rw [BitVec.toNat_add] at this
  have hl := (lo x).isLt
  simp only [BitVec.toNat_ofNat] at this
  omega

/-- One column's term: at most one of the two weights is present. -/
theorem hat_mul (x : EReal) (v : Fin 512 → EReal) (r : Fin 512) :
    hat x r * v r = (if BitVec.ofNat 32 r.val = lo x then (one - frac x) * v r else 0)
      + (if BitVec.ofNat 32 r.val = hi x then frac x * v r else 0) := by
  unfold hat
  by_cases h0 : BitVec.ofNat 32 r.val = lo x
  · have h1 : ¬ BitVec.ofNat 32 r.val = hi x := fun h1 => lo_ne_hi x (h0.symm.trans h1)
    rw [if_pos h0, if_neg h1, if_pos h0, if_neg h1, add_zero, add_zero]
  · by_cases h1 : BitVec.ofNat 32 r.val = hi x
    · rw [if_neg h0, if_pos h1, if_neg h0, if_pos h1, zero_add, zero_add]
    · rw [if_neg h0, if_neg h1, if_neg h0, if_neg h1, add_zero, zero_mul]

/-- A weight times the function at a column word is the table entry there times the weight. -/
theorem at_word_mul (w : EReal) (v : Fin 512 → EReal) (i : BitVec 32) :
    (if h : i.toNat < 512 then w * v ⟨i.toNat, h⟩ else 0) = tableAt v i * w := by
  unfold tableAt
  by_cases h : i.toNat < 512
  · rw [dif_pos h, dif_pos h, mul_comm]
  · rw [dif_neg h, dif_neg h, zero_mul]

/-- The sum over all columns against the hat weights is the two looked-up columns blended. -/
theorem sampleSum_eq_sample (x : EReal) (v : Fin 512 → EReal) : sampleSum x v = sample x v := by
  unfold sampleSum sample
  rw [Finset.sum_congr rfl fun r _ => hat_mul x v r, Finset.sum_add_distrib,
    sum_at_word (lo x) (fun r => (one - frac x) * v r), sum_at_word (hi x) (fun r => frac x * v r),
    at_word_mul, at_word_mul]

end Cert.Interp

end
-- ==== Proof.KerBlocks.lean ====
/-
  From blocks to the whole array. Grid point t stages rows 4000·t … 4000·t + 3999 of the positions and writes the
  same rows of the result; the three tables are staged whole at every point, each as the transpose the host made
  before the region. So what point t writes back is block t of the specification's array, the blocks of the 500
  points tile the 2,000,000 rows, and the array after the run is the specification's array.
-/
import proofs.«133057_j46351287058969_2_alg».proof.Proof.Gen.KernelIdeal.Value
import proofs.«133057_j46351287058969_2_alg».proof.Proof.KerPay
import proofs.«133057_j46351287058969_2_alg».proof.Proof.InterpSum
import Idealize.ShloMosaic.Lib.ValueLayout
import Idealize.ShloMosaic.Lib.StableHlo.Run

noncomputable section

namespace Cert.KernelIdeal.KerBlocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 500 points: the positions' and the result's block index on the row axis is
    the point's number, every other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The first table as the region finds it: the host's transpose of the first table argument. -/
theorem V_v0 (c : Dev nD) : (V m c main_v0 : S512x32.Idx → EReal)
    = transpose S512x32 [1, 0] (m ((c : Thread nD τ).loc main_arg1)) transposes_S32x512_S512x32_1_0 := by
  dsimp only [Gen.V, Gen.hostOps0]; after_results
theorem V_v1 (c : Dev nD) : (V m c main_v1 : S512x32.Idx → EReal)
    = transpose S512x32 [1, 0] (m ((c : Thread nD τ).loc main_arg2)) transposes_S32x512_S512x32_1_0 := by
  dsimp only [Gen.V, Gen.hostOps0]; after_results
theorem V_v2 (c : Dev nD) : (V m c main_v2 : S512x32.Idx → EReal)
    = transpose S512x32 [1, 0] (m ((c : Thread nD τ).loc main_arg3)) transposes_S32x512_S512x32_1_0 := by
  dsimp only [Gen.V, Gen.hostOps0]; after_results

theorem N500 : cfg0.N = 500 := N_0

/-- A grid point's number is below 500. -/
theorem t_lt (t : Fin cfg0.N) : t.val < 500 := by
  have h1 := t.isLt
  have h2 := N500
  omega

/-- Row q of point t's positions block is row 4000·t + q of the positions argument. -/
theorem blk0_at (c : Dev nD) (t : Fin cfg0.N) (q : Fin 4000) (a : Fin 3) :
    iblk m c 0 t (ix2 q a)
      = m ((c : Thread nD τ).loc main_arg0) (ix2 (⟨t.val * 4000 + q.val, by have := t_lt t; omega⟩ : Fin 2000000) a) := by
  show V m c main_arg0 (((cfg0.win 0).blk t).view.emb (ix2 q a)) = _
  rw [V_main_arg0]
  refine congrArg _ ?_
  obtain ⟨e00, e01, -⟩ := idx_facts t
  funext b; apply Fin.ext
  match b with
  | ⟨0, _⟩ => show win0_0.index t (0 : Fin 2) * 4000 + 1 * q.val = t.val * 4000 + q.val; rw [e00]; omega
  | ⟨1, _⟩ => show win0_0.index t (1 : Fin 2) * 3 + 1 * a.val = a.val; rw [e01]; omega

/-- Entry (r, c) of the first table's block, at any point, is entry (c, r) of the first table argument. -/
theorem blk1_at (c : Dev nD) (t : Fin cfg0.N) (r : Fin 512) (k : Fin 32) :
    iblk m c 1 t (ix2 r k) = m ((c : Thread nD τ).loc main_arg1) (ix2 k r) := by
  show V m c main_v0 (((cfg0.win 1).blk t).view.emb (ix2 r k)) = _
  rw [V_v0]
  obtain ⟨-, -, e10, e11, -⟩ := idx_facts t
  have he : ((cfg0.win 1).blk t).view.emb (ix2 r k) = ix2 r k := by
    funext b; apply Fin.ext
    match b with
    | ⟨0, _⟩ => show win0_1.index t (0 : Fin 2) * 512 + 1 * r.val = r.val; rw [e10]; omega
    | ⟨1, _⟩ => show win0_1.index t (1 : Fin 2) * 32 + 1 * k.val = k.val; rw [e11]; omega
  rw [he]
  exact transpose_ix2_apply _ _ r k

theorem blk2_at (c : Dev nD) (t : Fin cfg0.N) (r : Fin 512) (k : Fin 32) :
    iblk m c 2 t (ix2 r k) = m ((c : Thread nD τ).loc main_arg2) (ix2 k r) := by
  show V m c main_v1 (((cfg0.win 2).blk t).view.emb (ix2 r k)) = _
  rw [V_v1]
  obtain ⟨-, -, -, -, e20, e21, -⟩ := idx_facts t
  have he : ((cfg0.win 2).blk t).view.emb (ix2 r k) = ix2 r k := by
    funext b; apply Fin.ext
    match b with
    | ⟨0, _⟩ => show win0_2.index t (0 : Fin 2) * 512 + 1 * r.val = r.val; rw [e20]; omega
    | ⟨1, _⟩ => show win0_2.index t (1 : Fin 2) * 32 + 1 * k.val = k.val; rw [e21]; omega
  rw [he]
  exact transpose_ix2_apply _ _ r k

theorem blk3_at (c : Dev nD) (t : Fin cfg0.N) (r : Fin 512) (k : Fin 32) :
    iblk m c 3 t (ix2 r k) = m ((c : Thread nD τ).loc main_arg3) (ix2 k r) := by
  show V m c main_v2 (((cfg0.win 3).blk t).view.emb (ix2 r k)) = _
  rw [V_v2]
  obtain ⟨-, -, -, -, -, -, e30, e31, -⟩ := idx_facts t
  have he : ((cfg0.win 3).blk t).view.emb (ix2 r k) = ix2 r k := by
    funext b; apply Fin.ext
    match b with
    | ⟨0, _⟩ => show win0_3.index t (0 : Fin 2) * 512 + 1 * r.val = r.val; rw [e30]; omega
    | ⟨1, _⟩ => show win0_3.index t (1 : Fin 2) * 32 + 1 * k.val = k.val; rw [e31]; omega
  rw [he]
  exact transpose_ix2_apply _ _ r k

/-- Entry (q, k) of point t's result block sits at row 4000·t + q of the result array. -/
theorem emb4_at (t : Fin cfg0.N) (q : Fin 4000) (k : Fin 32) :
    ((cfg0.win 4).blk t).view.emb (ix2 q k)
      = ix2 (⟨t.val * 4000 + q.val, by have := t_lt t; omega⟩ : Fin 2000000) k := by
  obtain ⟨-, -, -, -, -, -, -, -, e40, e41⟩ := idx_facts t
  funext b; apply Fin.ext
  match b with
  | ⟨0, _⟩ => show win0_4.index t (0 : Fin 2) * 4000 + 1 * q.val = t.val * 4000 + q.val; rw [e40]; omega
  | ⟨1, _⟩ => show win0_4.index t (1 : Fin 2) * 32 + 1 * k.val = k.val; rw [e41]; omega

/-- What point t writes back is block t of the specification's array of the arguments. -/
theorem flushed_eq (c : Dev nD) (t : Fin cfg0.N) :
    (dats m 0 c).flushed 4 t = ((cfg0.win 4).blk t).view.read (Elt Ideal)
      (Cert.Interp.G (m ((c : Thread nD τ).loc main_arg0)) (m ((c : Thread nD τ).loc main_arg1))
        (m ((c : Thread nD τ).loc main_arg2)) (m ((c : Thread nD τ).loc main_arg3))) := by
  rw [Cert.KernelIdeal.Value.flushed4]
  unfold out0_4
  rw [View.canon_unit_zero hz]
  simp only [View.ld_unit_zero (S := S4000x3) hz, View.ld_unit_zero (S := S512x32) hz]
  funext j
  obtain ⟨q, k, rfl⟩ : ∃ (q : Fin 4000) (k : Fin 32), j = ix2 q k := ⟨j 0, j 1, eq_ix2 j⟩
  show k0_pay1 (F := Ideal) (k0_pay2 (iblk m c 0 t) (iblk m c 1 t))
      (k0_pay7 _ (k0_pay4 (iblk m c 0 t)) (k0_pay5 (iblk m c 0 t)) (k0_pay6 (iblk m c 0 t)) (iblk m c 2 t))
      (k0_pay8 (iblk m c 0 t) _) (iblk m c 3 t) (ix2 q k)
    = Cert.Interp.G _ _ _ _ (((cfg0.win 4).blk t).view.emb (ix2 q k))
  refine (Cert.KernelIdeal.KerPay.pay1_at (iblk m c 0 t) (iblk m c 1 t) (iblk m c 2 t) (iblk m c 3 t) q k).trans ?_
  rw [emb4_at t q k, Cert.Interp.G_ix2]
  unfold Cert.Interp.at3
  have r1 : (fun r => iblk m c 1 t (ix2 r k)) = Cert.Interp.row (m ((c : Thread nD τ).loc main_arg1)) k :=
    funext fun r => blk1_at m c t r k
  have r2 : (fun r => iblk m c 2 t (ix2 r k)) = Cert.Interp.row (m ((c : Thread nD τ).loc main_arg2)) k :=
    funext fun r => blk2_at m c t r k
  have r3 : (fun r => iblk m c 3 t (ix2 r k)) = Cert.Interp.row (m ((c : Thread nD τ).loc main_arg3)) k :=
    funext fun r => blk3_at m c t r k
  rw [r1, r2, r3, blk0_at m c t q 0, blk0_at m c t q 1, blk0_at m c t q 2,
    Cert.Interp.sampleSum_eq_sample, Cert.Interp.sampleSum_eq_sample, Cert.Interp.sampleSum_eq_sample]

/-- An index of the result array is in point t's block iff each coordinate is in the block's range. -/
theorem mem_blk (t : Fin cfg0.N) (i : S2000000x32.Idx) :
    i ∈ ((cfg0.win 4).blk t).view.set ↔ ∀ a : Fin 2, win0_4.index t a * S4000x32.size a ≤ (i a).val
      ∧ (i a).val < win0_4.index t a * S4000x32.size a + S4000x32.size a := by
  show i ∈ ((View.whole main_v3).slice (win0_4.rect t)).set ↔ _
  rw [View.set_slice_whole, Rect.mem_set_unit]
  exact Iff.rfl

/-- Every index of the result array is in the block of the point numbered by its row divided by 4000. -/
theorem cover (i : S2000000x32.Idx) :
    ∃ t : Fin cfg0.N, (cfg0.win 4).flush t = true ∧ i ∈ ((cfg0.win 4).blk t).view.set := by
  have hi0 : (i 0).val < 2000000 := (i 0).isLt
  have hi1 : (i 1).val < 32 := (i 1).isLt
  have ht : (i 0).val / 4000 < cfg0.N := by rw [N500]; omega
  refine ⟨⟨(i 0).val / 4000, ht⟩, flush0_4 _, ?_⟩
  rw [mem_blk]
  obtain ⟨-, -, -, -, -, -, -, -, e40, e41⟩ := idx_facts ⟨(i 0).val / 4000, ht⟩
  intro a
  match a with
  | ⟨0, _⟩ =>
    show win0_4.index ⟨(i 0).val / 4000, ht⟩ (0 : Fin 2) * 4000 ≤ (i 0).val
      ∧ (i 0).val < win0_4.index ⟨(i 0).val / 4000, ht⟩ (0 : Fin 2) * 4000 + 4000
    rw [e40]
    show (i 0).val / 4000 * 4000 ≤ (i 0).val ∧ (i 0).val < (i 0).val / 4000 * 4000 + 4000
    omega
  | ⟨1, _⟩ =>
    show win0_4.index ⟨(i 0).val / 4000, ht⟩ (1 : Fin 2) * 32 ≤ (i 1).val
      ∧ (i 1).val < win0_4.index ⟨(i 0).val / 4000, ht⟩ (1 : Fin 2) * 32 + 32
    rw [e41]
    omega

/-- The result array after the run is the specification's array of the arguments. -/
theorem final (c : Dev nD) : (dats m 0 c).arrAt 4 cfg0.N
    = Cert.Interp.G (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- Every weakly fair execution of the idealized kernel program terminates with the result array at the
    specification's array of the arguments, and the arguments unchanged. -/
theorem run : θ_run defs (onTc (τ := τ) (main (F := Ideal))) ⟨m, fun _ => 0, ρ⟩ fun r => ∀ c : Dev nD,
      r.2.mem ((c : Thread nD τ).loc main_v3)
        = Cert.Interp.G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.KerBlocks

end
-- ==== Proof.RefTerm.lean ====
/-
  The reference program's result as one pure term of its four argument arrays. Per axis: the coordinate column,
  its grid position, cell, fractional part, the two neighbouring columns as 32-bit words, each looked up in the
  table after clipping to [0, 511] (the lookup itself wraps a negative index by 512 and guards an out-of-range
  one with a NaN fill, neither of which a clipped index can trigger), masked to 0 where the unclipped column is
  outside the table, and the two lookups blended with weights 1 − f and f. The three axes' blends are multiplied
  and the [32, N] array transposed to [N, 32].
-/
import proofs.«133057_j46351287058969_2_alg».proof.ReferenceIdeal

noncomputable section

namespace Cert.ReferenceIdeal.RefTerm

open Cert.ReferenceIdeal Idealize.ShloMosaic

variable {F : FTy → Type} [FloatOps F] [Facts]
open Facts₀ Facts

/-- A float literal repeated along the points. -/
def bcF (w : BitVec 32) : FVec F S2000000 .f32 := broadcastInDim S2000000 ![] bcast_S_S2000000 (constant S_ .f32 w)
/-- An integer literal repeated along the points. -/
def bcI (w : BitVec 32) : IVec S2000000 32 := broadcastInDim S2000000 ![] bcast_S_S2000000 (constantI S_ 32 w)

/-- Column k of the positions, as a vector over the points. -/
def coord0 (p : FVec F S2000000x3 .f32) : FVec F S2000000 .f32 :=
  shapeCast S2000000 (extractStridedSlice S2000000x1 ![0, 0] p slices_S2000000x3_S2000000x1_0_0) shapeCasts_S2000000x1_S2000000
def coord1 (p : FVec F S2000000x3 .f32) : FVec F S2000000 .f32 :=
  shapeCast S2000000 (extractStridedSlice S2000000x1 ![0, 1] p slices_S2000000x3_S2000000x1_0_1) shapeCasts_S2000000x1_S2000000
def coord2 (p : FVec F S2000000x3 .f32) : FVec F S2000000 .f32 :=
  shapeCast S2000000 (extractStridedSlice S2000000x1 ![0, 2] p slices_S2000000x3_S2000000x1_0_2) shapeCasts_S2000000x1_S2000000

/-- (x + 1) · ½ · 511 along the points. -/
def gridPos (x : FVec F S2000000 .f32) : FVec F S2000000 .f32 :=
  mulf (mulf (addf x (bcF 0x3F800000#32)) (bcF 0x3F000000#32)) (bcF 0x43FF8000#32)
def cell (x : FVec F S2000000 .f32) : FVec F S2000000 .f32 := Host.floor (gridPos x)
def frac (x : FVec F S2000000 .f32) : FVec F S2000000 .f32 := subf (gridPos x) (cell x)
def lo (x : FVec F S2000000 .f32) : IVec S2000000 32 := fptosi 32 (cell x)
def hi (x : FVec F S2000000 .f32) : IVec S2000000 32 := addi (lo x) (bcI 1#32)

/-- 0 ≤ i < 512, signed, along the points. -/
def inGrid (i : IVec S2000000 32) : IVec S2000000 1 := andi (cmpi .sge i (bcI 0#32)) (cmpi .slt i (bcI 512#32))
/-- min 511 (max 0 i), signed. -/
def clip (i : IVec S2000000 32) : IVec S2000000 32 := minsi (bcI 511#32) (maxsi (bcI 0#32) i)

/-- The lookup's own index normalisation: a negative index is wrapped by 512. -/
def wrapNeg (i : IVec S2000000 32) : IVec S2000000 32 := select (cmpi .slt i (bcI 0#32)) (addi i (bcI 512#32)) i
/-- The index vector as a column [N, 1]. -/
def col (i : IVec S2000000 32) : IVec S2000000x1 32 := broadcastInDim S2000000x1 ![0] bcast_S2000000_S2000000x1_0 i
/-- The lookup's own range guard, 0 ≤ j ≤ 511, reduced along the unit axis. -/
def inTable (j : IVec S2000000x1 32) : IVec S2000000 1 :=
  Host.reduce IntOp.andi
    (andi (cmpi .sge j (broadcastInDim S2000000x1 ![] bcast_S_S2000000x1 (constantI S_ 32 0#32)))
      (cmpi .sle j (broadcastInDim S2000000x1 ![0, 1] bcast_S1x1_S2000000x1_0_1
        (broadcastInDim S1x1 ![1] bcast_S1_S1x1_1 (constantI S1 32 511#32)))))
    (constantI S_ 1 1#1) reducesTo_S2000000x1_S2000000_d1 h_S_
/-- The table's columns at the given indices: [32, N], NaN-filled where the guard fails. -/
def take (vec : FVec F S32x512 .f32) (i : IVec S2000000 32) : FVec F S32x2000000 .f32 :=
  select (broadcastInDim S32x2000000 ![1] bcast_S2000000_S32x2000000_1 (inTable (col (wrapNeg i))))
    (Host.gather gather_S32x512_S2000000x1_S32x2000000_0_1_n_n_1_1_321 vec (col (wrapNeg i)))
    (broadcastInDim S32x2000000 ![] bcast_S_S32x2000000 (constant S_ .f32 0x7FC00000#32))
/-- A per-point mask applied to a [32, N] array: 0 where the mask is off. -/
def masked (valid : IVec S2000000 1) (g : FVec F S32x2000000 .f32) : FVec F S32x2000000 .f32 :=
  select (broadcastInDim S32x2000000 ![0, 1] bcast_S1x2000000_S32x2000000_0_1
      (broadcastInDim S1x2000000 ![1] bcast_S2000000_S1x2000000_1 valid))
    g (broadcastInDim S32x2000000 ![] bcast_S_S32x2000000 (constant S_ .f32 0x00000000#32))
/-- A per-point weight repeated over the 32 components. -/
def spread (w : FVec F S2000000 .f32) : FVec F S32x2000000 .f32 :=
  broadcastInDim S32x2000000 ![0, 1] bcast_S1x2000000_S32x2000000_0_1
    (broadcastInDim S1x2000000 ![1] bcast_S2000000_S1x2000000_1 w)

/-- One axis: the two masked lookups blended with weights 1 − f and f. -/
def axis (vec : FVec F S32x512 .f32) (x : FVec F S2000000 .f32) : FVec F S32x2000000 .f32 :=
  addf (mulf (masked (inGrid (lo x)) (take vec (clip (lo x)))) (spread (subf (bcF 0x3F800000#32) (frac x))))
    (mulf (masked (inGrid (hi x)) (take vec (clip (hi x)))) (spread (frac x)))

/-- The reference's result: the three axes multiplied, transposed to [N, 32]. -/
def out (p : FVec F S2000000x3 .f32) (vx vy vz : FVec F S32x512 .f32) : FVec F S2000000x32 .f32 :=
  transpose S2000000x32 [1, 0] (mulf (mulf (axis vx (coord0 p)) (axis vy (coord1 p))) (axis vz (coord2 p)))
    transposes_S32x2000000_S2000000x32_1_0

end Cert.ReferenceIdeal.RefTerm

end
-- ==== Proof.RefOps.lean ====
/-
  The reference program as one straight line of operations. Its 168 statements are listed in order, each call of an
  outlined function (the clip to [0, 511], the table lookup with its own index wrap and range guard, and the two
  selects) replaced by that function's operations over the call's own buffers. The line is cut into nine runs: per
  axis the left neighbour's half (position, cell, fraction, both column words, the left lookup masked and weighted),
  then the right neighbour's half ending in the axis' blend; the axes y and z are cut once more where the program's
  text is cut into windows; the last run multiplies the three blends and transposes. For each run: every buffer
  it touches is a device buffer, and the list of buffers it writes.
-/
import proofs.«133057_j46351287058969_2_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts
/-- Axis x, left half: statements 1 … 37. -/
abbrev opsXa : List (HloOp τ sig (Elt F)) :=
  [ StableHlo.unary main_arg0 main_v0 ((extractStridedSlice S2000000x1 ![0, 0] · slices_S2000000x3_S2000000x1_0_0) : (⟨S2000000x3, .f32⟩ : BufTy).Contents (Elt F) → (⟨S2000000x1, .f32⟩ : BufTy).Contents (Elt F)),
    StableHlo.reshape main_v0 main_v1 rfl shapeCasts_S2000000x1_S2000000,
    StableHlo.nullary main_cst (constant S_ .f32 0x3F800000#32),
    StableHlo.unary main_cst main_v2 (broadcastInDim S2000000 ![] bcast_S_S2000000 : (⟨S_, .f32⟩ : BufTy).Contents (Elt F) → (⟨S2000000, .f32⟩ : BufTy).Contents (Elt F)),
    StableHlo.binary main_v1 main_v2 main_v3 (addf : (⟨S2000000, .f32⟩ : BufTy).Contents (Elt F) → (⟨S2000000, .f32⟩ : BufTy).Contents (Elt F) → (⟨S2000000, .f32⟩ : BufTy).Contents (Elt F)),
    StableHlo.nullary main_cst_0 (constant S_ .f32 0x3F000000#32),
    StableHlo.unary main_cst_0 main_v4 (broadcastInDim S2000000 ![] bcast_S_S2000000 : (⟨S_, .f32⟩ : BufTy).Contents (Elt F) → (⟨S2000000, .f32⟩ : BufTy).Contents (Elt F)),
    StableHlo.binary main_v3 main_v4 main_v5 (mulf : (⟨S2000000, .f32⟩ : BufTy).Contents (Elt F) → (⟨S2000000, .f32⟩ : BufTy).Contents (Elt F) → (⟨S2000000, .f32⟩ : BufTy).Contents (Elt F)),
    StableHlo.nullary main_cst_1 (constant S_ .f32 0x43FF8000#32),
    StableHlo.unary main_cst_1 main_v6 (broadcastInDim S2000000 ![] bcast_S_S2000000 : (⟨S_, .f32⟩ : BufTy).Contents (Elt F) → (⟨S2000000, .f32⟩ : BufTy).Contents (Elt F)),
    StableHlo.binary main_v5 main_v6 main_v7 (mulf : (⟨S2000000, .f32⟩ : BufTy).Contents (Elt F) → (⟨S2000000, .f32⟩ : BufTy).Contents (Elt F) → (⟨S2000000, .f32⟩ : BufTy).Contents (Elt F)),
    StableHlo.unary main_v7 main_v8 (Host.floor : (⟨S2000000, .f32⟩ : BufTy).Contents (Elt F) → (⟨S2000000, .f32⟩ : BufTy).Contents (Elt F)),
    StableHlo.binary main_v7 main_v8 main_v9 (subf : (⟨S2000000, .f32⟩ : BufTy).Contents (Elt F) → (⟨S2000000, .f32⟩ : BufTy).Contents (Elt F) → (⟨S2000000, .f32⟩ : BufTy).Contents (Elt F)),
    StableHlo.unary main_v8 main_v10 (fptosi 32 : (⟨S2000000, .f32⟩ : BufTy).Contents (Elt F) → (⟨S2000000, .i32⟩ : BufTy).Contents (Elt F)),
    StableHlo.nullary main_c (constantI S_ 32 1#32),
    StableHlo.unary main_c main_v11 (broadcastInDim S2000000 ![] bcast_S_S2000000 : (⟨S_, .i32⟩ : BufTy).Contents (Elt F) → (⟨S2000000, .i32⟩ : BufTy).Contents (Elt F)),
    StableHlo.binary main_v10 main_v11 main_v12 (addi : (⟨S2000000, .i32⟩ : BufTy).Contents (Elt F) → (⟨S2000000, .i32⟩ : BufTy).Contents (Elt F) → (⟨S2000000, .i32⟩ : BufTy).Contents (Elt F)),
    StableHlo.nullary main_c_2 (constantI S_ 32 0#32),
    StableHlo.unary main_c_2 main_v13 (broadcastInDim S2000000 ![] bcast_S_S2000000 : (⟨S_, .i32⟩ : BufTy).Contents (Elt F) → (⟨S2000000, .i32⟩ : BufTy).Contents (Elt F)),
    StableHlo.binary main_v10 main_v13 main_v14 (cmpi .sge : (⟨S2000000, .i32⟩ : BufTy).Contents (Elt F) → (⟨S2000000, .i32⟩ : BufTy).Contents (Elt F) → (⟨S2000000, .i1⟩ : BufTy).Contents (Elt F)),
    StableHlo.nullary main_c_3 (constantI S_ 32 512#32),
    StableHlo.unary main_c_3 main_v15 (broadcastInDim S2000000 ![] bcast_S_S2000000 : (⟨S_, .i32⟩ : BufTy).Contents (Elt F) → (⟨S2000000, .i32⟩ : BufTy).Contents (Elt F)),
    StableHlo.binary main_v10 main_v15 main_v16 (cmpi .slt : (⟨S2000000, .i32⟩ : BufTy).Contents (Elt F) → (⟨S2000000, .i32⟩ : BufTy).Contents (Elt F) → (⟨S2000000, .i1⟩ : BufTy).Contents (Elt F)),
    StableHlo.binary main_v14 main_v16 main_v17 (andi : (⟨S2000000, .i1⟩ : BufTy).Contents (Elt F) → (⟨S2000000, .i1⟩ : BufTy).Contents (Elt F) → (⟨S2000000, .i1⟩ : BufTy).Contents (Elt F)),
    StableHlo.nullary main_c_4 (constantI S_ 32 0#32),
    StableHlo.nullary main_c_5 (constantI S_ 32 511#32),
    StableHlo.TRef.unary (StableHlo.TRef.of main_c_4 : StableHlo.TRef sig ⟨S_, .i32⟩) main_call0.v0 id,
    StableHlo.TRef.unary main_call0.v0 main_call0.v1 (broadcastInDim S2000000 ![] bcast_S_S2000000),
    StableHlo.TRef.binary main_call0.v1 (StableHlo.TRef.of main_v10 : StableHlo.TRef sig ⟨S2000000, .i32⟩) main_call0.v2 maxsi,
    StableHlo.TRef.unary (StableHlo.TRef.of main_c_5 : StableHlo.TRef sig ⟨S_, .i32⟩) main_call0.v3 id,
    StableHlo.TRef.unary main_call0.v3 main_call0.v4 (broadcastInDim S2000000 ![] bcast_S_S2000000),
    StableHlo.TRef.binary main_call0.v4 main_call0.v2 main_call0.v5 minsi,
    StableHlo.TRef.nullary main_call1.c (constantI S_ 32 0#32),
    StableHlo.TRef.unary main_call1.c main_call1.v0 (broadcastInDim S2000000 ![] bcast_S_S2000000),
    StableHlo.TRef.binary (StableHlo.TRef.of main_v18 : StableHlo.TRef sig ⟨S2000000, .i32⟩) main_call1.v0 main_call1.v1 (cmpi .slt),
    StableHlo.TRef.nullary main_call1.c_0 (constantI S_ 32 512#32),
    StableHlo.TRef.unary main_call1.c_0 main_call1.v2 (broadcastInDim S2000000 ![] bcast_S_S2000000),
    StableHlo.TRef.binary (StableHlo.TRef.of main_v18 : StableHlo.TRef sig ⟨S2000000, .i32⟩) main_call1.v2 main_call1.v3 addi,
    StableHlo.TRef.ternary main_call1.v1 main_call1.v3 (StableHlo.TRef.of main_v18 : StableHlo.TRef sig ⟨S2000000, .i32⟩) main_call1.call0.v0 select,
    StableHlo.TRef.unary main_call1.call0.v0 main_call1.v5 (broadcastInDim S2000000x1 ![0] bcast_S2000000_S2000000x1_0),
    StableHlo.TRef.nullary main_call1.c_1 (constantI S1 32 511#32),
    StableHlo.TRef.nullary main_call1.c_2 (constantI S_ 32 0#32),
    StableHlo.TRef.unary main_call1.c_2 main_call1.v6 (broadcastInDim S2000000x1 ![] bcast_S_S2000000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S2000000x1 ![0, 1] bcast_S1x1_S2000000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S2000000x1_S2000000_d1 h_S_),
    StableHlo.TRef.binary (StableHlo.TRef.of main_arg1 : StableHlo.TRef sig ⟨S32x512, .f32⟩) main_call1.v5 main_call1.v13 (fun x i => Host.gather gather_S32x512_S2000000x1_S32x2000000_0_1_n_n_1_1_321 x i),
    StableHlo.TRef.unary main_call1.v12 main_call1.v14 (broadcastInDim S32x2000000 ![1] bcast_S2000000_S32x2000000_1),
    StableHlo.TRef.nullary main_call1.cst (constant S_ .f32 0x7FC00000#32),
    StableHlo.TRef.unary main_call1.cst main_call1.v15 (broadcastInDim S32x2000000 ![] bcast_S_S32x2000000),
    StableHlo.TRef.ternary main_call1.v14 main_call1.v13 main_call1.v15 main_call1.v16 select,
    StableHlo.unary main_v17 main_v20 (broadcastInDim S1x2000000 ![1] bcast_S2000000_S1x2000000_1 : (⟨S2000000, .i1⟩ : BufTy).Contents (Elt F) → (⟨S1x2000000, .i1⟩ : BufTy).Contents (Elt F)),
    StableHlo.nullary main_cst_6 (constant S_ .f32 0x00000000#32),
    StableHlo.TRef.unary (StableHlo.TRef.of main_cst_6 : StableHlo.TRef sig ⟨S_, .f32⟩) main_call2.v0 id,
    StableHlo.TRef.unary (StableHlo.TRef.of main_v20 : StableHlo.TRef sig ⟨S1x2000000, .i1⟩) main_call2.v1 (broadcastInDim S32x2000000 ![0, 1] bcast_S1x2000000_S32x2000000_0_1),
    StableHlo.TRef.unary main_call2.v0 main_call2.v2 (broadcastInDim S32x2000000 ![] bcast_S_S32x2000000),
    StableHlo.TRef.ternary main_call2.v1 (StableHlo.TRef.of main_v19 : StableHlo.TRef sig ⟨S32x2000000, .f32⟩) main_call2.v2 main_call2.v3 select,
    StableHlo.nullary main_cst_7 (constant S_ .f32 0x3F800000#32),
    StableHlo.unary main_cst_7 main_v22 (broadcastInDim S2000000 ![] bcast_S_S2000000 : (⟨S_, .f32⟩ : BufTy).Contents (Elt F) → (⟨S2000000, .f32⟩ : BufTy).Contents (Elt F)),
    StableHlo.binary main_v22 main_v9 main_v23 (subf : (⟨S2000000, .f32⟩ : BufTy).Contents (Elt F) → (⟨S2000000, .f32⟩ : BufTy).Contents (Elt F) → (⟨S2000000, .f32⟩ : BufTy).Contents (Elt F)),
    StableHlo.unary main_v23 main_v24 (broadcastInDim S1x2000000 ![1] bcast_S2000000_S1x2000000_1 : (⟨S2000000, .f32⟩ : BufTy).Contents (Elt F) → (⟨S1x2000000, .f32⟩ : BufTy).Contents (Elt F)),
    StableHlo.unary main_v24 main_v25 (broadcastInDim S32x2000000 ![0, 1] bcast_S1x2000000_S32x2000000_0_1 : (⟨S1x2000000, .f32⟩ : BufTy).Contents (Elt F) → (⟨S32x2000000, .f32⟩ : BufTy).Contents (Elt F)),
    StableHlo.binary main_v21 main_v25 main_v26 (mulf : (⟨S32x2000000, .f32⟩ : BufTy).Contents (Elt F) → (⟨S32x2000000, .f32⟩ : BufTy).Contents (Elt F) → (⟨S32x2000000, .f32⟩ : BufTy).Contents (Elt F)) ]

set_option maxRecDepth 8192 in
theorem opsXa_sub : (opsXa : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nullary_bufs_sub .., unary_bufs_sub .., unary_bufs_sub .., unary_bufs_sub .., ternary_bufs_sub .., nullary_bufs_sub .., unary_bufs_sub .., binary_bufs_sub .., unary_bufs_sub .., unary_bufs_sub .., binary_bufs_sub ..⟩

/-- The buffers these operations write. -/
abbrev opsXa_W : List (Ref sig .tc) := [main_v0, main_v1, main_cst, main_v2, main_v3, main_cst_0, main_v4, main_v5, main_cst_1, main_v6, main_v7, main_v8, main_v9, main_v10, main_c, main_v11, main_v12, main_c_2, main_v13, main_v14, main_c_3, main_v15, main_v16, main_v17, main_c_4, main_c_5, main_call0_v0, main_call0_v1, main_call0_v2, main_call0_v3, main_call0_v4, main_v18, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v19, main_v20, main_cst_6, main_call2_v0, main_call2_v1, main_call2_v2, main_v21, main_cst_7, main_v22, main_v23, main_v24, main_v25, main_v26]

set_option maxRecDepth 8192 in
theorem opsXa_writes : (opsXa : List (HloOp τ sig (Elt F))).Forall fun op => op.writes ⊆ (opsXa_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Axis x, right half and blend: statements 38 … 55. -/
abbrev opsXb : List (HloOp τ sig (Elt F)) :=
  [ StableHlo.nullary main_c_8 (constantI S_ 32 0#32),
    StableHlo.unary main_c_8 main_v27 (broadcastInDim S2000000 ![] bcast_S_S2000000 : (⟨S_, .i32⟩ : BufTy).Contents (Elt F) → (⟨S2000000, .i32⟩ : BufTy).Contents (Elt F)),
    StableHlo.binary main_v12 main_v27 main_v28 (cmpi .sge : (⟨S2000000, .i32⟩ : BufTy).Contents (Elt F) → (⟨S2000000, .i32⟩ : BufTy).Contents (Elt F) → (⟨S2000000, .i1⟩ : BufTy).Contents (Elt F)),
    StableHlo.nullary main_c_9 (constantI S_ 32 512#32),
    StableHlo.unary main_c_9 main_v29 (broadcastInDim S2000000 ![] bcast_S_S2000000 : (⟨S_, .i32⟩ : BufTy).Contents (Elt F) → (⟨S2000000, .i32⟩ : BufTy).Contents (Elt F)),
    StableHlo.binary main_v12 main_v29 main_v30 (cmpi .slt : (⟨S2000000, .i32⟩ : BufTy).Contents (Elt F) → (⟨S2000000, .i32⟩ : BufTy).Contents (Elt F) → (⟨S2000000, .i1⟩ : BufTy).Contents (Elt F)),
    StableHlo.binary main_v28 main_v30 main_v31 (andi : (⟨S2000000, .i1⟩ : BufTy).Contents (Elt F) → (⟨S2000000, .i1⟩ : BufTy).Contents (Elt F) → (⟨S2000000, .i1⟩ : BufTy).Contents (Elt F)),
    StableHlo.nullary main_c_10 (constantI S_ 32 0#32),
    StableHlo.nullary main_c_11 (constantI S_ 32 511#32),
    StableHlo.TRef.unary (StableHlo.TRef.of main_c_10 : StableHlo.TRef sig ⟨S_, .i32⟩) main_call3.v0 id,
    StableHlo.TRef.unary main_call3.v0 main_call3.v1 (broadcastInDim S2000000 ![] bcast_S_S2000000),
    StableHlo.TRef.binary main_call3.v1 (StableHlo.TRef.of main_v12 : StableHlo.TRef sig ⟨S2000000, .i32⟩) main_call3.v2 maxsi,
    StableHlo.TRef.unary (StableHlo.TRef.of main_c_11 : StableHlo.TRef sig ⟨S_, .i32⟩) main_call3.v3 id,
    StableHlo.TRef.unary main_call3.v3 main_call3.v4 (broadcastInDim S2000000 ![] bcast_S_S2000000),
    StableHlo.TRef.binary main_call3.v4 main_call3.v2 main_call3.v5 minsi,
    StableHlo.TRef.nullary main_call4.c (constantI S_ 32 0#32),
    StableHlo.TRef.unary main_call4.c main_call4.v0 (broadcastInDim S2000000 ![] bcast_S_S2000000),
    StableHlo.TRef.binary (StableHlo.TRef.of main_v32 : StableHlo.TRef sig ⟨S2000000, .i32⟩) main_call4.v0 main_call4.v1 (cmpi .slt),
    StableHlo.TRef.nullary main_call4.c_0 (constantI S_ 32 512#32),
    StableHlo.TRef.unary main_call4.c_0 main_call4.v2 (broadcastInDim S2000000 ![] bcast_S_S2000000),
    StableHlo.TRef.binary (StableHlo.TRef.of main_v32 : StableHlo.TRef sig ⟨S2000000, .i32⟩) main_call4.v2 main_call4.v3 addi,
    StableHlo.TRef.ternary main_call4.v1 main_call4.v3 (StableHlo.TRef.of main_v32 : StableHlo.TRef sig ⟨S2000000, .i32⟩) main_call4.call0.v0 select,
    StableHlo.TRef.unary main_call4.call0.v0 main_call4.v5 (broadcastInDim S2000000x1 ![0] bcast_S2000000_S2000000x1_0),
    StableHlo.TRef.nullary main_call4.c_1 (constantI S1 32 511#32),
    StableHlo.TRef.nullary main_call4.c_2 (constantI S_ 32 0#32),
    StableHlo.TRef.unary main_call4.c_2 main_call4.v6 (broadcastInDim S2000000x1 ![] bcast_S_S2000000x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S2000000x1 ![0, 1] bcast_S1x1_S2000000x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S2000000x1_S2000000_d1 h_S_),
    StableHlo.TRef.binary (StableHlo.TRef.of main_arg1 : StableHlo.TRef sig ⟨S32x512, .f32⟩) main_call4.v5 main_call4.v13 (fun x i => Host.gather gather_S32x512_S2000000x1_S32x2000000_0_1_n_n_1_1_321 x i),
    StableHlo.TRef.unary main_call4.v12 main_call4.v14 (broadcastInDim S32x2000000 ![1] bcast_S2000000_S32x2000000_1),
    StableHlo.TRef.nullary main_call4.cst (constant S_ .f32 0x7FC00000#32),
    StableHlo.TRef.unary main_call4.cst main_call4.v15 (broadcastInDim S32x2000000 ![] bcast_S_S32x2000000),
    StableHlo.TRef.ternary main_call4.v14 main_call4.v13 main_call4.v15 main_call4.v16 select,
    StableHlo.unary main_v31 main_v34 (broadcastInDim S1x2000000 ![1] bcast_S2000000_S1x2000000_1 : (⟨S2000000, .i1⟩ : BufTy).Contents (Elt F) → (⟨S1x2000000, .i1⟩ : BufTy).Contents (Elt F)),
    StableHlo.nullary main_cst_12 (constant S_ .f32 0x00000000#32),
    StableHlo.TRef.unary (StableHlo.TRef.of main_cst_12 : StableHlo.TRef sig ⟨S_, .f32⟩) main_call5.v0 id,
    StableHlo.TRef.unary (StableHlo.TRef.of main_v34 : StableHlo.TRef sig ⟨S1x2000000, .i1⟩) main_call5.v1 (broadcastInDim S32x2000000 ![0, 1] bcast_S1x2000000_S32x2000000_0_1),
    StableHlo.TRef.unary main_call5.v0 main_call5.v2 (broadcastInDim S32x2000000 ![] bcast_S_S32x2000000),
    StableHlo.TRef.ternary main_call5.v1 (StableHlo.TRef.of main_v33 : StableHlo.TRef sig ⟨S32x2000000, .f32⟩) main_call5.v2 main_call5.v3 select,
    StableHlo.unary main_v9 main_v36 (broadcastInDim S1x2000000 ![1] bcast_S2000000_S1x2000000_1 : (⟨S2000000, .f32⟩ : BufTy).Contents (Elt F) → (⟨S1x2000000, .f32⟩ : BufTy).Contents (Elt F)),
    StableHlo.unary main_v36 main_v37 (broadcastInDim S32x2000000 ![0, 1] bcast_S1x2000000_S32x2000000_0_1 : (⟨S1x2000000, .f32⟩ : BufTy).Contents (Elt F) → (⟨S32x2000000, .f32⟩ : BufTy).Contents (Elt F)),
    StableHlo.binary main_v35 main_v37 main_v38 (mulf : (⟨S32x2000000, .f32⟩ : BufTy).Contents (Elt F) → (⟨S32x2000000, .f32⟩ : BufTy).Contents (Elt F) → (⟨S32x2000000, .f32⟩ : BufTy).Contents (Elt F)),
    StableHlo.binary main_v26 main_v38 main_v39 (addf : (⟨S32x2000000, .f32⟩ : BufTy).Contents (Elt F) → (⟨S32x2000000, .f32⟩ : BufTy).Contents (Elt F) → (⟨S32x2000000, .f32⟩ : BufTy).Contents (Elt F)) ]

set_option maxRecDepth 8192 in
theorem opsXb_sub : (opsXb : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nullary_bufs_sub .., unary_bufs_sub .., unary_bufs_sub .., unary_bufs_sub .., ternary_bufs_sub .., unary_bufs_sub .., unary_bufs_sub .., binary_bufs_sub .., binary_bufs_sub ..⟩

/-- The buffers these operations write. -/
abbrev opsXb_W : List (Ref sig .tc) := [main_c_8, main_v27, main_v28, main_c_9, main_v29, main_v30, main_v31, main_c_10, main_c_11, main_call3_v0, main_call3_v1, main_call3_v2, main_call3_v3, main_call3_v4, main_v32, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v33, main_v34, main_cst_12, main_call5_v0, main_call5_v1, main_call5_v2, main_v35, main_v36, main_v37, main_v38, main_v39]

set_option maxRecDepth 8192 in
theorem opsXb_writes : (opsXb : List (HloOp τ sig (Elt F))).Forall fun op => op.writes ⊆ (opsXb_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Axis y, the first five statements: statements 56 … 60. -/
abbrev opsYa1 : List (HloOp τ sig (Elt F)) :=
  [ StableHlo.unary main_arg0 main_v40 ((extractStridedSlice S2000000x1 ![0, 1] · slices_S2000000x3_S2000000x1_0_1) : (⟨S2000000x3, .f32⟩ : BufTy).Contents (Elt F) → (⟨S2000000x1, .f32⟩ : BufTy).Contents (Elt F)),
    StableHlo.reshape main_v40 main_v41 rfl shapeCasts_S2000000x1_S2000000,
    StableHlo.nullary main_cst_13 (constant S_ .f32 0x3F800000#32),
    StableHlo.unary main_cst_13 main_v42 (broadcastInDim S2000000 ![] bcast_S_S2000000 : (⟨S_, .f32⟩ : BufTy).Contents (Elt F) → (⟨S2000000, .f32⟩ : BufTy).Contents (Elt F)),
    StableHlo.binary main_v41 main_v42 main_v43 (addf : (⟨S2000000, .f32⟩ : BufTy).Contents (Elt F) → (⟨S2000000, .f32⟩ : BufTy).Contents (Elt F) → (⟨S2000000, .f32⟩ : BufTy).Contents (Elt F)) ]

set_option maxRecDepth 8192 in
theorem opsYa1_sub : (opsYa1 : List (HloOp τ sig (Elt F))).Forall fun op => op.bufs ⊆ tcRefs τ sig :=
  ⟨unary_bufs_sub .., reshape_bufs_sub .., nullary_bufs_sub .., unary_bufs_sub .., binary_bufs_sub ..⟩

/-- The buffers these operations write. -/
abbrev opsYa1_W : List (Ref sig .tc) := [main_v40, main_v41, main_cst_13, main_v42, main_v43]

set_option maxRecDepth 8192 in
theorem opsYa1_writes : (opsYa1 : List (HloOp τ sig (Elt F))).Forall fun op => op.writes ⊆ (opsYa1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Axis y, rest of the left half: statements 61 … 92. -/
abbrev opsYa2 : List (HloOp τ sig (Elt F)) :=
  [ StableHlo.nullary main_cst_14 (constant S_ .f32 0x3F000000#32),
    StableHlo.unary main_cst_14 main_v44 (broadcastInDim S2000000 ![] bcast_S_S2000000 : (⟨S_, .f32⟩ : BufTy).Contents (Elt F) → (⟨S2000000, .f32⟩ : BufTy).Contents (Elt F)),
    StableHlo.binary main_v43 main_v44 main_v45 (mulf : (⟨S2000000, .f32⟩ : BufTy).Contents (Elt F) → (⟨S2000000, .f32⟩ : BufTy).Contents (Elt F) → (⟨S2000000, .f32⟩ : BufTy).Contents (Elt F)),
    StableHlo.nullary main_cst_15 (constant S_ .f32 0x43FF8000#32),
    StableHlo.unary main_cst_15 main_v46 (broadcastInDim S2000000 ![] bcast_S_S2000000 : (⟨S_, .f32⟩ : BufTy).Contents (Elt F) → (⟨S2000000, .f32⟩ : BufTy).Contents (Elt F)),
    StableHlo.binary main_v45 main_v46 main_v47 (mulf : (⟨S2000000, .f32⟩ : BufTy).Contents (Elt F) → (⟨S2000000, .f32⟩ : BufTy).Contents (Elt F) → (⟨S2000000, .f32⟩ : BufTy).Contents (Elt F)),
    StableHlo.unary main_v47 main_v48 (Host.floor : (⟨S2000000, .f32⟩ : BufTy).Contents (Elt F) → (⟨S2000000, .f32⟩ : BufTy).Contents (Elt F)),
    StableHlo.binary main_v47 main_v48 main_v49 (subf : (⟨S2000000, .f32⟩ : BufTy).Contents (Elt F) → (⟨S2000000, .f32⟩ : BufTy).Contents (Elt F) → (⟨S2000000, .f32⟩ : BufTy).Contents (Elt F)),
    StableHlo.unary main_v48 main_v50 (fptosi 32 : (⟨S2000000, .f32⟩ : BufTy).Contents (Elt F) → (⟨S2000000, .i32⟩ : BufTy).Contents (Elt F)),
    StableHlo.nullary main_c_16 (constantI S_ 32 1#32),
    StableHlo.unary main_c_16 main_v51 (broadcastInDim S2000000 ![] bcast_S_S2000000 : (⟨S_, .i32⟩ : BufTy).Contents (Elt F) → (⟨S2000000, .i32⟩ : BufTy).Contents (Elt F)),
    StableHlo.binary main_v50 main_v51 main_v52 (addi : (⟨S2000000, .i32⟩ : BufTy).Contents (Elt F) → (⟨S2000000, .i32⟩ : BufTy).Contents (Elt F) → (⟨S2000000, .i32⟩ : BufTy).Contents (Elt F)),
    StableHlo.nullary main_c_17 (constantI S_ 32 0#32),
    StableHlo.unary main_c_17 main_v53 (broadcastInDim S2000000 ![] bcast_S_S2000000 : (⟨S_, .i32⟩ : BufTy).Contents (Elt F) → (⟨S2000000, .i32⟩ : BufTy).Contents (Elt F)),
    StableHlo.binary main_v50 main_v53 main_v54 (cmpi .sge : (⟨S2000000, .i32⟩ : BufTy).Contents (Elt F) → (⟨S2000000, .i32⟩ : BufTy).Contents (Elt F) → (⟨S2000000, .i1⟩ : BufTy).Contents (Elt F)),
    StableHlo.nullary main_c_18 (constantI S_ 32 512#32),
    StableHlo.unary main_c_18 main_v55 (broadcastInDim S2000000 ![] bcast_S_S2000000 : (⟨S_, .i32⟩ : BufTy).Contents (Elt F) → (⟨S2000000, .i32⟩ : BufTy).Contents (Elt F)),
    StableHlo.binary main_v50 main_v55 main_v56 (cmpi .slt : (⟨S2000000, .i32⟩ : BufTy).Contents (Elt F) → (⟨S2000000, .i32⟩ : BufTy).Contents (Elt F) → (⟨S2000000, .i1⟩ : BufTy).Contents (Elt F)),
    StableHlo.binary main_v54 main_v56 main_v57 (andi : (⟨S2000000, .i1⟩ : BufTy).Contents (Elt F) → (⟨S2000000, .i1⟩ : BufTy).Contents (Elt F) → (⟨S2000000, .i1⟩ : BufTy).Contents (Elt F)),
    StableHlo.nullary main_c_19 (constantI S_ 32 0#32),
    StableHlo.nullary main_c_20 (constantI S_ 32 511#32),
    StableHlo.TRef.unary (StableHlo.TRef.of main_c_19 : StableHlo.TRef sig ⟨S_, .i32⟩) main_call6.v0 id,
    StableHlo.TRef.unary main_call6.v0 main_call6.v1 (broadcastInDim S2000000 ![] bcast_S_S2000000),
    StableHlo.TRef.binary main_call6.v1 (StableHlo.TRef.of main_v50 : StableHlo.TRef sig ⟨S2000000, .i32⟩) main_call6.v2 maxsi,
    StableHlo.TRef.unary (StableHlo.TRef.of main_c_20 : StableHlo.TRef sig ⟨S_, .i32⟩) main_call6.v3 id,
    StableHlo.TRef.unary main_call6.v3 main_call6.v4 (broadcastInDim S2000000 ![] bcast_S_S2000000),
    StableHlo.TRef.binary main_call6.v4 main_call6.v2 main_call6.v5 minsi,
    StableHlo.TRef.nullary main_call7.c (constantI S_ 32 0#32),
    StableHlo.TRef.unary main_call7.c main_call7.v0 (broadcastInDim S2000000 ![] bcast_S_S2000000),
    StableHlo.TRef.binary (StableHlo.TRef.of main_v58 : StableHlo.TRef sig ⟨S2000000, .i32⟩) main_call7.v0 main_call7.v1 (cmpi .slt),
    StableHlo.TRef.nullary main_call7.c_0 (constantI S_ 32 512#32),
    StableHlo.TRef.unary main_call7.c_0 main_call7.v2 (broadcastInDim S2000000 ![] bcast_S_S2000000),
    StableHlo.TRef.binary (StableHlo.TRef.of main_v58 : StableHlo.TRef sig ⟨S2000000, .i32⟩) main_call7.v2 main_call7.v3 addi,
    StableHlo.TRef.ternary main_call7.v1 main_call7.v3 (StableHlo.TRef.of main_v58 : StableHlo.TRef sig ⟨S2000000, .i32⟩) main_call7.call0.v0 select,
    StableHlo.TRef.unary main_call7.call0.v0 main_call7.v5 (broadcastInDim S2000000x1 ![0] bcast_S2000000_S2000000x1_0),
    StableHlo.TRef.nullary main_call7.c_1 (constantI S1 32 511#32),
    StableHlo.TRef.nullary main_call7.c_2 (constantI S_ 32 0#32),
    StableHlo.TRef.unary main_call7.c_2 main_call7.v6 (broadcastInDim S2000000x1 ![] bcast_S_S2000000x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S2000000x1 ![0, 1] bcast_S1x1_S2000000x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S2000000x1_S2000000_d1 h_S_),
    StableHlo.TRef.binary (StableHlo.TRef.of main_arg2 : StableHlo.TRef sig ⟨S32x512, .f32⟩) main_call7.v5 main_call7.v13 (fun x i => Host.gather gather_S32x512_S2000000x1_S32x2000000_0_1_n_n_1_1_321 x i),
    StableHlo.TRef.unary main_call7.v12 main_call7.v14 (broadcastInDim S32x2000000 ![1] bcast_S2000000_S32x2000000_1),
    StableHlo.TRef.nullary main_call7.cst (constant S_ .f32 0x7FC00000#32),
    StableHlo.TRef.unary main_call7.cst main_call7.v15 (broadcastInDim S32x2000000 ![] bcast_S_S32x2000000),
    StableHlo.TRef.ternary main_call7.v14 main_call7.v13 main_call7.v15 main_call7.v16 select,
    StableHlo.unary main_v57 main_v60 (broadcastInDim S1x2000000 ![1] bcast_S2000000_S1x2000000_1 : (⟨S2000000, .i1⟩ : BufTy).Contents (Elt F) → (⟨S1x2000000, .i1⟩ : BufTy).Contents (Elt F)),
    StableHlo.nullary main_cst_21 (constant S_ .f32 0x00000000#32),
    StableHlo.TRef.unary (StableHlo.TRef.of main_cst_21 : StableHlo.TRef sig ⟨S_, .f32⟩) main_call8.v0 id,
    StableHlo.TRef.unary (StableHlo.TRef.of main_v60 : StableHlo.TRef sig ⟨S1x2000000, .i1⟩) main_call8.v1 (broadcastInDim S32x2000000 ![0, 1] bcast_S1x2000000_S32x2000000_0_1),
    StableHlo.TRef.unary main_call8.v0 main_call8.v2 (broadcastInDim S32x2000000 ![] bcast_S_S32x2000000),
    StableHlo.TRef.ternary main_call8.v1 (StableHlo.TRef.of main_v59 : StableHlo.TRef sig ⟨S32x2000000, .f32⟩) main_call8.v2 main_call8.v3 select,
    StableHlo.nullary main_cst_22 (constant S_ .f32 0x3F800000#32),
    StableHlo.unary main_cst_22 main_v62 (broadcastInDim S2000000 ![] bcast_S_S2000000 : (⟨S_, .f32⟩ : BufTy).Contents (Elt F) → (⟨S2000000, .f32⟩ : BufTy).Contents (Elt F)),
    StableHlo.binary main_v62 main_v49 main_v63 (subf : (⟨S2000000, .f32⟩ : BufTy).Contents (Elt F) → (⟨S2000000, .f32⟩ : BufTy).Contents (Elt F) → (⟨S2000000, .f32⟩ : BufTy).Contents (Elt F)),
    StableHlo.unary main_v63 main_v64 (broadcastInDim S1x2000000 ![1] bcast_S2000000_S1x2000000_1 : (⟨S2000000, .f32⟩ : BufTy).Contents (Elt F) → (⟨S1x2000000, .f32⟩ : BufTy).Contents (Elt F)),
    StableHlo.unary main_v64 main_v65 (broadcastInDim S32x2000000 ![0, 1] bcast_S1x2000000_S32x2000000_0_1 : (⟨S1x2000000, .f32⟩ : BufTy).Contents (Elt F) → (⟨S32x2000000, .f32⟩ : BufTy).Contents (Elt F)),
    StableHlo.binary main_v61 main_v65 main_v66 (mulf : (⟨S32x2000000, .f32⟩ : BufTy).Contents (Elt F) → (⟨S32x2000000, .f32⟩ : BufTy).Contents (Elt F) → (⟨S32x2000000, .f32⟩ : BufTy).Contents (Elt F)) ]

set_option maxRecDepth 8192 in
theorem opsYa2_sub : (opsYa2 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nullary_bufs_sub .., unary_bufs_sub .., unary_bufs_sub .., unary_bufs_sub .., ternary_bufs_sub .., nullary_bufs_sub .., unary_bufs_sub .., binary_bufs_sub .., unary_bufs_sub .., unary_bufs_sub .., binary_bufs_sub ..⟩

/-- The buffers these operations write. -/
abbrev opsYa2_W : List (Ref sig .tc) := [main_cst_14, main_v44, main_v45, main_cst_15, main_v46, main_v47, main_v48, main_v49, main_v50, main_c_16, main_v51, main_v52, main_c_17, main_v53, main_v54, main_c_18, main_v55, main_v56, main_v57, main_c_19, main_c_20, main_call6_v0, main_call6_v1, main_call6_v2, main_call6_v3, main_call6_v4, main_v58, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v59, main_v60, main_cst_21, main_call8_v0, main_call8_v1, main_call8_v2, main_v61, main_cst_22, main_v62, main_v63, main_v64, main_v65, main_v66]

set_option maxRecDepth 8192 in
theorem opsYa2_writes : (opsYa2 : List (HloOp τ sig (Elt F))).Forall fun op => op.writes ⊆ (opsYa2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Axis y, right half and blend: statements 93 … 110. -/
abbrev opsYb : List (HloOp τ sig (Elt F)) :=
  [ StableHlo.nullary main_c_23 (constantI S_ 32 0#32),
    StableHlo.unary main_c_23 main_v67 (broadcastInDim S2000000 ![] bcast_S_S2000000 : (⟨S_, .i32⟩ : BufTy).Contents (Elt F) → (⟨S2000000, .i32⟩ : BufTy).Contents (Elt F)),
    StableHlo.binary main_v52 main_v67 main_v68 (cmpi .sge : (⟨S2000000, .i32⟩ : BufTy).Contents (Elt F) → (⟨S2000000, .i32⟩ : BufTy).Contents (Elt F) → (⟨S2000000, .i1⟩ : BufTy).Contents (Elt F)),
    StableHlo.nullary main_c_24 (constantI S_ 32 512#32),
    StableHlo.unary main_c_24 main_v69 (broadcastInDim S2000000 ![] bcast_S_S2000000 : (⟨S_, .i32⟩ : BufTy).Contents (Elt F) → (⟨S2000000, .i32⟩ : BufTy).Contents (Elt F)),
    StableHlo.binary main_v52 main_v69 main_v70 (cmpi .slt : (⟨S2000000, .i32⟩ : BufTy).Contents (Elt F) → (⟨S2000000, .i32⟩ : BufTy).Contents (Elt F) → (⟨S2000000, .i1⟩ : BufTy).Contents (Elt F)),
    StableHlo.binary main_v68 main_v70 main_v71 (andi : (⟨S2000000, .i1⟩ : BufTy).Contents (Elt F) → (⟨S2000000, .i1⟩ : BufTy).Contents (Elt F) → (⟨S2000000, .i1⟩ : BufTy).Contents (Elt F)),
    StableHlo.nullary main_c_25 (constantI S_ 32 0#32),
    StableHlo.nullary main_c_26 (constantI S_ 32 511#32),
    StableHlo.TRef.unary (StableHlo.TRef.of main_c_25 : StableHlo.TRef sig ⟨S_, .i32⟩) main_call9.v0 id,
    StableHlo.TRef.unary main_call9.v0 main_call9.v1 (broadcastInDim S2000000 ![] bcast_S_S2000000),
    StableHlo.TRef.binary main_call9.v1 (StableHlo.TRef.of main_v52 : StableHlo.TRef sig ⟨S2000000, .i32⟩) main_call9.v2 maxsi,
    StableHlo.TRef.unary (StableHlo.TRef.of main_c_26 : StableHlo.TRef sig ⟨S_, .i32⟩) main_call9.v3 id,
    StableHlo.TRef.unary main_call9.v3 main_call9.v4 (broadcastInDim S2000000 ![] bcast_S_S2000000),
    StableHlo.TRef.binary main_call9.v4 main_call9.v2 main_call9.v5 minsi,
    StableHlo.TRef.nullary main_call10.c (constantI S_ 32 0#32),
    StableHlo.TRef.unary main_call10.c main_call10.v0 (broadcastInDim S2000000 ![] bcast_S_S2000000),
    StableHlo.TRef.binary (StableHlo.TRef.of main_v72 : StableHlo.TRef sig ⟨S2000000, .i32⟩) main_call10.v0 main_call10.v1 (cmpi .slt),
    StableHlo.TRef.nullary main_call10.c_0 (constantI S_ 32 512#32),
    StableHlo.TRef.unary main_call10.c_0 main_call10.v2 (broadcastInDim S2000000 ![] bcast_S_S2000000),
    StableHlo.TRef.binary (StableHlo.TRef.of main_v72 : StableHlo.TRef sig ⟨S2000000, .i32⟩) main_call10.v2 main_call10.v3 addi,
    StableHlo.TRef.ternary main_call10.v1 main_call10.v3 (StableHlo.TRef.of main_v72 : StableHlo.TRef sig ⟨S2000000, .i32⟩) main_call10.call0.v0 select,
    StableHlo.TRef.unary main_call10.call0.v0 main_call10.v5 (broadcastInDim S2000000x1 ![0] bcast_S2000000_S2000000x1_0),
    StableHlo.TRef.nullary main_call10.c_1 (constantI S1 32 511#32),
    StableHlo.TRef.nullary main_call10.c_2 (constantI S_ 32 0#32),
    StableHlo.TRef.unary main_call10.c_2 main_call10.v6 (broadcastInDim S2000000x1 ![] bcast_S_S2000000x1),
    StableHlo.TRef.binary main_call10.v5 main_call10.v6 main_call10.v7 (cmpi .sge),
    StableHlo.TRef.unary main_call10.c_1 main_call10.v8 (broadcastInDim S1x1 ![1] bcast_S1_S1x1_1),
    StableHlo.TRef.unary main_call10.v8 main_call10.v9 (broadcastInDim S2000000x1 ![0, 1] bcast_S1x1_S2000000x1_0_1),
    StableHlo.TRef.binary main_call10.v5 main_call10.v9 main_call10.v10 (cmpi .sle),
    StableHlo.TRef.binary main_call10.v7 main_call10.v10 main_call10.v11 andi,
    StableHlo.TRef.nullary main_call10.c_3 (constantI S_ 1 1#1),
    StableHlo.TRef.binary main_call10.v11 main_call10.c_3 main_call10.v12 (fun x v => Host.reduce IntOp.andi x v reducesTo_S2000000x1_S2000000_d1 h_S_),
    StableHlo.TRef.binary (StableHlo.TRef.of main_arg2 : StableHlo.TRef sig ⟨S32x512, .f32⟩) main_call10.v5 main_call10.v13 (fun x i => Host.gather gather_S32x512_S2000000x1_S32x2000000_0_1_n_n_1_1_321 x i),
    StableHlo.TRef.unary main_call10.v12 main_call10.v14 (broadcastInDim S32x2000000 ![1] bcast_S2000000_S32x2000000_1),
    StableHlo.TRef.nullary main_call10.cst (constant S_ .f32 0x7FC00000#32),
    StableHlo.TRef.unary main_call10.cst main_call10.v15 (broadcastInDim S32x2000000 ![] bcast_S_S32x2000000),
    StableHlo.TRef.ternary main_call10.v14 main_call10.v13 main_call10.v15 main_call10.v16 select,
    StableHlo.unary main_v71 main_v74 (broadcastInDim S1x2000000 ![1] bcast_S2000000_S1x2000000_1 : (⟨S2000000, .i1⟩ : BufTy).Contents (Elt F) → (⟨S1x2000000, .i1⟩ : BufTy).Contents (Elt F)),
    StableHlo.nullary main_cst_27 (constant S_ .f32 0x00000000#32),
    StableHlo.TRef.unary (StableHlo.TRef.of main_cst_27 : StableHlo.TRef sig ⟨S_, .f32⟩) main_call11.v0 id,
    StableHlo.TRef.unary (StableHlo.TRef.of main_v74 : StableHlo.TRef sig ⟨S1x2000000, .i1⟩) main_call11.v1 (broadcastInDim S32x2000000 ![0, 1] bcast_S1x2000000_S32x2000000_0_1),
    StableHlo.TRef.unary main_call11.v0 main_call11.v2 (broadcastInDim S32x2000000 ![] bcast_S_S32x2000000),
    StableHlo.TRef.ternary main_call11.v1 (StableHlo.TRef.of main_v73 : StableHlo.TRef sig ⟨S32x2000000, .f32⟩) main_call11.v2 main_call11.v3 select,
    StableHlo.unary main_v49 main_v76 (broadcastInDim S1x2000000 ![1] bcast_S2000000_S1x2000000_1 : (⟨S2000000, .f32⟩ : BufTy).Contents (Elt F) → (⟨S1x2000000, .f32⟩ : BufTy).Contents (Elt F)),
    StableHlo.unary main_v76 main_v77 (broadcastInDim S32x2000000 ![0, 1] bcast_S1x2000000_S32x2000000_0_1 : (⟨S1x2000000, .f32⟩ : BufTy).Contents (Elt F) → (⟨S32x2000000, .f32⟩ : BufTy).Contents (Elt F)),
    StableHlo.binary main_v75 main_v77 main_v78 (mulf : (⟨S32x2000000, .f32⟩ : BufTy).Contents (Elt F) → (⟨S32x2000000, .f32⟩ : BufTy).Contents (Elt F) → (⟨S32x2000000, .f32⟩ : BufTy).Contents (Elt F)),
    StableHlo.binary main_v66 main_v78 main_v79 (addf : (⟨S32x2000000, .f32⟩ : BufTy).Contents (Elt F) → (⟨S32x2000000, .f32⟩ : BufTy).Contents (Elt F) → (⟨S32x2000000, .f32⟩ : BufTy).Contents (Elt F)) ]

set_option maxRecDepth 8192 in
theorem opsYb_sub : (opsYb : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nullary_bufs_sub .., unary_bufs_sub .., unary_bufs_sub .., unary_bufs_sub .., ternary_bufs_sub .., unary_bufs_sub .., unary_bufs_sub .., binary_bufs_sub .., binary_bufs_sub ..⟩

/-- The buffers these operations write. -/
abbrev opsYb_W : List (Ref sig .tc) := [main_c_23, main_v67, main_v68, main_c_24, main_v69, main_v70, main_v71, main_c_25, main_c_26, main_call9_v0, main_call9_v1, main_call9_v2, main_call9_v3, main_call9_v4, main_v72, main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v73, main_v74, main_cst_27, main_call11_v0, main_call11_v1, main_call11_v2, main_v75, main_v76, main_v77, main_v78, main_v79]

set_option maxRecDepth 8192 in
theorem opsYb_writes : (opsYb : List (HloOp τ sig (Elt F))).Forall fun op => op.writes ⊆ (opsYb_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Axis z, the first ten statements: statements 111 … 120. -/
abbrev opsZa1 : List (HloOp τ sig (Elt F)) :=
  [ StableHlo.unary main_arg0 main_v80 ((extractStridedSlice S2000000x1 ![0, 2] · slices_S2000000x3_S2000000x1_0_2) : (⟨S2000000x3, .f32⟩ : BufTy).Contents (Elt F) → (⟨S2000000x1, .f32⟩ : BufTy).Contents (Elt F)),
    StableHlo.reshape main_v80 main_v81 rfl shapeCasts_S2000000x1_S2000000,
    StableHlo.nullary main_cst_28 (constant S_ .f32 0x3F800000#32),
    StableHlo.unary main_cst_28 main_v82 (broadcastInDim S2000000 ![] bcast_S_S2000000 : (⟨S_, .f32⟩ : BufTy).Contents (Elt F) → (⟨S2000000, .f32⟩ : BufTy).Contents (Elt F)),
    StableHlo.binary main_v81 main_v82 main_v83 (addf : (⟨S2000000, .f32⟩ : BufTy).Contents (Elt F) → (⟨S2000000, .f32⟩ : BufTy).Contents (Elt F) → (⟨S2000000, .f32⟩ : BufTy).Contents (Elt F)),
    StableHlo.nullary main_cst_29 (constant S_ .f32 0x3F000000#32),
    StableHlo.unary main_cst_29 main_v84 (broadcastInDim S2000000 ![] bcast_S_S2000000 : (⟨S_, .f32⟩ : BufTy).Contents (Elt F) → (⟨S2000000, .f32⟩ : BufTy).Contents (Elt F)),
    StableHlo.binary main_v83 main_v84 main_v85 (mulf : (⟨S2000000, .f32⟩ : BufTy).Contents (Elt F) → (⟨S2000000, .f32⟩ : BufTy).Contents (Elt F) → (⟨S2000000, .f32⟩ : BufTy).Contents (Elt F)),
    StableHlo.nullary main_cst_30 (constant S_ .f32 0x43FF8000#32),
    StableHlo.unary main_cst_30 main_v86 (broadcastInDim S2000000 ![] bcast_S_S2000000 : (⟨S_, .f32⟩ : BufTy).Contents (Elt F) → (⟨S2000000, .f32⟩ : BufTy).Contents (Elt F)) ]

set_option maxRecDepth 8192 in
theorem opsZa1_sub : (opsZa1 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., nullary_bufs_sub .., unary_bufs_sub ..⟩

/-- The buffers these operations write. -/
abbrev opsZa1_W : List (Ref sig .tc) := [main_v80, main_v81, main_cst_28, main_v82, main_v83, main_cst_29, main_v84, main_v85, main_cst_30, main_v86]

set_option maxRecDepth 8192 in
theorem opsZa1_writes : (opsZa1 : List (HloOp τ sig (Elt F))).Forall fun op => op.writes ⊆ (opsZa1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Axis z, rest of the left half: statements 121 … 147. -/
abbrev opsZa2 : List (HloOp τ sig (Elt F)) :=
  [ StableHlo.binary main_v85 main_v86 main_v87 (mulf : (⟨S2000000, .f32⟩ : BufTy).Contents (Elt F) → (⟨S2000000, .f32⟩ : BufTy).Contents (Elt F) → (⟨S2000000, .f32⟩ : BufTy).Contents (Elt F)),
    StableHlo.unary main_v87 main_v88 (Host.floor : (⟨S2000000, .f32⟩ : BufTy).Contents (Elt F) → (⟨S2000000, .f32⟩ : BufTy).Contents (Elt F)),
    StableHlo.binary main_v87 main_v88 main_v89 (subf : (⟨S2000000, .f32⟩ : BufTy).Contents (Elt F) → (⟨S2000000, .f32⟩ : BufTy).Contents (Elt F) → (⟨S2000000, .f32⟩ : BufTy).Contents (Elt F)),
    StableHlo.unary main_v88 main_v90 (fptosi 32 : (⟨S2000000, .f32⟩ : BufTy).Contents (Elt F) → (⟨S2000000, .i32⟩ : BufTy).Contents (Elt F)),
    StableHlo.nullary main_c_31 (constantI S_ 32 1#32),
    StableHlo.unary main_c_31 main_v91 (broadcastInDim S2000000 ![] bcast_S_S2000000 : (⟨S_, .i32⟩ : BufTy).Contents (Elt F) → (⟨S2000000, .i32⟩ : BufTy).Contents (Elt F)),
    StableHlo.binary main_v90 main_v91 main_v92 (addi : (⟨S2000000, .i32⟩ : BufTy).Contents (Elt F) → (⟨S2000000, .i32⟩ : BufTy).Contents (Elt F) → (⟨S2000000, .i32⟩ : BufTy).Contents (Elt F)),
    StableHlo.nullary main_c_32 (constantI S_ 32 0#32),
    StableHlo.unary main_c_32 main_v93 (broadcastInDim S2000000 ![] bcast_S_S2000000 : (⟨S_, .i32⟩ : BufTy).Contents (Elt F) → (⟨S2000000, .i32⟩ : BufTy).Contents (Elt F)),
    StableHlo.binary main_v90 main_v93 main_v94 (cmpi .sge : (⟨S2000000, .i32⟩ : BufTy).Contents (Elt F) → (⟨S2000000, .i32⟩ : BufTy).Contents (Elt F) → (⟨S2000000, .i1⟩ : BufTy).Contents (Elt F)),
    StableHlo.nullary main_c_33 (constantI S_ 32 512#32),
    StableHlo.unary main_c_33 main_v95 (broadcastInDim S2000000 ![] bcast_S_S2000000 : (⟨S_, .i32⟩ : BufTy).Contents (Elt F) → (⟨S2000000, .i32⟩ : BufTy).Contents (Elt F)),
    StableHlo.binary main_v90 main_v95 main_v96 (cmpi .slt : (⟨S2000000, .i32⟩ : BufTy).Contents (Elt F) → (⟨S2000000, .i32⟩ : BufTy).Contents (Elt F) → (⟨S2000000, .i1⟩ : BufTy).Contents (Elt F)),
    StableHlo.binary main_v94 main_v96 main_v97 (andi : (⟨S2000000, .i1⟩ : BufTy).Contents (Elt F) → (⟨S2000000, .i1⟩ : BufTy).Contents (Elt F) → (⟨S2000000, .i1⟩ : BufTy).Contents (Elt F)),
    StableHlo.nullary main_c_34 (constantI S_ 32 0#32),
    StableHlo.nullary main_c_35 (constantI S_ 32 511#32),
    StableHlo.TRef.unary (StableHlo.TRef.of main_c_34 : StableHlo.TRef sig ⟨S_, .i32⟩) main_call12.v0 id,
    StableHlo.TRef.unary main_call12.v0 main_call12.v1 (broadcastInDim S2000000 ![] bcast_S_S2000000),
    StableHlo.TRef.binary main_call12.v1 (StableHlo.TRef.of main_v90 : StableHlo.TRef sig ⟨S2000000, .i32⟩) main_call12.v2 maxsi,
    StableHlo.TRef.unary (StableHlo.TRef.of main_c_35 : StableHlo.TRef sig ⟨S_, .i32⟩) main_call12.v3 id,
    StableHlo.TRef.unary main_call12.v3 main_call12.v4 (broadcastInDim S2000000 ![] bcast_S_S2000000),
    StableHlo.TRef.binary main_call12.v4 main_call12.v2 main_call12.v5 minsi,
    StableHlo.TRef.nullary main_call13.c (constantI S_ 32 0#32),
    StableHlo.TRef.unary main_call13.c main_call13.v0 (broadcastInDim S2000000 ![] bcast_S_S2000000),
    StableHlo.TRef.binary (StableHlo.TRef.of main_v98 : StableHlo.TRef sig ⟨S2000000, .i32⟩) main_call13.v0 main_call13.v1 (cmpi .slt),
    StableHlo.TRef.nullary main_call13.c_0 (constantI S_ 32 512#32),
    StableHlo.TRef.unary main_call13.c_0 main_call13.v2 (broadcastInDim S2000000 ![] bcast_S_S2000000),
    StableHlo.TRef.binary (StableHlo.TRef.of main_v98 : StableHlo.TRef sig ⟨S2000000, .i32⟩) main_call13.v2 main_call13.v3 addi,
    StableHlo.TRef.ternary main_call13.v1 main_call13.v3 (StableHlo.TRef.of main_v98 : StableHlo.TRef sig ⟨S2000000, .i32⟩) main_call13.call0.v0 select,
    StableHlo.TRef.unary main_call13.call0.v0 main_call13.v5 (broadcastInDim S2000000x1 ![0] bcast_S2000000_S2000000x1_0),
    StableHlo.TRef.nullary main_call13.c_1 (constantI S1 32 511#32),
    StableHlo.TRef.nullary main_call13.c_2 (constantI S_ 32 0#32),
    StableHlo.TRef.unary main_call13.c_2 main_call13.v6 (broadcastInDim S2000000x1 ![] bcast_S_S2000000x1),
    StableHlo.TRef.binary main_call13.v5 main_call13.v6 main_call13.v7 (cmpi .sge),
    StableHlo.TRef.unary main_call13.c_1 main_call13.v8 (broadcastInDim S1x1 ![1] bcast_S1_S1x1_1),
    StableHlo.TRef.unary main_call13.v8 main_call13.v9 (broadcastInDim S2000000x1 ![0, 1] bcast_S1x1_S2000000x1_0_1),
    StableHlo.TRef.binary main_call13.v5 main_call13.v9 main_call13.v10 (cmpi .sle),
    StableHlo.TRef.binary main_call13.v7 main_call13.v10 main_call13.v11 andi,
    StableHlo.TRef.nullary main_call13.c_3 (constantI S_ 1 1#1),
    StableHlo.TRef.binary main_call13.v11 main_call13.c_3 main_call13.v12 (fun x v => Host.reduce IntOp.andi x v reducesTo_S2000000x1_S2000000_d1 h_S_),
    StableHlo.TRef.binary (StableHlo.TRef.of main_arg3 : StableHlo.TRef sig ⟨S32x512, .f32⟩) main_call13.v5 main_call13.v13 (fun x i => Host.gather gather_S32x512_S2000000x1_S32x2000000_0_1_n_n_1_1_321 x i),
    StableHlo.TRef.unary main_call13.v12 main_call13.v14 (broadcastInDim S32x2000000 ![1] bcast_S2000000_S32x2000000_1),
    StableHlo.TRef.nullary main_call13.cst (constant S_ .f32 0x7FC00000#32),
    StableHlo.TRef.unary main_call13.cst main_call13.v15 (broadcastInDim S32x2000000 ![] bcast_S_S32x2000000),
    StableHlo.TRef.ternary main_call13.v14 main_call13.v13 main_call13.v15 main_call13.v16 select,
    StableHlo.unary main_v97 main_v100 (broadcastInDim S1x2000000 ![1] bcast_S2000000_S1x2000000_1 : (⟨S2000000, .i1⟩ : BufTy).Contents (Elt F) → (⟨S1x2000000, .i1⟩ : BufTy).Contents (Elt F)),
    StableHlo.nullary main_cst_36 (constant S_ .f32 0x00000000#32),
    StableHlo.TRef.unary (StableHlo.TRef.of main_cst_36 : StableHlo.TRef sig ⟨S_, .f32⟩) main_call14.v0 id,
    StableHlo.TRef.unary (StableHlo.TRef.of main_v100 : StableHlo.TRef sig ⟨S1x2000000, .i1⟩) main_call14.v1 (broadcastInDim S32x2000000 ![0, 1] bcast_S1x2000000_S32x2000000_0_1),
    StableHlo.TRef.unary main_call14.v0 main_call14.v2 (broadcastInDim S32x2000000 ![] bcast_S_S32x2000000),
    StableHlo.TRef.ternary main_call14.v1 (StableHlo.TRef.of main_v99 : StableHlo.TRef sig ⟨S32x2000000, .f32⟩) main_call14.v2 main_call14.v3 select,
    StableHlo.nullary main_cst_37 (constant S_ .f32 0x3F800000#32),
    StableHlo.unary main_cst_37 main_v102 (broadcastInDim S2000000 ![] bcast_S_S2000000 : (⟨S_, .f32⟩ : BufTy).Contents (Elt F) → (⟨S2000000, .f32⟩ : BufTy).Contents (Elt F)),
    StableHlo.binary main_v102 main_v89 main_v103 (subf : (⟨S2000000, .f32⟩ : BufTy).Contents (Elt F) → (⟨S2000000, .f32⟩ : BufTy).Contents (Elt F) → (⟨S2000000, .f32⟩ : BufTy).Contents (Elt F)),
    StableHlo.unary main_v103 main_v104 (broadcastInDim S1x2000000 ![1] bcast_S2000000_S1x2000000_1 : (⟨S2000000, .f32⟩ : BufTy).Contents (Elt F) → (⟨S1x2000000, .f32⟩ : BufTy).Contents (Elt F)),
    StableHlo.unary main_v104 main_v105 (broadcastInDim S32x2000000 ![0, 1] bcast_S1x2000000_S32x2000000_0_1 : (⟨S1x2000000, .f32⟩ : BufTy).Contents (Elt F) → (⟨S32x2000000, .f32⟩ : BufTy).Contents (Elt F)),
    StableHlo.binary main_v101 main_v105 main_v106 (mulf : (⟨S32x2000000, .f32⟩ : BufTy).Contents (Elt F) → (⟨S32x2000000, .f32⟩ : BufTy).Contents (Elt F) → (⟨S32x2000000, .f32⟩ : BufTy).Contents (Elt F)) ]

set_option maxRecDepth 8192 in
theorem opsZa2_sub : (opsZa2 : List (HloOp τ sig (Elt F))).Forall fun op => op.bufs ⊆ tcRefs τ sig :=
  ⟨binary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nullary_bufs_sub .., unary_bufs_sub .., unary_bufs_sub .., unary_bufs_sub .., ternary_bufs_sub .., nullary_bufs_sub .., unary_bufs_sub .., binary_bufs_sub .., unary_bufs_sub .., unary_bufs_sub .., binary_bufs_sub ..⟩

/-- The buffers these operations write. -/
abbrev opsZa2_W : List (Ref sig .tc) := [main_v87, main_v88, main_v89, main_v90, main_c_31, main_v91, main_v92, main_c_32, main_v93, main_v94, main_c_33, main_v95, main_v96, main_v97, main_c_34, main_c_35, main_call12_v0, main_call12_v1, main_call12_v2, main_call12_v3, main_call12_v4, main_v98, main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_v14, main_call13_cst, main_call13_v15, main_v99, main_v100, main_cst_36, main_call14_v0, main_call14_v1, main_call14_v2, main_v101, main_cst_37, main_v102, main_v103, main_v104, main_v105, main_v106]

set_option maxRecDepth 8192 in
theorem opsZa2_writes : (opsZa2 : List (HloOp τ sig (Elt F))).Forall fun op => op.writes ⊆ (opsZa2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Axis z, right half and blend: statements 148 … 165. -/
abbrev opsZb : List (HloOp τ sig (Elt F)) :=
  [ StableHlo.nullary main_c_38 (constantI S_ 32 0#32),
    StableHlo.unary main_c_38 main_v107 (broadcastInDim S2000000 ![] bcast_S_S2000000 : (⟨S_, .i32⟩ : BufTy).Contents (Elt F) → (⟨S2000000, .i32⟩ : BufTy).Contents (Elt F)),
    StableHlo.binary main_v92 main_v107 main_v108 (cmpi .sge : (⟨S2000000, .i32⟩ : BufTy).Contents (Elt F) → (⟨S2000000, .i32⟩ : BufTy).Contents (Elt F) → (⟨S2000000, .i1⟩ : BufTy).Contents (Elt F)),
    StableHlo.nullary main_c_39 (constantI S_ 32 512#32),
    StableHlo.unary main_c_39 main_v109 (broadcastInDim S2000000 ![] bcast_S_S2000000 : (⟨S_, .i32⟩ : BufTy).Contents (Elt F) → (⟨S2000000, .i32⟩ : BufTy).Contents (Elt F)),
    StableHlo.binary main_v92 main_v109 main_v110 (cmpi .slt : (⟨S2000000, .i32⟩ : BufTy).Contents (Elt F) → (⟨S2000000, .i32⟩ : BufTy).Contents (Elt F) → (⟨S2000000, .i1⟩ : BufTy).Contents (Elt F)),
    StableHlo.binary main_v108 main_v110 main_v111 (andi : (⟨S2000000, .i1⟩ : BufTy).Contents (Elt F) → (⟨S2000000, .i1⟩ : BufTy).Contents (Elt F) → (⟨S2000000, .i1⟩ : BufTy).Contents (Elt F)),
    StableHlo.nullary main_c_40 (constantI S_ 32 0#32),
    StableHlo.nullary main_c_41 (constantI S_ 32 511#32),
    StableHlo.TRef.unary (StableHlo.TRef.of main_c_40 : StableHlo.TRef sig ⟨S_, .i32⟩) main_call15.v0 id,
    StableHlo.TRef.unary main_call15.v0 main_call15.v1 (broadcastInDim S2000000 ![] bcast_S_S2000000),
    StableHlo.TRef.binary main_call15.v1 (StableHlo.TRef.of main_v92 : StableHlo.TRef sig ⟨S2000000, .i32⟩) main_call15.v2 maxsi,
    StableHlo.TRef.unary (StableHlo.TRef.of main_c_41 : StableHlo.TRef sig ⟨S_, .i32⟩) main_call15.v3 id,
    StableHlo.TRef.unary main_call15.v3 main_call15.v4 (broadcastInDim S2000000 ![] bcast_S_S2000000),
    StableHlo.TRef.binary main_call15.v4 main_call15.v2 main_call15.v5 minsi,
    StableHlo.TRef.nullary main_call16.c (constantI S_ 32 0#32),
    StableHlo.TRef.unary main_call16.c main_call16.v0 (broadcastInDim S2000000 ![] bcast_S_S2000000),
    StableHlo.TRef.binary (StableHlo.TRef.of main_v112 : StableHlo.TRef sig ⟨S2000000, .i32⟩) main_call16.v0 main_call16.v1 (cmpi .slt),
    StableHlo.TRef.nullary main_call16.c_0 (constantI S_ 32 512#32),
    StableHlo.TRef.unary main_call16.c_0 main_call16.v2 (broadcastInDim S2000000 ![] bcast_S_S2000000),
    StableHlo.TRef.binary (StableHlo.TRef.of main_v112 : StableHlo.TRef sig ⟨S2000000, .i32⟩) main_call16.v2 main_call16.v3 addi,
    StableHlo.TRef.ternary main_call16.v1 main_call16.v3 (StableHlo.TRef.of main_v112 : StableHlo.TRef sig ⟨S2000000, .i32⟩) main_call16.call0.v0 select,
    StableHlo.TRef.unary main_call16.call0.v0 main_call16.v5 (broadcastInDim S2000000x1 ![0] bcast_S2000000_S2000000x1_0),
    StableHlo.TRef.nullary main_call16.c_1 (constantI S1 32 511#32),
    StableHlo.TRef.nullary main_call16.c_2 (constantI S_ 32 0#32),
    StableHlo.TRef.unary main_call16.c_2 main_call16.v6 (broadcastInDim S2000000x1 ![] bcast_S_S2000000x1),
    StableHlo.TRef.binary main_call16.v5 main_call16.v6 main_call16.v7 (cmpi .sge),
    StableHlo.TRef.unary main_call16.c_1 main_call16.v8 (broadcastInDim S1x1 ![1] bcast_S1_S1x1_1),
    StableHlo.TRef.unary main_call16.v8 main_call16.v9 (broadcastInDim S2000000x1 ![0, 1] bcast_S1x1_S2000000x1_0_1),
    StableHlo.TRef.binary main_call16.v5 main_call16.v9 main_call16.v10 (cmpi .sle),
    StableHlo.TRef.binary main_call16.v7 main_call16.v10 main_call16.v11 andi,
    StableHlo.TRef.nullary main_call16.c_3 (constantI S_ 1 1#1),
    StableHlo.TRef.binary main_call16.v11 main_call16.c_3 main_call16.v12 (fun x v => Host.reduce IntOp.andi x v reducesTo_S2000000x1_S2000000_d1 h_S_),
    StableHlo.TRef.binary (StableHlo.TRef.of main_arg3 : StableHlo.TRef sig ⟨S32x512, .f32⟩) main_call16.v5 main_call16.v13 (fun x i => Host.gather gather_S32x512_S2000000x1_S32x2000000_0_1_n_n_1_1_321 x i),
    StableHlo.TRef.unary main_call16.v12 main_call16.v14 (broadcastInDim S32x2000000 ![1] bcast_S2000000_S32x2000000_1),
    StableHlo.TRef.nullary main_call16.cst (constant S_ .f32 0x7FC00000#32),
    StableHlo.TRef.unary main_call16.cst main_call16.v15 (broadcastInDim S32x2000000 ![] bcast_S_S32x2000000),
    StableHlo.TRef.ternary main_call16.v14 main_call16.v13 main_call16.v15 main_call16.v16 select,
    StableHlo.unary main_v111 main_v114 (broadcastInDim S1x2000000 ![1] bcast_S2000000_S1x2000000_1 : (⟨S2000000, .i1⟩ : BufTy).Contents (Elt F) → (⟨S1x2000000, .i1⟩ : BufTy).Contents (Elt F)),
    StableHlo.nullary main_cst_42 (constant S_ .f32 0x00000000#32),
    StableHlo.TRef.unary (StableHlo.TRef.of main_cst_42 : StableHlo.TRef sig ⟨S_, .f32⟩) main_call17.v0 id,
    StableHlo.TRef.unary (StableHlo.TRef.of main_v114 : StableHlo.TRef sig ⟨S1x2000000, .i1⟩) main_call17.v1 (broadcastInDim S32x2000000 ![0, 1] bcast_S1x2000000_S32x2000000_0_1),
    StableHlo.TRef.unary main_call17.v0 main_call17.v2 (broadcastInDim S32x2000000 ![] bcast_S_S32x2000000),
    StableHlo.TRef.ternary main_call17.v1 (StableHlo.TRef.of main_v113 : StableHlo.TRef sig ⟨S32x2000000, .f32⟩) main_call17.v2 main_call17.v3 select,
    StableHlo.unary main_v89 main_v116 (broadcastInDim S1x2000000 ![1] bcast_S2000000_S1x2000000_1 : (⟨S2000000, .f32⟩ : BufTy).Contents (Elt F) → (⟨S1x2000000, .f32⟩ : BufTy).Contents (Elt F)),
    StableHlo.unary main_v116 main_v117 (broadcastInDim S32x2000000 ![0, 1] bcast_S1x2000000_S32x2000000_0_1 : (⟨S1x2000000, .f32⟩ : BufTy).Contents (Elt F) → (⟨S32x2000000, .f32⟩ : BufTy).Contents (Elt F)),
    StableHlo.binary main_v115 main_v117 main_v118 (mulf : (⟨S32x2000000, .f32⟩ : BufTy).Contents (Elt F) → (⟨S32x2000000, .f32⟩ : BufTy).Contents (Elt F) → (⟨S32x2000000, .f32⟩ : BufTy).Contents (Elt F)),
    StableHlo.binary main_v106 main_v118 main_v119 (addf : (⟨S32x2000000, .f32⟩ : BufTy).Contents (Elt F) → (⟨S32x2000000, .f32⟩ : BufTy).Contents (Elt F) → (⟨S32x2000000, .f32⟩ : BufTy).Contents (Elt F)) ]

set_option maxRecDepth 8192 in
theorem opsZb_sub : (opsZb : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nullary_bufs_sub .., unary_bufs_sub .., unary_bufs_sub .., unary_bufs_sub .., ternary_bufs_sub .., unary_bufs_sub .., unary_bufs_sub .., binary_bufs_sub .., binary_bufs_sub ..⟩

/-- The buffers these operations write. -/
abbrev opsZb_W : List (Ref sig .tc) := [main_c_38, main_v107, main_v108, main_c_39, main_v109, main_v110, main_v111, main_c_40, main_c_41, main_call15_v0, main_call15_v1, main_call15_v2, main_call15_v3, main_call15_v4, main_v112, main_call16_c, main_call16_v0, main_call16_v1, main_call16_c_0, main_call16_v2, main_call16_v3, main_call16_v4, main_call16_v5, main_call16_c_1, main_call16_c_2, main_call16_v6, main_call16_v7, main_call16_v8, main_call16_v9, main_call16_v10, main_call16_v11, main_call16_c_3, main_call16_v12, main_call16_v13, main_call16_v14, main_call16_cst, main_call16_v15, main_v113, main_v114, main_cst_42, main_call17_v0, main_call17_v1, main_call17_v2, main_v115, main_v116, main_v117, main_v118, main_v119]

set_option maxRecDepth 8192 in
theorem opsZb_writes : (opsZb : List (HloOp τ sig (Elt F))).Forall fun op => op.writes ⊆ (opsZb_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- The product of the three blends and its transpose: statements 166 … 168. -/
abbrev opsT : List (HloOp τ sig (Elt F)) :=
  [ StableHlo.binary main_v39 main_v79 main_v120 (mulf : (⟨S32x2000000, .f32⟩ : BufTy).Contents (Elt F) → (⟨S32x2000000, .f32⟩ : BufTy).Contents (Elt F) → (⟨S32x2000000, .f32⟩ : BufTy).Contents (Elt F)),
    StableHlo.binary main_v120 main_v119 main_v121 (mulf : (⟨S32x2000000, .f32⟩ : BufTy).Contents (Elt F) → (⟨S32x2000000, .f32⟩ : BufTy).Contents (Elt F) → (⟨S32x2000000, .f32⟩ : BufTy).Contents (Elt F)),
    StableHlo.unary main_v121 main_v122 ((transpose S2000000x32 [1, 0] · transposes_S32x2000000_S2000000x32_1_0) : (⟨S32x2000000, .f32⟩ : BufTy).Contents (Elt F) → (⟨S2000000x32, .f32⟩ : BufTy).Contents (Elt F)) ]

set_option maxRecDepth 8192 in
theorem opsT_sub : (opsT : List (HloOp τ sig (Elt F))).Forall fun op => op.bufs ⊆ tcRefs τ sig :=
  ⟨binary_bufs_sub .., binary_bufs_sub .., unary_bufs_sub ..⟩

/-- The buffers these operations write. -/
abbrev opsT_W : List (Ref sig .tc) := [main_v120, main_v121, main_v122]

set_option maxRecDepth 8192 in
theorem opsT_writes : (opsT : List (HloOp τ sig (Elt F))).Forall fun op => op.writes ⊆ (opsT_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

set_option maxRecDepth 8192 in
/-- Window 0 of the program's text is these three runs: the outlined functions unfolded at their calls, both sides
    are one chain of steps once sequencing is reassociated. -/
theorem main_part0_eq (c : Dev nD) : main_part0 (F := F) c = seq (opsXa ++ (opsXb ++ opsYa1)) := by
  simp only [seq_append]
  simp only [main_part0, fn_clip.body, fn_take.body, fn_where.body, fn_where_0.body, seq, bind_assoc, pure_bind]
  rfl

set_option maxRecDepth 8192 in
/-- Window 1 of the program's text is these three runs: the outlined functions unfolded at their calls, both sides
    are one chain of steps once sequencing is reassociated. -/
theorem main_part1_eq (c : Dev nD) : main_part1 (F := F) c = seq (opsYa2 ++ (opsYb ++ opsZa1)) := by
  simp only [seq_append]
  simp only [main_part1, fn_clip.body, fn_take.body, fn_where.body, fn_where_0.body, seq, bind_assoc, pure_bind]
  rfl

set_option maxRecDepth 8192 in
/-- Window 2 of the program's text is these three runs: the outlined functions unfolded at their calls, both sides
    are one chain of steps once sequencing is reassociated. -/
theorem main_part2_eq (c : Dev nD) : main_part2 (F := F) c = seq (opsZa2 ++ (opsZb ++ opsT)) := by
  simp only [seq_append]
  simp only [main_part2, fn_clip.body, fn_take.body, fn_where.body, fn_where_0.body, seq, bind_assoc, pure_bind]

/-- The program's 348 operations, in order. -/
abbrev ops : List (HloOp τ sig (Elt F)) :=
  opsXa ++ (opsXb ++ (opsYa1 ++ (opsYa2 ++ (opsYb ++ (opsZa1 ++ (opsZa2 ++ (opsZb ++ (opsT))))))))

theorem main_eq (c : Dev nD) : main (F := F) c = seq ops := by
  simp only [main, main_part0_eq, main_part1_eq, main_part2_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp opsXa_sub op h, List.forall_iff_forall_mem.mp opsXb_sub op h, List.forall_iff_forall_mem.mp opsYa1_sub op h, List.forall_iff_forall_mem.mp opsYa2_sub op h, List.forall_iff_forall_mem.mp opsYb_sub op h, List.forall_iff_forall_mem.mp opsZa1_sub op h, List.forall_iff_forall_mem.mp opsZa2_sub op h, List.forall_iff_forall_mem.mp opsZb_sub op h, List.forall_iff_forall_mem.mp opsT_sub op h]

end Cert.ReferenceIdeal.RefRun

end
-- ==== Proof.RefValX.lean ====
/-
  Axis x of the reference program, value by value. The axis' operations are re-cut into short runs, one per
  named quantity of the specification term: the grid position, the fraction and the left column word, the right
  column word, and for each neighbour the in-grid mask, the clipped index, the lookup's wrapped index, its column
  form, its range guard, the looked-up columns and their masking; then the left product and the blend. Each run is
  first read on its own, from ANY buffer contents: the buffer it ends in holds one definition of the specification
  applied to the contents of the buffers the run reads. The runs are then chained: the operands are replaced by what
  the earlier runs left, which gives each quantity as a term of the buffers before the axis.
-/
import proofs.«133057_j46351287058969_2_alg».proof.Proof.RefOps
import Idealize.ShloMosaic.Lib.Pipeline.Frame

set_option pp.maxSteps 2000
set_option pp.deepTerms false

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts
abbrev X_l1 : List (HloOp τ sig (Elt F)) :=
  [ StableHlo.unary main_arg0 main_v0 ((extractStridedSlice S2000000x1 ![0, 0] · slices_S2000000x3_S2000000x1_0_0) : (⟨S2000000x3, .f32⟩ : BufTy).Contents (Elt F) → (⟨S2000000x1, .f32⟩ : BufTy).Contents (Elt F)),
    StableHlo.reshape main_v0 main_v1 rfl shapeCasts_S2000000x1_S2000000,
    StableHlo.nullary main_cst (constant S_ .f32 0x3F800000#32),
    StableHlo.unary main_cst main_v2 (broadcastInDim S2000000 ![] bcast_S_S2000000 : (⟨S_, .f32⟩ : BufTy).Contents (Elt F) → (⟨S2000000, .f32⟩ : BufTy).Contents (Elt F)),
    StableHlo.binary main_v1 main_v2 main_v3 (addf : (⟨S2000000, .f32⟩ : BufTy).Contents (Elt F) → (⟨S2000000, .f32⟩ : BufTy).Contents (Elt F) → (⟨S2000000, .f32⟩ : BufTy).Contents (Elt F)),
    StableHlo.nullary main_cst_0 (constant S_ .f32 0x3F000000#32),
    StableHlo.unary main_cst_0 main_v4 (broadcastInDim S2000000 ![] bcast_S_S2000000 : (⟨S_, .f32⟩ : BufTy).Contents (Elt F) → (⟨S2000000, .f32⟩ : BufTy).Contents (Elt F)),
    StableHlo.binary main_v3 main_v4 main_v5 (mulf : (⟨S2000000, .f32⟩ : BufTy).Contents (Elt F) → (⟨S2000000, .f32⟩ : BufTy).Contents (Elt F) → (⟨S2000000, .f32⟩ : BufTy).Contents (Elt F)),
    StableHlo.nullary main_cst_1 (constant S_ .f32 0x43FF8000#32),
    StableHlo.unary main_cst_1 main_v6 (broadcastInDim S2000000 ![] bcast_S_S2000000 : (⟨S_, .f32⟩ : BufTy).Contents (Elt F) → (⟨S2000000, .f32⟩ : BufTy).Contents (Elt F)),
    StableHlo.binary main_v5 main_v6 main_v7 (mulf : (⟨S2000000, .f32⟩ : BufTy).Contents (Elt F) → (⟨S2000000, .f32⟩ : BufTy).Contents (Elt F) → (⟨S2000000, .f32⟩ : BufTy).Contents (Elt F)) ]
abbrev X_l1_W : List (Ref sig .tc) := [main_v0, main_v1, main_cst, main_v2, main_v3, main_cst_0, main_v4, main_v5, main_cst_1, main_v6, main_v7]
theorem X_l1_writes : (X_l1 : List (HloOp τ sig (Elt F))).Forall fun op => op.writes ⊆ (X_l1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem X_s1_main_v7 (W : Valuation τ sig (Elt F)) : after X_l1 W (Proc.devRef .tc main_v7) = RefTerm.gridPos (RefTerm.coord0 (F := F) (W (Proc.devRef .tc main_arg0))) := by
  simp only [X_l1]
  after_results_simp <;> rfl
def X_val1 (W : Valuation τ sig (Elt F)) : Valuation τ sig (Elt F) := after X_l1 W
theorem X_val1_keep (W : Valuation τ sig (Elt F)) (r : Ref sig .tc) (h : r ∉ X_l1_W) :
    X_val1 W (Proc.devRef .tc r) = W (Proc.devRef .tc r) :=
  after_of_writes_sub X_l1 _ X_l1_writes h
theorem X_val1_main_arg1 (W : Valuation τ sig (Elt F)) : X_val1 W (no_index (Proc.devRef .tc main_arg1)) = W (Proc.devRef .tc main_arg1) :=
  X_val1_keep W main_arg1 (by decide)
theorem X_val1_main_v7 (W : Valuation τ sig (Elt F)) : X_val1 W (no_index (Proc.devRef .tc main_v7)) = RefTerm.gridPos (RefTerm.coord0 (F := F) (W (Proc.devRef .tc main_arg0))) :=
  (X_s1_main_v7 W).trans (by rfl)

abbrev X_l2 : List (HloOp τ sig (Elt F)) :=
  [ StableHlo.unary main_v7 main_v8 (Host.floor : (⟨S2000000, .f32⟩ : BufTy).Contents (Elt F) → (⟨S2000000, .f32⟩ : BufTy).Contents (Elt F)),
    StableHlo.binary main_v7 main_v8 main_v9 (subf : (⟨S2000000, .f32⟩ : BufTy).Contents (Elt F) → (⟨S2000000, .f32⟩ : BufTy).Contents (Elt F) → (⟨S2000000, .f32⟩ : BufTy).Contents (Elt F)),
    StableHlo.unary main_v8 main_v10 (fptosi 32 : (⟨S2000000, .f32⟩ : BufTy).Contents (Elt F) → (⟨S2000000, .i32⟩ : BufTy).Contents (Elt F)) ]
abbrev X_l2_W : List (Ref sig .tc) := [main_v8, main_v9, main_v10]
theorem X_l2_writes : (X_l2 : List (HloOp τ sig (Elt F))).Forall fun op => op.writes ⊆ (X_l2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem X_s2_main_v9 (W : Valuation τ sig (Elt F)) : after X_l2 W (Proc.devRef .tc main_v9) = subf (W (Proc.devRef .tc main_v7)) (Host.floor (W (Proc.devRef .tc main_v7))) := by
  simp only [X_l2]
  after_results_simp <;> rfl
/-- The run alone, from any contents. -/
theorem X_s2_main_v10 (W : Valuation τ sig (Elt F)) : after X_l2 W (Proc.devRef .tc main_v10) = fptosi 32 (Host.floor (W (Proc.devRef .tc main_v7))) := by
  simp only [X_l2]
  after_results_simp <;> rfl
def X_val2 (W : Valuation τ sig (Elt F)) : Valuation τ sig (Elt F) := after X_l2 (X_val1 W)
theorem X_val2_keep (W : Valuation τ sig (Elt F)) (r : Ref sig .tc) (h : r ∉ X_l2_W) :
    X_val2 W (Proc.devRef .tc r) = X_val1 W (Proc.devRef .tc r) :=
  after_of_writes_sub X_l2 _ X_l2_writes h
theorem X_val2_main_arg1 (W : Valuation τ sig (Elt F)) : X_val2 W (no_index (Proc.devRef .tc main_arg1)) = W (Proc.devRef .tc main_arg1) :=
  (X_val2_keep W main_arg1 (by decide)).trans (X_val1_main_arg1 W)
theorem X_val2_main_v9 (W : Valuation τ sig (Elt F)) : X_val2 W (no_index (Proc.devRef .tc main_v9)) = RefTerm.frac (RefTerm.coord0 (F := F) (W (Proc.devRef .tc main_arg0))) :=
  (X_s2_main_v9 (X_val1 W)).trans (by simp only [X_val1_main_v7] <;> rfl)
theorem X_val2_main_v10 (W : Valuation τ sig (Elt F)) : X_val2 W (no_index (Proc.devRef .tc main_v10)) = RefTerm.lo (RefTerm.coord0 (F := F) (W (Proc.devRef .tc main_arg0))) :=
  (X_s2_main_v10 (X_val1 W)).trans (by simp only [X_val1_main_v7] <;> rfl)

abbrev X_l3 : List (HloOp τ sig (Elt F)) :=
  [ StableHlo.nullary main_c (constantI S_ 32 1#32),
    StableHlo.unary main_c main_v11 (broadcastInDim S2000000 ![] bcast_S_S2000000 : (⟨S_, .i32⟩ : BufTy).Contents (Elt F) → (⟨S2000000, .i32⟩ : BufTy).Contents (Elt F)),
    StableHlo.binary main_v10 main_v11 main_v12 (addi : (⟨S2000000, .i32⟩ : BufTy).Contents (Elt F) → (⟨S2000000, .i32⟩ : BufTy).Contents (Elt F) → (⟨S2000000, .i32⟩ : BufTy).Contents (Elt F)) ]
abbrev X_l3_W : List (Ref sig .tc) := [main_c, main_v11, main_v12]
theorem X_l3_writes : (X_l3 : List (HloOp τ sig (Elt F))).Forall fun op => op.writes ⊆ (X_l3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem X_s3_main_v12 (W : Valuation τ sig (Elt F)) : after X_l3 W (Proc.devRef .tc main_v12) = addi (W (Proc.devRef .tc main_v10)) (RefTerm.bcI 1#32) := by
  simp only [X_l3]
  after_results_simp <;> rfl
def X_val3 (W : Valuation τ sig (Elt F)) : Valuation τ sig (Elt F) := after X_l3 (X_val2 W)
theorem X_val3_keep (W : Valuation τ sig (Elt F)) (r : Ref sig .tc) (h : r ∉ X_l3_W) :
    X_val3 W (Proc.devRef .tc r) = X_val2 W (Proc.devRef .tc r) :=
  after_of_writes_sub X_l3 _ X_l3_writes h
theorem X_val3_main_arg1 (W : Valuation τ sig (Elt F)) : X_val3 W (no_index (Proc.devRef .tc main_arg1)) = W (Proc.devRef .tc main_arg1) :=
  (X_val3_keep W main_arg1 (by decide)).trans (X_val2_main_arg1 W)
theorem X_val3_main_v9 (W : Valuation τ sig (Elt F)) : X_val3 W (no_index (Proc.devRef .tc main_v9)) = RefTerm.frac (RefTerm.coord0 (F := F) (W (Proc.devRef .tc main_arg0))) :=
  (X_val3_keep W main_v9 (by decide)).trans (X_val2_main_v9 W)
theorem X_val3_main_v10 (W : Valuation τ sig (Elt F)) : X_val3 W (no_index (Proc.devRef .tc main_v10)) = RefTerm.lo (RefTerm.coord0 (F := F) (W (Proc.devRef .tc main_arg0))) :=
  (X_val3_keep W main_v10 (by decide)).trans (X_val2_main_v10 W)
theorem X_val3_main_v12 (W : Valuation τ sig (Elt F)) : X_val3 W (no_index (Proc.devRef .tc main_v12)) = RefTerm.hi (RefTerm.coord0 (F := F) (W (Proc.devRef .tc main_arg0))) :=
  (X_s3_main_v12 (X_val2 W)).trans (by simp only [X_val2_main_v10] <;> rfl)

abbrev X_l4 : List (HloOp τ sig (Elt F)) :=
  [ StableHlo.nullary main_c_2 (constantI S_ 32 0#32),
    StableHlo.unary main_c_2 main_v13 (broadcastInDim S2000000 ![] bcast_S_S2000000 : (⟨S_, .i32⟩ : BufTy).Contents (Elt F) → (⟨S2000000, .i32⟩ : BufTy).Contents (Elt F)),
    StableHlo.binary main_v10 main_v13 main_v14 (cmpi .sge : (⟨S2000000, .i32⟩ : BufTy).Contents (Elt F) → (⟨S2000000, .i32⟩ : BufTy).Contents (Elt F) → (⟨S2000000, .i1⟩ : BufTy).Contents (Elt F)),
    StableHlo.nullary main_c_3 (constantI S_ 32 512#32),
    StableHlo.unary main_c_3 main_v15 (broadcastInDim S2000000 ![] bcast_S_S2000000 : (⟨S_, .i32⟩ : BufTy).Contents (Elt F) → (⟨S2000000, .i32⟩ : BufTy).Contents (Elt F)),
    StableHlo.binary main_v10 main_v15 main_v16 (cmpi .slt : (⟨S2000000, .i32⟩ : BufTy).Contents (Elt F) → (⟨S2000000, .i32⟩ : BufTy).Contents (Elt F) → (⟨S2000000, .i1⟩ : BufTy).Contents (Elt F)),
    StableHlo.binary main_v14 main_v16 main_v17 (andi : (⟨S2000000, .i1⟩ : BufTy).Contents (Elt F) → (⟨S2000000, .i1⟩ : BufTy).Contents (Elt F) → (⟨S2000000, .i1⟩ : BufTy).Contents (Elt F)) ]
abbrev X_l4_W : List (Ref sig .tc) := [main_c_2, main_v13, main_v14, main_c_3, main_v15, main_v16, main_v17]
theorem X_l4_writes : (X_l4 : List (HloOp τ sig (Elt F))).Forall fun op => op.writes ⊆ (X_l4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem X_s4_main_v17 (W : Valuation τ sig (Elt F)) : after X_l4 W (Proc.devRef .tc main_v17) = RefTerm.inGrid (W (Proc.devRef .tc main_v10)) := by
  simp only [X_l4]
  after_results_simp <;> rfl
def X_val4 (W : Valuation τ sig (Elt F)) : Valuation τ sig (Elt F) := after X_l4 (X_val3 W)
theorem X_val4_keep (W : Valuation τ sig (Elt F)) (r : Ref sig .tc) (h : r ∉ X_l4_W) :
    X_val4 W (Proc.devRef .tc r) = X_val3 W (Proc.devRef .tc r) :=
  after_of_writes_sub X_l4 _ X_l4_writes h
theorem X_val4_main_arg1 (W : Valuation τ sig (Elt F)) : X_val4 W (no_index (Proc.devRef .tc main_arg1)) = W (Proc.devRef .tc main_arg1) :=
  (X_val4_keep W main_arg1 (by decide)).trans (X_val3_main_arg1 W)
theorem X_val4_main_v9 (W : Valuation τ sig (Elt F)) : X_val4 W (no_index (Proc.devRef .tc main_v9)) = RefTerm.frac (RefTerm.coord0 (F := F) (W (Proc.devRef .tc main_arg0))) :=
  (X_val4_keep W main_v9 (by decide)).trans (X_val3_main_v9 W)
theorem X_val4_main_v10 (W : Valuation τ sig (Elt F)) : X_val4 W (no_index (Proc.devRef .tc main_v10)) = RefTerm.lo (RefTerm.coord0 (F := F) (W (Proc.devRef .tc main_arg0))) :=
  (X_val4_keep W main_v10 (by decide)).trans (X_val3_main_v10 W)
theorem X_val4_main_v12 (W : Valuation τ sig (Elt F)) : X_val4 W (no_index (Proc.devRef .tc main_v12)) = RefTerm.hi (RefTerm.coord0 (F := F) (W (Proc.devRef .tc main_arg0))) :=
  (X_val4_keep W main_v12 (by decide)).trans (X_val3_main_v12 W)
theorem X_val4_main_v17 (W : Valuation τ sig (Elt F)) : X_val4 W (no_index (Proc.devRef .tc main_v17)) = RefTerm.inGrid (RefTerm.lo (RefTerm.coord0 (F := F) (W (Proc.devRef .tc main_arg0)))) :=
  (X_s4_main_v17 (X_val3 W)).trans (by simp only [X_val3_main_v10] <;> rfl)

abbrev X_l5 : List (HloOp τ sig (Elt F)) :=
  [ StableHlo.nullary main_c_4 (constantI S_ 32 0#32),
    StableHlo.nullary main_c_5 (constantI S_ 32 511#32),
    StableHlo.TRef.unary (StableHlo.TRef.of main_c_4 : StableHlo.TRef sig ⟨S_, .i32⟩) main_call0.v0 id,
    StableHlo.TRef.unary main_call0.v0 main_call0.v1 (broadcastInDim S2000000 ![] bcast_S_S2000000),
    StableHlo.TRef.binary main_call0.v1 (StableHlo.TRef.of main_v10 : StableHlo.TRef sig ⟨S2000000, .i32⟩) main_call0.v2 maxsi,
    StableHlo.TRef.unary (StableHlo.TRef.of main_c_5 : StableHlo.TRef sig ⟨S_, .i32⟩) main_call0.v3 id,
    StableHlo.TRef.unary main_call0.v3 main_call0.v4 (broadcastInDim S2000000 ![] bcast_S_S2000000),
    StableHlo.TRef.binary main_call0.v4 main_call0.v2 main_call0.v5 minsi ]
abbrev X_l5_W : List (Ref sig .tc) := [main_c_4, main_c_5, main_call0_v0, main_call0_v1, main_call0_v2, main_call0_v3, main_call0_v4, main_v18]
theorem X_l5_writes : (X_l5 : List (HloOp τ sig (Elt F))).Forall fun op => op.writes ⊆ (X_l5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem X_s5_main_v18 (W : Valuation τ sig (Elt F)) : after X_l5 W (Proc.devRef .tc main_v18) = RefTerm.clip (W (Proc.devRef .tc main_v10)) := by
  simp only [X_l5]
  after_results_simp
  simp only [TRef.toBuf, TRef.ofBuf, cast_cast, cast_eq, id_eq] <;> rfl
def X_val5 (W : Valuation τ sig (Elt F)) : Valuation τ sig (Elt F) := after X_l5 (X_val4 W)
theorem X_val5_keep (W : Valuation τ sig (Elt F)) (r : Ref sig .tc) (h : r ∉ X_l5_W) :
    X_val5 W (Proc.devRef .tc r) = X_val4 W (Proc.devRef .tc r) :=
  after_of_writes_sub X_l5 _ X_l5_writes h
theorem X_val5_main_arg1 (W : Valuation τ sig (Elt F)) : X_val5 W (no_index (Proc.devRef .tc main_arg1)) = W (Proc.devRef .tc main_arg1) :=
  (X_val5_keep W main_arg1 (by decide)).trans (X_val4_main_arg1 W)
theorem X_val5_main_v9 (W : Valuation τ sig (Elt F)) : X_val5 W (no_index (Proc.devRef .tc main_v9)) = RefTerm.frac (RefTerm.coord0 (F := F) (W (Proc.devRef .tc main_arg0))) :=
  (X_val5_keep W main_v9 (by decide)).trans (X_val4_main_v9 W)
theorem X_val5_main_v12 (W : Valuation τ sig (Elt F)) : X_val5 W (no_index (Proc.devRef .tc main_v12)) = RefTerm.hi (RefTerm.coord0 (F := F) (W (Proc.devRef .tc main_arg0))) :=
  (X_val5_keep W main_v12 (by decide)).trans (X_val4_main_v12 W)
theorem X_val5_main_v17 (W : Valuation τ sig (Elt F)) : X_val5 W (no_index (Proc.devRef .tc main_v17)) = RefTerm.inGrid (RefTerm.lo (RefTerm.coord0 (F := F) (W (Proc.devRef .tc main_arg0)))) :=
  (X_val5_keep W main_v17 (by decide)).trans (X_val4_main_v17 W)
theorem X_val5_main_v18 (W : Valuation τ sig (Elt F)) : X_val5 W (no_index (Proc.devRef .tc main_v18)) = RefTerm.clip (RefTerm.lo (RefTerm.coord0 (F := F) (W (Proc.devRef .tc main_arg0)))) :=
  (X_s5_main_v18 (X_val4 W)).trans (by simp only [X_val4_main_v10] <;> rfl)

abbrev X_l6 : List (HloOp τ sig (Elt F)) :=
  [ StableHlo.TRef.nullary main_call1.c (constantI S_ 32 0#32),
    StableHlo.TRef.unary main_call1.c main_call1.v0 (broadcastInDim S2000000 ![] bcast_S_S2000000),
    StableHlo.TRef.binary (StableHlo.TRef.of main_v18 : StableHlo.TRef sig ⟨S2000000, .i32⟩) main_call1.v0 main_call1.v1 (cmpi .slt),
    StableHlo.TRef.nullary main_call1.c_0 (constantI S_ 32 512#32),
    StableHlo.TRef.unary main_call1.c_0 main_call1.v2 (broadcastInDim S2000000 ![] bcast_S_S2000000),
    StableHlo.TRef.binary (StableHlo.TRef.of main_v18 : StableHlo.TRef sig ⟨S2000000, .i32⟩) main_call1.v2 main_call1.v3 addi,
    StableHlo.TRef.ternary main_call1.v1 main_call1.v3 (StableHlo.TRef.of main_v18 : StableHlo.TRef sig ⟨S2000000, .i32⟩) main_call1.call0.v0 select ]
abbrev X_l6_W : List (Ref sig .tc) := [main_call1_c, main_call1_v0, main_call1_v1, main_call1_c_0, main_call1_v2, main_call1_v3, main_call1_v4]
theorem X_l6_writes : (X_l6 : List (HloOp τ sig (Elt F))).Forall fun op => op.writes ⊆ (X_l6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem X_s6_main_call1_v4 (W : Valuation τ sig (Elt F)) : after X_l6 W (Proc.devRef .tc main_call1_v4) = RefTerm.wrapNeg (W (Proc.devRef .tc main_v18)) := by
  simp only [X_l6]
  after_results_simp
  simp only [TRef.toBuf, TRef.ofBuf, cast_cast, cast_eq, id_eq] <;> rfl
def X_val6 (W : Valuation τ sig (Elt F)) : Valuation τ sig (Elt F) := after X_l6 (X_val5 W)
theorem X_val6_keep (W : Valuation τ sig (Elt F)) (r : Ref sig .tc) (h : r ∉ X_l6_W) :
    X_val6 W (Proc.devRef .tc r) = X_val5 W (Proc.devRef .tc r) :=
  after_of_writes_sub X_l6 _ X_l6_writes h
theorem X_val6_main_arg1 (W : Valuation τ sig (Elt F)) : X_val6 W (no_index (Proc.devRef .tc main_arg1)) = W (Proc.devRef .tc main_arg1) :=
  (X_val6_keep W main_arg1 (by decide)).trans (X_val5_main_arg1 W)
theorem X_val6_main_v9 (W : Valuation τ sig (Elt F)) : X_val6 W (no_index (Proc.devRef .tc main_v9)) = RefTerm.frac (RefTerm.coord0 (F := F) (W (Proc.devRef .tc main_arg0))) :=
  (X_val6_keep W main_v9 (by decide)).trans (X_val5_main_v9 W)
theorem X_val6_main_v12 (W : Valuation τ sig (Elt F)) : X_val6 W (no_index (Proc.devRef .tc main_v12)) = RefTerm.hi (RefTerm.coord0 (F := F) (W (Proc.devRef .tc main_arg0))) :=
  (X_val6_keep W main_v12 (by decide)).trans (X_val5_main_v12 W)
theorem X_val6_main_v17 (W : Valuation τ sig (Elt F)) : X_val6 W (no_index (Proc.devRef .tc main_v17)) = RefTerm.inGrid (RefTerm.lo (RefTerm.coord0 (F := F) (W (Proc.devRef .tc main_arg0)))) :=
  (X_val6_keep W main_v17 (by decide)).trans (X_val5_main_v17 W)
theorem X_val6_main_call1_v4 (W : Valuation τ sig (Elt F)) : X_val6 W (no_index (Proc.devRef .tc main_call1_v4)) = RefTerm.wrapNeg (RefTerm.clip (RefTerm.lo (RefTerm.coord0 (F := F) (W (Proc.devRef .tc main_arg0))))) :=
  (X_s6_main_call1_v4 (X_val5 W)).trans (by simp only [X_val5_main_v18] <;> rfl)

abbrev X_l7 : List (HloOp τ sig (Elt F)) :=
  [ StableHlo.TRef.unary main_call1.call0.v0 main_call1.v5 (broadcastInDim S2000000x1 ![0] bcast_S2000000_S2000000x1_0) ]
abbrev X_l7_W : List (Ref sig .tc) := [main_call1_v5]
theorem X_l7_writes : (X_l7 : List (HloOp τ sig (Elt F))).Forall fun op => op.writes ⊆ (X_l7_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- The run alone, from any contents. -/
theorem X_s7_main_call1_v5 (W : Valuation τ sig (Elt F)) : after X_l7 W (Proc.devRef .tc main_call1_v5) = RefTerm.col (W (Proc.devRef .tc main_call1_v4)) := by
  simp only [X_l7]
  after_results_simp
  simp only [TRef.toBuf, TRef.ofBuf, cast_cast, cast_eq, id_eq] <;> rfl
def X_val7 (W : Valuation τ sig (Elt F)) : Valuation τ sig (Elt F) := after X_l7 (X_val6 W)
theorem X_val7_keep (W : Valuation τ sig (Elt F)) (r : Ref sig .tc) (h : r ∉ X_l7_W) :
    X_val7 W (Proc.devRef .tc r) = X_val6 W (Proc.devRef .tc r) :=
  after_of_writes_sub X_l7 _ X_l7_writes h
theorem X_val7_main_arg1 (W : Valuation τ sig (Elt F)) : X_val7 W (no_index (Proc.devRef .tc main_arg1)) = W (Proc.devRef .tc main_arg1) :=
  (X_val7_keep W main_arg1 (by decide)).trans (X_val6_main_arg1 W)
theorem X_val7_main_v9 (W : Valuation τ sig (Elt F)) : X_val7 W (no_index (Proc.devRef .tc main_v9)) = RefTerm.frac (RefTerm.coord0 (F := F) (W (Proc.devRef .tc main_arg0))) :=
  (X_val7_keep W main_v9 (by decide)).trans (X_val6_main_v9 W)
theorem X_val7_main_v12 (W : Valuation τ sig (Elt F)) : X_val7 W (no_index (Proc.devRef .tc main_v12)) = RefTerm.hi (RefTerm.coord0 (F := F) (W (Proc.devRef .tc main_arg0))) :=
  (X_val7_keep W main_v12 (by decide)).trans (X_val6_main_v12 W)
theorem X_val7_main_v17 (W : Valuation τ sig (Elt F)) : X_val7 W (no_index (Proc.devRef .tc main_v17)) = RefTerm.inGrid (RefTerm.lo (RefTerm.coord0 (F := F) (W (Proc.devRef .tc main_arg0)))) :=
  (X_val7_keep W main_v17 (by decide)).trans (X_val6_main_v17 W)
theorem X_val7_main_call1_v5 (W : Valuation τ sig (Elt F)) : X_val7 W (no_index (Proc.devRef .tc main_call1_v5)) = RefTerm.col (RefTerm.wrapNeg (RefTerm.clip (RefTerm.lo (RefTerm.coord0 (F := F) (W (Proc.devRef .tc main_arg0)))))) :=
  (X_s7_main_call1_v5 (X_val6 W)).trans (by simp only [X_val6_main_call1_v4] <;> rfl)

abbrev X_l8 : List (HloOp τ sig (Elt F)) :=
  [ StableHlo.TRef.nullary main_call1.c_1 (constantI S1 32 511#32),
    StableHlo.TRef.nullary main_call1.c_2 (constantI S_ 32 0#32),
    StableHlo.TRef.unary main_call1.c_2 main_call1.v6 (broadcastInDim S2000000x1 ![] bcast_S_S2000000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S2000000x1 ![0, 1] bcast_S1x1_S2000000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S2000000x1_S2000000_d1 h_S_) ]
abbrev X_l8_W : List (Ref sig .tc) := [main_call1_c_1, main_call1_c_2, main_call1_v6, main_call1_v7, main_call1_v8, main_call1_v9, main_call1_v10, main_call1_v11, main_call1_c_3, main_call1_v12]
theorem X_l8_writes : (X_l8 : List (HloOp τ sig (Elt F))).Forall fun op => op.writes ⊆ (X_l8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem X_s8_main_call1_v12 (W : Valuation τ sig (Elt F)) : after X_l8 W (Proc.devRef .tc main_call1_v12) = RefTerm.inTable (W (Proc.devRef .tc main_call1_v5)) := by
  simp only [X_l8]
  after_results_simp
  simp only [TRef.toBuf, TRef.ofBuf, cast_cast, cast_eq, id_eq] <;> rfl
def X_val8 (W : Valuation τ sig (Elt F)) : Valuation τ sig (Elt F) := after X_l8 (X_val7 W)
theorem X_val8_keep (W : Valuation τ sig (Elt F)) (r : Ref sig .tc) (h : r ∉ X_l8_W) :
    X_val8 W (Proc.devRef .tc r) = X_val7 W (Proc.devRef .tc r) :=
  after_of_writes_sub X_l8 _ X_l8_writes h
theorem X_val8_main_arg1 (W : Valuation τ sig (Elt F)) : X_val8 W (no_index (Proc.devRef .tc main_arg1)) = W (Proc.devRef .tc main_arg1) :=
  (X_val8_keep W main_arg1 (by decide)).trans (X_val7_main_arg1 W)
theorem X_val8_main_v9 (W : Valuation τ sig (Elt F)) : X_val8 W (no_index (Proc.devRef .tc main_v9)) = RefTerm.frac (RefTerm.coord0 (F := F) (W (Proc.devRef .tc main_arg0))) :=
  (X_val8_keep W main_v9 (by decide)).trans (X_val7_main_v9 W)
theorem X_val8_main_v12 (W : Valuation τ sig (Elt F)) : X_val8 W (no_index (Proc.devRef .tc main_v12)) = RefTerm.hi (RefTerm.coord0 (F := F) (W (Proc.devRef .tc main_arg0))) :=
  (X_val8_keep W main_v12 (by decide)).trans (X_val7_main_v12 W)
theorem X_val8_main_v17 (W : Valuation τ sig (Elt F)) : X_val8 W (no_index (Proc.devRef .tc main_v17)) = RefTerm.inGrid (RefTerm.lo (RefTerm.coord0 (F := F) (W (Proc.devRef .tc main_arg0)))) :=
  (X_val8_keep W main_v17 (by decide)).trans (X_val7_main_v17 W)
theorem X_val8_main_call1_v5 (W : Valuation τ sig (Elt F)) : X_val8 W (no_index (Proc.devRef .tc main_call1_v5)) = RefTerm.col (RefTerm.wrapNeg (RefTerm.clip (RefTerm.lo (RefTerm.coord0 (F := F) (W (Proc.devRef .tc main_arg0)))))) :=
  (X_val8_keep W main_call1_v5 (by decide)).trans (X_val7_main_call1_v5 W)
theorem X_val8_main_call1_v12 (W : Valuation τ sig (Elt F)) : X_val8 W (no_index (Proc.devRef .tc main_call1_v12)) = RefTerm.inTable (RefTerm.col (RefTerm.wrapNeg (RefTerm.clip (RefTerm.lo (RefTerm.coord0 (F := F) (W (Proc.devRef .tc main_arg0))))))) :=
  (X_s8_main_call1_v12 (X_val7 W)).trans (by simp only [X_val7_main_call1_v5] <;> rfl)

abbrev X_l9 : List (HloOp τ sig (Elt F)) :=
  [ StableHlo.TRef.binary (StableHlo.TRef.of main_arg1 : StableHlo.TRef sig ⟨S32x512, .f32⟩) main_call1.v5 main_call1.v13 (fun x i => Host.gather gather_S32x512_S2000000x1_S32x2000000_0_1_n_n_1_1_321 x i),
    StableHlo.TRef.unary main_call1.v12 main_call1.v14 (broadcastInDim S32x2000000 ![1] bcast_S2000000_S32x2000000_1),
    StableHlo.TRef.nullary main_call1.cst (constant S_ .f32 0x7FC00000#32),
    StableHlo.TRef.unary main_call1.cst main_call1.v15 (broadcastInDim S32x2000000 ![] bcast_S_S32x2000000),
    StableHlo.TRef.ternary main_call1.v14 main_call1.v13 main_call1.v15 main_call1.v16 select ]
abbrev X_l9_W : List (Ref sig .tc) := [main_call1_v13, main_call1_v14, main_call1_cst, main_call1_v15, main_v19]
theorem X_l9_writes : (X_l9 : List (HloOp τ sig (Elt F))).Forall fun op => op.writes ⊆ (X_l9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem X_s9_main_v19 (W : Valuation τ sig (Elt F)) : after X_l9 W (Proc.devRef .tc main_v19) = select (broadcastInDim S32x2000000 ![1] bcast_S2000000_S32x2000000_1 (W (Proc.devRef .tc main_call1_v12))) (Host.gather gather_S32x512_S2000000x1_S32x2000000_0_1_n_n_1_1_321 (W (Proc.devRef .tc main_arg1)) (W (Proc.devRef .tc main_call1_v5))) (broadcastInDim S32x2000000 ![] bcast_S_S32x2000000 (constant (F := F) S_ .f32 0x7FC00000#32)) := by
  simp only [X_l9]
  after_results_simp
  simp only [TRef.toBuf, TRef.ofBuf, cast_cast, cast_eq, id_eq] <;> rfl
def X_val9 (W : Valuation τ sig (Elt F)) : Valuation τ sig (Elt F) := after X_l9 (X_val8 W)
theorem X_val9_keep (W : Valuation τ sig (Elt F)) (r : Ref sig .tc) (h : r ∉ X_l9_W) :
    X_val9 W (Proc.devRef .tc r) = X_val8 W (Proc.devRef .tc r) :=
  after_of_writes_sub X_l9 _ X_l9_writes h
theorem X_val9_main_arg1 (W : Valuation τ sig (Elt F)) : X_val9 W (no_index (Proc.devRef .tc main_arg1)) = W (Proc.devRef .tc main_arg1) :=
  (X_val9_keep W main_arg1 (by decide)).trans (X_val8_main_arg1 W)
theorem X_val9_main_v9 (W : Valuation τ sig (Elt F)) : X_val9 W (no_index (Proc.devRef .tc main_v9)) = RefTerm.frac (RefTerm.coord0 (F := F) (W (Proc.devRef .tc main_arg0))) :=
  (X_val9_keep W main_v9 (by decide)).trans (X_val8_main_v9 W)
theorem X_val9_main_v12 (W : Valuation τ sig (Elt F)) : X_val9 W (no_index (Proc.devRef .tc main_v12)) = RefTerm.hi (RefTerm.coord0 (F := F) (W (Proc.devRef .tc main_arg0))) :=
  (X_val9_keep W main_v12 (by decide)).trans (X_val8_main_v12 W)
theorem X_val9_main_v17 (W : Valuation τ sig (Elt F)) : X_val9 W (no_index (Proc.devRef .tc main_v17)) = RefTerm.inGrid (RefTerm.lo (RefTerm.coord0 (F := F) (W (Proc.devRef .tc main_arg0)))) :=
  (X_val9_keep W main_v17 (by decide)).trans (X_val8_main_v17 W)
theorem X_val9_main_v19 (W : Valuation τ sig (Elt F)) : X_val9 W (no_index (Proc.devRef .tc main_v19)) = RefTerm.take (W (Proc.devRef .tc main_arg1)) (RefTerm.clip (RefTerm.lo (RefTerm.coord0 (F := F) (W (Proc.devRef .tc main_arg0))))) :=
  (X_s9_main_v19 (X_val8 W)).trans (by simp only [X_val8_main_call1_v12, X_val8_main_call1_v5, X_val8_main_arg1] <;> rfl)

abbrev X_l10 : List (HloOp τ sig (Elt F)) :=
  [ StableHlo.unary main_v17 main_v20 (broadcastInDim S1x2000000 ![1] bcast_S2000000_S1x2000000_1 : (⟨S2000000, .i1⟩ : BufTy).Contents (Elt F) → (⟨S1x2000000, .i1⟩ : BufTy).Contents (Elt F)),
    StableHlo.nullary main_cst_6 (constant S_ .f32 0x00000000#32),
    StableHlo.TRef.unary (StableHlo.TRef.of main_cst_6 : StableHlo.TRef sig ⟨S_, .f32⟩) main_call2.v0 id,
    StableHlo.TRef.unary (StableHlo.TRef.of main_v20 : StableHlo.TRef sig ⟨S1x2000000, .i1⟩) main_call2.v1 (broadcastInDim S32x2000000 ![0, 1] bcast_S1x2000000_S32x2000000_0_1),
    StableHlo.TRef.unary main_call2.v0 main_call2.v2 (broadcastInDim S32x2000000 ![] bcast_S_S32x2000000),
    StableHlo.TRef.ternary main_call2.v1 (StableHlo.TRef.of main_v19 : StableHlo.TRef sig ⟨S32x2000000, .f32⟩) main_call2.v2 main_call2.v3 select ]
abbrev X_l10_W : List (Ref sig .tc) := [main_v20, main_cst_6, main_call2_v0, main_call2_v1, main_call2_v2, main_v21]
theorem X_l10_writes : (X_l10 : List (HloOp τ sig (Elt F))).Forall fun op => op.writes ⊆ (X_l10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem X_s10_main_v21 (W : Valuation τ sig (Elt F)) : after X_l10 W (Proc.devRef .tc main_v21) = RefTerm.masked (W (Proc.devRef .tc main_v17)) (W (Proc.devRef .tc main_v19)) := by
  simp only [X_l10]
  after_results_simp
  simp only [TRef.toBuf, TRef.ofBuf, cast_cast, cast_eq, id_eq] <;> rfl
def X_val10 (W : Valuation τ sig (Elt F)) : Valuation τ sig (Elt F) := after X_l10 (X_val9 W)
theorem X_val10_keep (W : Valuation τ sig (Elt F)) (r : Ref sig .tc) (h : r ∉ X_l10_W) :
    X_val10 W (Proc.devRef .tc r) = X_val9 W (Proc.devRef .tc r) :=
  after_of_writes_sub X_l10 _ X_l10_writes h
theorem X_val10_main_arg1 (W : Valuation τ sig (Elt F)) : X_val10 W (no_index (Proc.devRef .tc main_arg1)) = W (Proc.devRef .tc main_arg1) :=
  (X_val10_keep W main_arg1 (by decide)).trans (X_val9_main_arg1 W)
theorem X_val10_main_v9 (W : Valuation τ sig (Elt F)) : X_val10 W (no_index (Proc.devRef .tc main_v9)) = RefTerm.frac (RefTerm.coord0 (F := F) (W (Proc.devRef .tc main_arg0))) :=
  (X_val10_keep W main_v9 (by decide)).trans (X_val9_main_v9 W)
theorem X_val10_main_v12 (W : Valuation τ sig (Elt F)) : X_val10 W (no_index (Proc.devRef .tc main_v12)) = RefTerm.hi (RefTerm.coord0 (F := F) (W (Proc.devRef .tc main_arg0))) :=
  (X_val10_keep W main_v12 (by decide)).trans (X_val9_main_v12 W)
theorem X_val10_main_v21 (W : Valuation τ sig (Elt F)) : X_val10 W (no_index (Proc.devRef .tc main_v21)) = RefTerm.masked (RefTerm.inGrid (RefTerm.lo (RefTerm.coord0 (F := F) (W (Proc.devRef .tc main_arg0))))) (RefTerm.take (W (Proc.devRef .tc main_arg1)) (RefTerm.clip (RefTerm.lo (RefTerm.coord0 (F := F) (W (Proc.devRef .tc main_arg0)))))) :=
  (X_s10_main_v21 (X_val9 W)).trans (by simp only [X_val9_main_v17, X_val9_main_v19] <;> rfl)

abbrev X_l11 : List (HloOp τ sig (Elt F)) :=
  [ StableHlo.nullary main_cst_7 (constant S_ .f32 0x3F800000#32),
    StableHlo.unary main_cst_7 main_v22 (broadcastInDim S2000000 ![] bcast_S_S2000000 : (⟨S_, .f32⟩ : BufTy).Contents (Elt F) → (⟨S2000000, .f32⟩ : BufTy).Contents (Elt F)),
    StableHlo.binary main_v22 main_v9 main_v23 (subf : (⟨S2000000, .f32⟩ : BufTy).Contents (Elt F) → (⟨S2000000, .f32⟩ : BufTy).Contents (Elt F) → (⟨S2000000, .f32⟩ : BufTy).Contents (Elt F)),
    StableHlo.unary main_v23 main_v24 (broadcastInDim S1x2000000 ![1] bcast_S2000000_S1x2000000_1 : (⟨S2000000, .f32⟩ : BufTy).Contents (Elt F) → (⟨S1x2000000, .f32⟩ : BufTy).Contents (Elt F)),
    StableHlo.unary main_v24 main_v25 (broadcastInDim S32x2000000 ![0, 1] bcast_S1x2000000_S32x2000000_0_1 : (⟨S1x2000000, .f32⟩ : BufTy).Contents (Elt F) → (⟨S32x2000000, .f32⟩ : BufTy).Contents (Elt F)),
    StableHlo.binary main_v21 main_v25 main_v26 (mulf : (⟨S32x2000000, .f32⟩ : BufTy).Contents (Elt F) → (⟨S32x2000000, .f32⟩ : BufTy).Contents (Elt F) → (⟨S32x2000000, .f32⟩ : BufTy).Contents (Elt F)) ]
abbrev X_l11_W : List (Ref sig .tc) := [main_cst_7, main_v22, main_v23, main_v24, main_v25, main_v26]
theorem X_l11_writes : (X_l11 : List (HloOp τ sig (Elt F))).Forall fun op => op.writes ⊆ (X_l11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem X_s11_main_v26 (W : Valuation τ sig (Elt F)) : after X_l11 W (Proc.devRef .tc main_v26) = mulf (W (Proc.devRef .tc main_v21)) (RefTerm.spread (subf (RefTerm.bcF (F := F) 0x3F800000#32) (W (Proc.devRef .tc main_v9)))) := by
  simp only [X_l11]
  after_results_simp <;> rfl
def X_val11 (W : Valuation τ sig (Elt F)) : Valuation τ sig (Elt F) := after X_l11 (X_val10 W)
theorem X_val11_keep (W : Valuation τ sig (Elt F)) (r : Ref sig .tc) (h : r ∉ X_l11_W) :
    X_val11 W (Proc.devRef .tc r) = X_val10 W (Proc.devRef .tc r) :=
  after_of_writes_sub X_l11 _ X_l11_writes h
theorem X_val11_main_arg1 (W : Valuation τ sig (Elt F)) : X_val11 W (no_index (Proc.devRef .tc main_arg1)) = W (Proc.devRef .tc main_arg1) :=
  (X_val11_keep W main_arg1 (by decide)).trans (X_val10_main_arg1 W)
theorem X_val11_main_v9 (W : Valuation τ sig (Elt F)) : X_val11 W (no_index (Proc.devRef .tc main_v9)) = RefTerm.frac (RefTerm.coord0 (F := F) (W (Proc.devRef .tc main_arg0))) :=
  (X_val11_keep W main_v9 (by decide)).trans (X_val10_main_v9 W)
theorem X_val11_main_v12 (W : Valuation τ sig (Elt F)) : X_val11 W (no_index (Proc.devRef .tc main_v12)) = RefTerm.hi (RefTerm.coord0 (F := F) (W (Proc.devRef .tc main_arg0))) :=
  (X_val11_keep W main_v12 (by decide)).trans (X_val10_main_v12 W)
theorem X_val11_main_v26 (W : Valuation τ sig (Elt F)) : X_val11 W (no_index (Proc.devRef .tc main_v26)) = mulf (RefTerm.masked (RefTerm.inGrid (RefTerm.lo (RefTerm.coord0 (F := F) (W (Proc.devRef .tc main_arg0))))) (RefTerm.take (W (Proc.devRef .tc main_arg1)) (RefTerm.clip (RefTerm.lo (RefTerm.coord0 (F := F) (W (Proc.devRef .tc main_arg0))))))) (RefTerm.spread (subf (RefTerm.bcF (F := F) 0x3F800000#32) (RefTerm.frac (RefTerm.coord0 (F := F) (W (Proc.devRef .tc main_arg0)))))) :=
  (X_s11_main_v26 (X_val10 W)).trans (by simp only [X_val10_main_v21, X_val10_main_v9] <;> rfl)

abbrev X_l12 : List (HloOp τ sig (Elt F)) :=
  [ StableHlo.nullary main_c_8 (constantI S_ 32 0#32),
    StableHlo.unary main_c_8 main_v27 (broadcastInDim S2000000 ![] bcast_S_S2000000 : (⟨S_, .i32⟩ : BufTy).Contents (Elt F) → (⟨S2000000, .i32⟩ : BufTy).Contents (Elt F)),
    StableHlo.binary main_v12 main_v27 main_v28 (cmpi .sge : (⟨S2000000, .i32⟩ : BufTy).Contents (Elt F) → (⟨S2000000, .i32⟩ : BufTy).Contents (Elt F) → (⟨S2000000, .i1⟩ : BufTy).Contents (Elt F)),
    StableHlo.nullary main_c_9 (constantI S_ 32 512#32),
    StableHlo.unary main_c_9 main_v29 (broadcastInDim S2000000 ![] bcast_S_S2000000 : (⟨S_, .i32⟩ : BufTy).Contents (Elt F) → (⟨S2000000, .i32⟩ : BufTy).Contents (Elt F)),
    StableHlo.binary main_v12 main_v29 main_v30 (cmpi .slt : (⟨S2000000, .i32⟩ : BufTy).Contents (Elt F) → (⟨S2000000, .i32⟩ : BufTy).Contents (Elt F) → (⟨S2000000, .i1⟩ : BufTy).Contents (Elt F)),
    StableHlo.binary main_v28 main_v30 main_v31 (andi : (⟨S2000000, .i1⟩ : BufTy).Contents (Elt F) → (⟨S2000000, .i1⟩ : BufTy).Contents (Elt F) → (⟨S2000000, .i1⟩ : BufTy).Contents (Elt F)) ]
abbrev X_l12_W : List (Ref sig .tc) := [main_c_8, main_v27, main_v28, main_c_9, main_v29, main_v30, main_v31]
theorem X_l12_writes : (X_l12 : List (HloOp τ sig (Elt F))).Forall fun op => op.writes ⊆ (X_l12_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem X_s12_main_v31 (W : Valuation τ sig (Elt F)) : after X_l12 W (Proc.devRef .tc main_v31) = RefTerm.inGrid (W (Proc.devRef .tc main_v12)) := by
  simp only [X_l12]
  after_results_simp <;> rfl
def X_val12 (W : Valuation τ sig (Elt F)) : Valuation τ sig (Elt F) := after X_l12 (X_val11 W)
theorem X_val12_keep (W : Valuation τ sig (Elt F)) (r : Ref sig .tc) (h : r ∉ X_l12_W) :
    X_val12 W (Proc.devRef .tc r) = X_val11 W (Proc.devRef .tc r) :=
  after_of_writes_sub X_l12 _ X_l12_writes h
theorem X_val12_main_arg1 (W : Valuation τ sig (Elt F)) : X_val12 W (no_index (Proc.devRef .tc main_arg1)) = W (Proc.devRef .tc main_arg1) :=
  (X_val12_keep W main_arg1 (by decide)).trans (X_val11_main_arg1 W)
theorem X_val12_main_v9 (W : Valuation τ sig (Elt F)) : X_val12 W (no_index (Proc.devRef .tc main_v9)) = RefTerm.frac (RefTerm.coord0 (F := F) (W (Proc.devRef .tc main_arg0))) :=
  (X_val12_keep W main_v9 (by decide)).trans (X_val11_main_v9 W)
theorem X_val12_main_v12 (W : Valuation τ sig (Elt F)) : X_val12 W (no_index (Proc.devRef .tc main_v12)) = RefTerm.hi (RefTerm.coord0 (F := F) (W (Proc.devRef .tc main_arg0))) :=
  (X_val12_keep W main_v12 (by decide)).trans (X_val11_main_v12 W)
theorem X_val12_main_v26 (W : Valuation τ sig (Elt F)) : X_val12 W (no_index (Proc.devRef .tc main_v26)) = mulf (RefTerm.masked (RefTerm.inGrid (RefTerm.lo (RefTerm.coord0 (F := F) (W (Proc.devRef .tc main_arg0))))) (RefTerm.take (W (Proc.devRef .tc main_arg1)) (RefTerm.clip (RefTerm.lo (RefTerm.coord0 (F := F) (W (Proc.devRef .tc main_arg0))))))) (RefTerm.spread (subf (RefTerm.bcF (F := F) 0x3F800000#32) (RefTerm.frac (RefTerm.coord0 (F := F) (W (Proc.devRef .tc main_arg0)))))) :=
  (X_val12_keep W main_v26 (by decide)).trans (X_val11_main_v26 W)
theorem X_val12_main_v31 (W : Valuation τ sig (Elt F)) : X_val12 W (no_index (Proc.devRef .tc main_v31)) = RefTerm.inGrid (RefTerm.hi (RefTerm.coord0 (F := F) (W (Proc.devRef .tc main_arg0)))) :=
  (X_s12_main_v31 (X_val11 W)).trans (by simp only [X_val11_main_v12] <;> rfl)

abbrev X_l13 : List (HloOp τ sig (Elt F)) :=
  [ StableHlo.nullary main_c_10 (constantI S_ 32 0#32),
    StableHlo.nullary main_c_11 (constantI S_ 32 511#32),
    StableHlo.TRef.unary (StableHlo.TRef.of main_c_10 : StableHlo.TRef sig ⟨S_, .i32⟩) main_call3.v0 id,
    StableHlo.TRef.unary main_call3.v0 main_call3.v1 (broadcastInDim S2000000 ![] bcast_S_S2000000),
    StableHlo.TRef.binary main_call3.v1 (StableHlo.TRef.of main_v12 : StableHlo.TRef sig ⟨S2000000, .i32⟩) main_call3.v2 maxsi,
    StableHlo.TRef.unary (StableHlo.TRef.of main_c_11 : StableHlo.TRef sig ⟨S_, .i32⟩) main_call3.v3 id,
    StableHlo.TRef.unary main_call3.v3 main_call3.v4 (broadcastInDim S2000000 ![] bcast_S_S2000000),
    StableHlo.TRef.binary main_call3.v4 main_call3.v2 main_call3.v5 minsi ]
abbrev X_l13_W : List (Ref sig .tc) := [main_c_10, main_c_11, main_call3_v0, main_call3_v1, main_call3_v2, main_call3_v3, main_call3_v4, main_v32]
theorem X_l13_writes : (X_l13 : List (HloOp τ sig (Elt F))).Forall fun op => op.writes ⊆ (X_l13_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem X_s13_main_v32 (W : Valuation τ sig (Elt F)) : after X_l13 W (Proc.devRef .tc main_v32) = RefTerm.clip (W (Proc.devRef .tc main_v12)) := by
  simp only [X_l13]
  after_results_simp
  simp only [TRef.toBuf, TRef.ofBuf, cast_cast, cast_eq, id_eq] <;> rfl
def X_val13 (W : Valuation τ sig (Elt F)) : Valuation τ sig (Elt F) := after X_l13 (X_val12 W)
theorem X_val13_keep (W : Valuation τ sig (Elt F)) (r : Ref sig .tc) (h : r ∉ X_l13_W) :
    X_val13 W (Proc.devRef .tc r) = X_val12 W (Proc.devRef .tc r) :=
  after_of_writes_sub X_l13 _ X_l13_writes h
theorem X_val13_main_arg1 (W : Valuation τ sig (Elt F)) : X_val13 W (no_index (Proc.devRef .tc main_arg1)) = W (Proc.devRef .tc main_arg1) :=
  (X_val13_keep W main_arg1 (by decide)).trans (X_val12_main_arg1 W)
theorem X_val13_main_v9 (W : Valuation τ sig (Elt F)) : X_val13 W (no_index (Proc.devRef .tc main_v9)) = RefTerm.frac (RefTerm.coord0 (F := F) (W (Proc.devRef .tc main_arg0))) :=
  (X_val13_keep W main_v9 (by decide)).trans (X_val12_main_v9 W)
theorem X_val13_main_v26 (W : Valuation τ sig (Elt F)) : X_val13 W (no_index (Proc.devRef .tc main_v26)) = mulf (RefTerm.masked (RefTerm.inGrid (RefTerm.lo (RefTerm.coord0 (F := F) (W (Proc.devRef .tc main_arg0))))) (RefTerm.take (W (Proc.devRef .tc main_arg1)) (RefTerm.clip (RefTerm.lo (RefTerm.coord0 (F := F) (W (Proc.devRef .tc main_arg0))))))) (RefTerm.spread (subf (RefTerm.bcF (F := F) 0x3F800000#32) (RefTerm.frac (RefTerm.coord0 (F := F) (W (Proc.devRef .tc main_arg0)))))) :=
  (X_val13_keep W main_v26 (by decide)).trans (X_val12_main_v26 W)
theorem X_val13_main_v31 (W : Valuation τ sig (Elt F)) : X_val13 W (no_index (Proc.devRef .tc main_v31)) = RefTerm.inGrid (RefTerm.hi (RefTerm.coord0 (F := F) (W (Proc.devRef .tc main_arg0)))) :=
  (X_val13_keep W main_v31 (by decide)).trans (X_val12_main_v31 W)
theorem X_val13_main_v32 (W : Valuation τ sig (Elt F)) : X_val13 W (no_index (Proc.devRef .tc main_v32)) = RefTerm.clip (RefTerm.hi (RefTerm.coord0 (F := F) (W (Proc.devRef .tc main_arg0)))) :=
  (X_s13_main_v32 (X_val12 W)).trans (by simp only [X_val12_main_v12] <;> rfl)

abbrev X_l14 : List (HloOp τ sig (Elt F)) :=
  [ StableHlo.TRef.nullary main_call4.c (constantI S_ 32 0#32),
    StableHlo.TRef.unary main_call4.c main_call4.v0 (broadcastInDim S2000000 ![] bcast_S_S2000000),
    StableHlo.TRef.binary (StableHlo.TRef.of main_v32 : StableHlo.TRef sig ⟨S2000000, .i32⟩) main_call4.v0 main_call4.v1 (cmpi .slt),
    StableHlo.TRef.nullary main_call4.c_0 (constantI S_ 32 512#32),
    StableHlo.TRef.unary main_call4.c_0 main_call4.v2 (broadcastInDim S2000000 ![] bcast_S_S2000000),
    StableHlo.TRef.binary (StableHlo.TRef.of main_v32 : StableHlo.TRef sig ⟨S2000000, .i32⟩) main_call4.v2 main_call4.v3 addi,
    StableHlo.TRef.ternary main_call4.v1 main_call4.v3 (StableHlo.TRef.of main_v32 : StableHlo.TRef sig ⟨S2000000, .i32⟩) main_call4.call0.v0 select ]
abbrev X_l14_W : List (Ref sig .tc) := [main_call4_c, main_call4_v0, main_call4_v1, main_call4_c_0, main_call4_v2, main_call4_v3, main_call4_v4]
theorem X_l14_writes : (X_l14 : List (HloOp τ sig (Elt F))).Forall fun op => op.writes ⊆ (X_l14_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem X_s14_main_call4_v4 (W : Valuation τ sig (Elt F)) : after X_l14 W (Proc.devRef .tc main_call4_v4) = RefTerm.wrapNeg (W (Proc.devRef .tc main_v32)) := by
  simp only [X_l14]
  after_results_simp
  simp only [TRef.toBuf, TRef.ofBuf, cast_cast, cast_eq, id_eq] <;> rfl
def X_val14 (W : Valuation τ sig (Elt F)) : Valuation τ sig (Elt F) := after X_l14 (X_val13 W)
theorem X_val14_keep (W : Valuation τ sig (Elt F)) (r : Ref sig .tc) (h : r ∉ X_l14_W) :
    X_val14 W (Proc.devRef .tc r) = X_val13 W (Proc.devRef .tc r) :=
  after_of_writes_sub X_l14 _ X_l14_writes h
theorem X_val14_main_arg1 (W : Valuation τ sig (Elt F)) : X_val14 W (no_index (Proc.devRef .tc main_arg1)) = W (Proc.devRef .tc main_arg1) :=
  (X_val14_keep W main_arg1 (by decide)).trans (X_val13_main_arg1 W)
theorem X_val14_main_v9 (W : Valuation τ sig (Elt F)) : X_val14 W (no_index (Proc.devRef .tc main_v9)) = RefTerm.frac (RefTerm.coord0 (F := F) (W (Proc.devRef .tc main_arg0))) :=
  (X_val14_keep W main_v9 (by decide)).trans (X_val13_main_v9 W)
theorem X_val14_main_v26 (W : Valuation τ sig (Elt F)) : X_val14 W (no_index (Proc.devRef .tc main_v26)) = mulf (RefTerm.masked (RefTerm.inGrid (RefTerm.lo (RefTerm.coord0 (F := F) (W (Proc.devRef .tc main_arg0))))) (RefTerm.take (W (Proc.devRef .tc main_arg1)) (RefTerm.clip (RefTerm.lo (RefTerm.coord0 (F := F) (W (Proc.devRef .tc main_arg0))))))) (RefTerm.spread (subf (RefTerm.bcF (F := F) 0x3F800000#32) (RefTerm.frac (RefTerm.coord0 (F := F) (W (Proc.devRef .tc main_arg0)))))) :=
  (X_val14_keep W main_v26 (by decide)).trans (X_val13_main_v26 W)
theorem X_val14_main_v31 (W : Valuation τ sig (Elt F)) : X_val14 W (no_index (Proc.devRef .tc main_v31)) = RefTerm.inGrid (RefTerm.hi (RefTerm.coord0 (F := F) (W (Proc.devRef .tc main_arg0)))) :=
  (X_val14_keep W main_v31 (by decide)).trans (X_val13_main_v31 W)
theorem X_val14_main_call4_v4 (W : Valuation τ sig (Elt F)) : X_val14 W (no_index (Proc.devRef .tc main_call4_v4)) = RefTerm.wrapNeg (RefTerm.clip (RefTerm.hi (RefTerm.coord0 (F := F) (W (Proc.devRef .tc main_arg0))))) :=
  (X_s14_main_call4_v4 (X_val13 W)).trans (by simp only [X_val13_main_v32] <;> rfl)

abbrev X_l15 : List (HloOp τ sig (Elt F)) :=
  [ StableHlo.TRef.unary main_call4.call0.v0 main_call4.v5 (broadcastInDim S2000000x1 ![0] bcast_S2000000_S2000000x1_0) ]
abbrev X_l15_W : List (Ref sig .tc) := [main_call4_v5]
theorem X_l15_writes : (X_l15 : List (HloOp τ sig (Elt F))).Forall fun op => op.writes ⊆ (X_l15_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- The run alone, from any contents. -/
theorem X_s15_main_call4_v5 (W : Valuation τ sig (Elt F)) : after X_l15 W (Proc.devRef .tc main_call4_v5) = RefTerm.col (W (Proc.devRef .tc main_call4_v4)) := by
  simp only [X_l15]
  after_results_simp
  simp only [TRef.toBuf, TRef.ofBuf, cast_cast, cast_eq, id_eq] <;> rfl
def X_val15 (W : Valuation τ sig (Elt F)) : Valuation τ sig (Elt F) := after X_l15 (X_val14 W)
theorem X_val15_keep (W : Valuation τ sig (Elt F)) (r : Ref sig .tc) (h : r ∉ X_l15_W) :
    X_val15 W (Proc.devRef .tc r) = X_val14 W (Proc.devRef .tc r) :=
  after_of_writes_sub X_l15 _ X_l15_writes h
theorem X_val15_main_arg1 (W : Valuation τ sig (Elt F)) : X_val15 W (no_index (Proc.devRef .tc main_arg1)) = W (Proc.devRef .tc main_arg1) :=
  (X_val15_keep W main_arg1 (by decide)).trans (X_val14_main_arg1 W)
theorem X_val15_main_v9 (W : Valuation τ sig (Elt F)) : X_val15 W (no_index (Proc.devRef .tc main_v9)) = RefTerm.frac (RefTerm.coord0 (F := F) (W (Proc.devRef .tc main_arg0))) :=
  (X_val15_keep W main_v9 (by decide)).trans (X_val14_main_v9 W)
theorem X_val15_main_v26 (W : Valuation τ sig (Elt F)) : X_val15 W (no_index (Proc.devRef .tc main_v26)) = mulf (RefTerm.masked (RefTerm.inGrid (RefTerm.lo (RefTerm.coord0 (F := F) (W (Proc.devRef .tc main_arg0))))) (RefTerm.take (W (Proc.devRef .tc main_arg1)) (RefTerm.clip (RefTerm.lo (RefTerm.coord0 (F := F) (W (Proc.devRef .tc main_arg0))))))) (RefTerm.spread (subf (RefTerm.bcF (F := F) 0x3F800000#32) (RefTerm.frac (RefTerm.coord0 (F := F) (W (Proc.devRef .tc main_arg0)))))) :=
  (X_val15_keep W main_v26 (by decide)).trans (X_val14_main_v26 W)
theorem X_val15_main_v31 (W : Valuation τ sig (Elt F)) : X_val15 W (no_index (Proc.devRef .tc main_v31)) = RefTerm.inGrid (RefTerm.hi (RefTerm.coord0 (F := F) (W (Proc.devRef .tc main_arg0)))) :=
  (X_val15_keep W main_v31 (by decide)).trans (X_val14_main_v31 W)
theorem X_val15_main_call4_v5 (W : Valuation τ sig (Elt F)) : X_val15 W (no_index (Proc.devRef .tc main_call4_v5)) = RefTerm.col (RefTerm.wrapNeg (RefTerm.clip (RefTerm.hi (RefTerm.coord0 (F := F) (W (Proc.devRef .tc main_arg0)))))) :=
  (X_s15_main_call4_v5 (X_val14 W)).trans (by simp only [X_val14_main_call4_v4] <;> rfl)

abbrev X_l16 : List (HloOp τ sig (Elt F)) :=
  [ StableHlo.TRef.nullary main_call4.c_1 (constantI S1 32 511#32),
    StableHlo.TRef.nullary main_call4.c_2 (constantI S_ 32 0#32),
    StableHlo.TRef.unary main_call4.c_2 main_call4.v6 (broadcastInDim S2000000x1 ![] bcast_S_S2000000x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S2000000x1 ![0, 1] bcast_S1x1_S2000000x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S2000000x1_S2000000_d1 h_S_) ]
abbrev X_l16_W : List (Ref sig .tc) := [main_call4_c_1, main_call4_c_2, main_call4_v6, main_call4_v7, main_call4_v8, main_call4_v9, main_call4_v10, main_call4_v11, main_call4_c_3, main_call4_v12]
theorem X_l16_writes : (X_l16 : List (HloOp τ sig (Elt F))).Forall fun op => op.writes ⊆ (X_l16_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem X_s16_main_call4_v12 (W : Valuation τ sig (Elt F)) : after X_l16 W (Proc.devRef .tc main_call4_v12) = RefTerm.inTable (W (Proc.devRef .tc main_call4_v5)) := by
  simp only [X_l16]
  after_results_simp
  simp only [TRef.toBuf, TRef.ofBuf, cast_cast, cast_eq, id_eq] <;> rfl
def X_val16 (W : Valuation τ sig (Elt F)) : Valuation τ sig (Elt F) := after X_l16 (X_val15 W)
theorem X_val16_keep (W : Valuation τ sig (Elt F)) (r : Ref sig .tc) (h : r ∉ X_l16_W) :
    X_val16 W (Proc.devRef .tc r) = X_val15 W (Proc.devRef .tc r) :=
  after_of_writes_sub X_l16 _ X_l16_writes h
theorem X_val16_main_arg1 (W : Valuation τ sig (Elt F)) : X_val16 W (no_index (Proc.devRef .tc main_arg1)) = W (Proc.devRef .tc main_arg1) :=
  (X_val16_keep W main_arg1 (by decide)).trans (X_val15_main_arg1 W)
theorem X_val16_main_v9 (W : Valuation τ sig (Elt F)) : X_val16 W (no_index (Proc.devRef .tc main_v9)) = RefTerm.frac (RefTerm.coord0 (F := F) (W (Proc.devRef .tc main_arg0))) :=
  (X_val16_keep W main_v9 (by decide)).trans (X_val15_main_v9 W)
theorem X_val16_main_v26 (W : Valuation τ sig (Elt F)) : X_val16 W (no_index (Proc.devRef .tc main_v26)) = mulf (RefTerm.masked (RefTerm.inGrid (RefTerm.lo (RefTerm.coord0 (F := F) (W (Proc.devRef .tc main_arg0))))) (RefTerm.take (W (Proc.devRef .tc main_arg1)) (RefTerm.clip (RefTerm.lo (RefTerm.coord0 (F := F) (W (Proc.devRef .tc main_arg0))))))) (RefTerm.spread (subf (RefTerm.bcF (F := F) 0x3F800000#32) (RefTerm.frac (RefTerm.coord0 (F := F) (W (Proc.devRef .tc main_arg0)))))) :=
  (X_val16_keep W main_v26 (by decide)).trans (X_val15_main_v26 W)
theorem X_val16_main_v31 (W : Valuation τ sig (Elt F)) : X_val16 W (no_index (Proc.devRef .tc main_v31)) = RefTerm.inGrid (RefTerm.hi (RefTerm.coord0 (F := F) (W (Proc.devRef .tc main_arg0)))) :=
  (X_val16_keep W main_v31 (by decide)).trans (X_val15_main_v31 W)
theorem X_val16_main_call4_v5 (W : Valuation τ sig (Elt F)) : X_val16 W (no_index (Proc.devRef .tc main_call4_v5)) = RefTerm.col (RefTerm.wrapNeg (RefTerm.clip (RefTerm.hi (RefTerm.coord0 (F := F) (W (Proc.devRef .tc main_arg0)))))) :=
  (X_val16_keep W main_call4_v5 (by decide)).trans (X_val15_main_call4_v5 W)
theorem X_val16_main_call4_v12 (W : Valuation τ sig (Elt F)) : X_val16 W (no_index (Proc.devRef .tc main_call4_v12)) = RefTerm.inTable (RefTerm.col (RefTerm.wrapNeg (RefTerm.clip (RefTerm.hi (RefTerm.coord0 (F := F) (W (Proc.devRef .tc main_arg0))))))) :=
  (X_s16_main_call4_v12 (X_val15 W)).trans (by simp only [X_val15_main_call4_v5] <;> rfl)

abbrev X_l17 : List (HloOp τ sig (Elt F)) :=
  [ StableHlo.TRef.binary (StableHlo.TRef.of main_arg1 : StableHlo.TRef sig ⟨S32x512, .f32⟩) main_call4.v5 main_call4.v13 (fun x i => Host.gather gather_S32x512_S2000000x1_S32x2000000_0_1_n_n_1_1_321 x i),
    StableHlo.TRef.unary main_call4.v12 main_call4.v14 (broadcastInDim S32x2000000 ![1] bcast_S2000000_S32x2000000_1),
    StableHlo.TRef.nullary main_call4.cst (constant S_ .f32 0x7FC00000#32),
    StableHlo.TRef.unary main_call4.cst main_call4.v15 (broadcastInDim S32x2000000 ![] bcast_S_S32x2000000),
    StableHlo.TRef.ternary main_call4.v14 main_call4.v13 main_call4.v15 main_call4.v16 select ]
abbrev X_l17_W : List (Ref sig .tc) := [main_call4_v13, main_call4_v14, main_call4_cst, main_call4_v15, main_v33]
theorem X_l17_writes : (X_l17 : List (HloOp τ sig (Elt F))).Forall fun op => op.writes ⊆ (X_l17_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem X_s17_main_v33 (W : Valuation τ sig (Elt F)) : after X_l17 W (Proc.devRef .tc main_v33) = select (broadcastInDim S32x2000000 ![1] bcast_S2000000_S32x2000000_1 (W (Proc.devRef .tc main_call4_v12))) (Host.gather gather_S32x512_S2000000x1_S32x2000000_0_1_n_n_1_1_321 (W (Proc.devRef .tc main_arg1)) (W (Proc.devRef .tc main_call4_v5))) (broadcastInDim S32x2000000 ![] bcast_S_S32x2000000 (constant (F := F) S_ .f32 0x7FC00000#32)) := by
  simp only [X_l17]
  after_results_simp
  simp only [TRef.toBuf, TRef.ofBuf, cast_cast, cast_eq, id_eq] <;> rfl
def X_val17 (W : Valuation τ sig (Elt F)) : Valuation τ sig (Elt F) := after X_l17 (X_val16 W)
theorem X_val17_keep (W : Valuation τ sig (Elt F)) (r : Ref sig .tc) (h : r ∉ X_l17_W) :
    X_val17 W (Proc.devRef .tc r) = X_val16 W (Proc.devRef .tc r) :=
  after_of_writes_sub X_l17 _ X_l17_writes h
theorem X_val17_main_v9 (W : Valuation τ sig (Elt F)) : X_val17 W (no_index (Proc.devRef .tc main_v9)) = RefTerm.frac (RefTerm.coord0 (F := F) (W (Proc.devRef .tc main_arg0))) :=
  (X_val17_keep W main_v9 (by decide)).trans (X_val16_main_v9 W)
theorem X_val17_main_v26 (W : Valuation τ sig (Elt F)) : X_val17 W (no_index (Proc.devRef .tc main_v26)) = mulf (RefTerm.masked (RefTerm.inGrid (RefTerm.lo (RefTerm.coord0 (F := F) (W (Proc.devRef .tc main_arg0))))) (RefTerm.take (W (Proc.devRef .tc main_arg1)) (RefTerm.clip (RefTerm.lo (RefTerm.coord0 (F := F) (W (Proc.devRef .tc main_arg0))))))) (RefTerm.spread (subf (RefTerm.bcF (F := F) 0x3F800000#32) (RefTerm.frac (RefTerm.coord0 (F := F) (W (Proc.devRef .tc main_arg0)))))) :=
  (X_val17_keep W main_v26 (by decide)).trans (X_val16_main_v26 W)
theorem X_val17_main_v31 (W : Valuation τ sig (Elt F)) : X_val17 W (no_index (Proc.devRef .tc main_v31)) = RefTerm.inGrid (RefTerm.hi (RefTerm.coord0 (F := F) (W (Proc.devRef .tc main_arg0)))) :=
  (X_val17_keep W main_v31 (by decide)).trans (X_val16_main_v31 W)
theorem X_val17_main_v33 (W : Valuation τ sig (Elt F)) : X_val17 W (no_index (Proc.devRef .tc main_v33)) = RefTerm.take (W (Proc.devRef .tc main_arg1)) (RefTerm.clip (RefTerm.hi (RefTerm.coord0 (F := F) (W (Proc.devRef .tc main_arg0))))) :=
  (X_s17_main_v33 (X_val16 W)).trans (by simp only [X_val16_main_call4_v12, X_val16_main_call4_v5, X_val16_main_arg1] <;> rfl)

abbrev X_l18 : List (HloOp τ sig (Elt F)) :=
  [ StableHlo.unary main_v31 main_v34 (broadcastInDim S1x2000000 ![1] bcast_S2000000_S1x2000000_1 : (⟨S2000000, .i1⟩ : BufTy).Contents (Elt F) → (⟨S1x2000000, .i1⟩ : BufTy).Contents (Elt F)),
    StableHlo.nullary main_cst_12 (constant S_ .f32 0x00000000#32),
    StableHlo.TRef.unary (StableHlo.TRef.of main_cst_12 : StableHlo.TRef sig ⟨S_, .f32⟩) main_call5.v0 id,
    StableHlo.TRef.unary (StableHlo.TRef.of main_v34 : StableHlo.TRef sig ⟨S1x2000000, .i1⟩) main_call5.v1 (broadcastInDim S32x2000000 ![0, 1] bcast_S1x2000000_S32x2000000_0_1),
    StableHlo.TRef.unary main_call5.v0 main_call5.v2 (broadcastInDim S32x2000000 ![] bcast_S_S32x2000000),
    StableHlo.TRef.ternary main_call5.v1 (StableHlo.TRef.of main_v33 : StableHlo.TRef sig ⟨S32x2000000, .f32⟩) main_call5.v2 main_call5.v3 select ]
abbrev X_l18_W : List (Ref sig .tc) := [main_v34, main_cst_12, main_call5_v0, main_call5_v1, main_call5_v2, main_v35]
theorem X_l18_writes : (X_l18 : List (HloOp τ sig (Elt F))).Forall fun op => op.writes ⊆ (X_l18_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem X_s18_main_v35 (W : Valuation τ sig (Elt F)) : after X_l18 W (Proc.devRef .tc main_v35) = RefTerm.masked (W (Proc.devRef .tc main_v31)) (W (Proc.devRef .tc main_v33)) := by
  simp only [X_l18]
  after_results_simp
  simp only [TRef.toBuf, TRef.ofBuf, cast_cast, cast_eq, id_eq] <;> rfl
def X_val18 (W : Valuation τ sig (Elt F)) : Valuation τ sig (Elt F) := after X_l18 (X_val17 W)
theorem X_val18_keep (W : Valuation τ sig (Elt F)) (r : Ref sig .tc) (h : r ∉ X_l18_W) :
    X_val18 W (Proc.devRef .tc r) = X_val17 W (Proc.devRef .tc r) :=
  after_of_writes_sub X_l18 _ X_l18_writes h
theorem X_val18_main_v9 (W : Valuation τ sig (Elt F)) : X_val18 W (no_index (Proc.devRef .tc main_v9)) = RefTerm.frac (RefTerm.coord0 (F := F) (W (Proc.devRef .tc main_arg0))) :=
  (X_val18_keep W main_v9 (by decide)).trans (X_val17_main_v9 W)
theorem X_val18_main_v26 (W : Valuation τ sig (Elt F)) : X_val18 W (no_index (Proc.devRef .tc main_v26)) = mulf (RefTerm.masked (RefTerm.inGrid (RefTerm.lo (RefTerm.coord0 (F := F) (W (Proc.devRef .tc main_arg0))))) (RefTerm.take (W (Proc.devRef .tc main_arg1)) (RefTerm.clip (RefTerm.lo (RefTerm.coord0 (F := F) (W (Proc.devRef .tc main_arg0))))))) (RefTerm.spread (subf (RefTerm.bcF (F := F) 0x3F800000#32) (RefTerm.frac (RefTerm.coord0 (F := F) (W (Proc.devRef .tc main_arg0)))))) :=
  (X_val18_keep W main_v26 (by decide)).trans (X_val17_main_v26 W)
theorem X_val18_main_v35 (W : Valuation τ sig (Elt F)) : X_val18 W (no_index (Proc.devRef .tc main_v35)) = RefTerm.masked (RefTerm.inGrid (RefTerm.hi (RefTerm.coord0 (F := F) (W (Proc.devRef .tc main_arg0))))) (RefTerm.take (W (Proc.devRef .tc main_arg1)) (RefTerm.clip (RefTerm.hi (RefTerm.coord0 (F := F) (W (Proc.devRef .tc main_arg0)))))) :=
  (X_s18_main_v35 (X_val17 W)).trans (by simp only [X_val17_main_v31, X_val17_main_v33] <;> rfl)

abbrev X_l19 : List (HloOp τ sig (Elt F)) :=
  [ StableHlo.unary main_v9 main_v36 (broadcastInDim S1x2000000 ![1] bcast_S2000000_S1x2000000_1 : (⟨S2000000, .f32⟩ : BufTy).Contents (Elt F) → (⟨S1x2000000, .f32⟩ : BufTy).Contents (Elt F)),
    StableHlo.unary main_v36 main_v37 (broadcastInDim S32x2000000 ![0, 1] bcast_S1x2000000_S32x2000000_0_1 : (⟨S1x2000000, .f32⟩ : BufTy).Contents (Elt F) → (⟨S32x2000000, .f32⟩ : BufTy).Contents (Elt F)),
    StableHlo.binary main_v35 main_v37 main_v38 (mulf : (⟨S32x2000000, .f32⟩ : BufTy).Contents (Elt F) → (⟨S32x2000000, .f32⟩ : BufTy).Contents (Elt F) → (⟨S32x2000000, .f32⟩ : BufTy).Contents (Elt F)),
    StableHlo.binary main_v26 main_v38 main_v39 (addf : (⟨S32x2000000, .f32⟩ : BufTy).Contents (Elt F) → (⟨S32x2000000, .f32⟩ : BufTy).Contents (Elt F) → (⟨S32x2000000, .f32⟩ : BufTy).Contents (Elt F)) ]
abbrev X_l19_W : List (Ref sig .tc) := [main_v36, main_v37, main_v38, main_v39]
theorem X_l19_writes : (X_l19 : List (HloOp τ sig (Elt F))).Forall fun op => op.writes ⊆ (X_l19_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem X_s19_main_v39 (W : Valuation τ sig (Elt F)) : after X_l19 W (Proc.devRef .tc main_v39) = addf (W (Proc.devRef .tc main_v26)) (mulf (W (Proc.devRef .tc main_v35)) (RefTerm.spread (W (Proc.devRef .tc main_v9)))) := by
  simp only [X_l19]
  after_results_simp <;> rfl
def X_val19 (W : Valuation τ sig (Elt F)) : Valuation τ sig (Elt F) := after X_l19 (X_val18 W)
theorem X_val19_keep (W : Valuation τ sig (Elt F)) (r : Ref sig .tc) (h : r ∉ X_l19_W) :
    X_val19 W (Proc.devRef .tc r) = X_val18 W (Proc.devRef .tc r) :=
  after_of_writes_sub X_l19 _ X_l19_writes h
theorem X_val19_main_v39 (W : Valuation τ sig (Elt F)) : X_val19 W (no_index (Proc.devRef .tc main_v39)) = RefTerm.axis (W (Proc.devRef .tc main_arg1)) (RefTerm.coord0 (F := F) (W (Proc.devRef .tc main_arg0))) :=
  (X_s19_main_v39 (X_val18 W)).trans (by simp only [X_val18_main_v26, X_val18_main_v35, X_val18_main_v9] <;> rfl)

/-- The short runs, in order, are the axis' operations. -/
theorem X_split : (opsXa ++ (opsXb) : List (HloOp τ sig (Elt F))) = X_l1 ++ (X_l2 ++ (X_l3 ++ (X_l4 ++ (X_l5 ++ (X_l6 ++ (X_l7 ++ (X_l8 ++ (X_l9 ++ (X_l10 ++ (X_l11 ++ (X_l12 ++ (X_l13 ++ (X_l14 ++ (X_l15 ++ (X_l16 ++ (X_l17 ++ (X_l18 ++ (X_l19)))))))))))))))))) := rfl

theorem X_after (W : Valuation τ sig (Elt F)) : after opsXb (after opsXa W) = X_val19 W := by
  have h : after (opsXa ++ (opsXb)) W = X_val19 W := by
    rw [X_split]; simp only [StableHlo.after_append]; rfl
  simpa only [StableHlo.after_append] using h

/-- After the axis' operations its last buffer holds the axis' blend of the table and the coordinate column. -/
theorem axisX (W : Valuation τ sig (Elt F)) :
    after opsXb (after opsXa W) (Proc.devRef .tc main_v39) = RefTerm.axis (W (Proc.devRef .tc main_arg1)) (RefTerm.coord0 (F := F) (W (Proc.devRef .tc main_arg0))) := by
  rw [X_after]; exact X_val19_main_v39 W

end Cert.ReferenceIdeal.RefRun

end
-- ==== Proof.RefValY.lean ====
/-
  Axis y of the reference program, value by value. The axis' operations are re-cut into short runs, one per
  named quantity of the specification term: the grid position, the fraction and the left column word, the right
  column word, and for each neighbour the in-grid mask, the clipped index, the lookup's wrapped index, its column
  form, its range guard, the looked-up columns and their masking; then the left product and the blend. Each run is
  first read on its own, from ANY buffer contents: the buffer it ends in holds one definition of the specification
  applied to the contents of the buffers the run reads. The runs are then chained: the operands are replaced by what
  the earlier runs left, which gives each quantity as a term of the buffers before the axis.
-/
import proofs.«133057_j46351287058969_2_alg».proof.Proof.RefOps
import Idealize.ShloMosaic.Lib.Pipeline.Frame

set_option pp.maxSteps 2000
set_option pp.deepTerms false

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts
abbrev Y_l1 : List (HloOp τ sig (Elt F)) :=
  [ StableHlo.unary main_arg0 main_v40 ((extractStridedSlice S2000000x1 ![0, 1] · slices_S2000000x3_S2000000x1_0_1) : (⟨S2000000x3, .f32⟩ : BufTy).Contents (Elt F) → (⟨S2000000x1, .f32⟩ : BufTy).Contents (Elt F)),
    StableHlo.reshape main_v40 main_v41 rfl shapeCasts_S2000000x1_S2000000,
    StableHlo.nullary main_cst_13 (constant S_ .f32 0x3F800000#32),
    StableHlo.unary main_cst_13 main_v42 (broadcastInDim S2000000 ![] bcast_S_S2000000 : (⟨S_, .f32⟩ : BufTy).Contents (Elt F) → (⟨S2000000, .f32⟩ : BufTy).Contents (Elt F)),
    StableHlo.binary main_v41 main_v42 main_v43 (addf : (⟨S2000000, .f32⟩ : BufTy).Contents (Elt F) → (⟨S2000000, .f32⟩ : BufTy).Contents (Elt F) → (⟨S2000000, .f32⟩ : BufTy).Contents (Elt F)) ]
abbrev Y_l1_W : List (Ref sig .tc) := [main_v40, main_v41, main_cst_13, main_v42, main_v43]
theorem Y_l1_writes : (Y_l1 : List (HloOp τ sig (Elt F))).Forall fun op => op.writes ⊆ (Y_l1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s1_main_v43 (W : Valuation τ sig (Elt F)) : after Y_l1 W (Proc.devRef .tc main_v43) = addf (RefTerm.coord1 (F := F) (W (Proc.devRef .tc main_arg0))) (RefTerm.bcF (F := F) 0x3F800000#32) := by
  simp only [Y_l1]
  after_results_simp <;> rfl
def Y_val1 (W : Valuation τ sig (Elt F)) : Valuation τ sig (Elt F) := after Y_l1 W
theorem Y_val1_keep (W : Valuation τ sig (Elt F)) (r : Ref sig .tc) (h : r ∉ Y_l1_W) :
    Y_val1 W (Proc.devRef .tc r) = W (Proc.devRef .tc r) :=
  after_of_writes_sub Y_l1 _ Y_l1_writes h
theorem Y_val1_main_arg2 (W : Valuation τ sig (Elt F)) : Y_val1 W (no_index (Proc.devRef .tc main_arg2)) = W (Proc.devRef .tc main_arg2) :=
  Y_val1_keep W main_arg2 (by decide)
theorem Y_val1_main_v43 (W : Valuation τ sig (Elt F)) : Y_val1 W (no_index (Proc.devRef .tc main_v43)) = addf (RefTerm.coord1 (F := F) (W (Proc.devRef .tc main_arg0))) (RefTerm.bcF (F := F) 0x3F800000#32) :=
  (Y_s1_main_v43 W).trans (by rfl)

abbrev Y_l2 : List (HloOp τ sig (Elt F)) :=
  [ StableHlo.nullary main_cst_14 (constant S_ .f32 0x3F000000#32),
    StableHlo.unary main_cst_14 main_v44 (broadcastInDim S2000000 ![] bcast_S_S2000000 : (⟨S_, .f32⟩ : BufTy).Contents (Elt F) → (⟨S2000000, .f32⟩ : BufTy).Contents (Elt F)),
    StableHlo.binary main_v43 main_v44 main_v45 (mulf : (⟨S2000000, .f32⟩ : BufTy).Contents (Elt F) → (⟨S2000000, .f32⟩ : BufTy).Contents (Elt F) → (⟨S2000000, .f32⟩ : BufTy).Contents (Elt F)),
    StableHlo.nullary main_cst_15 (constant S_ .f32 0x43FF8000#32),
    StableHlo.unary main_cst_15 main_v46 (broadcastInDim S2000000 ![] bcast_S_S2000000 : (⟨S_, .f32⟩ : BufTy).Contents (Elt F) → (⟨S2000000, .f32⟩ : BufTy).Contents (Elt F)),
    StableHlo.binary main_v45 main_v46 main_v47 (mulf : (⟨S2000000, .f32⟩ : BufTy).Contents (Elt F) → (⟨S2000000, .f32⟩ : BufTy).Contents (Elt F) → (⟨S2000000, .f32⟩ : BufTy).Contents (Elt F)) ]
abbrev Y_l2_W : List (Ref sig .tc) := [main_cst_14, main_v44, main_v45, main_cst_15, main_v46, main_v47]
theorem Y_l2_writes : (Y_l2 : List (HloOp τ sig (Elt F))).Forall fun op => op.writes ⊆ (Y_l2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s2_main_v47 (W : Valuation τ sig (Elt F)) : after Y_l2 W (Proc.devRef .tc main_v47) = mulf (mulf (W (Proc.devRef .tc main_v43)) (RefTerm.bcF (F := F) 0x3F000000#32)) (RefTerm.bcF (F := F) 0x43FF8000#32) := by
  simp only [Y_l2]
  after_results_simp <;> rfl
def Y_val2 (W : Valuation τ sig (Elt F)) : Valuation τ sig (Elt F) := after Y_l2 (Y_val1 W)
theorem Y_val2_keep (W : Valuation τ sig (Elt F)) (r : Ref sig .tc) (h : r ∉ Y_l2_W) :
    Y_val2 W (Proc.devRef .tc r) = Y_val1 W (Proc.devRef .tc r) :=
  after_of_writes_sub Y_l2 _ Y_l2_writes h
theorem Y_val2_main_arg2 (W : Valuation τ sig (Elt F)) : Y_val2 W (no_index (Proc.devRef .tc main_arg2)) = W (Proc.devRef .tc main_arg2) :=
  (Y_val2_keep W main_arg2 (by decide)).trans (Y_val1_main_arg2 W)
theorem Y_val2_main_v47 (W : Valuation τ sig (Elt F)) : Y_val2 W (no_index (Proc.devRef .tc main_v47)) = RefTerm.gridPos (RefTerm.coord1 (F := F) (W (Proc.devRef .tc main_arg0))) :=
  (Y_s2_main_v47 (Y_val1 W)).trans (by simp only [Y_val1_main_v43] <;> rfl)

abbrev Y_l3 : List (HloOp τ sig (Elt F)) :=
  [ StableHlo.unary main_v47 main_v48 (Host.floor : (⟨S2000000, .f32⟩ : BufTy).Contents (Elt F) → (⟨S2000000, .f32⟩ : BufTy).Contents (Elt F)),
    StableHlo.binary main_v47 main_v48 main_v49 (subf : (⟨S2000000, .f32⟩ : BufTy).Contents (Elt F) → (⟨S2000000, .f32⟩ : BufTy).Contents (Elt F) → (⟨S2000000, .f32⟩ : BufTy).Contents (Elt F)),
    StableHlo.unary main_v48 main_v50 (fptosi 32 : (⟨S2000000, .f32⟩ : BufTy).Contents (Elt F) → (⟨S2000000, .i32⟩ : BufTy).Contents (Elt F)) ]
abbrev Y_l3_W : List (Ref sig .tc) := [main_v48, main_v49, main_v50]
theorem Y_l3_writes : (Y_l3 : List (HloOp τ sig (Elt F))).Forall fun op => op.writes ⊆ (Y_l3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s3_main_v49 (W : Valuation τ sig (Elt F)) : after Y_l3 W (Proc.devRef .tc main_v49) = subf (W (Proc.devRef .tc main_v47)) (Host.floor (W (Proc.devRef .tc main_v47))) := by
  simp only [Y_l3]
  after_results_simp <;> rfl
/-- The run alone, from any contents. -/
theorem Y_s3_main_v50 (W : Valuation τ sig (Elt F)) : after Y_l3 W (Proc.devRef .tc main_v50) = fptosi 32 (Host.floor (W (Proc.devRef .tc main_v47))) := by
  simp only [Y_l3]
  after_results_simp <;> rfl
def Y_val3 (W : Valuation τ sig (Elt F)) : Valuation τ sig (Elt F) := after Y_l3 (Y_val2 W)
theorem Y_val3_keep (W : Valuation τ sig (Elt F)) (r : Ref sig .tc) (h : r ∉ Y_l3_W) :
    Y_val3 W (Proc.devRef .tc r) = Y_val2 W (Proc.devRef .tc r) :=
  after_of_writes_sub Y_l3 _ Y_l3_writes h
theorem Y_val3_main_arg2 (W : Valuation τ sig (Elt F)) : Y_val3 W (no_index (Proc.devRef .tc main_arg2)) = W (Proc.devRef .tc main_arg2) :=
  (Y_val3_keep W main_arg2 (by decide)).trans (Y_val2_main_arg2 W)
theorem Y_val3_main_v49 (W : Valuation τ sig (Elt F)) : Y_val3 W (no_index (Proc.devRef .tc main_v49)) = RefTerm.frac (RefTerm.coord1 (F := F) (W (Proc.devRef .tc main_arg0))) :=
  (Y_s3_main_v49 (Y_val2 W)).trans (by simp only [Y_val2_main_v47] <;> rfl)
theorem Y_val3_main_v50 (W : Valuation τ sig (Elt F)) : Y_val3 W (no_index (Proc.devRef .tc main_v50)) = RefTerm.lo (RefTerm.coord1 (F := F) (W (Proc.devRef .tc main_arg0))) :=
  (Y_s3_main_v50 (Y_val2 W)).trans (by simp only [Y_val2_main_v47] <;> rfl)

abbrev Y_l4 : List (HloOp τ sig (Elt F)) :=
  [ StableHlo.nullary main_c_16 (constantI S_ 32 1#32),
    StableHlo.unary main_c_16 main_v51 (broadcastInDim S2000000 ![] bcast_S_S2000000 : (⟨S_, .i32⟩ : BufTy).Contents (Elt F) → (⟨S2000000, .i32⟩ : BufTy).Contents (Elt F)),
    StableHlo.binary main_v50 main_v51 main_v52 (addi : (⟨S2000000, .i32⟩ : BufTy).Contents (Elt F) → (⟨S2000000, .i32⟩ : BufTy).Contents (Elt F) → (⟨S2000000, .i32⟩ : BufTy).Contents (Elt F)) ]
abbrev Y_l4_W : List (Ref sig .tc) := [main_c_16, main_v51, main_v52]
theorem Y_l4_writes : (Y_l4 : List (HloOp τ sig (Elt F))).Forall fun op => op.writes ⊆ (Y_l4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s4_main_v52 (W : Valuation τ sig (Elt F)) : after Y_l4 W (Proc.devRef .tc main_v52) = addi (W (Proc.devRef .tc main_v50)) (RefTerm.bcI 1#32) := by
  simp only [Y_l4]
  after_results_simp <;> rfl
def Y_val4 (W : Valuation τ sig (Elt F)) : Valuation τ sig (Elt F) := after Y_l4 (Y_val3 W)
theorem Y_val4_keep (W : Valuation τ sig (Elt F)) (r : Ref sig .tc) (h : r ∉ Y_l4_W) :
    Y_val4 W (Proc.devRef .tc r) = Y_val3 W (Proc.devRef .tc r) :=
  after_of_writes_sub Y_l4 _ Y_l4_writes h
theorem Y_val4_main_arg2 (W : Valuation τ sig (Elt F)) : Y_val4 W (no_index (Proc.devRef .tc main_arg2)) = W (Proc.devRef .tc main_arg2) :=
  (Y_val4_keep W main_arg2 (by decide)).trans (Y_val3_main_arg2 W)
theorem Y_val4_main_v49 (W : Valuation τ sig (Elt F)) : Y_val4 W (no_index (Proc.devRef .tc main_v49)) = RefTerm.frac (RefTerm.coord1 (F := F) (W (Proc.devRef .tc main_arg0))) :=
  (Y_val4_keep W main_v49 (by decide)).trans (Y_val3_main_v49 W)
theorem Y_val4_main_v50 (W : Valuation τ sig (Elt F)) : Y_val4 W (no_index (Proc.devRef .tc main_v50)) = RefTerm.lo (RefTerm.coord1 (F := F) (W (Proc.devRef .tc main_arg0))) :=
  (Y_val4_keep W main_v50 (by decide)).trans (Y_val3_main_v50 W)
theorem Y_val4_main_v52 (W : Valuation τ sig (Elt F)) : Y_val4 W (no_index (Proc.devRef .tc main_v52)) = RefTerm.hi (RefTerm.coord1 (F := F) (W (Proc.devRef .tc main_arg0))) :=
  (Y_s4_main_v52 (Y_val3 W)).trans (by simp only [Y_val3_main_v50] <;> rfl)

abbrev Y_l5 : List (HloOp τ sig (Elt F)) :=
  [ StableHlo.nullary main_c_17 (constantI S_ 32 0#32),
    StableHlo.unary main_c_17 main_v53 (broadcastInDim S2000000 ![] bcast_S_S2000000 : (⟨S_, .i32⟩ : BufTy).Contents (Elt F) → (⟨S2000000, .i32⟩ : BufTy).Contents (Elt F)),
    StableHlo.binary main_v50 main_v53 main_v54 (cmpi .sge : (⟨S2000000, .i32⟩ : BufTy).Contents (Elt F) → (⟨S2000000, .i32⟩ : BufTy).Contents (Elt F) → (⟨S2000000, .i1⟩ : BufTy).Contents (Elt F)),
    StableHlo.nullary main_c_18 (constantI S_ 32 512#32),
    StableHlo.unary main_c_18 main_v55 (broadcastInDim S2000000 ![] bcast_S_S2000000 : (⟨S_, .i32⟩ : BufTy).Contents (Elt F) → (⟨S2000000, .i32⟩ : BufTy).Contents (Elt F)),
    StableHlo.binary main_v50 main_v55 main_v56 (cmpi .slt : (⟨S2000000, .i32⟩ : BufTy).Contents (Elt F) → (⟨S2000000, .i32⟩ : BufTy).Contents (Elt F) → (⟨S2000000, .i1⟩ : BufTy).Contents (Elt F)),
    StableHlo.binary main_v54 main_v56 main_v57 (andi : (⟨S2000000, .i1⟩ : BufTy).Contents (Elt F) → (⟨S2000000, .i1⟩ : BufTy).Contents (Elt F) → (⟨S2000000, .i1⟩ : BufTy).Contents (Elt F)) ]
abbrev Y_l5_W : List (Ref sig .tc) := [main_c_17, main_v53, main_v54, main_c_18, main_v55, main_v56, main_v57]
theorem Y_l5_writes : (Y_l5 : List (HloOp τ sig (Elt F))).Forall fun op => op.writes ⊆ (Y_l5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s5_main_v57 (W : Valuation τ sig (Elt F)) : after Y_l5 W (Proc.devRef .tc main_v57) = RefTerm.inGrid (W (Proc.devRef .tc main_v50)) := by
  simp only [Y_l5]
  after_results_simp <;> rfl
def Y_val5 (W : Valuation τ sig (Elt F)) : Valuation τ sig (Elt F) := after Y_l5 (Y_val4 W)
theorem Y_val5_keep (W : Valuation τ sig (Elt F)) (r : Ref sig .tc) (h : r ∉ Y_l5_W) :
    Y_val5 W (Proc.devRef .tc r) = Y_val4 W (Proc.devRef .tc r) :=
  after_of_writes_sub Y_l5 _ Y_l5_writes h
theorem Y_val5_main_arg2 (W : Valuation τ sig (Elt F)) : Y_val5 W (no_index (Proc.devRef .tc main_arg2)) = W (Proc.devRef .tc main_arg2) :=
  (Y_val5_keep W main_arg2 (by decide)).trans (Y_val4_main_arg2 W)
theorem Y_val5_main_v49 (W : Valuation τ sig (Elt F)) : Y_val5 W (no_index (Proc.devRef .tc main_v49)) = RefTerm.frac (RefTerm.coord1 (F := F) (W (Proc.devRef .tc main_arg0))) :=
  (Y_val5_keep W main_v49 (by decide)).trans (Y_val4_main_v49 W)
theorem Y_val5_main_v50 (W : Valuation τ sig (Elt F)) : Y_val5 W (no_index (Proc.devRef .tc main_v50)) = RefTerm.lo (RefTerm.coord1 (F := F) (W (Proc.devRef .tc main_arg0))) :=
  (Y_val5_keep W main_v50 (by decide)).trans (Y_val4_main_v50 W)
theorem Y_val5_main_v52 (W : Valuation τ sig (Elt F)) : Y_val5 W (no_index (Proc.devRef .tc main_v52)) = RefTerm.hi (RefTerm.coord1 (F := F) (W (Proc.devRef .tc main_arg0))) :=
  (Y_val5_keep W main_v52 (by decide)).trans (Y_val4_main_v52 W)
theorem Y_val5_main_v57 (W : Valuation τ sig (Elt F)) : Y_val5 W (no_index (Proc.devRef .tc main_v57)) = RefTerm.inGrid (RefTerm.lo (RefTerm.coord1 (F := F) (W (Proc.devRef .tc main_arg0)))) :=
  (Y_s5_main_v57 (Y_val4 W)).trans (by simp only [Y_val4_main_v50] <;> rfl)

abbrev Y_l6 : List (HloOp τ sig (Elt F)) :=
  [ StableHlo.nullary main_c_19 (constantI S_ 32 0#32),
    StableHlo.nullary main_c_20 (constantI S_ 32 511#32),
    StableHlo.TRef.unary (StableHlo.TRef.of main_c_19 : StableHlo.TRef sig ⟨S_, .i32⟩) main_call6.v0 id,
    StableHlo.TRef.unary main_call6.v0 main_call6.v1 (broadcastInDim S2000000 ![] bcast_S_S2000000),
    StableHlo.TRef.binary main_call6.v1 (StableHlo.TRef.of main_v50 : StableHlo.TRef sig ⟨S2000000, .i32⟩) main_call6.v2 maxsi,
    StableHlo.TRef.unary (StableHlo.TRef.of main_c_20 : StableHlo.TRef sig ⟨S_, .i32⟩) main_call6.v3 id,
    StableHlo.TRef.unary main_call6.v3 main_call6.v4 (broadcastInDim S2000000 ![] bcast_S_S2000000),
    StableHlo.TRef.binary main_call6.v4 main_call6.v2 main_call6.v5 minsi ]
abbrev Y_l6_W : List (Ref sig .tc) := [main_c_19, main_c_20, main_call6_v0, main_call6_v1, main_call6_v2, main_call6_v3, main_call6_v4, main_v58]
theorem Y_l6_writes : (Y_l6 : List (HloOp τ sig (Elt F))).Forall fun op => op.writes ⊆ (Y_l6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s6_main_v58 (W : Valuation τ sig (Elt F)) : after Y_l6 W (Proc.devRef .tc main_v58) = RefTerm.clip (W (Proc.devRef .tc main_v50)) := by
  simp only [Y_l6]
  after_results_simp
  simp only [TRef.toBuf, TRef.ofBuf, cast_cast, cast_eq, id_eq] <;> rfl
def Y_val6 (W : Valuation τ sig (Elt F)) : Valuation τ sig (Elt F) := after Y_l6 (Y_val5 W)
theorem Y_val6_keep (W : Valuation τ sig (Elt F)) (r : Ref sig .tc) (h : r ∉ Y_l6_W) :
    Y_val6 W (Proc.devRef .tc r) = Y_val5 W (Proc.devRef .tc r) :=
  after_of_writes_sub Y_l6 _ Y_l6_writes h
theorem Y_val6_main_arg2 (W : Valuation τ sig (Elt F)) : Y_val6 W (no_index (Proc.devRef .tc main_arg2)) = W (Proc.devRef .tc main_arg2) :=
  (Y_val6_keep W main_arg2 (by decide)).trans (Y_val5_main_arg2 W)
theorem Y_val6_main_v49 (W : Valuation τ sig (Elt F)) : Y_val6 W (no_index (Proc.devRef .tc main_v49)) = RefTerm.frac (RefTerm.coord1 (F := F) (W (Proc.devRef .tc main_arg0))) :=
  (Y_val6_keep W main_v49 (by decide)).trans (Y_val5_main_v49 W)
theorem Y_val6_main_v52 (W : Valuation τ sig (Elt F)) : Y_val6 W (no_index (Proc.devRef .tc main_v52)) = RefTerm.hi (RefTerm.coord1 (F := F) (W (Proc.devRef .tc main_arg0))) :=
  (Y_val6_keep W main_v52 (by decide)).trans (Y_val5_main_v52 W)
theorem Y_val6_main_v57 (W : Valuation τ sig (Elt F)) : Y_val6 W (no_index (Proc.devRef .tc main_v57)) = RefTerm.inGrid (RefTerm.lo (RefTerm.coord1 (F := F) (W (Proc.devRef .tc main_arg0)))) :=
  (Y_val6_keep W main_v57 (by decide)).trans (Y_val5_main_v57 W)
theorem Y_val6_main_v58 (W : Valuation τ sig (Elt F)) : Y_val6 W (no_index (Proc.devRef .tc main_v58)) = RefTerm.clip (RefTerm.lo (RefTerm.coord1 (F := F) (W (Proc.devRef .tc main_arg0)))) :=
  (Y_s6_main_v58 (Y_val5 W)).trans (by simp only [Y_val5_main_v50] <;> rfl)

abbrev Y_l7 : List (HloOp τ sig (Elt F)) :=
  [ StableHlo.TRef.nullary main_call7.c (constantI S_ 32 0#32),
    StableHlo.TRef.unary main_call7.c main_call7.v0 (broadcastInDim S2000000 ![] bcast_S_S2000000),
    StableHlo.TRef.binary (StableHlo.TRef.of main_v58 : StableHlo.TRef sig ⟨S2000000, .i32⟩) main_call7.v0 main_call7.v1 (cmpi .slt),
    StableHlo.TRef.nullary main_call7.c_0 (constantI S_ 32 512#32),
    StableHlo.TRef.unary main_call7.c_0 main_call7.v2 (broadcastInDim S2000000 ![] bcast_S_S2000000),
    StableHlo.TRef.binary (StableHlo.TRef.of main_v58 : StableHlo.TRef sig ⟨S2000000, .i32⟩) main_call7.v2 main_call7.v3 addi,
    StableHlo.TRef.ternary main_call7.v1 main_call7.v3 (StableHlo.TRef.of main_v58 : StableHlo.TRef sig ⟨S2000000, .i32⟩) main_call7.call0.v0 select ]
abbrev Y_l7_W : List (Ref sig .tc) := [main_call7_c, main_call7_v0, main_call7_v1, main_call7_c_0, main_call7_v2, main_call7_v3, main_call7_v4]
theorem Y_l7_writes : (Y_l7 : List (HloOp τ sig (Elt F))).Forall fun op => op.writes ⊆ (Y_l7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s7_main_call7_v4 (W : Valuation τ sig (Elt F)) : after Y_l7 W (Proc.devRef .tc main_call7_v4) = RefTerm.wrapNeg (W (Proc.devRef .tc main_v58)) := by
  simp only [Y_l7]
  after_results_simp
  simp only [TRef.toBuf, TRef.ofBuf, cast_cast, cast_eq, id_eq] <;> rfl
def Y_val7 (W : Valuation τ sig (Elt F)) : Valuation τ sig (Elt F) := after Y_l7 (Y_val6 W)
theorem Y_val7_keep (W : Valuation τ sig (Elt F)) (r : Ref sig .tc) (h : r ∉ Y_l7_W) :
    Y_val7 W (Proc.devRef .tc r) = Y_val6 W (Proc.devRef .tc r) :=
  after_of_writes_sub Y_l7 _ Y_l7_writes h
theorem Y_val7_main_arg2 (W : Valuation τ sig (Elt F)) : Y_val7 W (no_index (Proc.devRef .tc main_arg2)) = W (Proc.devRef .tc main_arg2) :=
  (Y_val7_keep W main_arg2 (by decide)).trans (Y_val6_main_arg2 W)
theorem Y_val7_main_v49 (W : Valuation τ sig (Elt F)) : Y_val7 W (no_index (Proc.devRef .tc main_v49)) = RefTerm.frac (RefTerm.coord1 (F := F) (W (Proc.devRef .tc main_arg0))) :=
  (Y_val7_keep W main_v49 (by decide)).trans (Y_val6_main_v49 W)
theorem Y_val7_main_v52 (W : Valuation τ sig (Elt F)) : Y_val7 W (no_index (Proc.devRef .tc main_v52)) = RefTerm.hi (RefTerm.coord1 (F := F) (W (Proc.devRef .tc main_arg0))) :=
  (Y_val7_keep W main_v52 (by decide)).trans (Y_val6_main_v52 W)
theorem Y_val7_main_v57 (W : Valuation τ sig (Elt F)) : Y_val7 W (no_index (Proc.devRef .tc main_v57)) = RefTerm.inGrid (RefTerm.lo (RefTerm.coord1 (F := F) (W (Proc.devRef .tc main_arg0)))) :=
  (Y_val7_keep W main_v57 (by decide)).trans (Y_val6_main_v57 W)
theorem Y_val7_main_call7_v4 (W : Valuation τ sig (Elt F)) : Y_val7 W (no_index (Proc.devRef .tc main_call7_v4)) = RefTerm.wrapNeg (RefTerm.clip (RefTerm.lo (RefTerm.coord1 (F := F) (W (Proc.devRef .tc main_arg0))))) :=
  (Y_s7_main_call7_v4 (Y_val6 W)).trans (by simp only [Y_val6_main_v58] <;> rfl)

abbrev Y_l8 : List (HloOp τ sig (Elt F)) :=
  [ StableHlo.TRef.unary main_call7.call0.v0 main_call7.v5 (broadcastInDim S2000000x1 ![0] bcast_S2000000_S2000000x1_0) ]
abbrev Y_l8_W : List (Ref sig .tc) := [main_call7_v5]
theorem Y_l8_writes : (Y_l8 : List (HloOp τ sig (Elt F))).Forall fun op => op.writes ⊆ (Y_l8_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- The run alone, from any contents. -/
theorem Y_s8_main_call7_v5 (W : Valuation τ sig (Elt F)) : after Y_l8 W (Proc.devRef .tc main_call7_v5) = RefTerm.col (W (Proc.devRef .tc main_call7_v4)) := by
  simp only [Y_l8]
  after_results_simp
  simp only [TRef.toBuf, TRef.ofBuf, cast_cast, cast_eq, id_eq] <;> rfl
def Y_val8 (W : Valuation τ sig (Elt F)) : Valuation τ sig (Elt F) := after Y_l8 (Y_val7 W)
theorem Y_val8_keep (W : Valuation τ sig (Elt F)) (r : Ref sig .tc) (h : r ∉ Y_l8_W) :
    Y_val8 W (Proc.devRef .tc r) = Y_val7 W (Proc.devRef .tc r) :=
  after_of_writes_sub Y_l8 _ Y_l8_writes h
theorem Y_val8_main_arg2 (W : Valuation τ sig (Elt F)) : Y_val8 W (no_index (Proc.devRef .tc main_arg2)) = W (Proc.devRef .tc main_arg2) :=
  (Y_val8_keep W main_arg2 (by decide)).trans (Y_val7_main_arg2 W)
theorem Y_val8_main_v49 (W : Valuation τ sig (Elt F)) : Y_val8 W (no_index (Proc.devRef .tc main_v49)) = RefTerm.frac (RefTerm.coord1 (F := F) (W (Proc.devRef .tc main_arg0))) :=
  (Y_val8_keep W main_v49 (by decide)).trans (Y_val7_main_v49 W)
theorem Y_val8_main_v52 (W : Valuation τ sig (Elt F)) : Y_val8 W (no_index (Proc.devRef .tc main_v52)) = RefTerm.hi (RefTerm.coord1 (F := F) (W (Proc.devRef .tc main_arg0))) :=
  (Y_val8_keep W main_v52 (by decide)).trans (Y_val7_main_v52 W)
theorem Y_val8_main_v57 (W : Valuation τ sig (Elt F)) : Y_val8 W (no_index (Proc.devRef .tc main_v57)) = RefTerm.inGrid (RefTerm.lo (RefTerm.coord1 (F := F) (W (Proc.devRef .tc main_arg0)))) :=
  (Y_val8_keep W main_v57 (by decide)).trans (Y_val7_main_v57 W)
theorem Y_val8_main_call7_v5 (W : Valuation τ sig (Elt F)) : Y_val8 W (no_index (Proc.devRef .tc main_call7_v5)) = RefTerm.col (RefTerm.wrapNeg (RefTerm.clip (RefTerm.lo (RefTerm.coord1 (F := F) (W (Proc.devRef .tc main_arg0)))))) :=
  (Y_s8_main_call7_v5 (Y_val7 W)).trans (by simp only [Y_val7_main_call7_v4] <;> rfl)

abbrev Y_l9 : List (HloOp τ sig (Elt F)) :=
  [ StableHlo.TRef.nullary main_call7.c_1 (constantI S1 32 511#32),
    StableHlo.TRef.nullary main_call7.c_2 (constantI S_ 32 0#32),
    StableHlo.TRef.unary main_call7.c_2 main_call7.v6 (broadcastInDim S2000000x1 ![] bcast_S_S2000000x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S2000000x1 ![0, 1] bcast_S1x1_S2000000x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S2000000x1_S2000000_d1 h_S_) ]
abbrev Y_l9_W : List (Ref sig .tc) := [main_call7_c_1, main_call7_c_2, main_call7_v6, main_call7_v7, main_call7_v8, main_call7_v9, main_call7_v10, main_call7_v11, main_call7_c_3, main_call7_v12]
theorem Y_l9_writes : (Y_l9 : List (HloOp τ sig (Elt F))).Forall fun op => op.writes ⊆ (Y_l9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s9_main_call7_v12 (W : Valuation τ sig (Elt F)) : after Y_l9 W (Proc.devRef .tc main_call7_v12) = RefTerm.inTable (W (Proc.devRef .tc main_call7_v5)) := by
  simp only [Y_l9]
  after_results_simp
  simp only [TRef.toBuf, TRef.ofBuf, cast_cast, cast_eq, id_eq] <;> rfl
def Y_val9 (W : Valuation τ sig (Elt F)) : Valuation τ sig (Elt F) := after Y_l9 (Y_val8 W)
theorem Y_val9_keep (W : Valuation τ sig (Elt F)) (r : Ref sig .tc) (h : r ∉ Y_l9_W) :
    Y_val9 W (Proc.devRef .tc r) = Y_val8 W (Proc.devRef .tc r) :=
  after_of_writes_sub Y_l9 _ Y_l9_writes h
theorem Y_val9_main_arg2 (W : Valuation τ sig (Elt F)) : Y_val9 W (no_index (Proc.devRef .tc main_arg2)) = W (Proc.devRef .tc main_arg2) :=
  (Y_val9_keep W main_arg2 (by decide)).trans (Y_val8_main_arg2 W)
theorem Y_val9_main_v49 (W : Valuation τ sig (Elt F)) : Y_val9 W (no_index (Proc.devRef .tc main_v49)) = RefTerm.frac (RefTerm.coord1 (F := F) (W (Proc.devRef .tc main_arg0))) :=
  (Y_val9_keep W main_v49 (by decide)).trans (Y_val8_main_v49 W)
theorem Y_val9_main_v52 (W : Valuation τ sig (Elt F)) : Y_val9 W (no_index (Proc.devRef .tc main_v52)) = RefTerm.hi (RefTerm.coord1 (F := F) (W (Proc.devRef .tc main_arg0))) :=
  (Y_val9_keep W main_v52 (by decide)).trans (Y_val8_main_v52 W)
theorem Y_val9_main_v57 (W : Valuation τ sig (Elt F)) : Y_val9 W (no_index (Proc.devRef .tc main_v57)) = RefTerm.inGrid (RefTerm.lo (RefTerm.coord1 (F := F) (W (Proc.devRef .tc main_arg0)))) :=
  (Y_val9_keep W main_v57 (by decide)).trans (Y_val8_main_v57 W)
theorem Y_val9_main_call7_v5 (W : Valuation τ sig (Elt F)) : Y_val9 W (no_index (Proc.devRef .tc main_call7_v5)) = RefTerm.col (RefTerm.wrapNeg (RefTerm.clip (RefTerm.lo (RefTerm.coord1 (F := F) (W (Proc.devRef .tc main_arg0)))))) :=
  (Y_val9_keep W main_call7_v5 (by decide)).trans (Y_val8_main_call7_v5 W)
theorem Y_val9_main_call7_v12 (W : Valuation τ sig (Elt F)) : Y_val9 W (no_index (Proc.devRef .tc main_call7_v12)) = RefTerm.inTable (RefTerm.col (RefTerm.wrapNeg (RefTerm.clip (RefTerm.lo (RefTerm.coord1 (F := F) (W (Proc.devRef .tc main_arg0))))))) :=
  (Y_s9_main_call7_v12 (Y_val8 W)).trans (by simp only [Y_val8_main_call7_v5] <;> rfl)

abbrev Y_l10 : List (HloOp τ sig (Elt F)) :=
  [ StableHlo.TRef.binary (StableHlo.TRef.of main_arg2 : StableHlo.TRef sig ⟨S32x512, .f32⟩) main_call7.v5 main_call7.v13 (fun x i => Host.gather gather_S32x512_S2000000x1_S32x2000000_0_1_n_n_1_1_321 x i),
    StableHlo.TRef.unary main_call7.v12 main_call7.v14 (broadcastInDim S32x2000000 ![1] bcast_S2000000_S32x2000000_1),
    StableHlo.TRef.nullary main_call7.cst (constant S_ .f32 0x7FC00000#32),
    StableHlo.TRef.unary main_call7.cst main_call7.v15 (broadcastInDim S32x2000000 ![] bcast_S_S32x2000000),
    StableHlo.TRef.ternary main_call7.v14 main_call7.v13 main_call7.v15 main_call7.v16 select ]
abbrev Y_l10_W : List (Ref sig .tc) := [main_call7_v13, main_call7_v14, main_call7_cst, main_call7_v15, main_v59]
theorem Y_l10_writes : (Y_l10 : List (HloOp τ sig (Elt F))).Forall fun op => op.writes ⊆ (Y_l10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s10_main_v59 (W : Valuation τ sig (Elt F)) : after Y_l10 W (Proc.devRef .tc main_v59) = select (broadcastInDim S32x2000000 ![1] bcast_S2000000_S32x2000000_1 (W (Proc.devRef .tc main_call7_v12))) (Host.gather gather_S32x512_S2000000x1_S32x2000000_0_1_n_n_1_1_321 (W (Proc.devRef .tc main_arg2)) (W (Proc.devRef .tc main_call7_v5))) (broadcastInDim S32x2000000 ![] bcast_S_S32x2000000 (constant (F := F) S_ .f32 0x7FC00000#32)) := by
  simp only [Y_l10]
  after_results_simp
  simp only [TRef.toBuf, TRef.ofBuf, cast_cast, cast_eq, id_eq] <;> rfl
def Y_val10 (W : Valuation τ sig (Elt F)) : Valuation τ sig (Elt F) := after Y_l10 (Y_val9 W)
theorem Y_val10_keep (W : Valuation τ sig (Elt F)) (r : Ref sig .tc) (h : r ∉ Y_l10_W) :
    Y_val10 W (Proc.devRef .tc r) = Y_val9 W (Proc.devRef .tc r) :=
  after_of_writes_sub Y_l10 _ Y_l10_writes h
theorem Y_val10_main_arg2 (W : Valuation τ sig (Elt F)) : Y_val10 W (no_index (Proc.devRef .tc main_arg2)) = W (Proc.devRef .tc main_arg2) :=
  (Y_val10_keep W main_arg2 (by decide)).trans (Y_val9_main_arg2 W)
theorem Y_val10_main_v49 (W : Valuation τ sig (Elt F)) : Y_val10 W (no_index (Proc.devRef .tc main_v49)) = RefTerm.frac (RefTerm.coord1 (F := F) (W (Proc.devRef .tc main_arg0))) :=
  (Y_val10_keep W main_v49 (by decide)).trans (Y_val9_main_v49 W)
theorem Y_val10_main_v52 (W : Valuation τ sig (Elt F)) : Y_val10 W (no_index (Proc.devRef .tc main_v52)) = RefTerm.hi (RefTerm.coord1 (F := F) (W (Proc.devRef .tc main_arg0))) :=
  (Y_val10_keep W main_v52 (by decide)).trans (Y_val9_main_v52 W)
theorem Y_val10_main_v57 (W : Valuation τ sig (Elt F)) : Y_val10 W (no_index (Proc.devRef .tc main_v57)) = RefTerm.inGrid (RefTerm.lo (RefTerm.coord1 (F := F) (W (Proc.devRef .tc main_arg0)))) :=
  (Y_val10_keep W main_v57 (by decide)).trans (Y_val9_main_v57 W)
theorem Y_val10_main_v59 (W : Valuation τ sig (Elt F)) : Y_val10 W (no_index (Proc.devRef .tc main_v59)) = RefTerm.take (W (Proc.devRef .tc main_arg2)) (RefTerm.clip (RefTerm.lo (RefTerm.coord1 (F := F) (W (Proc.devRef .tc main_arg0))))) :=
  (Y_s10_main_v59 (Y_val9 W)).trans (by simp only [Y_val9_main_call7_v12, Y_val9_main_call7_v5, Y_val9_main_arg2] <;> rfl)

abbrev Y_l11 : List (HloOp τ sig (Elt F)) :=
  [ StableHlo.unary main_v57 main_v60 (broadcastInDim S1x2000000 ![1] bcast_S2000000_S1x2000000_1 : (⟨S2000000, .i1⟩ : BufTy).Contents (Elt F) → (⟨S1x2000000, .i1⟩ : BufTy).Contents (Elt F)),
    StableHlo.nullary main_cst_21 (constant S_ .f32 0x00000000#32),
    StableHlo.TRef.unary (StableHlo.TRef.of main_cst_21 : StableHlo.TRef sig ⟨S_, .f32⟩) main_call8.v0 id,
    StableHlo.TRef.unary (StableHlo.TRef.of main_v60 : StableHlo.TRef sig ⟨S1x2000000, .i1⟩) main_call8.v1 (broadcastInDim S32x2000000 ![0, 1] bcast_S1x2000000_S32x2000000_0_1),
    StableHlo.TRef.unary main_call8.v0 main_call8.v2 (broadcastInDim S32x2000000 ![] bcast_S_S32x2000000),
    StableHlo.TRef.ternary main_call8.v1 (StableHlo.TRef.of main_v59 : StableHlo.TRef sig ⟨S32x2000000, .f32⟩) main_call8.v2 main_call8.v3 select ]
abbrev Y_l11_W : List (Ref sig .tc) := [main_v60, main_cst_21, main_call8_v0, main_call8_v1, main_call8_v2, main_v61]
theorem Y_l11_writes : (Y_l11 : List (HloOp τ sig (Elt F))).Forall fun op => op.writes ⊆ (Y_l11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s11_main_v61 (W : Valuation τ sig (Elt F)) : after Y_l11 W (Proc.devRef .tc main_v61) = RefTerm.masked (W (Proc.devRef .tc main_v57)) (W (Proc.devRef .tc main_v59)) := by
  simp only [Y_l11]
  after_results_simp
  simp only [TRef.toBuf, TRef.ofBuf, cast_cast, cast_eq, id_eq] <;> rfl
def Y_val11 (W : Valuation τ sig (Elt F)) : Valuation τ sig (Elt F) := after Y_l11 (Y_val10 W)
theorem Y_val11_keep (W : Valuation τ sig (Elt F)) (r : Ref sig .tc) (h : r ∉ Y_l11_W) :
    Y_val11 W (Proc.devRef .tc r) = Y_val10 W (Proc.devRef .tc r) :=
  after_of_writes_sub Y_l11 _ Y_l11_writes h
theorem Y_val11_main_arg2 (W : Valuation τ sig (Elt F)) : Y_val11 W (no_index (Proc.devRef .tc main_arg2)) = W (Proc.devRef .tc main_arg2) :=
  (Y_val11_keep W main_arg2 (by decide)).trans (Y_val10_main_arg2 W)
theorem Y_val11_main_v49 (W : Valuation τ sig (Elt F)) : Y_val11 W (no_index (Proc.devRef .tc main_v49)) = RefTerm.frac (RefTerm.coord1 (F := F) (W (Proc.devRef .tc main_arg0))) :=
  (Y_val11_keep W main_v49 (by decide)).trans (Y_val10_main_v49 W)
theorem Y_val11_main_v52 (W : Valuation τ sig (Elt F)) : Y_val11 W (no_index (Proc.devRef .tc main_v52)) = RefTerm.hi (RefTerm.coord1 (F := F) (W (Proc.devRef .tc main_arg0))) :=
  (Y_val11_keep W main_v52 (by decide)).trans (Y_val10_main_v52 W)
theorem Y_val11_main_v61 (W : Valuation τ sig (Elt F)) : Y_val11 W (no_index (Proc.devRef .tc main_v61)) = RefTerm.masked (RefTerm.inGrid (RefTerm.lo (RefTerm.coord1 (F := F) (W (Proc.devRef .tc main_arg0))))) (RefTerm.take (W (Proc.devRef .tc main_arg2)) (RefTerm.clip (RefTerm.lo (RefTerm.coord1 (F := F) (W (Proc.devRef .tc main_arg0)))))) :=
  (Y_s11_main_v61 (Y_val10 W)).trans (by simp only [Y_val10_main_v57, Y_val10_main_v59] <;> rfl)

abbrev Y_l12 : List (HloOp τ sig (Elt F)) :=
  [ StableHlo.nullary main_cst_22 (constant S_ .f32 0x3F800000#32),
    StableHlo.unary main_cst_22 main_v62 (broadcastInDim S2000000 ![] bcast_S_S2000000 : (⟨S_, .f32⟩ : BufTy).Contents (Elt F) → (⟨S2000000, .f32⟩ : BufTy).Contents (Elt F)),
    StableHlo.binary main_v62 main_v49 main_v63 (subf : (⟨S2000000, .f32⟩ : BufTy).Contents (Elt F) → (⟨S2000000, .f32⟩ : BufTy).Contents (Elt F) → (⟨S2000000, .f32⟩ : BufTy).Contents (Elt F)),
    StableHlo.unary main_v63 main_v64 (broadcastInDim S1x2000000 ![1] bcast_S2000000_S1x2000000_1 : (⟨S2000000, .f32⟩ : BufTy).Contents (Elt F) → (⟨S1x2000000, .f32⟩ : BufTy).Contents (Elt F)),
    StableHlo.unary main_v64 main_v65 (broadcastInDim S32x2000000 ![0, 1] bcast_S1x2000000_S32x2000000_0_1 : (⟨S1x2000000, .f32⟩ : BufTy).Contents (Elt F) → (⟨S32x2000000, .f32⟩ : BufTy).Contents (Elt F)),
    StableHlo.binary main_v61 main_v65 main_v66 (mulf : (⟨S32x2000000, .f32⟩ : BufTy).Contents (Elt F) → (⟨S32x2000000, .f32⟩ : BufTy).Contents (Elt F) → (⟨S32x2000000, .f32⟩ : BufTy).Contents (Elt F)) ]
abbrev Y_l12_W : List (Ref sig .tc) := [main_cst_22, main_v62, main_v63, main_v64, main_v65, main_v66]
theorem Y_l12_writes : (Y_l12 : List (HloOp τ sig (Elt F))).Forall fun op => op.writes ⊆ (Y_l12_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s12_main_v66 (W : Valuation τ sig (Elt F)) : after Y_l12 W (Proc.devRef .tc main_v66) = mulf (W (Proc.devRef .tc main_v61)) (RefTerm.spread (subf (RefTerm.bcF (F := F) 0x3F800000#32) (W (Proc.devRef .tc main_v49)))) := by
  simp only [Y_l12]
  after_results_simp <;> rfl
def Y_val12 (W : Valuation τ sig (Elt F)) : Valuation τ sig (Elt F) := after Y_l12 (Y_val11 W)
theorem Y_val12_keep (W : Valuation τ sig (Elt F)) (r : Ref sig .tc) (h : r ∉ Y_l12_W) :
    Y_val12 W (Proc.devRef .tc r) = Y_val11 W (Proc.devRef .tc r) :=
  after_of_writes_sub Y_l12 _ Y_l12_writes h
theorem Y_val12_main_arg2 (W : Valuation τ sig (Elt F)) : Y_val12 W (no_index (Proc.devRef .tc main_arg2)) = W (Proc.devRef .tc main_arg2) :=
  (Y_val12_keep W main_arg2 (by decide)).trans (Y_val11_main_arg2 W)
theorem Y_val12_main_v49 (W : Valuation τ sig (Elt F)) : Y_val12 W (no_index (Proc.devRef .tc main_v49)) = RefTerm.frac (RefTerm.coord1 (F := F) (W (Proc.devRef .tc main_arg0))) :=
  (Y_val12_keep W main_v49 (by decide)).trans (Y_val11_main_v49 W)
theorem Y_val12_main_v52 (W : Valuation τ sig (Elt F)) : Y_val12 W (no_index (Proc.devRef .tc main_v52)) = RefTerm.hi (RefTerm.coord1 (F := F) (W (Proc.devRef .tc main_arg0))) :=
  (Y_val12_keep W main_v52 (by decide)).trans (Y_val11_main_v52 W)
theorem Y_val12_main_v66 (W : Valuation τ sig (Elt F)) : Y_val12 W (no_index (Proc.devRef .tc main_v66)) = mulf (RefTerm.masked (RefTerm.inGrid (RefTerm.lo (RefTerm.coord1 (F := F) (W (Proc.devRef .tc main_arg0))))) (RefTerm.take (W (Proc.devRef .tc main_arg2)) (RefTerm.clip (RefTerm.lo (RefTerm.coord1 (F := F) (W (Proc.devRef .tc main_arg0))))))) (RefTerm.spread (subf (RefTerm.bcF (F := F) 0x3F800000#32) (RefTerm.frac (RefTerm.coord1 (F := F) (W (Proc.devRef .tc main_arg0)))))) :=
  (Y_s12_main_v66 (Y_val11 W)).trans (by simp only [Y_val11_main_v61, Y_val11_main_v49] <;> rfl)

abbrev Y_l13 : List (HloOp τ sig (Elt F)) :=
  [ StableHlo.nullary main_c_23 (constantI S_ 32 0#32),
    StableHlo.unary main_c_23 main_v67 (broadcastInDim S2000000 ![] bcast_S_S2000000 : (⟨S_, .i32⟩ : BufTy).Contents (Elt F) → (⟨S2000000, .i32⟩ : BufTy).Contents (Elt F)),
    StableHlo.binary main_v52 main_v67 main_v68 (cmpi .sge : (⟨S2000000, .i32⟩ : BufTy).Contents (Elt F) → (⟨S2000000, .i32⟩ : BufTy).Contents (Elt F) → (⟨S2000000, .i1⟩ : BufTy).Contents (Elt F)),
    StableHlo.nullary main_c_24 (constantI S_ 32 512#32),
    StableHlo.unary main_c_24 main_v69 (broadcastInDim S2000000 ![] bcast_S_S2000000 : (⟨S_, .i32⟩ : BufTy).Contents (Elt F) → (⟨S2000000, .i32⟩ : BufTy).Contents (Elt F)),
    StableHlo.binary main_v52 main_v69 main_v70 (cmpi .slt : (⟨S2000000, .i32⟩ : BufTy).Contents (Elt F) → (⟨S2000000, .i32⟩ : BufTy).Contents (Elt F) → (⟨S2000000, .i1⟩ : BufTy).Contents (Elt F)),
    StableHlo.binary main_v68 main_v70 main_v71 (andi : (⟨S2000000, .i1⟩ : BufTy).Contents (Elt F) → (⟨S2000000, .i1⟩ : BufTy).Contents (Elt F) → (⟨S2000000, .i1⟩ : BufTy).Contents (Elt F)) ]
abbrev Y_l13_W : List (Ref sig .tc) := [main_c_23, main_v67, main_v68, main_c_24, main_v69, main_v70, main_v71]
theorem Y_l13_writes : (Y_l13 : List (HloOp τ sig (Elt F))).Forall fun op => op.writes ⊆ (Y_l13_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s13_main_v71 (W : Valuation τ sig (Elt F)) : after Y_l13 W (Proc.devRef .tc main_v71) = RefTerm.inGrid (W (Proc.devRef .tc main_v52)) := by
  simp only [Y_l13]
  after_results_simp <;> rfl
def Y_val13 (W : Valuation τ sig (Elt F)) : Valuation τ sig (Elt F) := after Y_l13 (Y_val12 W)
theorem Y_val13_keep (W : Valuation τ sig (Elt F)) (r : Ref sig .tc) (h : r ∉ Y_l13_W) :
    Y_val13 W (Proc.devRef .tc r) = Y_val12 W (Proc.devRef .tc r) :=
  after_of_writes_sub Y_l13 _ Y_l13_writes h
theorem Y_val13_main_arg2 (W : Valuation τ sig (Elt F)) : Y_val13 W (no_index (Proc.devRef .tc main_arg2)) = W (Proc.devRef .tc main_arg2) :=
  (Y_val13_keep W main_arg2 (by decide)).trans (Y_val12_main_arg2 W)
theorem Y_val13_main_v49 (W : Valuation τ sig (Elt F)) : Y_val13 W (no_index (Proc.devRef .tc main_v49)) = RefTerm.frac (RefTerm.coord1 (F := F) (W (Proc.devRef .tc main_arg0))) :=
  (Y_val13_keep W main_v49 (by decide)).trans (Y_val12_main_v49 W)
theorem Y_val13_main_v52 (W : Valuation τ sig (Elt F)) : Y_val13 W (no_index (Proc.devRef .tc main_v52)) = RefTerm.hi (RefTerm.coord1 (F := F) (W (Proc.devRef .tc main_arg0))) :=
  (Y_val13_keep W main_v52 (by decide)).trans (Y_val12_main_v52 W)
theorem Y_val13_main_v66 (W : Valuation τ sig (Elt F)) : Y_val13 W (no_index (Proc.devRef .tc main_v66)) = mulf (RefTerm.masked (RefTerm.inGrid (RefTerm.lo (RefTerm.coord1 (F := F) (W (Proc.devRef .tc main_arg0))))) (RefTerm.take (W (Proc.devRef .tc main_arg2)) (RefTerm.clip (RefTerm.lo (RefTerm.coord1 (F := F) (W (Proc.devRef .tc main_arg0))))))) (RefTerm.spread (subf (RefTerm.bcF (F := F) 0x3F800000#32) (RefTerm.frac (RefTerm.coord1 (F := F) (W (Proc.devRef .tc main_arg0)))))) :=
  (Y_val13_keep W main_v66 (by decide)).trans (Y_val12_main_v66 W)
theorem Y_val13_main_v71 (W : Valuation τ sig (Elt F)) : Y_val13 W (no_index (Proc.devRef .tc main_v71)) = RefTerm.inGrid (RefTerm.hi (RefTerm.coord1 (F := F) (W (Proc.devRef .tc main_arg0)))) :=
  (Y_s13_main_v71 (Y_val12 W)).trans (by simp only [Y_val12_main_v52] <;> rfl)

abbrev Y_l14 : List (HloOp τ sig (Elt F)) :=
  [ StableHlo.nullary main_c_25 (constantI S_ 32 0#32),
    StableHlo.nullary main_c_26 (constantI S_ 32 511#32),
    StableHlo.TRef.unary (StableHlo.TRef.of main_c_25 : StableHlo.TRef sig ⟨S_, .i32⟩) main_call9.v0 id,
    StableHlo.TRef.unary main_call9.v0 main_call9.v1 (broadcastInDim S2000000 ![] bcast_S_S2000000),
    StableHlo.TRef.binary main_call9.v1 (StableHlo.TRef.of main_v52 : StableHlo.TRef sig ⟨S2000000, .i32⟩) main_call9.v2 maxsi,
    StableHlo.TRef.unary (StableHlo.TRef.of main_c_26 : StableHlo.TRef sig ⟨S_, .i32⟩) main_call9.v3 id,
    StableHlo.TRef.unary main_call9.v3 main_call9.v4 (broadcastInDim S2000000 ![] bcast_S_S2000000),
    StableHlo.TRef.binary main_call9.v4 main_call9.v2 main_call9.v5 minsi ]
abbrev Y_l14_W : List (Ref sig .tc) := [main_c_25, main_c_26, main_call9_v0, main_call9_v1, main_call9_v2, main_call9_v3, main_call9_v4, main_v72]
theorem Y_l14_writes : (Y_l14 : List (HloOp τ sig (Elt F))).Forall fun op => op.writes ⊆ (Y_l14_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s14_main_v72 (W : Valuation τ sig (Elt F)) : after Y_l14 W (Proc.devRef .tc main_v72) = RefTerm.clip (W (Proc.devRef .tc main_v52)) := by
  simp only [Y_l14]
  after_results_simp
  simp only [TRef.toBuf, TRef.ofBuf, cast_cast, cast_eq, id_eq] <;> rfl
def Y_val14 (W : Valuation τ sig (Elt F)) : Valuation τ sig (Elt F) := after Y_l14 (Y_val13 W)
theorem Y_val14_keep (W : Valuation τ sig (Elt F)) (r : Ref sig .tc) (h : r ∉ Y_l14_W) :
    Y_val14 W (Proc.devRef .tc r) = Y_val13 W (Proc.devRef .tc r) :=
  after_of_writes_sub Y_l14 _ Y_l14_writes h
theorem Y_val14_main_arg2 (W : Valuation τ sig (Elt F)) : Y_val14 W (no_index (Proc.devRef .tc main_arg2)) = W (Proc.devRef .tc main_arg2) :=
  (Y_val14_keep W main_arg2 (by decide)).trans (Y_val13_main_arg2 W)
theorem Y_val14_main_v49 (W : Valuation τ sig (Elt F)) : Y_val14 W (no_index (Proc.devRef .tc main_v49)) = RefTerm.frac (RefTerm.coord1 (F := F) (W (Proc.devRef .tc main_arg0))) :=
  (Y_val14_keep W main_v49 (by decide)).trans (Y_val13_main_v49 W)
theorem Y_val14_main_v66 (W : Valuation τ sig (Elt F)) : Y_val14 W (no_index (Proc.devRef .tc main_v66)) = mulf (RefTerm.masked (RefTerm.inGrid (RefTerm.lo (RefTerm.coord1 (F := F) (W (Proc.devRef .tc main_arg0))))) (RefTerm.take (W (Proc.devRef .tc main_arg2)) (RefTerm.clip (RefTerm.lo (RefTerm.coord1 (F := F) (W (Proc.devRef .tc main_arg0))))))) (RefTerm.spread (subf (RefTerm.bcF (F := F) 0x3F800000#32) (RefTerm.frac (RefTerm.coord1 (F := F) (W (Proc.devRef .tc main_arg0)))))) :=
  (Y_val14_keep W main_v66 (by decide)).trans (Y_val13_main_v66 W)
theorem Y_val14_main_v71 (W : Valuation τ sig (Elt F)) : Y_val14 W (no_index (Proc.devRef .tc main_v71)) = RefTerm.inGrid (RefTerm.hi (RefTerm.coord1 (F := F) (W (Proc.devRef .tc main_arg0)))) :=
  (Y_val14_keep W main_v71 (by decide)).trans (Y_val13_main_v71 W)
theorem Y_val14_main_v72 (W : Valuation τ sig (Elt F)) : Y_val14 W (no_index (Proc.devRef .tc main_v72)) = RefTerm.clip (RefTerm.hi (RefTerm.coord1 (F := F) (W (Proc.devRef .tc main_arg0)))) :=
  (Y_s14_main_v72 (Y_val13 W)).trans (by simp only [Y_val13_main_v52] <;> rfl)

abbrev Y_l15 : List (HloOp τ sig (Elt F)) :=
  [ StableHlo.TRef.nullary main_call10.c (constantI S_ 32 0#32),
    StableHlo.TRef.unary main_call10.c main_call10.v0 (broadcastInDim S2000000 ![] bcast_S_S2000000),
    StableHlo.TRef.binary (StableHlo.TRef.of main_v72 : StableHlo.TRef sig ⟨S2000000, .i32⟩) main_call10.v0 main_call10.v1 (cmpi .slt),
    StableHlo.TRef.nullary main_call10.c_0 (constantI S_ 32 512#32),
    StableHlo.TRef.unary main_call10.c_0 main_call10.v2 (broadcastInDim S2000000 ![] bcast_S_S2000000),
    StableHlo.TRef.binary (StableHlo.TRef.of main_v72 : StableHlo.TRef sig ⟨S2000000, .i32⟩) main_call10.v2 main_call10.v3 addi,
    StableHlo.TRef.ternary main_call10.v1 main_call10.v3 (StableHlo.TRef.of main_v72 : StableHlo.TRef sig ⟨S2000000, .i32⟩) main_call10.call0.v0 select ]
abbrev Y_l15_W : List (Ref sig .tc) := [main_call10_c, main_call10_v0, main_call10_v1, main_call10_c_0, main_call10_v2, main_call10_v3, main_call10_v4]
theorem Y_l15_writes : (Y_l15 : List (HloOp τ sig (Elt F))).Forall fun op => op.writes ⊆ (Y_l15_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s15_main_call10_v4 (W : Valuation τ sig (Elt F)) : after Y_l15 W (Proc.devRef .tc main_call10_v4) = RefTerm.wrapNeg (W (Proc.devRef .tc main_v72)) := by
  simp only [Y_l15]
  after_results_simp
  simp only [TRef.toBuf, TRef.ofBuf, cast_cast, cast_eq, id_eq] <;> rfl
def Y_val15 (W : Valuation τ sig (Elt F)) : Valuation τ sig (Elt F) := after Y_l15 (Y_val14 W)
theorem Y_val15_keep (W : Valuation τ sig (Elt F)) (r : Ref sig .tc) (h : r ∉ Y_l15_W) :
    Y_val15 W (Proc.devRef .tc r) = Y_val14 W (Proc.devRef .tc r) :=
  after_of_writes_sub Y_l15 _ Y_l15_writes h
theorem Y_val15_main_arg2 (W : Valuation τ sig (Elt F)) : Y_val15 W (no_index (Proc.devRef .tc main_arg2)) = W (Proc.devRef .tc main_arg2) :=
  (Y_val15_keep W main_arg2 (by decide)).trans (Y_val14_main_arg2 W)
theorem Y_val15_main_v49 (W : Valuation τ sig (Elt F)) : Y_val15 W (no_index (Proc.devRef .tc main_v49)) = RefTerm.frac (RefTerm.coord1 (F := F) (W (Proc.devRef .tc main_arg0))) :=
  (Y_val15_keep W main_v49 (by decide)).trans (Y_val14_main_v49 W)
theorem Y_val15_main_v66 (W : Valuation τ sig (Elt F)) : Y_val15 W (no_index (Proc.devRef .tc main_v66)) = mulf (RefTerm.masked (RefTerm.inGrid (RefTerm.lo (RefTerm.coord1 (F := F) (W (Proc.devRef .tc main_arg0))))) (RefTerm.take (W (Proc.devRef .tc main_arg2)) (RefTerm.clip (RefTerm.lo (RefTerm.coord1 (F := F) (W (Proc.devRef .tc main_arg0))))))) (RefTerm.spread (subf (RefTerm.bcF (F := F) 0x3F800000#32) (RefTerm.frac (RefTerm.coord1 (F := F) (W (Proc.devRef .tc main_arg0)))))) :=
  (Y_val15_keep W main_v66 (by decide)).trans (Y_val14_main_v66 W)
theorem Y_val15_main_v71 (W : Valuation τ sig (Elt F)) : Y_val15 W (no_index (Proc.devRef .tc main_v71)) = RefTerm.inGrid (RefTerm.hi (RefTerm.coord1 (F := F) (W (Proc.devRef .tc main_arg0)))) :=
  (Y_val15_keep W main_v71 (by decide)).trans (Y_val14_main_v71 W)
theorem Y_val15_main_call10_v4 (W : Valuation τ sig (Elt F)) : Y_val15 W (no_index (Proc.devRef .tc main_call10_v4)) = RefTerm.wrapNeg (RefTerm.clip (RefTerm.hi (RefTerm.coord1 (F := F) (W (Proc.devRef .tc main_arg0))))) :=
  (Y_s15_main_call10_v4 (Y_val14 W)).trans (by simp only [Y_val14_main_v72] <;> rfl)

abbrev Y_l16 : List (HloOp τ sig (Elt F)) :=
  [ StableHlo.TRef.unary main_call10.call0.v0 main_call10.v5 (broadcastInDim S2000000x1 ![0] bcast_S2000000_S2000000x1_0) ]
abbrev Y_l16_W : List (Ref sig .tc) := [main_call10_v5]
theorem Y_l16_writes : (Y_l16 : List (HloOp τ sig (Elt F))).Forall fun op => op.writes ⊆ (Y_l16_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- The run alone, from any contents. -/
theorem Y_s16_main_call10_v5 (W : Valuation τ sig (Elt F)) : after Y_l16 W (Proc.devRef .tc main_call10_v5) = RefTerm.col (W (Proc.devRef .tc main_call10_v4)) := by
  simp only [Y_l16]
  after_results_simp
  simp only [TRef.toBuf, TRef.ofBuf, cast_cast, cast_eq, id_eq] <;> rfl
def Y_val16 (W : Valuation τ sig (Elt F)) : Valuation τ sig (Elt F) := after Y_l16 (Y_val15 W)
theorem Y_val16_keep (W : Valuation τ sig (Elt F)) (r : Ref sig .tc) (h : r ∉ Y_l16_W) :
    Y_val16 W (Proc.devRef .tc r) = Y_val15 W (Proc.devRef .tc r) :=
  after_of_writes_sub Y_l16 _ Y_l16_writes h
theorem Y_val16_main_arg2 (W : Valuation τ sig (Elt F)) : Y_val16 W (no_index (Proc.devRef .tc main_arg2)) = W (Proc.devRef .tc main_arg2) :=
  (Y_val16_keep W main_arg2 (by decide)).trans (Y_val15_main_arg2 W)
theorem Y_val16_main_v49 (W : Valuation τ sig (Elt F)) : Y_val16 W (no_index (Proc.devRef .tc main_v49)) = RefTerm.frac (RefTerm.coord1 (F := F) (W (Proc.devRef .tc main_arg0))) :=
  (Y_val16_keep W main_v49 (by decide)).trans (Y_val15_main_v49 W)
theorem Y_val16_main_v66 (W : Valuation τ sig (Elt F)) : Y_val16 W (no_index (Proc.devRef .tc main_v66)) = mulf (RefTerm.masked (RefTerm.inGrid (RefTerm.lo (RefTerm.coord1 (F := F) (W (Proc.devRef .tc main_arg0))))) (RefTerm.take (W (Proc.devRef .tc main_arg2)) (RefTerm.clip (RefTerm.lo (RefTerm.coord1 (F := F) (W (Proc.devRef .tc main_arg0))))))) (RefTerm.spread (subf (RefTerm.bcF (F := F) 0x3F800000#32) (RefTerm.frac (RefTerm.coord1 (F := F) (W (Proc.devRef .tc main_arg0)))))) :=
  (Y_val16_keep W main_v66 (by decide)).trans (Y_val15_main_v66 W)
theorem Y_val16_main_v71 (W : Valuation τ sig (Elt F)) : Y_val16 W (no_index (Proc.devRef .tc main_v71)) = RefTerm.inGrid (RefTerm.hi (RefTerm.coord1 (F := F) (W (Proc.devRef .tc main_arg0)))) :=
  (Y_val16_keep W main_v71 (by decide)).trans (Y_val15_main_v71 W)
theorem Y_val16_main_call10_v5 (W : Valuation τ sig (Elt F)) : Y_val16 W (no_index (Proc.devRef .tc main_call10_v5)) = RefTerm.col (RefTerm.wrapNeg (RefTerm.clip (RefTerm.hi (RefTerm.coord1 (F := F) (W (Proc.devRef .tc main_arg0)))))) :=
  (Y_s16_main_call10_v5 (Y_val15 W)).trans (by simp only [Y_val15_main_call10_v4] <;> rfl)

abbrev Y_l17 : List (HloOp τ sig (Elt F)) :=
  [ StableHlo.TRef.nullary main_call10.c_1 (constantI S1 32 511#32),
    StableHlo.TRef.nullary main_call10.c_2 (constantI S_ 32 0#32),
    StableHlo.TRef.unary main_call10.c_2 main_call10.v6 (broadcastInDim S2000000x1 ![] bcast_S_S2000000x1),
    StableHlo.TRef.binary main_call10.v5 main_call10.v6 main_call10.v7 (cmpi .sge),
    StableHlo.TRef.unary main_call10.c_1 main_call10.v8 (broadcastInDim S1x1 ![1] bcast_S1_S1x1_1),
    StableHlo.TRef.unary main_call10.v8 main_call10.v9 (broadcastInDim S2000000x1 ![0, 1] bcast_S1x1_S2000000x1_0_1),
    StableHlo.TRef.binary main_call10.v5 main_call10.v9 main_call10.v10 (cmpi .sle),
    StableHlo.TRef.binary main_call10.v7 main_call10.v10 main_call10.v11 andi,
    StableHlo.TRef.nullary main_call10.c_3 (constantI S_ 1 1#1),
    StableHlo.TRef.binary main_call10.v11 main_call10.c_3 main_call10.v12 (fun x v => Host.reduce IntOp.andi x v reducesTo_S2000000x1_S2000000_d1 h_S_) ]
abbrev Y_l17_W : List (Ref sig .tc) := [main_call10_c_1, main_call10_c_2, main_call10_v6, main_call10_v7, main_call10_v8, main_call10_v9, main_call10_v10, main_call10_v11, main_call10_c_3, main_call10_v12]
theorem Y_l17_writes : (Y_l17 : List (HloOp τ sig (Elt F))).Forall fun op => op.writes ⊆ (Y_l17_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s17_main_call10_v12 (W : Valuation τ sig (Elt F)) : after Y_l17 W (Proc.devRef .tc main_call10_v12) = RefTerm.inTable (W (Proc.devRef .tc main_call10_v5)) := by
  simp only [Y_l17]
  after_results_simp
  simp only [TRef.toBuf, TRef.ofBuf, cast_cast, cast_eq, id_eq] <;> rfl
def Y_val17 (W : Valuation τ sig (Elt F)) : Valuation τ sig (Elt F) := after Y_l17 (Y_val16 W)
theorem Y_val17_keep (W : Valuation τ sig (Elt F)) (r : Ref sig .tc) (h : r ∉ Y_l17_W) :
    Y_val17 W (Proc.devRef .tc r) = Y_val16 W (Proc.devRef .tc r) :=
  after_of_writes_sub Y_l17 _ Y_l17_writes h
theorem Y_val17_main_arg2 (W : Valuation τ sig (Elt F)) : Y_val17 W (no_index (Proc.devRef .tc main_arg2)) = W (Proc.devRef .tc main_arg2) :=
  (Y_val17_keep W main_arg2 (by decide)).trans (Y_val16_main_arg2 W)
theorem Y_val17_main_v49 (W : Valuation τ sig (Elt F)) : Y_val17 W (no_index (Proc.devRef .tc main_v49)) = RefTerm.frac (RefTerm.coord1 (F := F) (W (Proc.devRef .tc main_arg0))) :=
  (Y_val17_keep W main_v49 (by decide)).trans (Y_val16_main_v49 W)
theorem Y_val17_main_v66 (W : Valuation τ sig (Elt F)) : Y_val17 W (no_index (Proc.devRef .tc main_v66)) = mulf (RefTerm.masked (RefTerm.inGrid (RefTerm.lo (RefTerm.coord1 (F := F) (W (Proc.devRef .tc main_arg0))))) (RefTerm.take (W (Proc.devRef .tc main_arg2)) (RefTerm.clip (RefTerm.lo (RefTerm.coord1 (F := F) (W (Proc.devRef .tc main_arg0))))))) (RefTerm.spread (subf (RefTerm.bcF (F := F) 0x3F800000#32) (RefTerm.frac (RefTerm.coord1 (F := F) (W (Proc.devRef .tc main_arg0)))))) :=
  (Y_val17_keep W main_v66 (by decide)).trans (Y_val16_main_v66 W)
theorem Y_val17_main_v71 (W : Valuation τ sig (Elt F)) : Y_val17 W (no_index (Proc.devRef .tc main_v71)) = RefTerm.inGrid (RefTerm.hi (RefTerm.coord1 (F := F) (W (Proc.devRef .tc main_arg0)))) :=
  (Y_val17_keep W main_v71 (by decide)).trans (Y_val16_main_v71 W)
theorem Y_val17_main_call10_v5 (W : Valuation τ sig (Elt F)) : Y_val17 W (no_index (Proc.devRef .tc main_call10_v5)) = RefTerm.col (RefTerm.wrapNeg (RefTerm.clip (RefTerm.hi (RefTerm.coord1 (F := F) (W (Proc.devRef .tc main_arg0)))))) :=
  (Y_val17_keep W main_call10_v5 (by decide)).trans (Y_val16_main_call10_v5 W)
theorem Y_val17_main_call10_v12 (W : Valuation τ sig (Elt F)) : Y_val17 W (no_index (Proc.devRef .tc main_call10_v12)) = RefTerm.inTable (RefTerm.col (RefTerm.wrapNeg (RefTerm.clip (RefTerm.hi (RefTerm.coord1 (F := F) (W (Proc.devRef .tc main_arg0))))))) :=
  (Y_s17_main_call10_v12 (Y_val16 W)).trans (by simp only [Y_val16_main_call10_v5] <;> rfl)

abbrev Y_l18 : List (HloOp τ sig (Elt F)) :=
  [ StableHlo.TRef.binary (StableHlo.TRef.of main_arg2 : StableHlo.TRef sig ⟨S32x512, .f32⟩) main_call10.v5 main_call10.v13 (fun x i => Host.gather gather_S32x512_S2000000x1_S32x2000000_0_1_n_n_1_1_321 x i),
    StableHlo.TRef.unary main_call10.v12 main_call10.v14 (broadcastInDim S32x2000000 ![1] bcast_S2000000_S32x2000000_1),
    StableHlo.TRef.nullary main_call10.cst (constant S_ .f32 0x7FC00000#32),
    StableHlo.TRef.unary main_call10.cst main_call10.v15 (broadcastInDim S32x2000000 ![] bcast_S_S32x2000000),
    StableHlo.TRef.ternary main_call10.v14 main_call10.v13 main_call10.v15 main_call10.v16 select ]
abbrev Y_l18_W : List (Ref sig .tc) := [main_call10_v13, main_call10_v14, main_call10_cst, main_call10_v15, main_v73]
theorem Y_l18_writes : (Y_l18 : List (HloOp τ sig (Elt F))).Forall fun op => op.writes ⊆ (Y_l18_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s18_main_v73 (W : Valuation τ sig (Elt F)) : after Y_l18 W (Proc.devRef .tc main_v73) = select (broadcastInDim S32x2000000 ![1] bcast_S2000000_S32x2000000_1 (W (Proc.devRef .tc main_call10_v12))) (Host.gather gather_S32x512_S2000000x1_S32x2000000_0_1_n_n_1_1_321 (W (Proc.devRef .tc main_arg2)) (W (Proc.devRef .tc main_call10_v5))) (broadcastInDim S32x2000000 ![] bcast_S_S32x2000000 (constant (F := F) S_ .f32 0x7FC00000#32)) := by
  simp only [Y_l18]
  after_results_simp
  simp only [TRef.toBuf, TRef.ofBuf, cast_cast, cast_eq, id_eq] <;> rfl
def Y_val18 (W : Valuation τ sig (Elt F)) : Valuation τ sig (Elt F) := after Y_l18 (Y_val17 W)
theorem Y_val18_keep (W : Valuation τ sig (Elt F)) (r : Ref sig .tc) (h : r ∉ Y_l18_W) :
    Y_val18 W (Proc.devRef .tc r) = Y_val17 W (Proc.devRef .tc r) :=
  after_of_writes_sub Y_l18 _ Y_l18_writes h
theorem Y_val18_main_v49 (W : Valuation τ sig (Elt F)) : Y_val18 W (no_index (Proc.devRef .tc main_v49)) = RefTerm.frac (RefTerm.coord1 (F := F) (W (Proc.devRef .tc main_arg0))) :=
  (Y_val18_keep W main_v49 (by decide)).trans (Y_val17_main_v49 W)
theorem Y_val18_main_v66 (W : Valuation τ sig (Elt F)) : Y_val18 W (no_index (Proc.devRef .tc main_v66)) = mulf (RefTerm.masked (RefTerm.inGrid (RefTerm.lo (RefTerm.coord1 (F := F) (W (Proc.devRef .tc main_arg0))))) (RefTerm.take (W (Proc.devRef .tc main_arg2)) (RefTerm.clip (RefTerm.lo (RefTerm.coord1 (F := F) (W (Proc.devRef .tc main_arg0))))))) (RefTerm.spread (subf (RefTerm.bcF (F := F) 0x3F800000#32) (RefTerm.frac (RefTerm.coord1 (F := F) (W (Proc.devRef .tc main_arg0)))))) :=
  (Y_val18_keep W main_v66 (by decide)).trans (Y_val17_main_v66 W)
theorem Y_val18_main_v71 (W : Valuation τ sig (Elt F)) : Y_val18 W (no_index (Proc.devRef .tc main_v71)) = RefTerm.inGrid (RefTerm.hi (RefTerm.coord1 (F := F) (W (Proc.devRef .tc main_arg0)))) :=
  (Y_val18_keep W main_v71 (by decide)).trans (Y_val17_main_v71 W)
theorem Y_val18_main_v73 (W : Valuation τ sig (Elt F)) : Y_val18 W (no_index (Proc.devRef .tc main_v73)) = RefTerm.take (W (Proc.devRef .tc main_arg2)) (RefTerm.clip (RefTerm.hi (RefTerm.coord1 (F := F) (W (Proc.devRef .tc main_arg0))))) :=
  (Y_s18_main_v73 (Y_val17 W)).trans (by simp only [Y_val17_main_call10_v12, Y_val17_main_call10_v5, Y_val17_main_arg2] <;> rfl)

abbrev Y_l19 : List (HloOp τ sig (Elt F)) :=
  [ StableHlo.unary main_v71 main_v74 (broadcastInDim S1x2000000 ![1] bcast_S2000000_S1x2000000_1 : (⟨S2000000, .i1⟩ : BufTy).Contents (Elt F) → (⟨S1x2000000, .i1⟩ : BufTy).Contents (Elt F)),
    StableHlo.nullary main_cst_27 (constant S_ .f32 0x00000000#32),
    StableHlo.TRef.unary (StableHlo.TRef.of main_cst_27 : StableHlo.TRef sig ⟨S_, .f32⟩) main_call11.v0 id,
    StableHlo.TRef.unary (StableHlo.TRef.of main_v74 : StableHlo.TRef sig ⟨S1x2000000, .i1⟩) main_call11.v1 (broadcastInDim S32x2000000 ![0, 1] bcast_S1x2000000_S32x2000000_0_1),
    StableHlo.TRef.unary main_call11.v0 main_call11.v2 (broadcastInDim S32x2000000 ![] bcast_S_S32x2000000),
    StableHlo.TRef.ternary main_call11.v1 (StableHlo.TRef.of main_v73 : StableHlo.TRef sig ⟨S32x2000000, .f32⟩) main_call11.v2 main_call11.v3 select ]
abbrev Y_l19_W : List (Ref sig .tc) := [main_v74, main_cst_27, main_call11_v0, main_call11_v1, main_call11_v2, main_v75]
theorem Y_l19_writes : (Y_l19 : List (HloOp τ sig (Elt F))).Forall fun op => op.writes ⊆ (Y_l19_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s19_main_v75 (W : Valuation τ sig (Elt F)) : after Y_l19 W (Proc.devRef .tc main_v75) = RefTerm.masked (W (Proc.devRef .tc main_v71)) (W (Proc.devRef .tc main_v73)) := by
  simp only [Y_l19]
  after_results_simp
  simp only [TRef.toBuf, TRef.ofBuf, cast_cast, cast_eq, id_eq] <;> rfl
def Y_val19 (W : Valuation τ sig (Elt F)) : Valuation τ sig (Elt F) := after Y_l19 (Y_val18 W)
theorem Y_val19_keep (W : Valuation τ sig (Elt F)) (r : Ref sig .tc) (h : r ∉ Y_l19_W) :
    Y_val19 W (Proc.devRef .tc r) = Y_val18 W (Proc.devRef .tc r) :=
  after_of_writes_sub Y_l19 _ Y_l19_writes h
theorem Y_val19_main_v49 (W : Valuation τ sig (Elt F)) : Y_val19 W (no_index (Proc.devRef .tc main_v49)) = RefTerm.frac (RefTerm.coord1 (F := F) (W (Proc.devRef .tc main_arg0))) :=
  (Y_val19_keep W main_v49 (by decide)).trans (Y_val18_main_v49 W)
theorem Y_val19_main_v66 (W : Valuation τ sig (Elt F)) : Y_val19 W (no_index (Proc.devRef .tc main_v66)) = mulf (RefTerm.masked (RefTerm.inGrid (RefTerm.lo (RefTerm.coord1 (F := F) (W (Proc.devRef .tc main_arg0))))) (RefTerm.take (W (Proc.devRef .tc main_arg2)) (RefTerm.clip (RefTerm.lo (RefTerm.coord1 (F := F) (W (Proc.devRef .tc main_arg0))))))) (RefTerm.spread (subf (RefTerm.bcF (F := F) 0x3F800000#32) (RefTerm.frac (RefTerm.coord1 (F := F) (W (Proc.devRef .tc main_arg0)))))) :=
  (Y_val19_keep W main_v66 (by decide)).trans (Y_val18_main_v66 W)
theorem Y_val19_main_v75 (W : Valuation τ sig (Elt F)) : Y_val19 W (no_index (Proc.devRef .tc main_v75)) = RefTerm.masked (RefTerm.inGrid (RefTerm.hi (RefTerm.coord1 (F := F) (W (Proc.devRef .tc main_arg0))))) (RefTerm.take (W (Proc.devRef .tc main_arg2)) (RefTerm.clip (RefTerm.hi (RefTerm.coord1 (F := F) (W (Proc.devRef .tc main_arg0)))))) :=
  (Y_s19_main_v75 (Y_val18 W)).trans (by simp only [Y_val18_main_v71, Y_val18_main_v73] <;> rfl)

abbrev Y_l20 : List (HloOp τ sig (Elt F)) :=
  [ StableHlo.unary main_v49 main_v76 (broadcastInDim S1x2000000 ![1] bcast_S2000000_S1x2000000_1 : (⟨S2000000, .f32⟩ : BufTy).Contents (Elt F) → (⟨S1x2000000, .f32⟩ : BufTy).Contents (Elt F)),
    StableHlo.unary main_v76 main_v77 (broadcastInDim S32x2000000 ![0, 1] bcast_S1x2000000_S32x2000000_0_1 : (⟨S1x2000000, .f32⟩ : BufTy).Contents (Elt F) → (⟨S32x2000000, .f32⟩ : BufTy).Contents (Elt F)),
    StableHlo.binary main_v75 main_v77 main_v78 (mulf : (⟨S32x2000000, .f32⟩ : BufTy).Contents (Elt F) → (⟨S32x2000000, .f32⟩ : BufTy).Contents (Elt F) → (⟨S32x2000000, .f32⟩ : BufTy).Contents (Elt F)),
    StableHlo.binary main_v66 main_v78 main_v79 (addf : (⟨S32x2000000, .f32⟩ : BufTy).Contents (Elt F) → (⟨S32x2000000, .f32⟩ : BufTy).Contents (Elt F) → (⟨S32x2000000, .f32⟩ : BufTy).Contents (Elt F)) ]
abbrev Y_l20_W : List (Ref sig .tc) := [main_v76, main_v77, main_v78, main_v79]
theorem Y_l20_writes : (Y_l20 : List (HloOp τ sig (Elt F))).Forall fun op => op.writes ⊆ (Y_l20_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Y_s20_main_v79 (W : Valuation τ sig (Elt F)) : after Y_l20 W (Proc.devRef .tc main_v79) = addf (W (Proc.devRef .tc main_v66)) (mulf (W (Proc.devRef .tc main_v75)) (RefTerm.spread (W (Proc.devRef .tc main_v49)))) := by
  simp only [Y_l20]
  after_results_simp <;> rfl
def Y_val20 (W : Valuation τ sig (Elt F)) : Valuation τ sig (Elt F) := after Y_l20 (Y_val19 W)
theorem Y_val20_keep (W : Valuation τ sig (Elt F)) (r : Ref sig .tc) (h : r ∉ Y_l20_W) :
    Y_val20 W (Proc.devRef .tc r) = Y_val19 W (Proc.devRef .tc r) :=
  after_of_writes_sub Y_l20 _ Y_l20_writes h
theorem Y_val20_main_v79 (W : Valuation τ sig (Elt F)) : Y_val20 W (no_index (Proc.devRef .tc main_v79)) = RefTerm.axis (W (Proc.devRef .tc main_arg2)) (RefTerm.coord1 (F := F) (W (Proc.devRef .tc main_arg0))) :=
  (Y_s20_main_v79 (Y_val19 W)).trans (by simp only [Y_val19_main_v66, Y_val19_main_v75, Y_val19_main_v49] <;> rfl)

/-- The short runs, in order, are the axis' operations. -/
theorem Y_split : (opsYa1 ++ (opsYa2 ++ (opsYb)) : List (HloOp τ sig (Elt F))) = Y_l1 ++ (Y_l2 ++ (Y_l3 ++ (Y_l4 ++ (Y_l5 ++ (Y_l6 ++ (Y_l7 ++ (Y_l8 ++ (Y_l9 ++ (Y_l10 ++ (Y_l11 ++ (Y_l12 ++ (Y_l13 ++ (Y_l14 ++ (Y_l15 ++ (Y_l16 ++ (Y_l17 ++ (Y_l18 ++ (Y_l19 ++ (Y_l20))))))))))))))))))) := rfl

theorem Y_after (W : Valuation τ sig (Elt F)) : after opsYb (after opsYa2 (after opsYa1 W)) = Y_val20 W := by
  have h : after (opsYa1 ++ (opsYa2 ++ (opsYb))) W = Y_val20 W := by
    rw [Y_split]; simp only [StableHlo.after_append]; rfl
  simpa only [StableHlo.after_append] using h

/-- After the axis' operations its last buffer holds the axis' blend of the table and the coordinate column. -/
theorem axisY (W : Valuation τ sig (Elt F)) :
    after opsYb (after opsYa2 (after opsYa1 W)) (Proc.devRef .tc main_v79) = RefTerm.axis (W (Proc.devRef .tc main_arg2)) (RefTerm.coord1 (F := F) (W (Proc.devRef .tc main_arg0))) := by
  rw [Y_after]; exact Y_val20_main_v79 W

end Cert.ReferenceIdeal.RefRun

end
-- ==== Proof.RefValZ.lean ====
/-
  Axis z of the reference program, value by value. The axis' operations are re-cut into short runs, one per
  named quantity of the specification term: the grid position, the fraction and the left column word, the right
  column word, and for each neighbour the in-grid mask, the clipped index, the lookup's wrapped index, its column
  form, its range guard, the looked-up columns and their masking; then the left product and the blend. Each run is
  first read on its own, from ANY buffer contents: the buffer it ends in holds one definition of the specification
  applied to the contents of the buffers the run reads. The runs are then chained: the operands are replaced by what
  the earlier runs left, which gives each quantity as a term of the buffers before the axis.
-/
import proofs.«133057_j46351287058969_2_alg».proof.Proof.RefOps
import Idealize.ShloMosaic.Lib.Pipeline.Frame

set_option pp.maxSteps 2000
set_option pp.deepTerms false

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts
abbrev Z_l1 : List (HloOp τ sig (Elt F)) :=
  [ StableHlo.unary main_arg0 main_v80 ((extractStridedSlice S2000000x1 ![0, 2] · slices_S2000000x3_S2000000x1_0_2) : (⟨S2000000x3, .f32⟩ : BufTy).Contents (Elt F) → (⟨S2000000x1, .f32⟩ : BufTy).Contents (Elt F)),
    StableHlo.reshape main_v80 main_v81 rfl shapeCasts_S2000000x1_S2000000,
    StableHlo.nullary main_cst_28 (constant S_ .f32 0x3F800000#32),
    StableHlo.unary main_cst_28 main_v82 (broadcastInDim S2000000 ![] bcast_S_S2000000 : (⟨S_, .f32⟩ : BufTy).Contents (Elt F) → (⟨S2000000, .f32⟩ : BufTy).Contents (Elt F)),
    StableHlo.binary main_v81 main_v82 main_v83 (addf : (⟨S2000000, .f32⟩ : BufTy).Contents (Elt F) → (⟨S2000000, .f32⟩ : BufTy).Contents (Elt F) → (⟨S2000000, .f32⟩ : BufTy).Contents (Elt F)),
    StableHlo.nullary main_cst_29 (constant S_ .f32 0x3F000000#32),
    StableHlo.unary main_cst_29 main_v84 (broadcastInDim S2000000 ![] bcast_S_S2000000 : (⟨S_, .f32⟩ : BufTy).Contents (Elt F) → (⟨S2000000, .f32⟩ : BufTy).Contents (Elt F)),
    StableHlo.binary main_v83 main_v84 main_v85 (mulf : (⟨S2000000, .f32⟩ : BufTy).Contents (Elt F) → (⟨S2000000, .f32⟩ : BufTy).Contents (Elt F) → (⟨S2000000, .f32⟩ : BufTy).Contents (Elt F)),
    StableHlo.nullary main_cst_30 (constant S_ .f32 0x43FF8000#32),
    StableHlo.unary main_cst_30 main_v86 (broadcastInDim S2000000 ![] bcast_S_S2000000 : (⟨S_, .f32⟩ : BufTy).Contents (Elt F) → (⟨S2000000, .f32⟩ : BufTy).Contents (Elt F)) ]
abbrev Z_l1_W : List (Ref sig .tc) := [main_v80, main_v81, main_cst_28, main_v82, main_v83, main_cst_29, main_v84, main_v85, main_cst_30, main_v86]
theorem Z_l1_writes : (Z_l1 : List (HloOp τ sig (Elt F))).Forall fun op => op.writes ⊆ (Z_l1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Z_s1_main_v85 (W : Valuation τ sig (Elt F)) : after Z_l1 W (Proc.devRef .tc main_v85) = mulf (addf (RefTerm.coord2 (F := F) (W (Proc.devRef .tc main_arg0))) (RefTerm.bcF (F := F) 0x3F800000#32)) (RefTerm.bcF (F := F) 0x3F000000#32) := by
  simp only [Z_l1]
  after_results_simp <;> rfl
/-- The run alone, from any contents. -/
theorem Z_s1_main_v86 (W : Valuation τ sig (Elt F)) : after Z_l1 W (Proc.devRef .tc main_v86) = RefTerm.bcF (F := F) 0x43FF8000#32 := by
  simp only [Z_l1]
  after_results_simp <;> rfl
def Z_val1 (W : Valuation τ sig (Elt F)) : Valuation τ sig (Elt F) := after Z_l1 W
theorem Z_val1_keep (W : Valuation τ sig (Elt F)) (r : Ref sig .tc) (h : r ∉ Z_l1_W) :
    Z_val1 W (Proc.devRef .tc r) = W (Proc.devRef .tc r) :=
  after_of_writes_sub Z_l1 _ Z_l1_writes h
theorem Z_val1_main_arg3 (W : Valuation τ sig (Elt F)) : Z_val1 W (no_index (Proc.devRef .tc main_arg3)) = W (Proc.devRef .tc main_arg3) :=
  Z_val1_keep W main_arg3 (by decide)
theorem Z_val1_main_v85 (W : Valuation τ sig (Elt F)) : Z_val1 W (no_index (Proc.devRef .tc main_v85)) = mulf (addf (RefTerm.coord2 (F := F) (W (Proc.devRef .tc main_arg0))) (RefTerm.bcF (F := F) 0x3F800000#32)) (RefTerm.bcF (F := F) 0x3F000000#32) :=
  (Z_s1_main_v85 W).trans (by rfl)
theorem Z_val1_main_v86 (W : Valuation τ sig (Elt F)) : Z_val1 W (no_index (Proc.devRef .tc main_v86)) = RefTerm.bcF (F := F) 0x43FF8000#32 :=
  (Z_s1_main_v86 W).trans (by rfl)

abbrev Z_l2 : List (HloOp τ sig (Elt F)) :=
  [ StableHlo.binary main_v85 main_v86 main_v87 (mulf : (⟨S2000000, .f32⟩ : BufTy).Contents (Elt F) → (⟨S2000000, .f32⟩ : BufTy).Contents (Elt F) → (⟨S2000000, .f32⟩ : BufTy).Contents (Elt F)) ]
abbrev Z_l2_W : List (Ref sig .tc) := [main_v87]
theorem Z_l2_writes : (Z_l2 : List (HloOp τ sig (Elt F))).Forall fun op => op.writes ⊆ (Z_l2_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- The run alone, from any contents. -/
theorem Z_s2_main_v87 (W : Valuation τ sig (Elt F)) : after Z_l2 W (Proc.devRef .tc main_v87) = mulf (W (Proc.devRef .tc main_v85)) (W (Proc.devRef .tc main_v86)) := by
  simp only [Z_l2]
  after_results_simp <;> rfl
def Z_val2 (W : Valuation τ sig (Elt F)) : Valuation τ sig (Elt F) := after Z_l2 (Z_val1 W)
theorem Z_val2_keep (W : Valuation τ sig (Elt F)) (r : Ref sig .tc) (h : r ∉ Z_l2_W) :
    Z_val2 W (Proc.devRef .tc r) = Z_val1 W (Proc.devRef .tc r) :=
  after_of_writes_sub Z_l2 _ Z_l2_writes h
theorem Z_val2_main_arg3 (W : Valuation τ sig (Elt F)) : Z_val2 W (no_index (Proc.devRef .tc main_arg3)) = W (Proc.devRef .tc main_arg3) :=
  (Z_val2_keep W main_arg3 (by decide)).trans (Z_val1_main_arg3 W)
theorem Z_val2_main_v87 (W : Valuation τ sig (Elt F)) : Z_val2 W (no_index (Proc.devRef .tc main_v87)) = RefTerm.gridPos (RefTerm.coord2 (F := F) (W (Proc.devRef .tc main_arg0))) :=
  (Z_s2_main_v87 (Z_val1 W)).trans (by simp only [Z_val1_main_v85, Z_val1_main_v86] <;> rfl)

abbrev Z_l3 : List (HloOp τ sig (Elt F)) :=
  [ StableHlo.unary main_v87 main_v88 (Host.floor : (⟨S2000000, .f32⟩ : BufTy).Contents (Elt F) → (⟨S2000000, .f32⟩ : BufTy).Contents (Elt F)),
    StableHlo.binary main_v87 main_v88 main_v89 (subf : (⟨S2000000, .f32⟩ : BufTy).Contents (Elt F) → (⟨S2000000, .f32⟩ : BufTy).Contents (Elt F) → (⟨S2000000, .f32⟩ : BufTy).Contents (Elt F)),
    StableHlo.unary main_v88 main_v90 (fptosi 32 : (⟨S2000000, .f32⟩ : BufTy).Contents (Elt F) → (⟨S2000000, .i32⟩ : BufTy).Contents (Elt F)) ]
abbrev Z_l3_W : List (Ref sig .tc) := [main_v88, main_v89, main_v90]
theorem Z_l3_writes : (Z_l3 : List (HloOp τ sig (Elt F))).Forall fun op => op.writes ⊆ (Z_l3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Z_s3_main_v89 (W : Valuation τ sig (Elt F)) : after Z_l3 W (Proc.devRef .tc main_v89) = subf (W (Proc.devRef .tc main_v87)) (Host.floor (W (Proc.devRef .tc main_v87))) := by
  simp only [Z_l3]
  after_results_simp <;> rfl
/-- The run alone, from any contents. -/
theorem Z_s3_main_v90 (W : Valuation τ sig (Elt F)) : after Z_l3 W (Proc.devRef .tc main_v90) = fptosi 32 (Host.floor (W (Proc.devRef .tc main_v87))) := by
  simp only [Z_l3]
  after_results_simp <;> rfl
def Z_val3 (W : Valuation τ sig (Elt F)) : Valuation τ sig (Elt F) := after Z_l3 (Z_val2 W)
theorem Z_val3_keep (W : Valuation τ sig (Elt F)) (r : Ref sig .tc) (h : r ∉ Z_l3_W) :
    Z_val3 W (Proc.devRef .tc r) = Z_val2 W (Proc.devRef .tc r) :=
  after_of_writes_sub Z_l3 _ Z_l3_writes h
theorem Z_val3_main_arg3 (W : Valuation τ sig (Elt F)) : Z_val3 W (no_index (Proc.devRef .tc main_arg3)) = W (Proc.devRef .tc main_arg3) :=
  (Z_val3_keep W main_arg3 (by decide)).trans (Z_val2_main_arg3 W)
theorem Z_val3_main_v89 (W : Valuation τ sig (Elt F)) : Z_val3 W (no_index (Proc.devRef .tc main_v89)) = RefTerm.frac (RefTerm.coord2 (F := F) (W (Proc.devRef .tc main_arg0))) :=
  (Z_s3_main_v89 (Z_val2 W)).trans (by simp only [Z_val2_main_v87] <;> rfl)
theorem Z_val3_main_v90 (W : Valuation τ sig (Elt F)) : Z_val3 W (no_index (Proc.devRef .tc main_v90)) = RefTerm.lo (RefTerm.coord2 (F := F) (W (Proc.devRef .tc main_arg0))) :=
  (Z_s3_main_v90 (Z_val2 W)).trans (by simp only [Z_val2_main_v87] <;> rfl)

abbrev Z_l4 : List (HloOp τ sig (Elt F)) :=
  [ StableHlo.nullary main_c_31 (constantI S_ 32 1#32),
    StableHlo.unary main_c_31 main_v91 (broadcastInDim S2000000 ![] bcast_S_S2000000 : (⟨S_, .i32⟩ : BufTy).Contents (Elt F) → (⟨S2000000, .i32⟩ : BufTy).Contents (Elt F)),
    StableHlo.binary main_v90 main_v91 main_v92 (addi : (⟨S2000000, .i32⟩ : BufTy).Contents (Elt F) → (⟨S2000000, .i32⟩ : BufTy).Contents (Elt F) → (⟨S2000000, .i32⟩ : BufTy).Contents (Elt F)) ]
abbrev Z_l4_W : List (Ref sig .tc) := [main_c_31, main_v91, main_v92]
theorem Z_l4_writes : (Z_l4 : List (HloOp τ sig (Elt F))).Forall fun op => op.writes ⊆ (Z_l4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Z_s4_main_v92 (W : Valuation τ sig (Elt F)) : after Z_l4 W (Proc.devRef .tc main_v92) = addi (W (Proc.devRef .tc main_v90)) (RefTerm.bcI 1#32) := by
  simp only [Z_l4]
  after_results_simp <;> rfl
def Z_val4 (W : Valuation τ sig (Elt F)) : Valuation τ sig (Elt F) := after Z_l4 (Z_val3 W)
theorem Z_val4_keep (W : Valuation τ sig (Elt F)) (r : Ref sig .tc) (h : r ∉ Z_l4_W) :
    Z_val4 W (Proc.devRef .tc r) = Z_val3 W (Proc.devRef .tc r) :=
  after_of_writes_sub Z_l4 _ Z_l4_writes h
theorem Z_val4_main_arg3 (W : Valuation τ sig (Elt F)) : Z_val4 W (no_index (Proc.devRef .tc main_arg3)) = W (Proc.devRef .tc main_arg3) :=
  (Z_val4_keep W main_arg3 (by decide)).trans (Z_val3_main_arg3 W)
theorem Z_val4_main_v89 (W : Valuation τ sig (Elt F)) : Z_val4 W (no_index (Proc.devRef .tc main_v89)) = RefTerm.frac (RefTerm.coord2 (F := F) (W (Proc.devRef .tc main_arg0))) :=
  (Z_val4_keep W main_v89 (by decide)).trans (Z_val3_main_v89 W)
theorem Z_val4_main_v90 (W : Valuation τ sig (Elt F)) : Z_val4 W (no_index (Proc.devRef .tc main_v90)) = RefTerm.lo (RefTerm.coord2 (F := F) (W (Proc.devRef .tc main_arg0))) :=
  (Z_val4_keep W main_v90 (by decide)).trans (Z_val3_main_v90 W)
theorem Z_val4_main_v92 (W : Valuation τ sig (Elt F)) : Z_val4 W (no_index (Proc.devRef .tc main_v92)) = RefTerm.hi (RefTerm.coord2 (F := F) (W (Proc.devRef .tc main_arg0))) :=
  (Z_s4_main_v92 (Z_val3 W)).trans (by simp only [Z_val3_main_v90] <;> rfl)

abbrev Z_l5 : List (HloOp τ sig (Elt F)) :=
  [ StableHlo.nullary main_c_32 (constantI S_ 32 0#32),
    StableHlo.unary main_c_32 main_v93 (broadcastInDim S2000000 ![] bcast_S_S2000000 : (⟨S_, .i32⟩ : BufTy).Contents (Elt F) → (⟨S2000000, .i32⟩ : BufTy).Contents (Elt F)),
    StableHlo.binary main_v90 main_v93 main_v94 (cmpi .sge : (⟨S2000000, .i32⟩ : BufTy).Contents (Elt F) → (⟨S2000000, .i32⟩ : BufTy).Contents (Elt F) → (⟨S2000000, .i1⟩ : BufTy).Contents (Elt F)),
    StableHlo.nullary main_c_33 (constantI S_ 32 512#32),
    StableHlo.unary main_c_33 main_v95 (broadcastInDim S2000000 ![] bcast_S_S2000000 : (⟨S_, .i32⟩ : BufTy).Contents (Elt F) → (⟨S2000000, .i32⟩ : BufTy).Contents (Elt F)),
    StableHlo.binary main_v90 main_v95 main_v96 (cmpi .slt : (⟨S2000000, .i32⟩ : BufTy).Contents (Elt F) → (⟨S2000000, .i32⟩ : BufTy).Contents (Elt F) → (⟨S2000000, .i1⟩ : BufTy).Contents (Elt F)),
    StableHlo.binary main_v94 main_v96 main_v97 (andi : (⟨S2000000, .i1⟩ : BufTy).Contents (Elt F) → (⟨S2000000, .i1⟩ : BufTy).Contents (Elt F) → (⟨S2000000, .i1⟩ : BufTy).Contents (Elt F)) ]
abbrev Z_l5_W : List (Ref sig .tc) := [main_c_32, main_v93, main_v94, main_c_33, main_v95, main_v96, main_v97]
theorem Z_l5_writes : (Z_l5 : List (HloOp τ sig (Elt F))).Forall fun op => op.writes ⊆ (Z_l5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Z_s5_main_v97 (W : Valuation τ sig (Elt F)) : after Z_l5 W (Proc.devRef .tc main_v97) = RefTerm.inGrid (W (Proc.devRef .tc main_v90)) := by
  simp only [Z_l5]
  after_results_simp <;> rfl
def Z_val5 (W : Valuation τ sig (Elt F)) : Valuation τ sig (Elt F) := after Z_l5 (Z_val4 W)
theorem Z_val5_keep (W : Valuation τ sig (Elt F)) (r : Ref sig .tc) (h : r ∉ Z_l5_W) :
    Z_val5 W (Proc.devRef .tc r) = Z_val4 W (Proc.devRef .tc r) :=
  after_of_writes_sub Z_l5 _ Z_l5_writes h
theorem Z_val5_main_arg3 (W : Valuation τ sig (Elt F)) : Z_val5 W (no_index (Proc.devRef .tc main_arg3)) = W (Proc.devRef .tc main_arg3) :=
  (Z_val5_keep W main_arg3 (by decide)).trans (Z_val4_main_arg3 W)
theorem Z_val5_main_v89 (W : Valuation τ sig (Elt F)) : Z_val5 W (no_index (Proc.devRef .tc main_v89)) = RefTerm.frac (RefTerm.coord2 (F := F) (W (Proc.devRef .tc main_arg0))) :=
  (Z_val5_keep W main_v89 (by decide)).trans (Z_val4_main_v89 W)
theorem Z_val5_main_v90 (W : Valuation τ sig (Elt F)) : Z_val5 W (no_index (Proc.devRef .tc main_v90)) = RefTerm.lo (RefTerm.coord2 (F := F) (W (Proc.devRef .tc main_arg0))) :=
  (Z_val5_keep W main_v90 (by decide)).trans (Z_val4_main_v90 W)
theorem Z_val5_main_v92 (W : Valuation τ sig (Elt F)) : Z_val5 W (no_index (Proc.devRef .tc main_v92)) = RefTerm.hi (RefTerm.coord2 (F := F) (W (Proc.devRef .tc main_arg0))) :=
  (Z_val5_keep W main_v92 (by decide)).trans (Z_val4_main_v92 W)
theorem Z_val5_main_v97 (W : Valuation τ sig (Elt F)) : Z_val5 W (no_index (Proc.devRef .tc main_v97)) = RefTerm.inGrid (RefTerm.lo (RefTerm.coord2 (F := F) (W (Proc.devRef .tc main_arg0)))) :=
  (Z_s5_main_v97 (Z_val4 W)).trans (by simp only [Z_val4_main_v90] <;> rfl)

abbrev Z_l6 : List (HloOp τ sig (Elt F)) :=
  [ StableHlo.nullary main_c_34 (constantI S_ 32 0#32),
    StableHlo.nullary main_c_35 (constantI S_ 32 511#32),
    StableHlo.TRef.unary (StableHlo.TRef.of main_c_34 : StableHlo.TRef sig ⟨S_, .i32⟩) main_call12.v0 id,
    StableHlo.TRef.unary main_call12.v0 main_call12.v1 (broadcastInDim S2000000 ![] bcast_S_S2000000),
    StableHlo.TRef.binary main_call12.v1 (StableHlo.TRef.of main_v90 : StableHlo.TRef sig ⟨S2000000, .i32⟩) main_call12.v2 maxsi,
    StableHlo.TRef.unary (StableHlo.TRef.of main_c_35 : StableHlo.TRef sig ⟨S_, .i32⟩) main_call12.v3 id,
    StableHlo.TRef.unary main_call12.v3 main_call12.v4 (broadcastInDim S2000000 ![] bcast_S_S2000000),
    StableHlo.TRef.binary main_call12.v4 main_call12.v2 main_call12.v5 minsi ]
abbrev Z_l6_W : List (Ref sig .tc) := [main_c_34, main_c_35, main_call12_v0, main_call12_v1, main_call12_v2, main_call12_v3, main_call12_v4, main_v98]
theorem Z_l6_writes : (Z_l6 : List (HloOp τ sig (Elt F))).Forall fun op => op.writes ⊆ (Z_l6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Z_s6_main_v98 (W : Valuation τ sig (Elt F)) : after Z_l6 W (Proc.devRef .tc main_v98) = RefTerm.clip (W (Proc.devRef .tc main_v90)) := by
  simp only [Z_l6]
  after_results_simp
  simp only [TRef.toBuf, TRef.ofBuf, cast_cast, cast_eq, id_eq] <;> rfl
def Z_val6 (W : Valuation τ sig (Elt F)) : Valuation τ sig (Elt F) := after Z_l6 (Z_val5 W)
theorem Z_val6_keep (W : Valuation τ sig (Elt F)) (r : Ref sig .tc) (h : r ∉ Z_l6_W) :
    Z_val6 W (Proc.devRef .tc r) = Z_val5 W (Proc.devRef .tc r) :=
  after_of_writes_sub Z_l6 _ Z_l6_writes h
theorem Z_val6_main_arg3 (W : Valuation τ sig (Elt F)) : Z_val6 W (no_index (Proc.devRef .tc main_arg3)) = W (Proc.devRef .tc main_arg3) :=
  (Z_val6_keep W main_arg3 (by decide)).trans (Z_val5_main_arg3 W)
theorem Z_val6_main_v89 (W : Valuation τ sig (Elt F)) : Z_val6 W (no_index (Proc.devRef .tc main_v89)) = RefTerm.frac (RefTerm.coord2 (F := F) (W (Proc.devRef .tc main_arg0))) :=
  (Z_val6_keep W main_v89 (by decide)).trans (Z_val5_main_v89 W)
theorem Z_val6_main_v92 (W : Valuation τ sig (Elt F)) : Z_val6 W (no_index (Proc.devRef .tc main_v92)) = RefTerm.hi (RefTerm.coord2 (F := F) (W (Proc.devRef .tc main_arg0))) :=
  (Z_val6_keep W main_v92 (by decide)).trans (Z_val5_main_v92 W)
theorem Z_val6_main_v97 (W : Valuation τ sig (Elt F)) : Z_val6 W (no_index (Proc.devRef .tc main_v97)) = RefTerm.inGrid (RefTerm.lo (RefTerm.coord2 (F := F) (W (Proc.devRef .tc main_arg0)))) :=
  (Z_val6_keep W main_v97 (by decide)).trans (Z_val5_main_v97 W)
theorem Z_val6_main_v98 (W : Valuation τ sig (Elt F)) : Z_val6 W (no_index (Proc.devRef .tc main_v98)) = RefTerm.clip (RefTerm.lo (RefTerm.coord2 (F := F) (W (Proc.devRef .tc main_arg0)))) :=
  (Z_s6_main_v98 (Z_val5 W)).trans (by simp only [Z_val5_main_v90] <;> rfl)

abbrev Z_l7 : List (HloOp τ sig (Elt F)) :=
  [ StableHlo.TRef.nullary main_call13.c (constantI S_ 32 0#32),
    StableHlo.TRef.unary main_call13.c main_call13.v0 (broadcastInDim S2000000 ![] bcast_S_S2000000),
    StableHlo.TRef.binary (StableHlo.TRef.of main_v98 : StableHlo.TRef sig ⟨S2000000, .i32⟩) main_call13.v0 main_call13.v1 (cmpi .slt),
    StableHlo.TRef.nullary main_call13.c_0 (constantI S_ 32 512#32),
    StableHlo.TRef.unary main_call13.c_0 main_call13.v2 (broadcastInDim S2000000 ![] bcast_S_S2000000),
    StableHlo.TRef.binary (StableHlo.TRef.of main_v98 : StableHlo.TRef sig ⟨S2000000, .i32⟩) main_call13.v2 main_call13.v3 addi,
    StableHlo.TRef.ternary main_call13.v1 main_call13.v3 (StableHlo.TRef.of main_v98 : StableHlo.TRef sig ⟨S2000000, .i32⟩) main_call13.call0.v0 select ]
abbrev Z_l7_W : List (Ref sig .tc) := [main_call13_c, main_call13_v0, main_call13_v1, main_call13_c_0, main_call13_v2, main_call13_v3, main_call13_v4]
theorem Z_l7_writes : (Z_l7 : List (HloOp τ sig (Elt F))).Forall fun op => op.writes ⊆ (Z_l7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Z_s7_main_call13_v4 (W : Valuation τ sig (Elt F)) : after Z_l7 W (Proc.devRef .tc main_call13_v4) = RefTerm.wrapNeg (W (Proc.devRef .tc main_v98)) := by
  simp only [Z_l7]
  after_results_simp
  simp only [TRef.toBuf, TRef.ofBuf, cast_cast, cast_eq, id_eq] <;> rfl
def Z_val7 (W : Valuation τ sig (Elt F)) : Valuation τ sig (Elt F) := after Z_l7 (Z_val6 W)
theorem Z_val7_keep (W : Valuation τ sig (Elt F)) (r : Ref sig .tc) (h : r ∉ Z_l7_W) :
    Z_val7 W (Proc.devRef .tc r) = Z_val6 W (Proc.devRef .tc r) :=
  after_of_writes_sub Z_l7 _ Z_l7_writes h
theorem Z_val7_main_arg3 (W : Valuation τ sig (Elt F)) : Z_val7 W (no_index (Proc.devRef .tc main_arg3)) = W (Proc.devRef .tc main_arg3) :=
  (Z_val7_keep W main_arg3 (by decide)).trans (Z_val6_main_arg3 W)
theorem Z_val7_main_v89 (W : Valuation τ sig (Elt F)) : Z_val7 W (no_index (Proc.devRef .tc main_v89)) = RefTerm.frac (RefTerm.coord2 (F := F) (W (Proc.devRef .tc main_arg0))) :=
  (Z_val7_keep W main_v89 (by decide)).trans (Z_val6_main_v89 W)
theorem Z_val7_main_v92 (W : Valuation τ sig (Elt F)) : Z_val7 W (no_index (Proc.devRef .tc main_v92)) = RefTerm.hi (RefTerm.coord2 (F := F) (W (Proc.devRef .tc main_arg0))) :=
  (Z_val7_keep W main_v92 (by decide)).trans (Z_val6_main_v92 W)
theorem Z_val7_main_v97 (W : Valuation τ sig (Elt F)) : Z_val7 W (no_index (Proc.devRef .tc main_v97)) = RefTerm.inGrid (RefTerm.lo (RefTerm.coord2 (F := F) (W (Proc.devRef .tc main_arg0)))) :=
  (Z_val7_keep W main_v97 (by decide)).trans (Z_val6_main_v97 W)
theorem Z_val7_main_call13_v4 (W : Valuation τ sig (Elt F)) : Z_val7 W (no_index (Proc.devRef .tc main_call13_v4)) = RefTerm.wrapNeg (RefTerm.clip (RefTerm.lo (RefTerm.coord2 (F := F) (W (Proc.devRef .tc main_arg0))))) :=
  (Z_s7_main_call13_v4 (Z_val6 W)).trans (by simp only [Z_val6_main_v98] <;> rfl)

abbrev Z_l8 : List (HloOp τ sig (Elt F)) :=
  [ StableHlo.TRef.unary main_call13.call0.v0 main_call13.v5 (broadcastInDim S2000000x1 ![0] bcast_S2000000_S2000000x1_0) ]
abbrev Z_l8_W : List (Ref sig .tc) := [main_call13_v5]
theorem Z_l8_writes : (Z_l8 : List (HloOp τ sig (Elt F))).Forall fun op => op.writes ⊆ (Z_l8_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- The run alone, from any contents. -/
theorem Z_s8_main_call13_v5 (W : Valuation τ sig (Elt F)) : after Z_l8 W (Proc.devRef .tc main_call13_v5) = RefTerm.col (W (Proc.devRef .tc main_call13_v4)) := by
  simp only [Z_l8]
  after_results_simp
  simp only [TRef.toBuf, TRef.ofBuf, cast_cast, cast_eq, id_eq] <;> rfl
def Z_val8 (W : Valuation τ sig (Elt F)) : Valuation τ sig (Elt F) := after Z_l8 (Z_val7 W)
theorem Z_val8_keep (W : Valuation τ sig (Elt F)) (r : Ref sig .tc) (h : r ∉ Z_l8_W) :
    Z_val8 W (Proc.devRef .tc r) = Z_val7 W (Proc.devRef .tc r) :=
  after_of_writes_sub Z_l8 _ Z_l8_writes h
theorem Z_val8_main_arg3 (W : Valuation τ sig (Elt F)) : Z_val8 W (no_index (Proc.devRef .tc main_arg3)) = W (Proc.devRef .tc main_arg3) :=
  (Z_val8_keep W main_arg3 (by decide)).trans (Z_val7_main_arg3 W)
theorem Z_val8_main_v89 (W : Valuation τ sig (Elt F)) : Z_val8 W (no_index (Proc.devRef .tc main_v89)) = RefTerm.frac (RefTerm.coord2 (F := F) (W (Proc.devRef .tc main_arg0))) :=
  (Z_val8_keep W main_v89 (by decide)).trans (Z_val7_main_v89 W)
theorem Z_val8_main_v92 (W : Valuation τ sig (Elt F)) : Z_val8 W (no_index (Proc.devRef .tc main_v92)) = RefTerm.hi (RefTerm.coord2 (F := F) (W (Proc.devRef .tc main_arg0))) :=
  (Z_val8_keep W main_v92 (by decide)).trans (Z_val7_main_v92 W)
theorem Z_val8_main_v97 (W : Valuation τ sig (Elt F)) : Z_val8 W (no_index (Proc.devRef .tc main_v97)) = RefTerm.inGrid (RefTerm.lo (RefTerm.coord2 (F := F) (W (Proc.devRef .tc main_arg0)))) :=
  (Z_val8_keep W main_v97 (by decide)).trans (Z_val7_main_v97 W)
theorem Z_val8_main_call13_v5 (W : Valuation τ sig (Elt F)) : Z_val8 W (no_index (Proc.devRef .tc main_call13_v5)) = RefTerm.col (RefTerm.wrapNeg (RefTerm.clip (RefTerm.lo (RefTerm.coord2 (F := F) (W (Proc.devRef .tc main_arg0)))))) :=
  (Z_s8_main_call13_v5 (Z_val7 W)).trans (by simp only [Z_val7_main_call13_v4] <;> rfl)

abbrev Z_l9 : List (HloOp τ sig (Elt F)) :=
  [ StableHlo.TRef.nullary main_call13.c_1 (constantI S1 32 511#32),
    StableHlo.TRef.nullary main_call13.c_2 (constantI S_ 32 0#32),
    StableHlo.TRef.unary main_call13.c_2 main_call13.v6 (broadcastInDim S2000000x1 ![] bcast_S_S2000000x1),
    StableHlo.TRef.binary main_call13.v5 main_call13.v6 main_call13.v7 (cmpi .sge),
    StableHlo.TRef.unary main_call13.c_1 main_call13.v8 (broadcastInDim S1x1 ![1] bcast_S1_S1x1_1),
    StableHlo.TRef.unary main_call13.v8 main_call13.v9 (broadcastInDim S2000000x1 ![0, 1] bcast_S1x1_S2000000x1_0_1),
    StableHlo.TRef.binary main_call13.v5 main_call13.v9 main_call13.v10 (cmpi .sle),
    StableHlo.TRef.binary main_call13.v7 main_call13.v10 main_call13.v11 andi,
    StableHlo.TRef.nullary main_call13.c_3 (constantI S_ 1 1#1),
    StableHlo.TRef.binary main_call13.v11 main_call13.c_3 main_call13.v12 (fun x v => Host.reduce IntOp.andi x v reducesTo_S2000000x1_S2000000_d1 h_S_) ]
abbrev Z_l9_W : List (Ref sig .tc) := [main_call13_c_1, main_call13_c_2, main_call13_v6, main_call13_v7, main_call13_v8, main_call13_v9, main_call13_v10, main_call13_v11, main_call13_c_3, main_call13_v12]
theorem Z_l9_writes : (Z_l9 : List (HloOp τ sig (Elt F))).Forall fun op => op.writes ⊆ (Z_l9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Z_s9_main_call13_v12 (W : Valuation τ sig (Elt F)) : after Z_l9 W (Proc.devRef .tc main_call13_v12) = RefTerm.inTable (W (Proc.devRef .tc main_call13_v5)) := by
  simp only [Z_l9]
  after_results_simp
  simp only [TRef.toBuf, TRef.ofBuf, cast_cast, cast_eq, id_eq] <;> rfl
def Z_val9 (W : Valuation τ sig (Elt F)) : Valuation τ sig (Elt F) := after Z_l9 (Z_val8 W)
theorem Z_val9_keep (W : Valuation τ sig (Elt F)) (r : Ref sig .tc) (h : r ∉ Z_l9_W) :
    Z_val9 W (Proc.devRef .tc r) = Z_val8 W (Proc.devRef .tc r) :=
  after_of_writes_sub Z_l9 _ Z_l9_writes h
theorem Z_val9_main_arg3 (W : Valuation τ sig (Elt F)) : Z_val9 W (no_index (Proc.devRef .tc main_arg3)) = W (Proc.devRef .tc main_arg3) :=
  (Z_val9_keep W main_arg3 (by decide)).trans (Z_val8_main_arg3 W)
theorem Z_val9_main_v89 (W : Valuation τ sig (Elt F)) : Z_val9 W (no_index (Proc.devRef .tc main_v89)) = RefTerm.frac (RefTerm.coord2 (F := F) (W (Proc.devRef .tc main_arg0))) :=
  (Z_val9_keep W main_v89 (by decide)).trans (Z_val8_main_v89 W)
theorem Z_val9_main_v92 (W : Valuation τ sig (Elt F)) : Z_val9 W (no_index (Proc.devRef .tc main_v92)) = RefTerm.hi (RefTerm.coord2 (F := F) (W (Proc.devRef .tc main_arg0))) :=
  (Z_val9_keep W main_v92 (by decide)).trans (Z_val8_main_v92 W)
theorem Z_val9_main_v97 (W : Valuation τ sig (Elt F)) : Z_val9 W (no_index (Proc.devRef .tc main_v97)) = RefTerm.inGrid (RefTerm.lo (RefTerm.coord2 (F := F) (W (Proc.devRef .tc main_arg0)))) :=
  (Z_val9_keep W main_v97 (by decide)).trans (Z_val8_main_v97 W)
theorem Z_val9_main_call13_v5 (W : Valuation τ sig (Elt F)) : Z_val9 W (no_index (Proc.devRef .tc main_call13_v5)) = RefTerm.col (RefTerm.wrapNeg (RefTerm.clip (RefTerm.lo (RefTerm.coord2 (F := F) (W (Proc.devRef .tc main_arg0)))))) :=
  (Z_val9_keep W main_call13_v5 (by decide)).trans (Z_val8_main_call13_v5 W)
theorem Z_val9_main_call13_v12 (W : Valuation τ sig (Elt F)) : Z_val9 W (no_index (Proc.devRef .tc main_call13_v12)) = RefTerm.inTable (RefTerm.col (RefTerm.wrapNeg (RefTerm.clip (RefTerm.lo (RefTerm.coord2 (F := F) (W (Proc.devRef .tc main_arg0))))))) :=
  (Z_s9_main_call13_v12 (Z_val8 W)).trans (by simp only [Z_val8_main_call13_v5] <;> rfl)

abbrev Z_l10 : List (HloOp τ sig (Elt F)) :=
  [ StableHlo.TRef.binary (StableHlo.TRef.of main_arg3 : StableHlo.TRef sig ⟨S32x512, .f32⟩) main_call13.v5 main_call13.v13 (fun x i => Host.gather gather_S32x512_S2000000x1_S32x2000000_0_1_n_n_1_1_321 x i),
    StableHlo.TRef.unary main_call13.v12 main_call13.v14 (broadcastInDim S32x2000000 ![1] bcast_S2000000_S32x2000000_1),
    StableHlo.TRef.nullary main_call13.cst (constant S_ .f32 0x7FC00000#32),
    StableHlo.TRef.unary main_call13.cst main_call13.v15 (broadcastInDim S32x2000000 ![] bcast_S_S32x2000000),
    StableHlo.TRef.ternary main_call13.v14 main_call13.v13 main_call13.v15 main_call13.v16 select ]
abbrev Z_l10_W : List (Ref sig .tc) := [main_call13_v13, main_call13_v14, main_call13_cst, main_call13_v15, main_v99]
theorem Z_l10_writes : (Z_l10 : List (HloOp τ sig (Elt F))).Forall fun op => op.writes ⊆ (Z_l10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Z_s10_main_v99 (W : Valuation τ sig (Elt F)) : after Z_l10 W (Proc.devRef .tc main_v99) = select (broadcastInDim S32x2000000 ![1] bcast_S2000000_S32x2000000_1 (W (Proc.devRef .tc main_call13_v12))) (Host.gather gather_S32x512_S2000000x1_S32x2000000_0_1_n_n_1_1_321 (W (Proc.devRef .tc main_arg3)) (W (Proc.devRef .tc main_call13_v5))) (broadcastInDim S32x2000000 ![] bcast_S_S32x2000000 (constant (F := F) S_ .f32 0x7FC00000#32)) := by
  simp only [Z_l10]
  after_results_simp
  simp only [TRef.toBuf, TRef.ofBuf, cast_cast, cast_eq, id_eq] <;> rfl
def Z_val10 (W : Valuation τ sig (Elt F)) : Valuation τ sig (Elt F) := after Z_l10 (Z_val9 W)
theorem Z_val10_keep (W : Valuation τ sig (Elt F)) (r : Ref sig .tc) (h : r ∉ Z_l10_W) :
    Z_val10 W (Proc.devRef .tc r) = Z_val9 W (Proc.devRef .tc r) :=
  after_of_writes_sub Z_l10 _ Z_l10_writes h
theorem Z_val10_main_arg3 (W : Valuation τ sig (Elt F)) : Z_val10 W (no_index (Proc.devRef .tc main_arg3)) = W (Proc.devRef .tc main_arg3) :=
  (Z_val10_keep W main_arg3 (by decide)).trans (Z_val9_main_arg3 W)
theorem Z_val10_main_v89 (W : Valuation τ sig (Elt F)) : Z_val10 W (no_index (Proc.devRef .tc main_v89)) = RefTerm.frac (RefTerm.coord2 (F := F) (W (Proc.devRef .tc main_arg0))) :=
  (Z_val10_keep W main_v89 (by decide)).trans (Z_val9_main_v89 W)
theorem Z_val10_main_v92 (W : Valuation τ sig (Elt F)) : Z_val10 W (no_index (Proc.devRef .tc main_v92)) = RefTerm.hi (RefTerm.coord2 (F := F) (W (Proc.devRef .tc main_arg0))) :=
  (Z_val10_keep W main_v92 (by decide)).trans (Z_val9_main_v92 W)
theorem Z_val10_main_v97 (W : Valuation τ sig (Elt F)) : Z_val10 W (no_index (Proc.devRef .tc main_v97)) = RefTerm.inGrid (RefTerm.lo (RefTerm.coord2 (F := F) (W (Proc.devRef .tc main_arg0)))) :=
  (Z_val10_keep W main_v97 (by decide)).trans (Z_val9_main_v97 W)
theorem Z_val10_main_v99 (W : Valuation τ sig (Elt F)) : Z_val10 W (no_index (Proc.devRef .tc main_v99)) = RefTerm.take (W (Proc.devRef .tc main_arg3)) (RefTerm.clip (RefTerm.lo (RefTerm.coord2 (F := F) (W (Proc.devRef .tc main_arg0))))) :=
  (Z_s10_main_v99 (Z_val9 W)).trans (by simp only [Z_val9_main_call13_v12, Z_val9_main_call13_v5, Z_val9_main_arg3] <;> rfl)

abbrev Z_l11 : List (HloOp τ sig (Elt F)) :=
  [ StableHlo.unary main_v97 main_v100 (broadcastInDim S1x2000000 ![1] bcast_S2000000_S1x2000000_1 : (⟨S2000000, .i1⟩ : BufTy).Contents (Elt F) → (⟨S1x2000000, .i1⟩ : BufTy).Contents (Elt F)),
    StableHlo.nullary main_cst_36 (constant S_ .f32 0x00000000#32),
    StableHlo.TRef.unary (StableHlo.TRef.of main_cst_36 : StableHlo.TRef sig ⟨S_, .f32⟩) main_call14.v0 id,
    StableHlo.TRef.unary (StableHlo.TRef.of main_v100 : StableHlo.TRef sig ⟨S1x2000000, .i1⟩) main_call14.v1 (broadcastInDim S32x2000000 ![0, 1] bcast_S1x2000000_S32x2000000_0_1),
    StableHlo.TRef.unary main_call14.v0 main_call14.v2 (broadcastInDim S32x2000000 ![] bcast_S_S32x2000000),
    StableHlo.TRef.ternary main_call14.v1 (StableHlo.TRef.of main_v99 : StableHlo.TRef sig ⟨S32x2000000, .f32⟩) main_call14.v2 main_call14.v3 select ]
abbrev Z_l11_W : List (Ref sig .tc) := [main_v100, main_cst_36, main_call14_v0, main_call14_v1, main_call14_v2, main_v101]
theorem Z_l11_writes : (Z_l11 : List (HloOp τ sig (Elt F))).Forall fun op => op.writes ⊆ (Z_l11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Z_s11_main_v101 (W : Valuation τ sig (Elt F)) : after Z_l11 W (Proc.devRef .tc main_v101) = RefTerm.masked (W (Proc.devRef .tc main_v97)) (W (Proc.devRef .tc main_v99)) := by
  simp only [Z_l11]
  after_results_simp
  simp only [TRef.toBuf, TRef.ofBuf, cast_cast, cast_eq, id_eq] <;> rfl
def Z_val11 (W : Valuation τ sig (Elt F)) : Valuation τ sig (Elt F) := after Z_l11 (Z_val10 W)
theorem Z_val11_keep (W : Valuation τ sig (Elt F)) (r : Ref sig .tc) (h : r ∉ Z_l11_W) :
    Z_val11 W (Proc.devRef .tc r) = Z_val10 W (Proc.devRef .tc r) :=
  after_of_writes_sub Z_l11 _ Z_l11_writes h
theorem Z_val11_main_arg3 (W : Valuation τ sig (Elt F)) : Z_val11 W (no_index (Proc.devRef .tc main_arg3)) = W (Proc.devRef .tc main_arg3) :=
  (Z_val11_keep W main_arg3 (by decide)).trans (Z_val10_main_arg3 W)
theorem Z_val11_main_v89 (W : Valuation τ sig (Elt F)) : Z_val11 W (no_index (Proc.devRef .tc main_v89)) = RefTerm.frac (RefTerm.coord2 (F := F) (W (Proc.devRef .tc main_arg0))) :=
  (Z_val11_keep W main_v89 (by decide)).trans (Z_val10_main_v89 W)
theorem Z_val11_main_v92 (W : Valuation τ sig (Elt F)) : Z_val11 W (no_index (Proc.devRef .tc main_v92)) = RefTerm.hi (RefTerm.coord2 (F := F) (W (Proc.devRef .tc main_arg0))) :=
  (Z_val11_keep W main_v92 (by decide)).trans (Z_val10_main_v92 W)
theorem Z_val11_main_v101 (W : Valuation τ sig (Elt F)) : Z_val11 W (no_index (Proc.devRef .tc main_v101)) = RefTerm.masked (RefTerm.inGrid (RefTerm.lo (RefTerm.coord2 (F := F) (W (Proc.devRef .tc main_arg0))))) (RefTerm.take (W (Proc.devRef .tc main_arg3)) (RefTerm.clip (RefTerm.lo (RefTerm.coord2 (F := F) (W (Proc.devRef .tc main_arg0)))))) :=
  (Z_s11_main_v101 (Z_val10 W)).trans (by simp only [Z_val10_main_v97, Z_val10_main_v99] <;> rfl)

abbrev Z_l12 : List (HloOp τ sig (Elt F)) :=
  [ StableHlo.nullary main_cst_37 (constant S_ .f32 0x3F800000#32),
    StableHlo.unary main_cst_37 main_v102 (broadcastInDim S2000000 ![] bcast_S_S2000000 : (⟨S_, .f32⟩ : BufTy).Contents (Elt F) → (⟨S2000000, .f32⟩ : BufTy).Contents (Elt F)),
    StableHlo.binary main_v102 main_v89 main_v103 (subf : (⟨S2000000, .f32⟩ : BufTy).Contents (Elt F) → (⟨S2000000, .f32⟩ : BufTy).Contents (Elt F) → (⟨S2000000, .f32⟩ : BufTy).Contents (Elt F)),
    StableHlo.unary main_v103 main_v104 (broadcastInDim S1x2000000 ![1] bcast_S2000000_S1x2000000_1 : (⟨S2000000, .f32⟩ : BufTy).Contents (Elt F) → (⟨S1x2000000, .f32⟩ : BufTy).Contents (Elt F)),
    StableHlo.unary main_v104 main_v105 (broadcastInDim S32x2000000 ![0, 1] bcast_S1x2000000_S32x2000000_0_1 : (⟨S1x2000000, .f32⟩ : BufTy).Contents (Elt F) → (⟨S32x2000000, .f32⟩ : BufTy).Contents (Elt F)),
    StableHlo.binary main_v101 main_v105 main_v106 (mulf : (⟨S32x2000000, .f32⟩ : BufTy).Contents (Elt F) → (⟨S32x2000000, .f32⟩ : BufTy).Contents (Elt F) → (⟨S32x2000000, .f32⟩ : BufTy).Contents (Elt F)) ]
abbrev Z_l12_W : List (Ref sig .tc) := [main_cst_37, main_v102, main_v103, main_v104, main_v105, main_v106]
theorem Z_l12_writes : (Z_l12 : List (HloOp τ sig (Elt F))).Forall fun op => op.writes ⊆ (Z_l12_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Z_s12_main_v106 (W : Valuation τ sig (Elt F)) : after Z_l12 W (Proc.devRef .tc main_v106) = mulf (W (Proc.devRef .tc main_v101)) (RefTerm.spread (subf (RefTerm.bcF (F := F) 0x3F800000#32) (W (Proc.devRef .tc main_v89)))) := by
  simp only [Z_l12]
  after_results_simp <;> rfl
def Z_val12 (W : Valuation τ sig (Elt F)) : Valuation τ sig (Elt F) := after Z_l12 (Z_val11 W)
theorem Z_val12_keep (W : Valuation τ sig (Elt F)) (r : Ref sig .tc) (h : r ∉ Z_l12_W) :
    Z_val12 W (Proc.devRef .tc r) = Z_val11 W (Proc.devRef .tc r) :=
  after_of_writes_sub Z_l12 _ Z_l12_writes h
theorem Z_val12_main_arg3 (W : Valuation τ sig (Elt F)) : Z_val12 W (no_index (Proc.devRef .tc main_arg3)) = W (Proc.devRef .tc main_arg3) :=
  (Z_val12_keep W main_arg3 (by decide)).trans (Z_val11_main_arg3 W)
theorem Z_val12_main_v89 (W : Valuation τ sig (Elt F)) : Z_val12 W (no_index (Proc.devRef .tc main_v89)) = RefTerm.frac (RefTerm.coord2 (F := F) (W (Proc.devRef .tc main_arg0))) :=
  (Z_val12_keep W main_v89 (by decide)).trans (Z_val11_main_v89 W)
theorem Z_val12_main_v92 (W : Valuation τ sig (Elt F)) : Z_val12 W (no_index (Proc.devRef .tc main_v92)) = RefTerm.hi (RefTerm.coord2 (F := F) (W (Proc.devRef .tc main_arg0))) :=
  (Z_val12_keep W main_v92 (by decide)).trans (Z_val11_main_v92 W)
theorem Z_val12_main_v106 (W : Valuation τ sig (Elt F)) : Z_val12 W (no_index (Proc.devRef .tc main_v106)) = mulf (RefTerm.masked (RefTerm.inGrid (RefTerm.lo (RefTerm.coord2 (F := F) (W (Proc.devRef .tc main_arg0))))) (RefTerm.take (W (Proc.devRef .tc main_arg3)) (RefTerm.clip (RefTerm.lo (RefTerm.coord2 (F := F) (W (Proc.devRef .tc main_arg0))))))) (RefTerm.spread (subf (RefTerm.bcF (F := F) 0x3F800000#32) (RefTerm.frac (RefTerm.coord2 (F := F) (W (Proc.devRef .tc main_arg0)))))) :=
  (Z_s12_main_v106 (Z_val11 W)).trans (by simp only [Z_val11_main_v101, Z_val11_main_v89] <;> rfl)

abbrev Z_l13 : List (HloOp τ sig (Elt F)) :=
  [ StableHlo.nullary main_c_38 (constantI S_ 32 0#32),
    StableHlo.unary main_c_38 main_v107 (broadcastInDim S2000000 ![] bcast_S_S2000000 : (⟨S_, .i32⟩ : BufTy).Contents (Elt F) → (⟨S2000000, .i32⟩ : BufTy).Contents (Elt F)),
    StableHlo.binary main_v92 main_v107 main_v108 (cmpi .sge : (⟨S2000000, .i32⟩ : BufTy).Contents (Elt F) → (⟨S2000000, .i32⟩ : BufTy).Contents (Elt F) → (⟨S2000000, .i1⟩ : BufTy).Contents (Elt F)),
    StableHlo.nullary main_c_39 (constantI S_ 32 512#32),
    StableHlo.unary main_c_39 main_v109 (broadcastInDim S2000000 ![] bcast_S_S2000000 : (⟨S_, .i32⟩ : BufTy).Contents (Elt F) → (⟨S2000000, .i32⟩ : BufTy).Contents (Elt F)),
    StableHlo.binary main_v92 main_v109 main_v110 (cmpi .slt : (⟨S2000000, .i32⟩ : BufTy).Contents (Elt F) → (⟨S2000000, .i32⟩ : BufTy).Contents (Elt F) → (⟨S2000000, .i1⟩ : BufTy).Contents (Elt F)),
    StableHlo.binary main_v108 main_v110 main_v111 (andi : (⟨S2000000, .i1⟩ : BufTy).Contents (Elt F) → (⟨S2000000, .i1⟩ : BufTy).Contents (Elt F) → (⟨S2000000, .i1⟩ : BufTy).Contents (Elt F)) ]
abbrev Z_l13_W : List (Ref sig .tc) := [main_c_38, main_v107, main_v108, main_c_39, main_v109, main_v110, main_v111]
theorem Z_l13_writes : (Z_l13 : List (HloOp τ sig (Elt F))).Forall fun op => op.writes ⊆ (Z_l13_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Z_s13_main_v111 (W : Valuation τ sig (Elt F)) : after Z_l13 W (Proc.devRef .tc main_v111) = RefTerm.inGrid (W (Proc.devRef .tc main_v92)) := by
  simp only [Z_l13]
  after_results_simp <;> rfl
def Z_val13 (W : Valuation τ sig (Elt F)) : Valuation τ sig (Elt F) := after Z_l13 (Z_val12 W)
theorem Z_val13_keep (W : Valuation τ sig (Elt F)) (r : Ref sig .tc) (h : r ∉ Z_l13_W) :
    Z_val13 W (Proc.devRef .tc r) = Z_val12 W (Proc.devRef .tc r) :=
  after_of_writes_sub Z_l13 _ Z_l13_writes h
theorem Z_val13_main_arg3 (W : Valuation τ sig (Elt F)) : Z_val13 W (no_index (Proc.devRef .tc main_arg3)) = W (Proc.devRef .tc main_arg3) :=
  (Z_val13_keep W main_arg3 (by decide)).trans (Z_val12_main_arg3 W)
theorem Z_val13_main_v89 (W : Valuation τ sig (Elt F)) : Z_val13 W (no_index (Proc.devRef .tc main_v89)) = RefTerm.frac (RefTerm.coord2 (F := F) (W (Proc.devRef .tc main_arg0))) :=
  (Z_val13_keep W main_v89 (by decide)).trans (Z_val12_main_v89 W)
theorem Z_val13_main_v92 (W : Valuation τ sig (Elt F)) : Z_val13 W (no_index (Proc.devRef .tc main_v92)) = RefTerm.hi (RefTerm.coord2 (F := F) (W (Proc.devRef .tc main_arg0))) :=
  (Z_val13_keep W main_v92 (by decide)).trans (Z_val12_main_v92 W)
theorem Z_val13_main_v106 (W : Valuation τ sig (Elt F)) : Z_val13 W (no_index (Proc.devRef .tc main_v106)) = mulf (RefTerm.masked (RefTerm.inGrid (RefTerm.lo (RefTerm.coord2 (F := F) (W (Proc.devRef .tc main_arg0))))) (RefTerm.take (W (Proc.devRef .tc main_arg3)) (RefTerm.clip (RefTerm.lo (RefTerm.coord2 (F := F) (W (Proc.devRef .tc main_arg0))))))) (RefTerm.spread (subf (RefTerm.bcF (F := F) 0x3F800000#32) (RefTerm.frac (RefTerm.coord2 (F := F) (W (Proc.devRef .tc main_arg0)))))) :=
  (Z_val13_keep W main_v106 (by decide)).trans (Z_val12_main_v106 W)
theorem Z_val13_main_v111 (W : Valuation τ sig (Elt F)) : Z_val13 W (no_index (Proc.devRef .tc main_v111)) = RefTerm.inGrid (RefTerm.hi (RefTerm.coord2 (F := F) (W (Proc.devRef .tc main_arg0)))) :=
  (Z_s13_main_v111 (Z_val12 W)).trans (by simp only [Z_val12_main_v92] <;> rfl)

abbrev Z_l14 : List (HloOp τ sig (Elt F)) :=
  [ StableHlo.nullary main_c_40 (constantI S_ 32 0#32),
    StableHlo.nullary main_c_41 (constantI S_ 32 511#32),
    StableHlo.TRef.unary (StableHlo.TRef.of main_c_40 : StableHlo.TRef sig ⟨S_, .i32⟩) main_call15.v0 id,
    StableHlo.TRef.unary main_call15.v0 main_call15.v1 (broadcastInDim S2000000 ![] bcast_S_S2000000),
    StableHlo.TRef.binary main_call15.v1 (StableHlo.TRef.of main_v92 : StableHlo.TRef sig ⟨S2000000, .i32⟩) main_call15.v2 maxsi,
    StableHlo.TRef.unary (StableHlo.TRef.of main_c_41 : StableHlo.TRef sig ⟨S_, .i32⟩) main_call15.v3 id,
    StableHlo.TRef.unary main_call15.v3 main_call15.v4 (broadcastInDim S2000000 ![] bcast_S_S2000000),
    StableHlo.TRef.binary main_call15.v4 main_call15.v2 main_call15.v5 minsi ]
abbrev Z_l14_W : List (Ref sig .tc) := [main_c_40, main_c_41, main_call15_v0, main_call15_v1, main_call15_v2, main_call15_v3, main_call15_v4, main_v112]
theorem Z_l14_writes : (Z_l14 : List (HloOp τ sig (Elt F))).Forall fun op => op.writes ⊆ (Z_l14_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Z_s14_main_v112 (W : Valuation τ sig (Elt F)) : after Z_l14 W (Proc.devRef .tc main_v112) = RefTerm.clip (W (Proc.devRef .tc main_v92)) := by
  simp only [Z_l14]
  after_results_simp
  simp only [TRef.toBuf, TRef.ofBuf, cast_cast, cast_eq, id_eq] <;> rfl
def Z_val14 (W : Valuation τ sig (Elt F)) : Valuation τ sig (Elt F) := after Z_l14 (Z_val13 W)
theorem Z_val14_keep (W : Valuation τ sig (Elt F)) (r : Ref sig .tc) (h : r ∉ Z_l14_W) :
    Z_val14 W (Proc.devRef .tc r) = Z_val13 W (Proc.devRef .tc r) :=
  after_of_writes_sub Z_l14 _ Z_l14_writes h
theorem Z_val14_main_arg3 (W : Valuation τ sig (Elt F)) : Z_val14 W (no_index (Proc.devRef .tc main_arg3)) = W (Proc.devRef .tc main_arg3) :=
  (Z_val14_keep W main_arg3 (by decide)).trans (Z_val13_main_arg3 W)
theorem Z_val14_main_v89 (W : Valuation τ sig (Elt F)) : Z_val14 W (no_index (Proc.devRef .tc main_v89)) = RefTerm.frac (RefTerm.coord2 (F := F) (W (Proc.devRef .tc main_arg0))) :=
  (Z_val14_keep W main_v89 (by decide)).trans (Z_val13_main_v89 W)
theorem Z_val14_main_v106 (W : Valuation τ sig (Elt F)) : Z_val14 W (no_index (Proc.devRef .tc main_v106)) = mulf (RefTerm.masked (RefTerm.inGrid (RefTerm.lo (RefTerm.coord2 (F := F) (W (Proc.devRef .tc main_arg0))))) (RefTerm.take (W (Proc.devRef .tc main_arg3)) (RefTerm.clip (RefTerm.lo (RefTerm.coord2 (F := F) (W (Proc.devRef .tc main_arg0))))))) (RefTerm.spread (subf (RefTerm.bcF (F := F) 0x3F800000#32) (RefTerm.frac (RefTerm.coord2 (F := F) (W (Proc.devRef .tc main_arg0)))))) :=
  (Z_val14_keep W main_v106 (by decide)).trans (Z_val13_main_v106 W)
theorem Z_val14_main_v111 (W : Valuation τ sig (Elt F)) : Z_val14 W (no_index (Proc.devRef .tc main_v111)) = RefTerm.inGrid (RefTerm.hi (RefTerm.coord2 (F := F) (W (Proc.devRef .tc main_arg0)))) :=
  (Z_val14_keep W main_v111 (by decide)).trans (Z_val13_main_v111 W)
theorem Z_val14_main_v112 (W : Valuation τ sig (Elt F)) : Z_val14 W (no_index (Proc.devRef .tc main_v112)) = RefTerm.clip (RefTerm.hi (RefTerm.coord2 (F := F) (W (Proc.devRef .tc main_arg0)))) :=
  (Z_s14_main_v112 (Z_val13 W)).trans (by simp only [Z_val13_main_v92] <;> rfl)

abbrev Z_l15 : List (HloOp τ sig (Elt F)) :=
  [ StableHlo.TRef.nullary main_call16.c (constantI S_ 32 0#32),
    StableHlo.TRef.unary main_call16.c main_call16.v0 (broadcastInDim S2000000 ![] bcast_S_S2000000),
    StableHlo.TRef.binary (StableHlo.TRef.of main_v112 : StableHlo.TRef sig ⟨S2000000, .i32⟩) main_call16.v0 main_call16.v1 (cmpi .slt),
    StableHlo.TRef.nullary main_call16.c_0 (constantI S_ 32 512#32),
    StableHlo.TRef.unary main_call16.c_0 main_call16.v2 (broadcastInDim S2000000 ![] bcast_S_S2000000),
    StableHlo.TRef.binary (StableHlo.TRef.of main_v112 : StableHlo.TRef sig ⟨S2000000, .i32⟩) main_call16.v2 main_call16.v3 addi,
    StableHlo.TRef.ternary main_call16.v1 main_call16.v3 (StableHlo.TRef.of main_v112 : StableHlo.TRef sig ⟨S2000000, .i32⟩) main_call16.call0.v0 select ]
abbrev Z_l15_W : List (Ref sig .tc) := [main_call16_c, main_call16_v0, main_call16_v1, main_call16_c_0, main_call16_v2, main_call16_v3, main_call16_v4]
theorem Z_l15_writes : (Z_l15 : List (HloOp τ sig (Elt F))).Forall fun op => op.writes ⊆ (Z_l15_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Z_s15_main_call16_v4 (W : Valuation τ sig (Elt F)) : after Z_l15 W (Proc.devRef .tc main_call16_v4) = RefTerm.wrapNeg (W (Proc.devRef .tc main_v112)) := by
  simp only [Z_l15]
  after_results_simp
  simp only [TRef.toBuf, TRef.ofBuf, cast_cast, cast_eq, id_eq] <;> rfl
def Z_val15 (W : Valuation τ sig (Elt F)) : Valuation τ sig (Elt F) := after Z_l15 (Z_val14 W)
theorem Z_val15_keep (W : Valuation τ sig (Elt F)) (r : Ref sig .tc) (h : r ∉ Z_l15_W) :
    Z_val15 W (Proc.devRef .tc r) = Z_val14 W (Proc.devRef .tc r) :=
  after_of_writes_sub Z_l15 _ Z_l15_writes h
theorem Z_val15_main_arg3 (W : Valuation τ sig (Elt F)) : Z_val15 W (no_index (Proc.devRef .tc main_arg3)) = W (Proc.devRef .tc main_arg3) :=
  (Z_val15_keep W main_arg3 (by decide)).trans (Z_val14_main_arg3 W)
theorem Z_val15_main_v89 (W : Valuation τ sig (Elt F)) : Z_val15 W (no_index (Proc.devRef .tc main_v89)) = RefTerm.frac (RefTerm.coord2 (F := F) (W (Proc.devRef .tc main_arg0))) :=
  (Z_val15_keep W main_v89 (by decide)).trans (Z_val14_main_v89 W)
theorem Z_val15_main_v106 (W : Valuation τ sig (Elt F)) : Z_val15 W (no_index (Proc.devRef .tc main_v106)) = mulf (RefTerm.masked (RefTerm.inGrid (RefTerm.lo (RefTerm.coord2 (F := F) (W (Proc.devRef .tc main_arg0))))) (RefTerm.take (W (Proc.devRef .tc main_arg3)) (RefTerm.clip (RefTerm.lo (RefTerm.coord2 (F := F) (W (Proc.devRef .tc main_arg0))))))) (RefTerm.spread (subf (RefTerm.bcF (F := F) 0x3F800000#32) (RefTerm.frac (RefTerm.coord2 (F := F) (W (Proc.devRef .tc main_arg0)))))) :=
  (Z_val15_keep W main_v106 (by decide)).trans (Z_val14_main_v106 W)
theorem Z_val15_main_v111 (W : Valuation τ sig (Elt F)) : Z_val15 W (no_index (Proc.devRef .tc main_v111)) = RefTerm.inGrid (RefTerm.hi (RefTerm.coord2 (F := F) (W (Proc.devRef .tc main_arg0)))) :=
  (Z_val15_keep W main_v111 (by decide)).trans (Z_val14_main_v111 W)
theorem Z_val15_main_call16_v4 (W : Valuation τ sig (Elt F)) : Z_val15 W (no_index (Proc.devRef .tc main_call16_v4)) = RefTerm.wrapNeg (RefTerm.clip (RefTerm.hi (RefTerm.coord2 (F := F) (W (Proc.devRef .tc main_arg0))))) :=
  (Z_s15_main_call16_v4 (Z_val14 W)).trans (by simp only [Z_val14_main_v112] <;> rfl)

abbrev Z_l16 : List (HloOp τ sig (Elt F)) :=
  [ StableHlo.TRef.unary main_call16.call0.v0 main_call16.v5 (broadcastInDim S2000000x1 ![0] bcast_S2000000_S2000000x1_0) ]
abbrev Z_l16_W : List (Ref sig .tc) := [main_call16_v5]
theorem Z_l16_writes : (Z_l16 : List (HloOp τ sig (Elt F))).Forall fun op => op.writes ⊆ (Z_l16_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- The run alone, from any contents. -/
theorem Z_s16_main_call16_v5 (W : Valuation τ sig (Elt F)) : after Z_l16 W (Proc.devRef .tc main_call16_v5) = RefTerm.col (W (Proc.devRef .tc main_call16_v4)) := by
  simp only [Z_l16]
  after_results_simp
  simp only [TRef.toBuf, TRef.ofBuf, cast_cast, cast_eq, id_eq] <;> rfl
def Z_val16 (W : Valuation τ sig (Elt F)) : Valuation τ sig (Elt F) := after Z_l16 (Z_val15 W)
theorem Z_val16_keep (W : Valuation τ sig (Elt F)) (r : Ref sig .tc) (h : r ∉ Z_l16_W) :
    Z_val16 W (Proc.devRef .tc r) = Z_val15 W (Proc.devRef .tc r) :=
  after_of_writes_sub Z_l16 _ Z_l16_writes h
theorem Z_val16_main_arg3 (W : Valuation τ sig (Elt F)) : Z_val16 W (no_index (Proc.devRef .tc main_arg3)) = W (Proc.devRef .tc main_arg3) :=
  (Z_val16_keep W main_arg3 (by decide)).trans (Z_val15_main_arg3 W)
theorem Z_val16_main_v89 (W : Valuation τ sig (Elt F)) : Z_val16 W (no_index (Proc.devRef .tc main_v89)) = RefTerm.frac (RefTerm.coord2 (F := F) (W (Proc.devRef .tc main_arg0))) :=
  (Z_val16_keep W main_v89 (by decide)).trans (Z_val15_main_v89 W)
theorem Z_val16_main_v106 (W : Valuation τ sig (Elt F)) : Z_val16 W (no_index (Proc.devRef .tc main_v106)) = mulf (RefTerm.masked (RefTerm.inGrid (RefTerm.lo (RefTerm.coord2 (F := F) (W (Proc.devRef .tc main_arg0))))) (RefTerm.take (W (Proc.devRef .tc main_arg3)) (RefTerm.clip (RefTerm.lo (RefTerm.coord2 (F := F) (W (Proc.devRef .tc main_arg0))))))) (RefTerm.spread (subf (RefTerm.bcF (F := F) 0x3F800000#32) (RefTerm.frac (RefTerm.coord2 (F := F) (W (Proc.devRef .tc main_arg0)))))) :=
  (Z_val16_keep W main_v106 (by decide)).trans (Z_val15_main_v106 W)
theorem Z_val16_main_v111 (W : Valuation τ sig (Elt F)) : Z_val16 W (no_index (Proc.devRef .tc main_v111)) = RefTerm.inGrid (RefTerm.hi (RefTerm.coord2 (F := F) (W (Proc.devRef .tc main_arg0)))) :=
  (Z_val16_keep W main_v111 (by decide)).trans (Z_val15_main_v111 W)
theorem Z_val16_main_call16_v5 (W : Valuation τ sig (Elt F)) : Z_val16 W (no_index (Proc.devRef .tc main_call16_v5)) = RefTerm.col (RefTerm.wrapNeg (RefTerm.clip (RefTerm.hi (RefTerm.coord2 (F := F) (W (Proc.devRef .tc main_arg0)))))) :=
  (Z_s16_main_call16_v5 (Z_val15 W)).trans (by simp only [Z_val15_main_call16_v4] <;> rfl)

abbrev Z_l17 : List (HloOp τ sig (Elt F)) :=
  [ StableHlo.TRef.nullary main_call16.c_1 (constantI S1 32 511#32),
    StableHlo.TRef.nullary main_call16.c_2 (constantI S_ 32 0#32),
    StableHlo.TRef.unary main_call16.c_2 main_call16.v6 (broadcastInDim S2000000x1 ![] bcast_S_S2000000x1),
    StableHlo.TRef.binary main_call16.v5 main_call16.v6 main_call16.v7 (cmpi .sge),
    StableHlo.TRef.unary main_call16.c_1 main_call16.v8 (broadcastInDim S1x1 ![1] bcast_S1_S1x1_1),
    StableHlo.TRef.unary main_call16.v8 main_call16.v9 (broadcastInDim S2000000x1 ![0, 1] bcast_S1x1_S2000000x1_0_1),
    StableHlo.TRef.binary main_call16.v5 main_call16.v9 main_call16.v10 (cmpi .sle),
    StableHlo.TRef.binary main_call16.v7 main_call16.v10 main_call16.v11 andi,
    StableHlo.TRef.nullary main_call16.c_3 (constantI S_ 1 1#1),
    StableHlo.TRef.binary main_call16.v11 main_call16.c_3 main_call16.v12 (fun x v => Host.reduce IntOp.andi x v reducesTo_S2000000x1_S2000000_d1 h_S_) ]
abbrev Z_l17_W : List (Ref sig .tc) := [main_call16_c_1, main_call16_c_2, main_call16_v6, main_call16_v7, main_call16_v8, main_call16_v9, main_call16_v10, main_call16_v11, main_call16_c_3, main_call16_v12]
theorem Z_l17_writes : (Z_l17 : List (HloOp τ sig (Elt F))).Forall fun op => op.writes ⊆ (Z_l17_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Z_s17_main_call16_v12 (W : Valuation τ sig (Elt F)) : after Z_l17 W (Proc.devRef .tc main_call16_v12) = RefTerm.inTable (W (Proc.devRef .tc main_call16_v5)) := by
  simp only [Z_l17]
  after_results_simp
  simp only [TRef.toBuf, TRef.ofBuf, cast_cast, cast_eq, id_eq] <;> rfl
def Z_val17 (W : Valuation τ sig (Elt F)) : Valuation τ sig (Elt F) := after Z_l17 (Z_val16 W)
theorem Z_val17_keep (W : Valuation τ sig (Elt F)) (r : Ref sig .tc) (h : r ∉ Z_l17_W) :
    Z_val17 W (Proc.devRef .tc r) = Z_val16 W (Proc.devRef .tc r) :=
  after_of_writes_sub Z_l17 _ Z_l17_writes h
theorem Z_val17_main_arg3 (W : Valuation τ sig (Elt F)) : Z_val17 W (no_index (Proc.devRef .tc main_arg3)) = W (Proc.devRef .tc main_arg3) :=
  (Z_val17_keep W main_arg3 (by decide)).trans (Z_val16_main_arg3 W)
theorem Z_val17_main_v89 (W : Valuation τ sig (Elt F)) : Z_val17 W (no_index (Proc.devRef .tc main_v89)) = RefTerm.frac (RefTerm.coord2 (F := F) (W (Proc.devRef .tc main_arg0))) :=
  (Z_val17_keep W main_v89 (by decide)).trans (Z_val16_main_v89 W)
theorem Z_val17_main_v106 (W : Valuation τ sig (Elt F)) : Z_val17 W (no_index (Proc.devRef .tc main_v106)) = mulf (RefTerm.masked (RefTerm.inGrid (RefTerm.lo (RefTerm.coord2 (F := F) (W (Proc.devRef .tc main_arg0))))) (RefTerm.take (W (Proc.devRef .tc main_arg3)) (RefTerm.clip (RefTerm.lo (RefTerm.coord2 (F := F) (W (Proc.devRef .tc main_arg0))))))) (RefTerm.spread (subf (RefTerm.bcF (F := F) 0x3F800000#32) (RefTerm.frac (RefTerm.coord2 (F := F) (W (Proc.devRef .tc main_arg0)))))) :=
  (Z_val17_keep W main_v106 (by decide)).trans (Z_val16_main_v106 W)
theorem Z_val17_main_v111 (W : Valuation τ sig (Elt F)) : Z_val17 W (no_index (Proc.devRef .tc main_v111)) = RefTerm.inGrid (RefTerm.hi (RefTerm.coord2 (F := F) (W (Proc.devRef .tc main_arg0)))) :=
  (Z_val17_keep W main_v111 (by decide)).trans (Z_val16_main_v111 W)
theorem Z_val17_main_call16_v5 (W : Valuation τ sig (Elt F)) : Z_val17 W (no_index (Proc.devRef .tc main_call16_v5)) = RefTerm.col (RefTerm.wrapNeg (RefTerm.clip (RefTerm.hi (RefTerm.coord2 (F := F) (W (Proc.devRef .tc main_arg0)))))) :=
  (Z_val17_keep W main_call16_v5 (by decide)).trans (Z_val16_main_call16_v5 W)
theorem Z_val17_main_call16_v12 (W : Valuation τ sig (Elt F)) : Z_val17 W (no_index (Proc.devRef .tc main_call16_v12)) = RefTerm.inTable (RefTerm.col (RefTerm.wrapNeg (RefTerm.clip (RefTerm.hi (RefTerm.coord2 (F := F) (W (Proc.devRef .tc main_arg0))))))) :=
  (Z_s17_main_call16_v12 (Z_val16 W)).trans (by simp only [Z_val16_main_call16_v5] <;> rfl)

abbrev Z_l18 : List (HloOp τ sig (Elt F)) :=
  [ StableHlo.TRef.binary (StableHlo.TRef.of main_arg3 : StableHlo.TRef sig ⟨S32x512, .f32⟩) main_call16.v5 main_call16.v13 (fun x i => Host.gather gather_S32x512_S2000000x1_S32x2000000_0_1_n_n_1_1_321 x i),
    StableHlo.TRef.unary main_call16.v12 main_call16.v14 (broadcastInDim S32x2000000 ![1] bcast_S2000000_S32x2000000_1),
    StableHlo.TRef.nullary main_call16.cst (constant S_ .f32 0x7FC00000#32),
    StableHlo.TRef.unary main_call16.cst main_call16.v15 (broadcastInDim S32x2000000 ![] bcast_S_S32x2000000),
    StableHlo.TRef.ternary main_call16.v14 main_call16.v13 main_call16.v15 main_call16.v16 select ]
abbrev Z_l18_W : List (Ref sig .tc) := [main_call16_v13, main_call16_v14, main_call16_cst, main_call16_v15, main_v113]
theorem Z_l18_writes : (Z_l18 : List (HloOp τ sig (Elt F))).Forall fun op => op.writes ⊆ (Z_l18_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Z_s18_main_v113 (W : Valuation τ sig (Elt F)) : after Z_l18 W (Proc.devRef .tc main_v113) = select (broadcastInDim S32x2000000 ![1] bcast_S2000000_S32x2000000_1 (W (Proc.devRef .tc main_call16_v12))) (Host.gather gather_S32x512_S2000000x1_S32x2000000_0_1_n_n_1_1_321 (W (Proc.devRef .tc main_arg3)) (W (Proc.devRef .tc main_call16_v5))) (broadcastInDim S32x2000000 ![] bcast_S_S32x2000000 (constant (F := F) S_ .f32 0x7FC00000#32)) := by
  simp only [Z_l18]
  after_results_simp
  simp only [TRef.toBuf, TRef.ofBuf, cast_cast, cast_eq, id_eq] <;> rfl
def Z_val18 (W : Valuation τ sig (Elt F)) : Valuation τ sig (Elt F) := after Z_l18 (Z_val17 W)
theorem Z_val18_keep (W : Valuation τ sig (Elt F)) (r : Ref sig .tc) (h : r ∉ Z_l18_W) :
    Z_val18 W (Proc.devRef .tc r) = Z_val17 W (Proc.devRef .tc r) :=
  after_of_writes_sub Z_l18 _ Z_l18_writes h
theorem Z_val18_main_v89 (W : Valuation τ sig (Elt F)) : Z_val18 W (no_index (Proc.devRef .tc main_v89)) = RefTerm.frac (RefTerm.coord2 (F := F) (W (Proc.devRef .tc main_arg0))) :=
  (Z_val18_keep W main_v89 (by decide)).trans (Z_val17_main_v89 W)
theorem Z_val18_main_v106 (W : Valuation τ sig (Elt F)) : Z_val18 W (no_index (Proc.devRef .tc main_v106)) = mulf (RefTerm.masked (RefTerm.inGrid (RefTerm.lo (RefTerm.coord2 (F := F) (W (Proc.devRef .tc main_arg0))))) (RefTerm.take (W (Proc.devRef .tc main_arg3)) (RefTerm.clip (RefTerm.lo (RefTerm.coord2 (F := F) (W (Proc.devRef .tc main_arg0))))))) (RefTerm.spread (subf (RefTerm.bcF (F := F) 0x3F800000#32) (RefTerm.frac (RefTerm.coord2 (F := F) (W (Proc.devRef .tc main_arg0)))))) :=
  (Z_val18_keep W main_v106 (by decide)).trans (Z_val17_main_v106 W)
theorem Z_val18_main_v111 (W : Valuation τ sig (Elt F)) : Z_val18 W (no_index (Proc.devRef .tc main_v111)) = RefTerm.inGrid (RefTerm.hi (RefTerm.coord2 (F := F) (W (Proc.devRef .tc main_arg0)))) :=
  (Z_val18_keep W main_v111 (by decide)).trans (Z_val17_main_v111 W)
theorem Z_val18_main_v113 (W : Valuation τ sig (Elt F)) : Z_val18 W (no_index (Proc.devRef .tc main_v113)) = RefTerm.take (W (Proc.devRef .tc main_arg3)) (RefTerm.clip (RefTerm.hi (RefTerm.coord2 (F := F) (W (Proc.devRef .tc main_arg0))))) :=
  (Z_s18_main_v113 (Z_val17 W)).trans (by simp only [Z_val17_main_call16_v12, Z_val17_main_call16_v5, Z_val17_main_arg3] <;> rfl)

abbrev Z_l19 : List (HloOp τ sig (Elt F)) :=
  [ StableHlo.unary main_v111 main_v114 (broadcastInDim S1x2000000 ![1] bcast_S2000000_S1x2000000_1 : (⟨S2000000, .i1⟩ : BufTy).Contents (Elt F) → (⟨S1x2000000, .i1⟩ : BufTy).Contents (Elt F)),
    StableHlo.nullary main_cst_42 (constant S_ .f32 0x00000000#32),
    StableHlo.TRef.unary (StableHlo.TRef.of main_cst_42 : StableHlo.TRef sig ⟨S_, .f32⟩) main_call17.v0 id,
    StableHlo.TRef.unary (StableHlo.TRef.of main_v114 : StableHlo.TRef sig ⟨S1x2000000, .i1⟩) main_call17.v1 (broadcastInDim S32x2000000 ![0, 1] bcast_S1x2000000_S32x2000000_0_1),
    StableHlo.TRef.unary main_call17.v0 main_call17.v2 (broadcastInDim S32x2000000 ![] bcast_S_S32x2000000),
    StableHlo.TRef.ternary main_call17.v1 (StableHlo.TRef.of main_v113 : StableHlo.TRef sig ⟨S32x2000000, .f32⟩) main_call17.v2 main_call17.v3 select ]
abbrev Z_l19_W : List (Ref sig .tc) := [main_v114, main_cst_42, main_call17_v0, main_call17_v1, main_call17_v2, main_v115]
theorem Z_l19_writes : (Z_l19 : List (HloOp τ sig (Elt F))).Forall fun op => op.writes ⊆ (Z_l19_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Z_s19_main_v115 (W : Valuation τ sig (Elt F)) : after Z_l19 W (Proc.devRef .tc main_v115) = RefTerm.masked (W (Proc.devRef .tc main_v111)) (W (Proc.devRef .tc main_v113)) := by
  simp only [Z_l19]
  after_results_simp
  simp only [TRef.toBuf, TRef.ofBuf, cast_cast, cast_eq, id_eq] <;> rfl
def Z_val19 (W : Valuation τ sig (Elt F)) : Valuation τ sig (Elt F) := after Z_l19 (Z_val18 W)
theorem Z_val19_keep (W : Valuation τ sig (Elt F)) (r : Ref sig .tc) (h : r ∉ Z_l19_W) :
    Z_val19 W (Proc.devRef .tc r) = Z_val18 W (Proc.devRef .tc r) :=
  after_of_writes_sub Z_l19 _ Z_l19_writes h
theorem Z_val19_main_v89 (W : Valuation τ sig (Elt F)) : Z_val19 W (no_index (Proc.devRef .tc main_v89)) = RefTerm.frac (RefTerm.coord2 (F := F) (W (Proc.devRef .tc main_arg0))) :=
  (Z_val19_keep W main_v89 (by decide)).trans (Z_val18_main_v89 W)
theorem Z_val19_main_v106 (W : Valuation τ sig (Elt F)) : Z_val19 W (no_index (Proc.devRef .tc main_v106)) = mulf (RefTerm.masked (RefTerm.inGrid (RefTerm.lo (RefTerm.coord2 (F := F) (W (Proc.devRef .tc main_arg0))))) (RefTerm.take (W (Proc.devRef .tc main_arg3)) (RefTerm.clip (RefTerm.lo (RefTerm.coord2 (F := F) (W (Proc.devRef .tc main_arg0))))))) (RefTerm.spread (subf (RefTerm.bcF (F := F) 0x3F800000#32) (RefTerm.frac (RefTerm.coord2 (F := F) (W (Proc.devRef .tc main_arg0)))))) :=
  (Z_val19_keep W main_v106 (by decide)).trans (Z_val18_main_v106 W)
theorem Z_val19_main_v115 (W : Valuation τ sig (Elt F)) : Z_val19 W (no_index (Proc.devRef .tc main_v115)) = RefTerm.masked (RefTerm.inGrid (RefTerm.hi (RefTerm.coord2 (F := F) (W (Proc.devRef .tc main_arg0))))) (RefTerm.take (W (Proc.devRef .tc main_arg3)) (RefTerm.clip (RefTerm.hi (RefTerm.coord2 (F := F) (W (Proc.devRef .tc main_arg0)))))) :=
  (Z_s19_main_v115 (Z_val18 W)).trans (by simp only [Z_val18_main_v111, Z_val18_main_v113] <;> rfl)

abbrev Z_l20 : List (HloOp τ sig (Elt F)) :=
  [ StableHlo.unary main_v89 main_v116 (broadcastInDim S1x2000000 ![1] bcast_S2000000_S1x2000000_1 : (⟨S2000000, .f32⟩ : BufTy).Contents (Elt F) → (⟨S1x2000000, .f32⟩ : BufTy).Contents (Elt F)),
    StableHlo.unary main_v116 main_v117 (broadcastInDim S32x2000000 ![0, 1] bcast_S1x2000000_S32x2000000_0_1 : (⟨S1x2000000, .f32⟩ : BufTy).Contents (Elt F) → (⟨S32x2000000, .f32⟩ : BufTy).Contents (Elt F)),
    StableHlo.binary main_v115 main_v117 main_v118 (mulf : (⟨S32x2000000, .f32⟩ : BufTy).Contents (Elt F) → (⟨S32x2000000, .f32⟩ : BufTy).Contents (Elt F) → (⟨S32x2000000, .f32⟩ : BufTy).Contents (Elt F)),
    StableHlo.binary main_v106 main_v118 main_v119 (addf : (⟨S32x2000000, .f32⟩ : BufTy).Contents (Elt F) → (⟨S32x2000000, .f32⟩ : BufTy).Contents (Elt F) → (⟨S32x2000000, .f32⟩ : BufTy).Contents (Elt F)) ]
abbrev Z_l20_W : List (Ref sig .tc) := [main_v116, main_v117, main_v118, main_v119]
theorem Z_l20_writes : (Z_l20 : List (HloOp τ sig (Elt F))).Forall fun op => op.writes ⊆ (Z_l20_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- The run alone, from any contents. -/
theorem Z_s20_main_v119 (W : Valuation τ sig (Elt F)) : after Z_l20 W (Proc.devRef .tc main_v119) = addf (W (Proc.devRef .tc main_v106)) (mulf (W (Proc.devRef .tc main_v115)) (RefTerm.spread (W (Proc.devRef .tc main_v89)))) := by
  simp only [Z_l20]
  after_results_simp <;> rfl
def Z_val20 (W : Valuation τ sig (Elt F)) : Valuation τ sig (Elt F) := after Z_l20 (Z_val19 W)
theorem Z_val20_keep (W : Valuation τ sig (Elt F)) (r : Ref sig .tc) (h : r ∉ Z_l20_W) :
    Z_val20 W (Proc.devRef .tc r) = Z_val19 W (Proc.devRef .tc r) :=
  after_of_writes_sub Z_l20 _ Z_l20_writes h
theorem Z_val20_main_v119 (W : Valuation τ sig (Elt F)) : Z_val20 W (no_index (Proc.devRef .tc main_v119)) = RefTerm.axis (W (Proc.devRef .tc main_arg3)) (RefTerm.coord2 (F := F) (W (Proc.devRef .tc main_arg0))) :=
  (Z_s20_main_v119 (Z_val19 W)).trans (by simp only [Z_val19_main_v106, Z_val19_main_v115, Z_val19_main_v89] <;> rfl)

/-- The short runs, in order, are the axis' operations. -/
theorem Z_split : (opsZa1 ++ (opsZa2 ++ (opsZb)) : List (HloOp τ sig (Elt F))) = Z_l1 ++ (Z_l2 ++ (Z_l3 ++ (Z_l4 ++ (Z_l5 ++ (Z_l6 ++ (Z_l7 ++ (Z_l8 ++ (Z_l9 ++ (Z_l10 ++ (Z_l11 ++ (Z_l12 ++ (Z_l13 ++ (Z_l14 ++ (Z_l15 ++ (Z_l16 ++ (Z_l17 ++ (Z_l18 ++ (Z_l19 ++ (Z_l20))))))))))))))))))) := rfl

theorem Z_after (W : Valuation τ sig (Elt F)) : after opsZb (after opsZa2 (after opsZa1 W)) = Z_val20 W := by
  have h : after (opsZa1 ++ (opsZa2 ++ (opsZb))) W = Z_val20 W := by
    rw [Z_split]; simp only [StableHlo.after_append]; rfl
  simpa only [StableHlo.after_append] using h

/-- After the axis' operations its last buffer holds the axis' blend of the table and the coordinate column. -/
theorem axisZ (W : Valuation τ sig (Elt F)) :
    after opsZb (after opsZa2 (after opsZa1 W)) (Proc.devRef .tc main_v119) = RefTerm.axis (W (Proc.devRef .tc main_arg3)) (RefTerm.coord2 (F := F) (W (Proc.devRef .tc main_arg0))) := by
  rw [Z_after]; exact Z_val20_main_v119 W

end Cert.ReferenceIdeal.RefRun

end
-- ==== Proof.RefRun.lean ====
/-
  The reference program's run. The three axes' operations run one after the other, each leaving the earlier axes'
  blends and the four argument arrays untouched (none of them is among the buffers it writes); each axis' blend is
  the specification's axis term of the argument arrays, by that axis' own module read at the contents the
  earlier axes left. The last three operations multiply the blends and transpose, which is the specification's
  result. Every weakly fair execution of the program terminates with the buffers at the operations' composed
  results, so the result buffer holds that term of the launch contents and the arguments are unchanged.
-/
import proofs.«133057_j46351287058969_2_alg».proof.Proof.RefValX
import proofs.«133057_j46351287058969_2_alg».proof.Proof.RefValY
import proofs.«133057_j46351287058969_2_alg».proof.Proof.RefValZ

set_option pp.maxSteps 2000
set_option pp.deepTerms false

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts
/-- A buffer none of these runs writes keeps its contents through them. -/
theorem keepX (W : Valuation τ sig (Elt F)) (r : Ref sig .tc) (h0 : r ∉ opsXa_W) (h1 : r ∉ opsXb_W) :
    after opsXb (after opsXa W) (Proc.devRef .tc r) = W (Proc.devRef .tc r) := by
  rw [after_of_writes_sub opsXb _ opsXb_writes h1, after_of_writes_sub opsXa _ opsXa_writes h0]

/-- A buffer none of these runs writes keeps its contents through them. -/
theorem keepY (W : Valuation τ sig (Elt F)) (r : Ref sig .tc) (h0 : r ∉ opsYa1_W) (h1 : r ∉ opsYa2_W) (h2 : r ∉ opsYb_W) :
    after opsYb (after opsYa2 (after opsYa1 W)) (Proc.devRef .tc r) = W (Proc.devRef .tc r) := by
  rw [after_of_writes_sub opsYb _ opsYb_writes h2, after_of_writes_sub opsYa2 _ opsYa2_writes h1, after_of_writes_sub opsYa1 _ opsYa1_writes h0]

/-- A buffer none of these runs writes keeps its contents through them. -/
theorem keepZ (W : Valuation τ sig (Elt F)) (r : Ref sig .tc) (h0 : r ∉ opsZa1_W) (h1 : r ∉ opsZa2_W) (h2 : r ∉ opsZb_W) :
    after opsZb (after opsZa2 (after opsZa1 W)) (Proc.devRef .tc r) = W (Proc.devRef .tc r) := by
  rw [after_of_writes_sub opsZb _ opsZb_writes h2, after_of_writes_sub opsZa2 _ opsZa2_writes h1, after_of_writes_sub opsZa1 _ opsZa1_writes h0]

/-- A buffer none of these runs writes keeps its contents through them. -/
theorem keepT (W : Valuation τ sig (Elt F)) (r : Ref sig .tc) (h0 : r ∉ opsT_W) :
    after opsT W (Proc.devRef .tc r) = W (Proc.devRef .tc r) := by
  rw [after_of_writes_sub opsT _ opsT_writes h0]

/-- The buffer contents after axis x, after axes x and y, after all three axes, and at the end. -/
def U1 (V : Valuation τ sig (Elt F)) : Valuation τ sig (Elt F) := after opsXb (after opsXa V)
def U2 (V : Valuation τ sig (Elt F)) : Valuation τ sig (Elt F) := after opsYb (after opsYa2 (after opsYa1 (U1 V)))
def U3 (V : Valuation τ sig (Elt F)) : Valuation τ sig (Elt F) := after opsZb (after opsZa2 (after opsZa1 (U2 V)))
def U4 (V : Valuation τ sig (Elt F)) : Valuation τ sig (Elt F) := after opsT (U3 V)

theorem after_ops (V : Valuation τ sig (Elt F)) : after ops V = U4 V := by
  simp only [ops, StableHlo.after_append]
  rfl

theorem U1_main_arg0 (V : Valuation τ sig (Elt F)) : U1 V (no_index (Proc.devRef .tc main_arg0)) = V (Proc.devRef .tc main_arg0) := keepX V main_arg0 (by decide) (by decide)
theorem U1_main_arg1 (V : Valuation τ sig (Elt F)) : U1 V (no_index (Proc.devRef .tc main_arg1)) = V (Proc.devRef .tc main_arg1) := keepX V main_arg1 (by decide) (by decide)
theorem U1_main_arg2 (V : Valuation τ sig (Elt F)) : U1 V (no_index (Proc.devRef .tc main_arg2)) = V (Proc.devRef .tc main_arg2) := keepX V main_arg2 (by decide) (by decide)
theorem U1_main_arg3 (V : Valuation τ sig (Elt F)) : U1 V (no_index (Proc.devRef .tc main_arg3)) = V (Proc.devRef .tc main_arg3) := keepX V main_arg3 (by decide) (by decide)
theorem U1_main_v39 (V : Valuation τ sig (Elt F)) : U1 V (no_index (Proc.devRef .tc main_v39)) = RefTerm.axis (V (Proc.devRef .tc main_arg1)) (RefTerm.coord0 (F := F) (V (Proc.devRef .tc main_arg0))) := axisX V

theorem U2_main_arg0 (V : Valuation τ sig (Elt F)) : U2 V (no_index (Proc.devRef .tc main_arg0)) = V (Proc.devRef .tc main_arg0) := (keepY (U1 V) main_arg0 (by decide) (by decide) (by decide)).trans (U1_main_arg0 V)
theorem U2_main_arg1 (V : Valuation τ sig (Elt F)) : U2 V (no_index (Proc.devRef .tc main_arg1)) = V (Proc.devRef .tc main_arg1) := (keepY (U1 V) main_arg1 (by decide) (by decide) (by decide)).trans (U1_main_arg1 V)
theorem U2_main_arg2 (V : Valuation τ sig (Elt F)) : U2 V (no_index (Proc.devRef .tc main_arg2)) = V (Proc.devRef .tc main_arg2) := (keepY (U1 V) main_arg2 (by decide) (by decide) (by decide)).trans (U1_main_arg2 V)
theorem U2_main_arg3 (V : Valuation τ sig (Elt F)) : U2 V (no_index (Proc.devRef .tc main_arg3)) = V (Proc.devRef .tc main_arg3) := (keepY (U1 V) main_arg3 (by decide) (by decide) (by decide)).trans (U1_main_arg3 V)
theorem U2_main_v39 (V : Valuation τ sig (Elt F)) : U2 V (no_index (Proc.devRef .tc main_v39)) = RefTerm.axis (V (Proc.devRef .tc main_arg1)) (RefTerm.coord0 (F := F) (V (Proc.devRef .tc main_arg0))) := (keepY (U1 V) main_v39 (by decide) (by decide) (by decide)).trans (U1_main_v39 V)
theorem U2_main_v79 (V : Valuation τ sig (Elt F)) : U2 V (no_index (Proc.devRef .tc main_v79)) = RefTerm.axis (V (Proc.devRef .tc main_arg2)) (RefTerm.coord1 (F := F) (V (Proc.devRef .tc main_arg0))) :=
  (axisY (U1 V)).trans (by simp only [U1_main_arg2, U1_main_arg0])

theorem U3_main_arg0 (V : Valuation τ sig (Elt F)) : U3 V (no_index (Proc.devRef .tc main_arg0)) = V (Proc.devRef .tc main_arg0) := (keepZ (U2 V) main_arg0 (by decide) (by decide) (by decide)).trans (U2_main_arg0 V)
theorem U3_main_arg1 (V : Valuation τ sig (Elt F)) : U3 V (no_index (Proc.devRef .tc main_arg1)) = V (Proc.devRef .tc main_arg1) := (keepZ (U2 V) main_arg1 (by decide) (by decide) (by decide)).trans (U2_main_arg1 V)
theorem U3_main_arg2 (V : Valuation τ sig (Elt F)) : U3 V (no_index (Proc.devRef .tc main_arg2)) = V (Proc.devRef .tc main_arg2) := (keepZ (U2 V) main_arg2 (by decide) (by decide) (by decide)).trans (U2_main_arg2 V)
theorem U3_main_arg3 (V : Valuation τ sig (Elt F)) : U3 V (no_index (Proc.devRef .tc main_arg3)) = V (Proc.devRef .tc main_arg3) := (keepZ (U2 V) main_arg3 (by decide) (by decide) (by decide)).trans (U2_main_arg3 V)
theorem U3_main_v39 (V : Valuation τ sig (Elt F)) : U3 V (no_index (Proc.devRef .tc main_v39)) = RefTerm.axis (V (Proc.devRef .tc main_arg1)) (RefTerm.coord0 (F := F) (V (Proc.devRef .tc main_arg0))) := (keepZ (U2 V) main_v39 (by decide) (by decide) (by decide)).trans (U2_main_v39 V)
theorem U3_main_v79 (V : Valuation τ sig (Elt F)) : U3 V (no_index (Proc.devRef .tc main_v79)) = RefTerm.axis (V (Proc.devRef .tc main_arg2)) (RefTerm.coord1 (F := F) (V (Proc.devRef .tc main_arg0))) := (keepZ (U2 V) main_v79 (by decide) (by decide) (by decide)).trans (U2_main_v79 V)
theorem U3_main_v119 (V : Valuation τ sig (Elt F)) : U3 V (no_index (Proc.devRef .tc main_v119)) = RefTerm.axis (V (Proc.devRef .tc main_arg3)) (RefTerm.coord2 (F := F) (V (Proc.devRef .tc main_arg0))) :=
  (axisZ (U2 V)).trans (by simp only [U2_main_arg3, U2_main_arg0])

theorem U4_main_arg0 (V : Valuation τ sig (Elt F)) : U4 V (no_index (Proc.devRef .tc main_arg0)) = V (Proc.devRef .tc main_arg0) := (keepT (U3 V) main_arg0 (by decide)).trans (U3_main_arg0 V)
theorem U4_main_arg1 (V : Valuation τ sig (Elt F)) : U4 V (no_index (Proc.devRef .tc main_arg1)) = V (Proc.devRef .tc main_arg1) := (keepT (U3 V) main_arg1 (by decide)).trans (U3_main_arg1 V)
theorem U4_main_arg2 (V : Valuation τ sig (Elt F)) : U4 V (no_index (Proc.devRef .tc main_arg2)) = V (Proc.devRef .tc main_arg2) := (keepT (U3 V) main_arg2 (by decide)).trans (U3_main_arg2 V)
theorem U4_main_arg3 (V : Valuation τ sig (Elt F)) : U4 V (no_index (Proc.devRef .tc main_arg3)) = V (Proc.devRef .tc main_arg3) := (keepT (U3 V) main_arg3 (by decide)).trans (U3_main_arg3 V)
theorem U4_main_v122 (V : Valuation τ sig (Elt F)) : U4 V (no_index (Proc.devRef .tc main_v122)) = RefTerm.out (V (Proc.devRef .tc main_arg0)) (V (Proc.devRef .tc main_arg1)) (V (Proc.devRef .tc main_arg2)) (V (Proc.devRef .tc main_arg3)) := by
  unfold U4
  simp only [opsT]
  after_results_simp
  simp only [U3_main_v39, U3_main_v79, U3_main_v119]
  rfl

theorem opsXa_fresh : ∀ op ∈ (opsXa : List (HloOp τ sig (Elt F))), op.fresh = ∅ := by
  intro _ h; (repeat (cases h with | head => rfl | tail _ h => ?_)); exact nomatch h
theorem opsXb_fresh : ∀ op ∈ (opsXb : List (HloOp τ sig (Elt F))), op.fresh = ∅ := by
  intro _ h; (repeat (cases h with | head => rfl | tail _ h => ?_)); exact nomatch h
theorem opsYa1_fresh : ∀ op ∈ (opsYa1 : List (HloOp τ sig (Elt F))), op.fresh = ∅ := by
  intro _ h; (repeat (cases h with | head => rfl | tail _ h => ?_)); exact nomatch h
theorem opsYa2_fresh : ∀ op ∈ (opsYa2 : List (HloOp τ sig (Elt F))), op.fresh = ∅ := by
  intro _ h; (repeat (cases h with | head => rfl | tail _ h => ?_)); exact nomatch h
theorem opsYb_fresh : ∀ op ∈ (opsYb : List (HloOp τ sig (Elt F))), op.fresh = ∅ := by
  intro _ h; (repeat (cases h with | head => rfl | tail _ h => ?_)); exact nomatch h
theorem opsZa1_fresh : ∀ op ∈ (opsZa1 : List (HloOp τ sig (Elt F))), op.fresh = ∅ := by
  intro _ h; (repeat (cases h with | head => rfl | tail _ h => ?_)); exact nomatch h
theorem opsZa2_fresh : ∀ op ∈ (opsZa2 : List (HloOp τ sig (Elt F))), op.fresh = ∅ := by
  intro _ h; (repeat (cases h with | head => rfl | tail _ h => ?_)); exact nomatch h
theorem opsZb_fresh : ∀ op ∈ (opsZb : List (HloOp τ sig (Elt F))), op.fresh = ∅ := by
  intro _ h; (repeat (cases h with | head => rfl | tail _ h => ?_)); exact nomatch h
theorem opsT_fresh : ∀ op ∈ (opsT : List (HloOp τ sig (Elt F))), op.fresh = ∅ := by
  intro _ h; (repeat (cases h with | head => rfl | tail _ h => ?_)); exact nomatch h
theorem ops_fresh : ∀ op ∈ (ops : List (HloOp τ sig (Elt F))), op.fresh = ∅ := by
  intro op h
  simp only [ops, List.mem_append] at h
  rcases h with h | h | h | h | h | h | h | h | h
  exacts [opsXa_fresh op h, opsXb_fresh op h, opsYa1_fresh op h, opsYa2_fresh op h, opsYb_fresh op h, opsZa1_fresh op h, opsZa2_fresh op h, opsZb_fresh op h, opsT_fresh op h]

/-- On every device, for any float values, from any memory with zero counters: every weakly fair execution of the
    program terminates with the result buffer at the specification's term of the arguments' launch contents and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v122)
          = RefTerm.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v122).trans (by simp only [after_ops]; exact U4_main_v122 (launchContents m c)),
      (h c main_arg0).trans (by simp only [after_ops]; exact U4_main_arg0 (launchContents m c)),
      (h c main_arg1).trans (by simp only [after_ops]; exact U4_main_arg1 (launchContents m c)),
      (h c main_arg2).trans (by simp only [after_ops]; exact U4_main_arg2 (launchContents m c)),
      (h c main_arg3).trans (by simp only [after_ops]; exact U4_main_arg3 (launchContents m c))⟩)
    (run_seq scopedRefs_eq scopedSems_eq defs main (fun _ => ops) main_eq (fun _ => ops_sub) m ρ (fun _ => ops_fresh))

end Cert.ReferenceIdeal.RefRun

end
-- ==== Proof.RefGather.lean ====
/-
  Facts about 32-bit column words and the table lookup, used to read the reference's result at an index.
  A column word i is "in the table" when its unsigned value is below 512; equivalently 0 ≤ i < 512 as a signed
  word. On such a word the grid test is 1, clipping to [0, 511] and the lookup's wrap of negative indices change
  nothing, the lookup's own range guard is 1, and the start index read signed and clamped is the word's value.
  On every other word the grid test is 0. The lookup itself, read at (component c, point n), is row c of the table
  at the clamped start index of point n.
-/
import proofs.«133057_j46351287058969_2_alg».proof.Proof.RefTerm
import proofs.«133057_j46351287058969_2_alg».proof.Proof.Interp
import Idealize.ShloMosaic.Lib.ValueLayout
import Idealize.ShloMosaic.Lib.IdealHost

namespace Cert.ReferenceIdeal.RefGather

open Idealize.ShloMosaic Idealize.ShloMosaic.ValueIdx

/-! ## Signed comparisons of a 32-bit word against 0, 511, 512 -/

/-- A word below 512 is its own signed value. -/
theorem toInt_of_lt (i : BitVec 32) (h : i.toNat < 512) : i.toInt = (i.toNat : Int) := by
  rw [BitVec.toInt_eq_toNat_cond, if_pos (by omega)]

theorem toInt_zero32 : (0#32 : BitVec 32).toInt = 0 := by decide
theorem toInt_511 : (511#32 : BitVec 32).toInt = 511 := by decide
theorem toInt_512 : (512#32 : BitVec 32).toInt = 512 := by decide

/-- The grid test, 0 ≤ i and i < 512 signed, is 1 on a word below 512 … -/
theorem inGrid_of_lt (i : BitVec 32) (h : i.toNat < 512) :
    IntOp.andi (IntOp.cmpi .sge i 0#32) (IntOp.cmpi .slt i 512#32) = 1#1 := by
  simp only [IntOp.andi, IntOp.cmpi, BitVec.sle_eq_decide, BitVec.slt_eq_decide, toInt_of_lt i h, toInt_zero32, toInt_512]
  have h1 : (0 : Int) ≤ (i.toNat : Int) := by omega
  have h2 : (i.toNat : Int) < 512 := by omega
  simp [h1, h2]

/-- … and 0 on every other word. -/
theorem inGrid_of_not_lt (i : BitVec 32) (h : ¬ i.toNat < 512) :
    IntOp.andi (IntOp.cmpi .sge i 0#32) (IntOp.cmpi .slt i 512#32) = 0#1 := by
  simp only [IntOp.andi, IntOp.cmpi, BitVec.sle_eq_decide, BitVec.slt_eq_decide, toInt_zero32, toInt_512]
  rw [BitVec.toInt_eq_toNat_cond]
  have := i.isLt
  by_cases hs : 2 * i.toNat < 2 ^ 32
  · rw [if_pos hs]
    have h2 : ¬ ((i.toNat : Int) < 512) := by omega
    rw [decide_eq_false h2]; simp
  · rw [if_neg hs]
    have h1 : ¬ ((0 : Int) ≤ (i.toNat : Int) - ((2 ^ 32 : Nat) : Int)) := by omega
    rw [decide_eq_false h1]; simp

/-- Clipping to [0, 511] leaves a word below 512 unchanged. -/
theorem clip_of_lt (i : BitVec 32) (h : i.toNat < 512) : IntOp.minsi 511#32 (IntOp.maxsi 0#32 i) = i := by
  have e1 : IntOp.maxsi 0#32 i = i := by
    simp only [IntOp.maxsi, BitVec.slt_eq_decide, toInt_of_lt i h, toInt_zero32]
    have h1 : ¬ ((i.toNat : Int) < 0) := by omega
    simp [h1]
  rw [e1]
  simp only [IntOp.minsi, BitVec.slt_eq_decide, toInt_of_lt i h, toInt_511]
  have h2 : ¬ ((511 : Int) < (i.toNat : Int)) := by omega
  rw [decide_eq_false h2]; rfl

/-- The lookup's wrap of a negative index leaves a word below 512 unchanged. -/
theorem wrapNeg_of_lt (i : BitVec 32) (h : i.toNat < 512) :
    Scalar.select (IntOp.cmpi .slt i 0#32) (IntOp.addi i 512#32) i = i := by
  have e1 : IntOp.cmpi .slt i 0#32 = 0#1 := by
    simp only [IntOp.cmpi, BitVec.slt_eq_decide, toInt_of_lt i h, toInt_zero32]
    have h1 : ¬ ((i.toNat : Int) < 0) := by omega
    simp [h1]
  rw [e1, select_zero]

/-- The lookup's range guard, 0 ≤ i ≤ 511 signed, is 1 on a word below 512. -/
theorem inTable_of_lt (i : BitVec 32) (h : i.toNat < 512) :
    IntOp.andi (IntOp.cmpi .sge i 0#32) (IntOp.cmpi .sle i 511#32) = 1#1 := by
  simp only [IntOp.andi, IntOp.cmpi, BitVec.sle_eq_decide, toInt_of_lt i h, toInt_zero32, toInt_511]
  have h1 : (0 : Int) ≤ (i.toNat : Int) := by omega
  have h2 : (i.toNat : Int) ≤ 511 := by omega
  simp [h1, h2]

/-- A start index below 512, read signed and clamped to [0, 511], is itself. -/
theorem clamp_of_lt (i : BitVec 32) (h : i.toNat < 512) : min i.toInt.toNat (512 - 1) = i.toNat := by
  rw [toInt_of_lt i h, Int.toNat_natCast]; omega

/-! ## The lookup read at an index -/

section Gather
variable [Facts₀] {α : Type}

/-- The gather of table columns read at (c, n): row c of the table at the start index of point n, read signed and
    clamped to [0, 511]. The operand index is, on axis 0 (an offset axis), the result's coordinate c; on axis 1
    (collapsed, and the one axis of the start index map) the clamped start index. -/
theorem gather_apply (vec : S32x512.Idx → α) (idx : IVec S2000000x1 32) (c : Fin 32) (n : Fin 2000000) :
    Host.gather gather_S32x512_S2000000x1_S32x2000000_0_1_n_n_1_1_321 vec idx (ix2 c n)
      = vec (ix2 c ⟨min (idx (ix2 n (0 : Fin 1))).toInt.toNat (512 - 1), by omega⟩) := by
  unfold Host.gather
  congr 1
  funext a
  refine Fin.ext ?_
  match a with
  | ⟨0, _⟩ =>
    show gather_S32x512_S2000000x1_S32x2000000_0_1_n_n_1_1_321.start (ix2 c n) idx 0
      + gather_S32x512_S2000000x1_S32x2000000_0_1_n_n_1_1_321.batchCoord (ix2 c n) 0
      + gather_S32x512_S2000000x1_S32x2000000_0_1_n_n_1_1_321.offCoord (ix2 c n) 0 = c.val
    rw [GatherDims.batchCoord_eq_zero _ _ _ List.not_mem_nil]
    have hs : gather_S32x512_S2000000x1_S32x2000000_0_1_n_n_1_1_321.start (ix2 c n) idx 0 = 0 := by
      unfold GatherDims.start
      have h0 : (0 : Fin 2) ∉ gather_S32x512_S2000000x1_S32x2000000_0_1_n_n_1_1_321.startIndexMap :=
        show (0 : Fin 2) ∉ ([1] : List (Fin 2)) from by decide
      rw [dif_neg h0]
    have ho : gather_S32x512_S2000000x1_S32x2000000_0_1_n_n_1_1_321.offCoord (ix2 c n) 0 = c.val := by
      unfold GatherDims.offCoord
      have h0 : (0 : Fin 2) ∈ gather_S32x512_S2000000x1_S32x2000000_0_1_n_n_1_1_321.sKept :=
        show (0 : Fin 2) ∈ S32x512.kept (([1] : List (Fin 2)) ++ []) from by decide
      rw [dif_pos h0]
      rfl
    rw [hs, ho]; omega
  | ⟨1, _⟩ =>
    show gather_S32x512_S2000000x1_S32x2000000_0_1_n_n_1_1_321.start (ix2 c n) idx 1
      + gather_S32x512_S2000000x1_S32x2000000_0_1_n_n_1_1_321.batchCoord (ix2 c n) 1
      + gather_S32x512_S2000000x1_S32x2000000_0_1_n_n_1_1_321.offCoord (ix2 c n) 1
      = min (idx (ix2 n (0 : Fin 1))).toInt.toNat (512 - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S32x512_S2000000x1_S32x2000000_0_1_n_n_1_1_321.startIndexMap from
      List.mem_singleton.mpr rfl)]
    have hsi : gather_S32x512_S2000000x1_S32x2000000_0_1_n_n_1_1_321.siIdx (ix2 c n)
        ⟨List.idxOf (1 : Fin 2) gather_S32x512_S2000000x1_S32x2000000_0_1_n_n_1_1_321.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl

end Gather

end Cert.ReferenceIdeal.RefGather
-- ==== Proof.RefRead.lean ====
/-
  The reference's pure term read at an index, with exact (extended real) arithmetic. At (point n, component c) the
  transposed product of the three axes reads each axis at (c, n). One axis at (c, n): the per-point scalars (grid
  position, cell, fractional part, the two column words) are the specification's at the point's coordinate; a masked
  lookup is the zero-padded table row c at the column word — on a word below 512 the grid test is 1, clipping and the
  lookup's wrap change nothing, the lookup's guard (a reduction over a unit axis) is 1 and the gather reads row c at
  that column; on any other word the mask selects the zero literal, whatever the lookup holds — and the blend of the
  two lookups with weights 1 − f and f is the specification's sample. The coordinate columns are the positions'
  columns (a slice, then a reshape of [N, 1] to [N]).
-/
import proofs.«133057_j46351287058969_2_alg».proof.Proof.RefGather

namespace Cert.ReferenceIdeal.RefRead

open Idealize.ShloMosaic Idealize.ShloMosaic.ValueIdx Cert.ReferenceIdeal Cert.ReferenceIdeal.RefTerm
  Cert.ReferenceIdeal.RefGather
open Facts₀ Facts

section
variable [Facts]

/-! ## Broadcasts read at an index -/

/-- A vector over the points as a column [N, 1]. -/
theorem bcast_col_apply {α : Type} (v : S2000000.Idx → α) (n : Fin 2000000) (u : Fin 1) :
    broadcastInDim S2000000x1 ![0] bcast_S2000000_S2000000x1_0 v (ix2 n u) = v (ix1 n) :=
  broadcastInDim_apply _ _ v _ _ fun a => by
    match a with
    | ⟨0, _⟩ => show n.val = if (2000000 : Nat) = 1 then 0 else n.val; rw [if_neg (by decide)]

/-- A vector over the points repeated over the 32 components. -/
theorem bcast_row_apply {α : Type} (v : S2000000.Idx → α) (c : Fin 32) (n : Fin 2000000) :
    broadcastInDim S32x2000000 ![1] bcast_S2000000_S32x2000000_1 v (ix2 c n) = v (ix1 n) :=
  broadcastInDim_apply _ _ v _ _ fun a => by
    match a with
    | ⟨0, _⟩ => show n.val = if (2000000 : Nat) = 1 then 0 else n.val; rw [if_neg (by decide)]

/-- A vector over the points as a row [1, N]. -/
theorem bcast_1row_apply {α : Type} (v : S2000000.Idx → α) (u : Fin 1) (n : Fin 2000000) :
    broadcastInDim S1x2000000 ![1] bcast_S2000000_S1x2000000_1 v (ix2 u n) = v (ix1 n) :=
  broadcastInDim_apply _ _ v _ _ fun a => by
    match a with
    | ⟨0, _⟩ => show n.val = if (2000000 : Nat) = 1 then 0 else n.val; rw [if_neg (by decide)]

/-- A row [1, N] repeated over the 32 components. -/
theorem bcast_rows_apply {α : Type} (v : S1x2000000.Idx → α) (c : Fin 32) (n : Fin 2000000) :
    broadcastInDim S32x2000000 ![0, 1] bcast_S1x2000000_S32x2000000_0_1 v (ix2 c n) = v (ix2 (0 : Fin 1) n) :=
  broadcastInDim_apply _ _ v _ _ fun a => by
    match a with
    | ⟨0, _⟩ => show (0 : Nat) = if (1 : Nat) = 1 then 0 else c.val; rw [if_pos rfl]
    | ⟨1, _⟩ => show n.val = if (2000000 : Nat) = 1 then 0 else n.val; rw [if_neg (by decide)]

/-- A per-point weight repeated over the components reads the weight of the point. -/
theorem spread_apply {F : FTy → Type} [FloatOps F] (w : FVec F S2000000 .f32) (c : Fin 32) (n : Fin 2000000) :
    spread w (ix2 c n) = w (ix1 n) :=
  (bcast_rows_apply _ c n).trans (bcast_1row_apply w 0 n)

/-- The index column reads the index of the point. -/
theorem col_apply (i : IVec S2000000 32) (n : Fin 2000000) (u : Fin 1) : col i (ix2 n u) = i (ix1 n) :=
  bcast_col_apply i n u

/-! ## The lookup's guard, the lookup and the mask at an index -/

/-- A fold over a one-element range is one application. -/
theorem fold_fin_one {β : Type} (op : β → β → β) [Std.Commutative op] [Std.Associative op] (b : β) (f : Fin 1 → β) :
    (Finset.univ : Finset (Fin 1)).fold op b f = op (f 0) b := by
  rw [Finset.univ_unique, Finset.fold_singleton]; rfl

/-- The lookup's range guard at point n: the reduction runs over the unit axis of the [N, 1] column, so it is the
    one test of that point's index, and-ed with the initial value 1. -/
theorem inTable_apply (j : IVec S2000000x1 32) (n : Fin 2000000) :
    inTable j (ix1 n)
      = IntOp.andi (IntOp.andi (IntOp.cmpi .sge (j (ix2 n (0 : Fin 1))) 0#32) (IntOp.cmpi .sle (j (ix2 n (0 : Fin 1))) 511#32)) 1#1 := by
  unfold inTable
  have hR : S2000000x1.Reduces [1] S2000000 := by decide
  rw [Host.reduce_eq_fold_single IntOp.andi _ _ reducesTo_S2000000x1_S2000000_d1 hR h_S_ (ix1 n)]
  refine (fold_fin_one IntOp.andi _ _).trans ?_
  have hl : hR.lift (ix1 n) (0 : Fin 1) = ix2 n (0 : Fin 1) := by
    funext c; refine Fin.ext ?_
    match c with
    | ⟨0, _⟩ => rfl
    | ⟨1, _⟩ => rfl
  exact congrArg (fun k : S2000000x1.Idx =>
    IntOp.andi (IntOp.andi (IntOp.cmpi .sge (j k) 0#32) (IntOp.cmpi .sle (j k) 511#32)) 1#1) hl

/-- The lookup at (c, n) of an index below 512: the guard holds, so the select takes the gathered column, which is
    row c of the table at that index. -/
theorem take_apply_of_lt (vec : FVec Ideal S32x512 .f32) (i : IVec S2000000 32) (c : Fin 32) (n : Fin 2000000)
    (h : (i (ix1 n)).toNat < 512) :
    take (F := Ideal) vec i (ix2 c n) = vec (ix2 c ⟨(i (ix1 n)).toNat, h⟩) := by
  have hw : wrapNeg i (ix1 n) = i (ix1 n) := wrapNeg_of_lt (i (ix1 n)) h
  have hc : col (wrapNeg i) (ix2 n (0 : Fin 1)) = i (ix1 n) := (col_apply _ n 0).trans hw
  unfold take
  rw [select_apply, bcast_row_apply, inTable_apply, hc, inTable_of_lt _ h]
  rw [show IntOp.andi 1#1 1#1 = 1#1 from by decide, select_one]
  refine (gather_apply vec _ c n).trans ?_
  refine congrArg vec (congrArg (ix2 c) (Fin.ext ?_))
  show min (col (wrapNeg i) (ix2 n (0 : Fin 1))).toInt.toNat (512 - 1) = (i (ix1 n)).toNat
  rw [hc]
  exact clamp_of_lt _ h

/-- A masked array at (c, n): the array where the point's mask bit is on, the zero literal elsewhere. -/
theorem masked_apply (valid : IVec S2000000 1) (g : FVec Ideal S32x2000000 .f32) (c : Fin 32) (n : Fin 2000000) :
    masked (F := Ideal) valid g (ix2 c n) = Scalar.select (valid (ix1 n)) (g (ix2 c n)) (0 : EReal) := by
  unfold masked
  rw [select_apply, bcast_rows_apply, bcast_1row_apply]
  congr 1
  exact Ideal.ofBits_zero_f32

/-- One masked lookup at (c, n): the zero-padded table row c at the point's column word. -/
theorem lookup_apply (vec : FVec Ideal S32x512 .f32) (i : IVec S2000000 32) (c : Fin 32) (n : Fin 2000000) :
    masked (F := Ideal) (inGrid i) (take vec (clip i)) (ix2 c n) = Cert.Interp.tableAt (Cert.Interp.row vec c) (i (ix1 n)) := by
  rw [masked_apply]
  unfold Cert.Interp.tableAt
  by_cases h : (i (ix1 n)).toNat < 512
  · have hg : inGrid i (ix1 n) = 1#1 := inGrid_of_lt (i (ix1 n)) h
    have hcl : clip i (ix1 n) = i (ix1 n) := clip_of_lt (i (ix1 n)) h
    have h' : (clip i (ix1 n)).toNat < 512 := by rw [hcl]; exact h
    rw [hg, select_one, dif_pos h, take_apply_of_lt vec (clip i) c n h']
    unfold Cert.Interp.row
    exact congrArg vec (congrArg (ix2 c) (Fin.ext (congrArg BitVec.toNat hcl)))
  · have hg : inGrid i (ix1 n) = 0#1 := inGrid_of_not_lt (i (ix1 n)) h
    rw [hg, select_zero, dif_neg h]

/-! ## The per-point scalars of one axis -/

theorem gridPos_apply (x : FVec Ideal S2000000 .f32) (k : S2000000.Idx) :
    gridPos (F := Ideal) x k = Cert.Interp.gridPos (x k) := rfl
theorem cell_apply (x : FVec Ideal S2000000 .f32) (k : S2000000.Idx) :
    cell (F := Ideal) x k = Cert.Interp.cell (x k) := rfl
theorem frac_apply (x : FVec Ideal S2000000 .f32) (k : S2000000.Idx) :
    frac (F := Ideal) x k = Cert.Interp.frac (x k) := rfl
theorem lo_apply (x : FVec Ideal S2000000 .f32) (k : S2000000.Idx) :
    lo (F := Ideal) x k = Cert.Interp.lo (x k) := rfl
theorem hi_apply (x : FVec Ideal S2000000 .f32) (k : S2000000.Idx) :
    hi (F := Ideal) x k = Cert.Interp.hi (x k) := rfl
/-- The left neighbour's weight 1 − f. -/
theorem oneMinusFrac_apply (x : FVec Ideal S2000000 .f32) (k : S2000000.Idx) :
    subf (bcF (F := Ideal) 0x3F800000#32) (frac x) k = Cert.Interp.one - Cert.Interp.frac (x k) := rfl

/-- One axis at (c, n): the sample of table row c at the point's coordinate. -/
theorem axis_apply (vec : FVec Ideal S32x512 .f32) (x : FVec Ideal S2000000 .f32) (c : Fin 32) (n : Fin 2000000) :
    axis (F := Ideal) vec x (ix2 c n) = Cert.Interp.sample (x (ix1 n)) (Cert.Interp.row vec c) := by
  unfold axis
  rw [addf_apply, mulf_apply, mulf_apply, lookup_apply, lookup_apply, spread_apply, spread_apply,
    oneMinusFrac_apply, frac_apply, lo_apply, hi_apply]
  rfl

/-! ## The coordinate columns and the result -/

/-- A column [N, 1] reshaped to [N] reads, at n, the column at (n, 0). -/
theorem reshape_col_apply {α : Type} (v : S2000000x1.Idx → α) (n : Fin 2000000) :
    shapeCast S2000000 v shapeCasts_S2000000x1_S2000000 (ix1 n) = v (ix2 n (0 : Fin 1)) :=
  shapeCast_apply v _ _ _ (by
    rw [Shape.rowMajor_val_two, Shape.rowMajor_val_one]
    show n.val * 1 + 0 = n.val
    omega)

theorem coord0_apply (p : FVec Ideal S2000000x3 .f32) (n : Fin 2000000) :
    coord0 (F := Ideal) p (ix1 n) = p (ix2 n (0 : Fin 3)) := by
  unfold coord0
  rw [reshape_col_apply]
  exact slice2_axis1_apply 0 p _ n (0 : Fin 1) (0 : Fin 3) rfl
theorem coord1_apply (p : FVec Ideal S2000000x3 .f32) (n : Fin 2000000) :
    coord1 (F := Ideal) p (ix1 n) = p (ix2 n (1 : Fin 3)) := by
  unfold coord1
  rw [reshape_col_apply]
  exact slice2_axis1_apply 1 p _ n (0 : Fin 1) (1 : Fin 3) rfl
theorem coord2_apply (p : FVec Ideal S2000000x3 .f32) (n : Fin 2000000) :
    coord2 (F := Ideal) p (ix1 n) = p (ix2 n (2 : Fin 3)) := by
  unfold coord2
  rw [reshape_col_apply]
  exact slice2_axis1_apply 2 p _ n (0 : Fin 1) (2 : Fin 3) rfl

end

/-- The reference's result is the specification's array: at (point n, component c) the transposed product reads
    the three axes' samples at (c, n). -/
theorem out_eq [Cert.ReferenceIdeal.Facts] (p : FVec Ideal S2000000x3 .f32) (vx vy vz : FVec Ideal S32x512 .f32) :
    RefTerm.out (F := Ideal) p vx vy vz = Cert.Interp.G p vx vy vz := by
  funext j
  obtain ⟨n, c, rfl⟩ : ∃ (n : Fin 2000000) (c : Fin 32), j = ix2 n c := ⟨j 0, j 1, eq_ix2 j⟩
  rw [Cert.Interp.G_ix2]
  unfold RefTerm.out
  rw [transpose_ix2_apply, mulf_apply, mulf_apply, axis_apply, axis_apply, axis_apply, coord0_apply, coord1_apply,
    coord2_apply]
  rfl

end Cert.ReferenceIdeal.RefRead
-- ==== Proof.lean ====
/-
  A trilinear table lookup: each of 2,000,000 points has three coordinates; each coordinate x is mapped to the grid
  position g = (x + 1) · ½ · 511 of a 512-column table, and a table row is sampled there by linear interpolation
  between columns ⌊g⌋ and ⌊g⌋ + 1 with weights 1 − f and f (f the fractional part), a column outside the table
  contributing 0. The result at (point, component) is the product over the three axes of the samples of that
  component's row of the axis' table.

  The kernel computes each axis' samples as a product of a [4000, 512] matrix of weights — in each row, 1 − f at the
  left neighbour's column and f at the right neighbour's — with the transposed table, 4000 points per grid step;
  the reference looks the two columns up (clipped, then masked where out of range) and blends them. At the exact
  extended-real values the two agree entry by entry: the two neighbours are different columns, so every column of
  a weight row carries at most one weight and the 512-term sum collapses to the two looked-up entries using only
  0 · v = 0, commutativity and associativity — no distributive law, hence no finiteness of the inputs.

  Proof/Interp.lean states the specification; Proof/InterpSum.lean the collapse of the sum; Proof/KerPay.lean the
  kernel body's stored value at an entry; Proof/KerBlocks.lean the kernel's result array from its 500 blocks;
  Proof/RefTerm.lean the reference's result as one term; Proof/RefOps.lean the reference's operations in order,
  Proof/RefValX.lean, RefValY.lean and RefValZ.lean each axis' operations ending at that axis' blend, and
  Proof/RefRun.lean the reference's run ending at that term; Proof/RefGather.lean and Proof/RefRead.lean that term read at an index. The ideal pass
  rewrote nothing, so the idealization conjunct is trivial.
-/
import proofs.«133057_j46351287058969_2_alg».proof.Defs
import proofs.«133057_j46351287058969_2_alg».proof.Proof.Gen.Kernel
import proofs.«133057_j46351287058969_2_alg».proof.Proof.Gen.Kernel.Skeleton
import proofs.«133057_j46351287058969_2_alg».proof.Proof.Gen.Kernel.Launch
import proofs.«133057_j46351287058969_2_alg».proof.Proof.Gen.Kernel.Points
import proofs.«133057_j46351287058969_2_alg».proof.Proof.Gen.Kernel.Frame
import proofs.«133057_j46351287058969_2_alg».proof.Proof.Gen.KernelIdeal
import proofs.«133057_j46351287058969_2_alg».proof.Proof.Gen.KernelIdeal.Skeleton
import proofs.«133057_j46351287058969_2_alg».proof.Proof.Gen.KernelIdeal.Launch
import proofs.«133057_j46351287058969_2_alg».proof.Proof.Gen.KernelIdeal.Points
import proofs.«133057_j46351287058969_2_alg».proof.Proof.Gen.KernelIdeal.Frame
import proofs.«133057_j46351287058969_2_alg».proof.Proof.Gen.ReferenceIdeal
import proofs.«133057_j46351287058969_2_alg».proof.Proof.Gen.Pre_finite_inputs
import proofs.«133057_j46351287058969_2_alg».proof.Proof.KerBlocks
import proofs.«133057_j46351287058969_2_alg».proof.Proof.RefRun
import proofs.«133057_j46351287058969_2_alg».proof.Proof.RefRead
import Idealize.ShloMosaic.Adequacy
import Idealize.ShloMosaic.Init

noncomputable section

namespace Cert.Proof

open Idealize.ShloMosaic Idealize.SL.Sem

/-- The word-level kernel's frame: the generated class-A frame certificate. -/
theorem frame_k : Cert.frame_Kernel (hKernel := Cert.Kernel.Gen.facts) (hPre_finite_inputs := Cert.Pre_finite_inputs.Gen.facts) :=
  fun m ρ _ => Cert.Kernel.Gen.frame m ρ

/-- The idealized kernel's frame: the generated class-A frame certificate. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RefRun.run (F := Ideal) m ρ)

/-- At the exact values both programs end at the specification's array of their arguments: the kernel's result
    block by block (one-hot products summed to the two looked-up columns), the reference's index by index; the
    arguments agree, so the results are equal. No finiteness of the inputs is used. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KerBlocks.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefRead.out_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
